-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000 : Shape := ⟨1, ![40000]⟩
abbrev S2x640000 : Shape := ⟨2, ![2, 640000]⟩
abbrev S1340x128 : Shape := ⟨2, ![1340, 128]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x41 : Shape := ⟨2, ![128, 41]⟩
abbrev S41 : Shape := ⟨1, ![41]⟩
abbrev S_ : Shape := ⟨0, ![]⟩

class Facts : Prop where
  bcast_S_S1340x128 : S_.BroadcastsInDim S1340x128 (![] : Fin 0 → Fin S1340x128.rank)
  reducesTo_S1340x128_S_d0_1 : S1340x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x41 : S_.BroadcastsInDim S128x41 (![] : Fin 0 → Fin S128x41.rank)
  reducesTo_S128x41_S_d0_1 : S128x41.ReducesTo [0, 1] S_
  bcast_S_S41 : S_.BroadcastsInDim S41 (![] : Fin 0 → Fin S41.rank)
  reducesTo_S41_S_d0 : S41.ReducesTo [0] S_

variable [Facts]

def fn_part6 {F : FTy → Type} [FloatOps F] (main_v98 : IVec S_ 1) (main_v101 : IVec S41 1) (main_c_39 : IVec S_ 1) : IVec S_ 1 :=
  let main_v102 : IVec S_ 1 := (fun x v => Host.reduce IntOp.andi x v reducesTo_S41_S_d0 h_S_) main_v101 main_c_39
  let main_v103 : IVec S_ 1 := andi main_v98 main_v102
  main_v103

def fn_part5 {F : FTy → Type} [FloatOps F] (main_arg21 : FVec F S128 .f32) (main_arg22 : FVec F S128x41 .f32) (main_arg23 : FVec F S41 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg21
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x41 .f32 := Host.absf main_arg22
  let main_cst_36 : FVec F S_ .f32 := constant S_ .f32 0x7F800000#32
  let main_v95 : FVec F S128x41 .f32 := broadcastInDim S128x41 ![] bcast_S_S128x41 main_cst_36
  let main_v96 : IVec S128x41 1 := cmpf .olt main_v94 main_v95
  let main_c_37 : IVec S_ 1 := constantI S_ 1 1#1
  let main_v97 : IVec S_ 1 := (fun x v => Host.reduce IntOp.andi x v reducesTo_S128x41_S_d0_1 h_S_) main_v96 main_c_37
  let main_v98 : IVec S_ 1 := andi main_v93 main_v97
  let main_v99 : FVec F S41 .f32 := Host.absf main_arg23
  let main_cst_38 : FVec F S_ .f32 := constant S_ .f32 0x7F800000#32
  let main_v100 : FVec F S41 .f32 := broadcastInDim S41 ![] bcast_S_S41 main_cst_38
  let main_v101 : IVec S41 1 := cmpf .olt main_v99 main_v100
  let main_c_39 : IVec S_ 1 := constantI S_ 1 1#1
  fn_part6 (F := F) main_v98 main_v101 main_c_39

def fn_part4 {F : FTy → Type} [FloatOps F] (main_arg17 : FVec F S128 .f32) (main_arg18 : FVec F S128x128 .f32) (main_arg19 : FVec F S128 .f32) (main_arg20 : FVec F S128x128 .f32) (main_arg21 : FVec F S128 .f32) (main_arg22 : FVec F S128x41 .f32) (main_arg23 : FVec F S41 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg18
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg20
  let main_cst_32 : FVec F S_ .f32 := constant S_ .f32 0x7F800000#32
  fn_part5 (F := F) main_arg21 main_arg22 main_arg23 main_v83 main_v84 main_cst_32

def fn_part3 {F : FTy → Type} [FloatOps F] (main_arg14 : FVec F S2x128 .f32) (main_arg15 : FVec F S2x128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x41 .f32) (main_arg23 : FVec F S41 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2x128 .f32 := Host.absf main_arg14
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S2x128 .f32 := Host.absf main_arg15
  let main_cst_22 : FVec F S_ .f32 := constant S_ .f32 0x7F800000#32
  let main_v60 : FVec F S2x128 .f32 := broadcastInDim S2x128 ![] bcast_S_S2x128 main_cst_22
  let main_v61 : IVec S2x128 1 := cmpf .olt main_v59 main_v60
  let main_c_23 : IVec S_ 1 := constantI S_ 1 1#1
  let main_v62 : IVec S_ 1 := (fun x v => Host.reduce IntOp.andi x v reducesTo_S2x128_S_d0_1 h_S_) main_v61 main_c_23
  let main_v63 : IVec S_ 1 := andi main_v58 main_v62
  let main_v64 : FVec F S128x128 .f32 := Host.absf main_arg16
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg17 main_arg18 main_arg19 main_arg20 main_arg21 main_arg22 main_arg23 main_v63 main_v67

def fn_part2 {F : FTy → Type} [FloatOps F] (main_arg10 : FVec F S2x128x128 .f32) (main_arg11 : FVec F S2x128 .f32) (main_arg12 : FVec F S2x128x128 .f32) (main_arg13 : FVec F S2x128 .f32) (main_arg14 : FVec F S2x128 .f32) (main_arg15 : FVec F S2x128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x41 .f32) (main_arg23 : FVec F S41 .f32) (main_v33 : IVec S_ 1) : IVec S_ 1 :=
  let main_v34 : FVec F S2x128x128 .f32 := Host.absf main_arg10
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128 .f32 := Host.absf main_arg11
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128x128 .f32 := Host.absf main_arg12
  let main_cst_16 : FVec F S_ .f32 := constant S_ .f32 0x7F800000#32
  let main_v45 : FVec F S2x128x128 .f32 := broadcastInDim S2x128x128 ![] bcast_S_S2x128x128 main_cst_16
  let main_v46 : IVec S2x128x128 1 := cmpf .olt main_v44 main_v45
  let main_c_17 : IVec S_ 1 := constantI S_ 1 1#1
  let main_v47 : IVec S_ 1 := (fun x v => Host.reduce IntOp.andi x v reducesTo_S2x128x128_S_d0_1_2 h_S_) main_v46 main_c_17
  let main_v48 : IVec S_ 1 := andi main_v43 main_v47
  let main_v49 : FVec F S2x128 .f32 := Host.absf main_arg13
  let main_cst_18 : FVec F S_ .f32 := constant S_ .f32 0x7F800000#32
  let main_v50 : FVec F S2x128 .f32 := broadcastInDim S2x128 ![] bcast_S_S2x128 main_cst_18
  fn_part3 (F := F) main_arg14 main_arg15 main_arg16 main_arg17 main_arg18 main_arg19 main_arg20 main_arg21 main_arg22 main_arg23 main_v48 main_v49 main_v50

def fn_part1 {F : FTy → Type} [FloatOps F] (main_arg7 : FVec F S128 .f32) (main_arg8 : FVec F S128 .f32) (main_arg9 : FVec F S128 .f32) (main_arg10 : FVec F S2x128x128 .f32) (main_arg11 : FVec F S2x128 .f32) (main_arg12 : FVec F S2x128x128 .f32) (main_arg13 : FVec F S2x128 .f32) (main_arg14 : FVec F S2x128 .f32) (main_arg15 : FVec F S2x128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x41 .f32) (main_arg23 : FVec F S41 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_v33

def fn {F : FTy → Type} [FloatOps F] (main_arg0 : IVec S40000 32) (main_arg1 : IVec S2x640000 32) (main_arg2 : IVec S40000 32) (main_arg3 : FVec F S1340x128 .f32) (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S2x128x128 .f32) (main_arg11 : FVec F S2x128 .f32) (main_arg12 : FVec F S2x128x128 .f32) (main_arg13 : FVec F S2x128 .f32) (main_arg14 : FVec F S2x128 .f32) (main_arg15 : FVec F S2x128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x41 .f32) (main_arg23 : FVec F S41 .f32) : IVec S_ 1 :=
  let main_v0 : FVec F S1340x128 .f32 := Host.absf main_arg3
  let main_cst : FVec F S_ .f32 := constant S_ .f32 0x7F800000#32
  let main_v1 : FVec F S1340x128 .f32 := broadcastInDim S1340x128 ![] bcast_S_S1340x128 main_cst
  let main_v2 : IVec S1340x128 1 := cmpf .olt main_v0 main_v1
  let main_c : IVec S_ 1 := constantI S_ 1 1#1
  let main_v3 : IVec S_ 1 := (fun x v => Host.reduce IntOp.andi x v reducesTo_S1340x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S40000 : Shape := ⟨1, ![40000]⟩
abbrev S2x640000 : Shape := ⟨2, ![2, 640000]⟩
abbrev S1340x128 : Shape := ⟨2, ![1340, 128]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x41 : Shape := ⟨2, ![128, 41]⟩
abbrev S41 : Shape := ⟨1, ![41]⟩
abbrev S1x640000 : Shape := ⟨2, ![1, 640000]⟩
abbrev S640000 : Shape := ⟨1, ![640000]⟩
abbrev S_ : Shape := ⟨0, ![]⟩
abbrev S40000x1 : Shape := ⟨2, ![40000, 1]⟩
abbrev S40000x128 : Shape := ⟨2, ![40000, 128]⟩
abbrev S640000x1 : Shape := ⟨2, ![640000, 1]⟩
abbrev S640000x128 : Shape := ⟨2, ![640000, 128]⟩
abbrev S1x128 : Shape := ⟨2, ![1, 128]⟩
abbrev S2000x128 : Shape := ⟨2, ![2000, 128]⟩
abbrev S1x128x128 : Shape := ⟨3, ![1, 128, 128]⟩
abbrev S256x128 : Shape := ⟨2, ![256, 128]⟩
abbrev S1x41 : Shape := ⟨2, ![1, 41]⟩
abbrev S256x41 : Shape := ⟨2, ![256, 41]⟩

abbrev nBuf : Space → Nat
  | .hbm => 246
  | .vmem => 64
  | .smem => 0
  | _ => 0

abbrev hbmTy0_0 (i : Nat) : BufTy := match i % 128 with
  | 0 => ⟨S40000, .i32⟩
  | 1 => ⟨S2x640000, .i32⟩
  | 2 => ⟨S40000, .i32⟩
  | 3 => ⟨S1340x128, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S2x128x128, .f32⟩
  | 11 => ⟨S2x128, .f32⟩
  | 12 => ⟨S2x128x128, .f32⟩
  | 13 => ⟨S2x128, .f32⟩
  | 14 => ⟨S2x128, .f32⟩
  | 15 => ⟨S2x128, .f32⟩
  | 16 => ⟨S128x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128x41, .f32⟩
  | 23 => ⟨S41, .f32⟩
  | 24 => ⟨S1x640000, .i32⟩
  | 25 => ⟨S640000, .i32⟩
  | 26 => ⟨S1x640000, .i32⟩
  | 27 => ⟨S640000, .i32⟩
  | 28 => ⟨S_, .i32⟩
  | 29 => ⟨S40000, .i32⟩
  | 30 => ⟨S40000, .i1⟩
  | 31 => ⟨S_, .i32⟩
  | 32 => ⟨S40000, .i32⟩
  | 33 => ⟨S40000, .i32⟩
  | 34 => ⟨S40000, .i32⟩
  | 35 => ⟨S40000x1, .i32⟩
  | 36 => ⟨S40000x128, .f32⟩
  | 37 => ⟨S_, .i32⟩
  | 38 => ⟨S640000, .i32⟩
  | 39 => ⟨S640000, .i1⟩
  | 40 => ⟨S_, .i32⟩
  | 41 => ⟨S640000, .i32⟩
  | 42 => ⟨S640000, .i32⟩
  | 43 => ⟨S640000, .i32⟩
  | 44 => ⟨S640000x1, .i32⟩
  | 45 => ⟨S640000x128, .f32⟩
  | 46 => ⟨S_, .f32⟩
  | 47 => ⟨S40000x128, .f32⟩
  | 48 => ⟨S640000x1, .i32⟩
  | 49 => ⟨S40000x128, .f32⟩
  | 50 => ⟨S1x128, .f32⟩
  | 51 => ⟨S1x128, .f32⟩
  | 52 => ⟨S40000x128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S40000x128, .f32⟩
  | 66 => ⟨S40000x128, .f32⟩
  | 67 => ⟨S40000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S_, .f32⟩
  | 82 => ⟨S128, .f32⟩
  | 83 => ⟨S128, .f32⟩
  | 84 => ⟨S128, .f32⟩
  | 85 => ⟨S128, .f32⟩
  | 86 => ⟨S128, .f32⟩
  | 87 => ⟨S128, .f32⟩
  | 88 => ⟨S1x128, .f32⟩
  | 89 => ⟨S1x128, .f32⟩
  | 90 => ⟨S40000x128, .f32⟩
  | 91 => ⟨S_, .i32⟩
  | 92 => ⟨S640000, .i32⟩
  | 93 => ⟨S640000, .i1⟩
  | 94 => ⟨S_, .i32⟩
  | 95 => ⟨S640000, .i32⟩
  | 96 => ⟨S640000, .i32⟩
  | 97 => ⟨S640000, .i32⟩
  | 98 => ⟨S640000x1, .i32⟩
  | 99 => ⟨S640000x128, .f32⟩
  | 100 => ⟨S_, .f32⟩
  | 101 => ⟨S40000x128, .f32⟩
  | 102 => ⟨S640000x1, .i32⟩
  | 103 => ⟨S40000x128, .f32⟩
  | 104 => ⟨S1x128x128, .f32⟩
  | 105 => ⟨S128x128, .f32⟩
  | 106 => ⟨S1x128, .f32⟩
  | 107 => ⟨S128, .f32⟩
  | 108 => ⟨S1x128x128, .f32⟩
  | 109 => ⟨S128x128, .f32⟩
  | 110 => ⟨S1x128, .f32⟩
  | 111 => ⟨S128, .f32⟩
  | 112 => ⟨S1x128, .f32⟩
  | 113 => ⟨S1x128, .f32⟩
  | 114 => ⟨S40000x128, .f32⟩
  | 115 => ⟨S1x128, .f32⟩
  | 116 => ⟨S128, .f32⟩
  | 117 => ⟨S1x128, .f32⟩
  | 118 => ⟨S128, .f32⟩
  | 119 => ⟨S_, .f32⟩
  | 120 => ⟨S128, .f32⟩
  | 121 => ⟨S_, .f32⟩
  | 122 => ⟨S128, .f32⟩
  | 123 => ⟨S128, .f32⟩
  | 124 => ⟨S_, .i32⟩
  | 125 => ⟨S_, .f32⟩
  | 126 => ⟨S128, .f32⟩
  | 127 => ⟨S1x128, .f32⟩
  | _ => ⟨S40000, .i32⟩

abbrev hbmTy0_1 (i : Nat) : BufTy := match i % 128 with
  | 0 => ⟨S_, .f32⟩
  | 1 => ⟨S1x128, .f32⟩
  | 2 => ⟨S1x128, .f32⟩
  | 3 => ⟨S40000x128, .f32⟩
  | 4 => ⟨S40000x128, .f32⟩
  | 5 => ⟨S40000x128, .f32⟩
  | 6 => ⟨S_, .f32⟩
  | 7 => ⟨S_, .f32⟩
  | 8 => ⟨S_, .f32⟩
  | 9 => ⟨S_, .f32⟩
  | 10 => ⟨S128, .f32⟩
  | 11 => ⟨S128, .f32⟩
  | 12 => ⟨S128, .f32⟩
  | 13 => ⟨S_, .f32⟩
  | 14 => ⟨S_, .i1⟩
  | 15 => ⟨S_, .f32⟩
  | 16 => ⟨S_, .f32⟩
  | 17 => ⟨S128, .f32⟩
  | 18 => ⟨S128, .f32⟩
  | 19 => ⟨S_, .f32⟩
  | 20 => ⟨S128, .f32⟩
  | 21 => ⟨S128, .f32⟩
  | 22 => ⟨S128, .f32⟩
  | 23 => ⟨S128, .f32⟩
  | 24 => ⟨S128, .f32⟩
  | 25 => ⟨S128, .f32⟩
  | 26 => ⟨S1x128, .f32⟩
  | 27 => ⟨S1x128, .f32⟩
  | 28 => ⟨S40000x128, .f32⟩
  | 29 => ⟨S_, .i32⟩
  | 30 => ⟨S640000, .i32⟩
  | 31 => ⟨S640000, .i1⟩
  | 32 => ⟨S_, .i32⟩
  | 33 => ⟨S640000, .i32⟩
  | 34 => ⟨S640000, .i32⟩
  | 35 => ⟨S640000, .i32⟩
  | 36 => ⟨S640000x1, .i32⟩
  | 37 => ⟨S640000x128, .f32⟩
  | 38 => ⟨S_, .f32⟩
  | 39 => ⟨S40000x128, .f32⟩
  | 40 => ⟨S640000x1, .i32⟩
  | 41 => ⟨S40000x128, .f32⟩
  | 42 => ⟨S1x128x128, .f32⟩
  | 43 => ⟨S128x128, .f32⟩
  | 44 => ⟨S1x128, .f32⟩
  | 45 => ⟨S128, .f32⟩
  | 46 => ⟨S1x128x128, .f32⟩
  | 47 => ⟨S128x128, .f32⟩
  | 48 => ⟨S1x128, .f32⟩
  | 49 => ⟨S128, .f32⟩
  | 50 => ⟨S1x128, .f32⟩
  | 51 => ⟨S1x128, .f32⟩
  | 52 => ⟨S40000x128, .f32⟩
  | 53 => ⟨S1x128, .f32⟩
  | 54 => ⟨S128, .f32⟩
  | 55 => ⟨S1x128, .f32⟩
  | 56 => ⟨S128, .f32⟩
  | 57 => ⟨S_, .f32⟩
  | 58 => ⟨S128, .f32⟩
  | 59 => ⟨S_, .f32⟩
  | 60 => ⟨S128, .f32⟩
  | 61 => ⟨S128, .f32⟩
  | 62 => ⟨S_, .i32⟩
  | 63 => ⟨S_, .f32⟩
  | 64 => ⟨S128, .f32⟩
  | 65 => ⟨S1x128, .f32⟩
  | 66 => ⟨S_, .f32⟩
  | 67 => ⟨S1x128, .f32⟩
  | 68 => ⟨S1x128, .f32⟩
  | 69 => ⟨S40000x128, .f32⟩
  | 70 => ⟨S40000x128, .f32⟩
  | 71 => ⟨S40000x128, .f32⟩
  | 72 => ⟨S_, .f32⟩
  | 73 => ⟨S_, .f32⟩
  | 74 => ⟨S_, .f32⟩
  | 75 => ⟨S_, .f32⟩
  | 76 => ⟨S128, .f32⟩
  | 77 => ⟨S128, .f32⟩
  | 78 => ⟨S128, .f32⟩
  | 79 => ⟨S_, .f32⟩
  | 80 => ⟨S_, .i1⟩
  | 81 => ⟨S_, .f32⟩
  | 82 => ⟨S_, .f32⟩
  | 83 => ⟨S128, .f32⟩
  | 84 => ⟨S128, .f32⟩
  | 85 => ⟨S_, .f32⟩
  | 86 => ⟨S128, .f32⟩
  | 87 => ⟨S128, .f32⟩
  | 88 => ⟨S128, .f32⟩
  | 89 => ⟨S128, .f32⟩
  | 90 => ⟨S128, .f32⟩
  | 91 => ⟨S128, .f32⟩
  | 92 => ⟨S1x128, .f32⟩
  | 93 => ⟨S1x128, .f32⟩
  | 94 => ⟨S40000x128, .f32⟩
  | 95 => ⟨S_, .i32⟩
  | 96 => ⟨S640000, .i32⟩
  | 97 => ⟨S640000, .i1⟩
  | 98 => ⟨S_, .i32⟩
  | 99 => ⟨S640000, .i32⟩
  | 100 => ⟨S640000, .i32⟩
  | 101 => ⟨S640000, .i32⟩
  | 102 => ⟨S640000x1, .i32⟩
  | 103 => ⟨S640000x128, .f32⟩
  | 104 => ⟨S_, .f32⟩
  | 105 => ⟨S40000x128, .f32⟩
  | 106 => ⟨S640000x1, .i32⟩
  | 107 => ⟨S40000x128, .f32⟩
  | 108 => ⟨S1x128, .f32⟩
  | 109 => ⟨S1x128, .f32⟩
  | 110 => ⟨S40000x128, .f32⟩
  | 111 => ⟨S_, .f32⟩
  | 112 => ⟨S256x128, .f32⟩
  | 113 => ⟨S40000x1, .i32⟩
  | 114 => ⟨S256x128, .f32⟩
  | 115 => ⟨S1x128, .f32⟩
  | 116 => ⟨S1x41, .f32⟩
  | 117 => ⟨S256x41, .f32⟩
  | _ => ⟨S40000, .i32⟩

abbrev hbmTy (i : Nat) : BufTy := match i / 128 with
  | 0 => hbmTy0_0 i
  | 1 => hbmTy0_1 i
  | _ => ⟨S40000, .i32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S1x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S1x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S128x128, .f32⟩
  | .local _ .vmem, ⟨53, _⟩ => ⟨S1x128, .f32⟩
  | .local _ .vmem, ⟨54, _⟩ => ⟨S128x128, .f32⟩
  | .local _ .vmem, ⟨55, _⟩ => ⟨S1x128, .f32⟩
  | .local _ .vmem, ⟨56, _⟩ => ⟨S2000x128, .f32⟩
  | .local _ .vmem, ⟨57, _⟩ => ⟨S2000x128, .f32⟩
  | .local _ .vmem, ⟨58, _⟩ => ⟨S256x128, .f32⟩
  | .local _ .vmem, ⟨59, _⟩ => ⟨S128x128, .f32⟩
  | .local _ .vmem, ⟨60, _⟩ => ⟨S1x128, .f32⟩
  | .local _ .vmem, ⟨61, _⟩ => ⟨S128x41, .f32⟩
  | .local _ .vmem, ⟨62, _⟩ => ⟨S1x41, .f32⟩
  | .local _ .vmem, ⟨63, _⟩ => ⟨S256x41, .f32⟩
  | _, _ => ⟨S40000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c_1 : Ref sig .tc := ⟨.hbm, 37, rfl⟩
abbrev main_v11 : Ref sig .tc := ⟨.hbm, 38, rfl⟩
abbrev main_v12 : Ref sig .tc := ⟨.hbm, 39, rfl⟩
abbrev main_c_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_3 : Ref sig .tc := ⟨.hbm, 53, rfl⟩
abbrev main_v24 : Ref sig .tc := ⟨.hbm, 54, rfl⟩
abbrev main_cst_4 : Ref sig .tc := ⟨.hbm, 55, rfl⟩
abbrev main_v25 : Ref sig .tc := ⟨.hbm, 56, rfl⟩
abbrev main_v26 : Ref sig .tc := ⟨.hbm, 57, rfl⟩
abbrev main_c_5 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_cst_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_cst_1 : Ref sig .tc := ⟨.hbm, 69, rfl⟩
abbrev main_call0_v8 : Ref sig .tc := ⟨.hbm, 70, rfl⟩
abbrev main_call0_cst_2 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_cst_3 : Ref sig .tc := ⟨.hbm, 75, rfl⟩
abbrev main_call0_v12 : Ref sig .tc := ⟨.hbm, 76, rfl⟩
abbrev main_call0_cst_4 : Ref sig .tc := ⟨.hbm, 77, rfl⟩
abbrev main_call0_call0_v0 : Ref sig .tc := ⟨.hbm, 78, rfl⟩
abbrev main_call0_call0_v1 : Ref sig .tc := ⟨.hbm, 79, rfl⟩
abbrev main_v27 : Ref sig .tc := ⟨.hbm, 80, rfl⟩
abbrev main_cst_6 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_c_7 : Ref sig .tc := ⟨.hbm, 91, rfl⟩
abbrev main_v37 : Ref sig .tc := ⟨.hbm, 92, rfl⟩
abbrev main_v38 : Ref sig .tc := ⟨.hbm, 93, rfl⟩
abbrev main_c_8 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_cst_9 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_cst_10 : Ref sig .tc := ⟨.hbm, 119, rfl⟩
abbrev main_v62 : Ref sig .tc := ⟨.hbm, 120, rfl⟩
abbrev main_cst_11 : Ref sig .tc := ⟨.hbm, 121, rfl⟩
abbrev main_v63 : Ref sig .tc := ⟨.hbm, 122, rfl⟩
abbrev main_v64 : Ref sig .tc := ⟨.hbm, 123, rfl⟩
abbrev main_c_12 : Ref sig .tc := ⟨.hbm, 124, rfl⟩
abbrev main_call1_cst : Ref sig .tc := ⟨.hbm, 125, rfl⟩
abbrev main_call1_v0 : Ref sig .tc := ⟨.hbm, 126, rfl⟩
abbrev main_call1_v1 : Ref sig .tc := ⟨.hbm, 127, rfl⟩
abbrev main_call1_cst_0 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_call1_v5 : Ref sig .tc := ⟨.hbm, 132, rfl⟩
abbrev main_call1_v6 : Ref sig .tc := ⟨.hbm, 133, rfl⟩
abbrev main_call1_v7 : Ref sig .tc := ⟨.hbm, 134, rfl⟩
abbrev main_call1_cst_1 : Ref sig .tc := ⟨.hbm, 135, rfl⟩
abbrev main_call1_v8 : Ref sig .tc := ⟨.hbm, 136, rfl⟩
abbrev main_call1_cst_2 : Ref sig .tc := ⟨.hbm, 137, rfl⟩
abbrev main_call1_v9 : Ref sig .tc := ⟨.hbm, 138, rfl⟩
abbrev main_call1_v10 : Ref sig .tc := ⟨.hbm, 139, rfl⟩
abbrev main_call1_v11 : Ref sig .tc := ⟨.hbm, 140, rfl⟩
abbrev main_call1_cst_3 : Ref sig .tc := ⟨.hbm, 141, rfl⟩
abbrev main_call1_v12 : Ref sig .tc := ⟨.hbm, 142, rfl⟩
abbrev main_call1_cst_4 : Ref sig .tc := ⟨.hbm, 143, rfl⟩
abbrev main_call1_call0_v0 : Ref sig .tc := ⟨.hbm, 144, rfl⟩
abbrev main_call1_call0_v1 : Ref sig .tc := ⟨.hbm, 145, rfl⟩
abbrev main_v65 : Ref sig .tc := ⟨.hbm, 146, rfl⟩
abbrev main_cst_13 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_c_14 : Ref sig .tc := ⟨.hbm, 157, rfl⟩
abbrev main_v75 : Ref sig .tc := ⟨.hbm, 158, rfl⟩
abbrev main_v76 : Ref sig .tc := ⟨.hbm, 159, rfl⟩
abbrev main_c_15 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_cst_16 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_cst_17 : Ref sig .tc := ⟨.hbm, 185, rfl⟩
abbrev main_v100 : Ref sig .tc := ⟨.hbm, 186, rfl⟩
abbrev main_cst_18 : Ref sig .tc := ⟨.hbm, 187, rfl⟩
abbrev main_v101 : Ref sig .tc := ⟨.hbm, 188, rfl⟩
abbrev main_v102 : Ref sig .tc := ⟨.hbm, 189, rfl⟩
abbrev main_c_19 : Ref sig .tc := ⟨.hbm, 190, rfl⟩
abbrev main_call2_cst : Ref sig .tc := ⟨.hbm, 191, rfl⟩
abbrev main_call2_v0 : Ref sig .tc := ⟨.hbm, 192, rfl⟩
abbrev main_call2_v1 : Ref sig .tc := ⟨.hbm, 193, rfl⟩
abbrev main_call2_cst_0 : Ref sig .tc := ⟨.hbm, 194, rfl⟩
abbrev main_call2_v2 : Ref sig .tc := ⟨.hbm, 195, rfl⟩
abbrev main_call2_v3 : Ref sig .tc := ⟨.hbm, 196, rfl⟩
abbrev main_call2_v4 : Ref sig .tc := ⟨.hbm, 197, rfl⟩
abbrev main_call2_v5 : Ref sig .tc := ⟨.hbm, 198, rfl⟩
abbrev main_call2_v6 : Ref sig .tc := ⟨.hbm, 199, rfl⟩
abbrev main_call2_v7 : Ref sig .tc := ⟨.hbm, 200, rfl⟩
abbrev main_call2_cst_1 : Ref sig .tc := ⟨.hbm, 201, rfl⟩
abbrev main_call2_v8 : Ref sig .tc := ⟨.hbm, 202, rfl⟩
abbrev main_call2_cst_2 : Ref sig .tc := ⟨.hbm, 203, rfl⟩
abbrev main_call2_v9 : Ref sig .tc := ⟨.hbm, 204, rfl⟩
abbrev main_call2_v10 : Ref sig .tc := ⟨.hbm, 205, rfl⟩
abbrev main_call2_v11 : Ref sig .tc := ⟨.hbm, 206, rfl⟩
abbrev main_call2_cst_3 : Ref sig .tc := ⟨.hbm, 207, rfl⟩
abbrev main_call2_v12 : Ref sig .tc := ⟨.hbm, 208, rfl⟩
abbrev main_call2_cst_4 : Ref sig .tc := ⟨.hbm, 209, rfl⟩
abbrev main_call2_call0_v0 : Ref sig .tc := ⟨.hbm, 210, rfl⟩
abbrev main_call2_call0_v1 : Ref sig .tc := ⟨.hbm, 211, rfl⟩
abbrev main_v103 : Ref sig .tc := ⟨.hbm, 212, rfl⟩
abbrev main_cst_20 : Ref sig .tc := ⟨.hbm, 213, rfl⟩
abbrev main_v104 : Ref sig .tc := ⟨.hbm, 214, rfl⟩
abbrev main_v105 : Ref sig .tc := ⟨.hbm, 215, rfl⟩
abbrev main_v106 : Ref sig .tc := ⟨.hbm, 216, rfl⟩
abbrev main_v107 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_c_21 : Ref sig .tc := ⟨.hbm, 223, rfl⟩
abbrev main_v113 : Ref sig .tc := ⟨.hbm, 224, rfl⟩
abbrev main_v114 : Ref sig .tc := ⟨.hbm, 225, rfl⟩
abbrev main_c_22 : Ref sig .tc := ⟨.hbm, 226, rfl⟩
abbrev main_v115 : Ref sig .tc := ⟨.hbm, 227, rfl⟩
abbrev main_v116 : Ref sig .tc := ⟨.hbm, 228, rfl⟩
abbrev main_v117 : Ref sig .tc := ⟨.hbm, 229, rfl⟩
abbrev main_v118 : Ref sig .tc := ⟨.hbm, 230, rfl⟩
abbrev main_v119 : Ref sig .tc := ⟨.hbm, 231, rfl⟩
abbrev main_cst_23 : Ref sig .tc := ⟨.hbm, 232, rfl⟩
abbrev main_v120 : Ref sig .tc := ⟨.hbm, 233, rfl⟩
abbrev main_v121 : Ref sig .tc := ⟨.hbm, 234, rfl⟩
abbrev main_v122 : Ref sig .tc := ⟨.hbm, 235, rfl⟩
abbrev main_v123 : Ref sig .tc := ⟨.hbm, 236, rfl⟩
abbrev main_v124 : Ref sig .tc := ⟨.hbm, 237, rfl⟩
abbrev main_v125 : Ref sig .tc := ⟨.hbm, 238, rfl⟩
abbrev main_cst_24 : Ref sig .tc := ⟨.hbm, 239, rfl⟩
abbrev main_v126 : Ref sig .tc := ⟨.hbm, 240, rfl⟩
abbrev main_v127 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg6_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg3_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg5_0 : Ref sig .tc := ⟨.vmem, 55, rfl⟩
abbrev cc6_stg6_0 : Ref sig .tc := ⟨.vmem, 56, rfl⟩
abbrev cc6_stg6_1 : Ref sig .tc := ⟨.vmem, 57, rfl⟩
abbrev cc7_stg0_0 : Ref sig .tc := ⟨.vmem, 58, rfl⟩
abbrev cc7_stg1_0 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg5_0 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem6_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem3_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem5_0 : DmaSem sig := 55
abbrev cc6_sem6_0 : DmaSem sig := 56
abbrev cc6_sem6_1 : DmaSem sig := 57
abbrev cc7_sem0_0 : DmaSem sig := 58
abbrev cc7_sem1_0 : DmaSem sig := 59
abbrev cc7_sem2_0 : DmaSem sig := 60
abbrev cc7_sem3_0 : DmaSem sig := 61
abbrev cc7_sem4_0 : DmaSem sig := 62
abbrev cc7_sem5_0 : DmaSem sig := 63

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S256x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x41 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x41 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x41 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S40000 : S_.BroadcastsInDim S40000 (![] : Fin 0 → Fin S40000.rank)
  bcast_S40000_S40000x1_0 : S40000.BroadcastsInDim S40000x1 (![0] : Fin 1 → Fin S40000x1.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reducesTo_S40000x128_S128_d0 : S40000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S40000x128_0_1 : S1x128.BroadcastsInDim S40000x128 (![0, 1] : Fin 2 → Fin S40000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128x128_S128x128 : S128x128.ShapeCasts S128x128
  slices_S2x128x128_S1x128x128_1_0_0 : S2x128x128.Slices ![1, 0, 0] S1x128x128
  slices_S2x128_S1x128_1_0 : S2x128.Slices ![1, 0] S1x128
  bcast_S_S256x128 : S_.BroadcastsInDim S256x128 (![] : Fin 0 → Fin S256x128.rank)
  shapeCasts_S41_S1x41 : S41.ShapeCasts S1x41
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S256x128 : S1x128.Broadcasts S256x128
  inb_S128x41_S128x41_0_0 : ∀ a, (![0, 0] : Fin 2 → Nat) a + S128x41.size a ≤ S128x41.size a
  h_S128x41 : 0 < S128x41.numel
  inb_S1x41_S1x41_0_0 : ∀ a, (![0, 0] : Fin 2 → Nat) a + S1x41.size a ≤ S1x41.size a
  h_S1x41 : 0 < S1x41.numel
  shapeCasts_S1x41_S1x41 : S1x41.ShapeCasts S1x41
  broadcasts_S1x41_S256x41 : S1x41.Broadcasts S256x41
  inb_S256x41_S256x41_0_0 : ∀ a, (![0, 0] : Fin 2 → Nat) a + S256x41.size a ≤ S256x41.size a
  h_S256x41 : 0 < S256x41.numel
  gather_S1340x128_S40000x1_S40000x128_1_0_n_n_0_1_1128_wf : GatherDims.WF S1340x128 S40000x1 S40000x128 [1] [0] [] [0] [] 1 ![1, 128]
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S2000x128_S128x128_S2000x128_1_0_0_1_n_n_wf : DotDims.WF S2000x128 S128x128 S2000x128 [1] [0] [0] [1] [] []
  scatter_S256x128_S40000x1_S40000x128_1_0_0_1_wf : ScatterDims.WF S256x128 S40000x1 S40000x128 [1] [0] [0] 1
  dot_S256x128_S128x128_S256x128_1_0_0_1_n_n_wf : DotDims.WF S256x128 S128x128 S256x128 [1] [0] [0] [1] [] []
  dot_S256x128_S128x41_S256x41_1_0_0_1_n_n_wf : DotDims.WF S256x128 S128x41 S256x41 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S40000x128.size a
  hwx0_1 : ∀ i : grid0.Coords, EltTy.bits .f32 = 32 ∨ (Rect.block (s := S40000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S40000x128.size a
  hwx0_6 : ∀ i : grid0.Coords, EltTy.bits .f32 = 32 ∨ (Rect.block (s := S40000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S40000x128.size a
  hwx1_0 : ∀ i : grid1.Coords, EltTy.bits .f32 = 32 ∨ (Rect.block (s := S40000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S40000x128.size a
  hwx1_3 : ∀ i : grid1.Coords, EltTy.bits .f32 = 32 ∨ (Rect.block (s := S40000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S40000x128.size a
  hwx2_0 : ∀ i : grid2.Coords, EltTy.bits .f32 = 32 ∨ (Rect.block (s := S40000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S40000x128.size a
  hwx2_1 : ∀ i : grid2.Coords, EltTy.bits .f32 = 32 ∨ (Rect.block (s := S40000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S40000x128.size a
  hwx2_6 : ∀ i : grid2.Coords, EltTy.bits .f32 = 32 ∨ (Rect.block (s := S40000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S40000x128.size a
  hwx3_0 : ∀ i : grid3.Coords, EltTy.bits .f32 = 32 ∨ (Rect.block (s := S40000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S40000x128.size a
  hwx3_3 : ∀ i : grid3.Coords, EltTy.bits .f32 = 32 ∨ (Rect.block (s := S40000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S40000x128.size a
  hwx4_0 : ∀ i : grid4.Coords, EltTy.bits .f32 = 32 ∨ (Rect.block (s := S40000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S40000x128.size a
  hwx4_1 : ∀ i : grid4.Coords, EltTy.bits .f32 = 32 ∨ (Rect.block (s := S40000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S40000x128.size a
  hwx4_6 : ∀ i : grid4.Coords, EltTy.bits .f32 = 32 ∨ (Rect.block (s := S40000x128) S2000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S40000x128.size a
  hwx5_0 : ∀ i : grid5.Coords, EltTy.bits .f32 = 32 ∨ (Rect.block (s := S40000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S40000x128.size a
  hwx5_3 : ∀ i : grid5.Coords, EltTy.bits .f32 = 32 ∨ (Rect.block (s := S40000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S40000x128.size a
  hwx6_0 : ∀ i : grid6.Coords, EltTy.bits .f32 = 32 ∨ (Rect.block (s := S40000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S40000x128.size a
  hwx6_1 : ∀ i : grid6.Coords, EltTy.bits .f32 = 32 ∨ (Rect.block (s := S40000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x128.size a ≤ S40000x128.size a
  hwx6_6 : ∀ i : grid6.Coords, EltTy.bits .f32 = 32 ∨ (Rect.block (s := S40000x128) S2000x128.size (cc6_transform_6 i) (hinb6_6 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S256x128.size a ≤ S256x128.size a
  hwx7_0 : ∀ i : grid7.Coords, EltTy.bits .f32 = 32 ∨ (Rect.block (s := S256x128) S256x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x41.size a ≤ S128x41.size a
  hwx7_3 : ∀ i : grid7.Coords, EltTy.bits .f32 = 32 ∨ (Rect.block (s := S128x41) S128x41.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x41.size a ≤ S1x41.size a
  hwx7_4 : ∀ i : grid7.Coords, EltTy.bits .f32 = 32 ∨ (Rect.block (s := S1x41) S1x41.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x41.size a ≤ S256x41.size a
  hwx7_5 : ∀ i : grid7.Coords, EltTy.bits .f32 = 32 ∨ (Rect.block (s := S256x41) S256x41.size (cc7_transform_5 i) (hinb7_5 i)).WholeWords (EltTy.packing .f32)

variable [Facts₀]

def gather_S1340x128_S40000x1_S40000x128_1_0_n_n_0_1_1128 : GatherDims S1340x128 S40000x1 S40000x128 where
  offsetDims := [1]
  collapsedSliceDims := [0]
  operandBatchingDims := []
  startIndicesBatchingDims := []
  startIndexMap := [0]
  indexVectorDim := 1
  sliceSizes := ![1, 128]
  wf := gather_S1340x128_S40000x1_S40000x128_1_0_n_n_0_1_1128_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S256x128_S40000x1_S40000x128_1_0_0_1 : ScatterDims S256x128 S40000x1 S40000x128 where
  updateWindowDims := [1]
  insertedWindowDims := [0]
  scatterDimsToOperandDims := [0]
  indexVectorDim := 1
  wf := scatter_S256x128_S40000x1_S40000x128_1_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x41_S256x41_1_0_0_1_n_n : DotDims S256x128 S128x41 S256x41 where
  lhsContracting := [1]
  rhsContracting := [0]
  lhsNonContracting := [0]
  rhsNonContracting := [1]
  lhsBatch := []
  rhsBatch := []
  wf := dot_S256x128_S128x41_S256x41_1_0_0_1_n_n_wf

abbrev win0_0 : Pipeline.Window sig grid0 :=
  Pipeline.Window.ofSpec (Memref.whole main_v10) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v36) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v57) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v74) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v84) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v86) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v93) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v94) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v95) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v95) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v110) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v111) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v112) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v112) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v122) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg16) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v123) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg18) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v124) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v125) S2000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v128) S256x128.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg20) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v129) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg22) S128x41.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v130) S1x41.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v131) S256x41.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S40000 : Shape := ⟨1, ![40000]⟩
abbrev S2x640000 : Shape := ⟨2, ![2, 640000]⟩
abbrev S1340x128 : Shape := ⟨2, ![1340, 128]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x41 : Shape := ⟨2, ![128, 41]⟩
abbrev S41 : Shape := ⟨1, ![41]⟩
abbrev S1x640000 : Shape := ⟨2, ![1, 640000]⟩
abbrev S640000 : Shape := ⟨1, ![640000]⟩
abbrev S_ : Shape := ⟨0, ![]⟩
abbrev S40000x1 : Shape := ⟨2, ![40000, 1]⟩
abbrev S40000x128 : Shape := ⟨2, ![40000, 128]⟩
abbrev S640000x1 : Shape := ⟨2, ![640000, 1]⟩
abbrev S640000x128 : Shape := ⟨2, ![640000, 128]⟩
abbrev S1x128 : Shape := ⟨2, ![1, 128]⟩
abbrev S1x128x128 : Shape := ⟨3, ![1, 128, 128]⟩
abbrev S256x128 : Shape := ⟨2, ![256, 128]⟩
abbrev S256x41 : Shape := ⟨2, ![256, 41]⟩
abbrev S1x41 : Shape := ⟨2, ![1, 41]⟩

abbrev nBuf : Space → Nat
  | .hbm => 320
  | .vmem => 0
  | .smem => 0
  | _ => 0

abbrev hbmTy0_0 (i : Nat) : BufTy := match i % 128 with
  | 0 => ⟨S40000, .i32⟩
  | 1 => ⟨S2x640000, .i32⟩
  | 2 => ⟨S40000, .i32⟩
  | 3 => ⟨S1340x128, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S2x128x128, .f32⟩
  | 11 => ⟨S2x128, .f32⟩
  | 12 => ⟨S2x128x128, .f32⟩
  | 13 => ⟨S2x128, .f32⟩
  | 14 => ⟨S2x128, .f32⟩
  | 15 => ⟨S2x128, .f32⟩
  | 16 => ⟨S128x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128x41, .f32⟩
  | 23 => ⟨S41, .f32⟩
  | 24 => ⟨S1x640000, .i32⟩
  | 25 => ⟨S640000, .i32⟩
  | 26 => ⟨S1x640000, .i32⟩
  | 27 => ⟨S640000, .i32⟩
  | 28 => ⟨S_, .i32⟩
  | 29 => ⟨S40000, .i32⟩
  | 30 => ⟨S40000, .i1⟩
  | 31 => ⟨S_, .i32⟩
  | 32 => ⟨S40000, .i32⟩
  | 33 => ⟨S40000, .i32⟩
  | 34 => ⟨S40000, .i32⟩
  | 35 => ⟨S40000x1, .i32⟩
  | 36 => ⟨S40000x128, .f32⟩
  | 37 => ⟨S_, .i32⟩
  | 38 => ⟨S640000, .i32⟩
  | 39 => ⟨S640000, .i1⟩
  | 40 => ⟨S_, .i32⟩
  | 41 => ⟨S640000, .i32⟩
  | 42 => ⟨S640000, .i32⟩
  | 43 => ⟨S640000, .i32⟩
  | 44 => ⟨S640000x1, .i32⟩
  | 45 => ⟨S640000x128, .f32⟩
  | 46 => ⟨S_, .f32⟩
  | 47 => ⟨S40000x128, .f32⟩
  | 48 => ⟨S640000x1, .i32⟩
  | 49 => ⟨S40000x128, .f32⟩
  | 50 => ⟨S40000x128, .f32⟩
  | 51 => ⟨S40000x128, .f32⟩
  | 52 => ⟨S1x128, .f32⟩
  | 53 => ⟨S40000x128, .f32⟩
  | 54 => ⟨S40000x128, .f32⟩
  | 55 => ⟨S_, .f32⟩
  | 56 => ⟨S40000x128, .f32⟩
  | 57 => ⟨S40000x128, .f32⟩
  | 58 => ⟨S40000x128, .f32⟩
  | 59 => ⟨S1x128, .f32⟩
  | 60 => ⟨S40000x128, .f32⟩
  | 61 => ⟨S40000x128, .f32⟩
  | 62 => ⟨S_, .f32⟩
  | 63 => ⟨S40000x128, .f32⟩
  | 64 => ⟨S40000x128, .f32⟩
  | 65 => ⟨S_, .f32⟩
  | 66 => ⟨S128, .f32⟩
  | 67 => ⟨S_, .f32⟩
  | 68 => ⟨S128, .f32⟩
  | 69 => ⟨S128, .f32⟩
  | 70 => ⟨S_, .i32⟩
  | 71 => ⟨S_, .f32⟩
  | 72 => ⟨S128, .f32⟩
  | 73 => ⟨S1x128, .f32⟩
  | 74 => ⟨S_, .f32⟩
  | 75 => ⟨S1x128, .f32⟩
  | 76 => ⟨S1x128, .f32⟩
  | 77 => ⟨S40000x128, .f32⟩
  | 78 => ⟨S40000x128, .f32⟩
  | 79 => ⟨S40000x128, .f32⟩
  | 80 => ⟨S_, .f32⟩
  | 81 => ⟨S_, .f32⟩
  | 82 => ⟨S_, .f32⟩
  | 83 => ⟨S_, .f32⟩
  | 84 => ⟨S128, .f32⟩
  | 85 => ⟨S128, .f32⟩
  | 86 => ⟨S128, .f32⟩
  | 87 => ⟨S_, .f32⟩
  | 88 => ⟨S_, .i1⟩
  | 89 => ⟨S_, .f32⟩
  | 90 => ⟨S_, .f32⟩
  | 91 => ⟨S128, .f32⟩
  | 92 => ⟨S128, .f32⟩
  | 93 => ⟨S1x128, .f32⟩
  | 94 => ⟨S40000x128, .f32⟩
  | 95 => ⟨S40000x128, .f32⟩
  | 96 => ⟨S1x128, .f32⟩
  | 97 => ⟨S40000x128, .f32⟩
  | 98 => ⟨S40000x128, .f32⟩
  | 99 => ⟨S_, .f32⟩
  | 100 => ⟨S128, .f32⟩
  | 101 => ⟨S128, .f32⟩
  | 102 => ⟨S128, .f32⟩
  | 103 => ⟨S1x128, .f32⟩
  | 104 => ⟨S40000x128, .f32⟩
  | 105 => ⟨S40000x128, .f32⟩
  | 106 => ⟨S1x128, .f32⟩
  | 107 => ⟨S40000x128, .f32⟩
  | 108 => ⟨S40000x128, .f32⟩
  | 109 => ⟨S1x128x128, .f32⟩
  | 110 => ⟨S128x128, .f32⟩
  | 111 => ⟨S1x128, .f32⟩
  | 112 => ⟨S128, .f32⟩
  | 113 => ⟨S1x128x128, .f32⟩
  | 114 => ⟨S128x128, .f32⟩
  | 115 => ⟨S1x128, .f32⟩
  | 116 => ⟨S128, .f32⟩
  | 117 => ⟨S_, .i32⟩
  | 118 => ⟨S640000, .i32⟩
  | 119 => ⟨S640000, .i1⟩
  | 120 => ⟨S_, .i32⟩
  | 121 => ⟨S640000, .i32⟩
  | 122 => ⟨S640000, .i32⟩
  | 123 => ⟨S640000, .i32⟩
  | 124 => ⟨S640000x1, .i32⟩
  | 125 => ⟨S640000x128, .f32⟩
  | 126 => ⟨S_, .f32⟩
  | 127 => ⟨S40000x128, .f32⟩
  | _ => ⟨S40000, .i32⟩

abbrev hbmTy0_1 (i : Nat) : BufTy := match i % 128 with
  | 0 => ⟨S640000x1, .i32⟩
  | 1 => ⟨S40000x128, .f32⟩
  | 2 => ⟨S40000x128, .f32⟩
  | 3 => ⟨S40000x128, .f32⟩
  | 4 => ⟨S1x128, .f32⟩
  | 5 => ⟨S40000x128, .f32⟩
  | 6 => ⟨S40000x128, .f32⟩
  | 7 => ⟨S_, .f32⟩
  | 8 => ⟨S40000x128, .f32⟩
  | 9 => ⟨S40000x128, .f32⟩
  | 10 => ⟨S40000x128, .f32⟩
  | 11 => ⟨S1x128, .f32⟩
  | 12 => ⟨S40000x128, .f32⟩
  | 13 => ⟨S40000x128, .f32⟩
  | 14 => ⟨S_, .f32⟩
  | 15 => ⟨S40000x128, .f32⟩
  | 16 => ⟨S40000x128, .f32⟩
  | 17 => ⟨S1x128, .f32⟩
  | 18 => ⟨S128, .f32⟩
  | 19 => ⟨S1x128, .f32⟩
  | 20 => ⟨S128, .f32⟩
  | 21 => ⟨S_, .f32⟩
  | 22 => ⟨S128, .f32⟩
  | 23 => ⟨S_, .f32⟩
  | 24 => ⟨S128, .f32⟩
  | 25 => ⟨S128, .f32⟩
  | 26 => ⟨S_, .i32⟩
  | 27 => ⟨S_, .f32⟩
  | 28 => ⟨S128, .f32⟩
  | 29 => ⟨S1x128, .f32⟩
  | 30 => ⟨S_, .f32⟩
  | 31 => ⟨S1x128, .f32⟩
  | 32 => ⟨S1x128, .f32⟩
  | 33 => ⟨S40000x128, .f32⟩
  | 34 => ⟨S40000x128, .f32⟩
  | 35 => ⟨S40000x128, .f32⟩
  | 36 => ⟨S_, .f32⟩
  | 37 => ⟨S_, .f32⟩
  | 38 => ⟨S_, .f32⟩
  | 39 => ⟨S_, .f32⟩
  | 40 => ⟨S128, .f32⟩
  | 41 => ⟨S128, .f32⟩
  | 42 => ⟨S128, .f32⟩
  | 43 => ⟨S_, .f32⟩
  | 44 => ⟨S_, .i1⟩
  | 45 => ⟨S_, .f32⟩
  | 46 => ⟨S_, .f32⟩
  | 47 => ⟨S128, .f32⟩
  | 48 => ⟨S128, .f32⟩
  | 49 => ⟨S1x128, .f32⟩
  | 50 => ⟨S40000x128, .f32⟩
  | 51 => ⟨S40000x128, .f32⟩
  | 52 => ⟨S1x128, .f32⟩
  | 53 => ⟨S40000x128, .f32⟩
  | 54 => ⟨S40000x128, .f32⟩
  | 55 => ⟨S_, .f32⟩
  | 56 => ⟨S128, .f32⟩
  | 57 => ⟨S128, .f32⟩
  | 58 => ⟨S128, .f32⟩
  | 59 => ⟨S1x128, .f32⟩
  | 60 => ⟨S40000x128, .f32⟩
  | 61 => ⟨S40000x128, .f32⟩
  | 62 => ⟨S1x128, .f32⟩
  | 63 => ⟨S40000x128, .f32⟩
  | 64 => ⟨S40000x128, .f32⟩
  | 65 => ⟨S1x128x128, .f32⟩
  | 66 => ⟨S128x128, .f32⟩
  | 67 => ⟨S1x128, .f32⟩
  | 68 => ⟨S128, .f32⟩
  | 69 => ⟨S1x128x128, .f32⟩
  | 70 => ⟨S128x128, .f32⟩
  | 71 => ⟨S1x128, .f32⟩
  | 72 => ⟨S128, .f32⟩
  | 73 => ⟨S_, .i32⟩
  | 74 => ⟨S640000, .i32⟩
  | 75 => ⟨S640000, .i1⟩
  | 76 => ⟨S_, .i32⟩
  | 77 => ⟨S640000, .i32⟩
  | 78 => ⟨S640000, .i32⟩
  | 79 => ⟨S640000, .i32⟩
  | 80 => ⟨S640000x1, .i32⟩
  | 81 => ⟨S640000x128, .f32⟩
  | 82 => ⟨S_, .f32⟩
  | 83 => ⟨S40000x128, .f32⟩
  | 84 => ⟨S640000x1, .i32⟩
  | 85 => ⟨S40000x128, .f32⟩
  | 86 => ⟨S40000x128, .f32⟩
  | 87 => ⟨S40000x128, .f32⟩
  | 88 => ⟨S1x128, .f32⟩
  | 89 => ⟨S40000x128, .f32⟩
  | 90 => ⟨S40000x128, .f32⟩
  | 91 => ⟨S_, .f32⟩
  | 92 => ⟨S40000x128, .f32⟩
  | 93 => ⟨S40000x128, .f32⟩
  | 94 => ⟨S40000x128, .f32⟩
  | 95 => ⟨S1x128, .f32⟩
  | 96 => ⟨S40000x128, .f32⟩
  | 97 => ⟨S40000x128, .f32⟩
  | 98 => ⟨S_, .f32⟩
  | 99 => ⟨S40000x128, .f32⟩
  | 100 => ⟨S40000x128, .f32⟩
  | 101 => ⟨S1x128, .f32⟩
  | 102 => ⟨S128, .f32⟩
  | 103 => ⟨S1x128, .f32⟩
  | 104 => ⟨S128, .f32⟩
  | 105 => ⟨S_, .f32⟩
  | 106 => ⟨S128, .f32⟩
  | 107 => ⟨S_, .f32⟩
  | 108 => ⟨S128, .f32⟩
  | 109 => ⟨S128, .f32⟩
  | 110 => ⟨S_, .i32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S40000x128, .f32⟩
  | 118 => ⟨S40000x128, .f32⟩
  | 119 => ⟨S40000x128, .f32⟩
  | 120 => ⟨S_, .f32⟩
  | 121 => ⟨S_, .f32⟩
  | 122 => ⟨S_, .f32⟩
  | 123 => ⟨S_, .f32⟩
  | 124 => ⟨S128, .f32⟩
  | 125 => ⟨S128, .f32⟩
  | 126 => ⟨S128, .f32⟩
  | 127 => ⟨S_, .f32⟩
  | _ => ⟨S40000, .i32⟩

abbrev hbmTy0_2 (i : Nat) : BufTy := match i % 128 with
  | 0 => ⟨S_, .i1⟩
  | 1 => ⟨S_, .f32⟩
  | 2 => ⟨S_, .f32⟩
  | 3 => ⟨S128, .f32⟩
  | 4 => ⟨S128, .f32⟩
  | 5 => ⟨S1x128, .f32⟩
  | 6 => ⟨S40000x128, .f32⟩
  | 7 => ⟨S40000x128, .f32⟩
  | 8 => ⟨S1x128, .f32⟩
  | 9 => ⟨S40000x128, .f32⟩
  | 10 => ⟨S40000x128, .f32⟩
  | 11 => ⟨S_, .f32⟩
  | 12 => ⟨S128, .f32⟩
  | 13 => ⟨S128, .f32⟩
  | 14 => ⟨S128, .f32⟩
  | 15 => ⟨S1x128, .f32⟩
  | 16 => ⟨S40000x128, .f32⟩
  | 17 => ⟨S40000x128, .f32⟩
  | 18 => ⟨S1x128, .f32⟩
  | 19 => ⟨S40000x128, .f32⟩
  | 20 => ⟨S40000x128, .f32⟩
  | 21 => ⟨S_, .i32⟩
  | 22 => ⟨S640000, .i32⟩
  | 23 => ⟨S640000, .i1⟩
  | 24 => ⟨S_, .i32⟩
  | 25 => ⟨S640000, .i32⟩
  | 26 => ⟨S640000, .i32⟩
  | 27 => ⟨S640000, .i32⟩
  | 28 => ⟨S640000x1, .i32⟩
  | 29 => ⟨S640000x128, .f32⟩
  | 30 => ⟨S_, .f32⟩
  | 31 => ⟨S40000x128, .f32⟩
  | 32 => ⟨S640000x1, .i32⟩
  | 33 => ⟨S40000x128, .f32⟩
  | 34 => ⟨S40000x128, .f32⟩
  | 35 => ⟨S40000x128, .f32⟩
  | 36 => ⟨S1x128, .f32⟩
  | 37 => ⟨S40000x128, .f32⟩
  | 38 => ⟨S40000x128, .f32⟩
  | 39 => ⟨S_, .f32⟩
  | 40 => ⟨S40000x128, .f32⟩
  | 41 => ⟨S40000x128, .f32⟩
  | 42 => ⟨S40000x128, .f32⟩
  | 43 => ⟨S1x128, .f32⟩
  | 44 => ⟨S40000x128, .f32⟩
  | 45 => ⟨S40000x128, .f32⟩
  | 46 => ⟨S_, .f32⟩
  | 47 => ⟨S40000x128, .f32⟩
  | 48 => ⟨S40000x128, .f32⟩
  | 49 => ⟨S_, .f32⟩
  | 50 => ⟨S256x128, .f32⟩
  | 51 => ⟨S40000x1, .i32⟩
  | 52 => ⟨S256x128, .f32⟩
  | 53 => ⟨S256x128, .f32⟩
  | 54 => ⟨S1x128, .f32⟩
  | 55 => ⟨S256x128, .f32⟩
  | 56 => ⟨S256x128, .f32⟩
  | 57 => ⟨S_, .f32⟩
  | 58 => ⟨S256x128, .f32⟩
  | 59 => ⟨S256x128, .f32⟩
  | 60 => ⟨S256x41, .f32⟩
  | 61 => ⟨S1x41, .f32⟩
  | 62 => ⟨S256x41, .f32⟩
  | 63 => ⟨S256x41, .f32⟩
  | _ => ⟨S40000, .i32⟩

abbrev hbmTy (i : Nat) : BufTy := match i / 128 with
  | 0 => hbmTy0_0 i
  | 1 => hbmTy0_1 i
  | 2 => hbmTy0_2 i
  | _ => ⟨S40000, .i32⟩

abbrev bufTy : (tb : Table) → Fin (tcTables nBuf tb) → BufTy
  | .hbm, ⟨i, _⟩ => hbmTy i
  | _, _ => ⟨S40000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c_1 : Ref sig .tc := ⟨.hbm, 37, rfl⟩
abbrev main_v11 : Ref sig .tc := ⟨.hbm, 38, rfl⟩
abbrev main_v12 : Ref sig .tc := ⟨.hbm, 39, rfl⟩
abbrev main_c_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_call0_cst : Ref sig .tc := ⟨.hbm, 55, rfl⟩
abbrev main_call0_v0 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_call1_cst : Ref sig .tc := ⟨.hbm, 62, rfl⟩
abbrev main_call1_v0 : Ref sig .tc := ⟨.hbm, 63, rfl⟩
abbrev main_v31 : Ref sig .tc := ⟨.hbm, 64, rfl⟩
abbrev main_cst_3 : Ref sig .tc := ⟨.hbm, 65, rfl⟩
abbrev main_v32 : Ref sig .tc := ⟨.hbm, 66, rfl⟩
abbrev main_cst_4 : Ref sig .tc := ⟨.hbm, 67, rfl⟩
abbrev main_v33 : Ref sig .tc := ⟨.hbm, 68, rfl⟩
abbrev main_v34 : Ref sig .tc := ⟨.hbm, 69, rfl⟩
abbrev main_c_5 : Ref sig .tc := ⟨.hbm, 70, rfl⟩
abbrev main_call2_cst : Ref sig .tc := ⟨.hbm, 71, rfl⟩
abbrev main_call2_v0 : Ref sig .tc := ⟨.hbm, 72, rfl⟩
abbrev main_call2_v1 : Ref sig .tc := ⟨.hbm, 73, rfl⟩
abbrev main_call2_cst_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_v6 : Ref sig .tc := ⟨.hbm, 79, rfl⟩
abbrev main_call2_v7 : Ref sig .tc := ⟨.hbm, 80, rfl⟩
abbrev main_call2_cst_1 : Ref sig .tc := ⟨.hbm, 81, rfl⟩
abbrev main_call2_v8 : Ref sig .tc := ⟨.hbm, 82, rfl⟩
abbrev main_call2_cst_2 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_cst_3 : Ref sig .tc := ⟨.hbm, 87, rfl⟩
abbrev main_call2_v12 : Ref sig .tc := ⟨.hbm, 88, rfl⟩
abbrev main_call2_cst_4 : Ref sig .tc := ⟨.hbm, 89, rfl⟩
abbrev main_call2_call0_v0 : Ref sig .tc := ⟨.hbm, 90, rfl⟩
abbrev main_call2_call0_v1 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_cst_6 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_c_7 : Ref sig .tc := ⟨.hbm, 117, rfl⟩
abbrev main_v59 : Ref sig .tc := ⟨.hbm, 118, rfl⟩
abbrev main_v60 : Ref sig .tc := ⟨.hbm, 119, rfl⟩
abbrev main_c_8 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_cst_9 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_call3_cst : Ref sig .tc := ⟨.hbm, 135, rfl⟩
abbrev main_call3_v0 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_call4_cst : Ref sig .tc := ⟨.hbm, 142, rfl⟩
abbrev main_call4_v0 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_cst_10 : Ref sig .tc := ⟨.hbm, 149, rfl⟩
abbrev main_v84 : Ref sig .tc := ⟨.hbm, 150, rfl⟩
abbrev main_cst_11 : Ref sig .tc := ⟨.hbm, 151, rfl⟩
abbrev main_v85 : Ref sig .tc := ⟨.hbm, 152, rfl⟩
abbrev main_v86 : Ref sig .tc := ⟨.hbm, 153, rfl⟩
abbrev main_c_12 : Ref sig .tc := ⟨.hbm, 154, rfl⟩
abbrev main_call5_cst : Ref sig .tc := ⟨.hbm, 155, rfl⟩
abbrev main_call5_v0 : Ref sig .tc := ⟨.hbm, 156, rfl⟩
abbrev main_call5_v1 : Ref sig .tc := ⟨.hbm, 157, rfl⟩
abbrev main_call5_cst_0 : Ref sig .tc := ⟨.hbm, 158, rfl⟩
abbrev main_call5_v2 : Ref sig .tc := ⟨.hbm, 159, rfl⟩
abbrev main_call5_v3 : Ref sig .tc := ⟨.hbm, 160, rfl⟩
abbrev main_call5_v4 : Ref sig .tc := ⟨.hbm, 161, rfl⟩
abbrev main_call5_v5 : Ref sig .tc := ⟨.hbm, 162, rfl⟩
abbrev main_call5_v6 : Ref sig .tc := ⟨.hbm, 163, rfl⟩
abbrev main_call5_v7 : Ref sig .tc := ⟨.hbm, 164, rfl⟩
abbrev main_call5_cst_1 : Ref sig .tc := ⟨.hbm, 165, rfl⟩
abbrev main_call5_v8 : Ref sig .tc := ⟨.hbm, 166, rfl⟩
abbrev main_call5_cst_2 : Ref sig .tc := ⟨.hbm, 167, rfl⟩
abbrev main_call5_v9 : Ref sig .tc := ⟨.hbm, 168, rfl⟩
abbrev main_call5_v10 : Ref sig .tc := ⟨.hbm, 169, rfl⟩
abbrev main_call5_v11 : Ref sig .tc := ⟨.hbm, 170, rfl⟩
abbrev main_call5_cst_3 : Ref sig .tc := ⟨.hbm, 171, rfl⟩
abbrev main_call5_v12 : Ref sig .tc := ⟨.hbm, 172, rfl⟩
abbrev main_call5_cst_4 : Ref sig .tc := ⟨.hbm, 173, rfl⟩
abbrev main_call5_call0_v0 : Ref sig .tc := ⟨.hbm, 174, rfl⟩
abbrev main_call5_call0_v1 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_cst_13 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_c_14 : Ref sig .tc := ⟨.hbm, 201, rfl⟩
abbrev main_v111 : Ref sig .tc := ⟨.hbm, 202, rfl⟩
abbrev main_v112 : Ref sig .tc := ⟨.hbm, 203, rfl⟩
abbrev main_c_15 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_cst_16 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_call6_cst : Ref sig .tc := ⟨.hbm, 219, rfl⟩
abbrev main_call6_v0 : Ref sig .tc := ⟨.hbm, 220, rfl⟩
abbrev main_v126 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_call7_cst : Ref sig .tc := ⟨.hbm, 226, rfl⟩
abbrev main_call7_v0 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_cst_17 : Ref sig .tc := ⟨.hbm, 233, rfl⟩
abbrev main_v136 : Ref sig .tc := ⟨.hbm, 234, rfl⟩
abbrev main_cst_18 : Ref sig .tc := ⟨.hbm, 235, rfl⟩
abbrev main_v137 : Ref sig .tc := ⟨.hbm, 236, rfl⟩
abbrev main_v138 : Ref sig .tc := ⟨.hbm, 237, rfl⟩
abbrev main_c_19 : Ref sig .tc := ⟨.hbm, 238, rfl⟩
abbrev main_call8_cst : Ref sig .tc := ⟨.hbm, 239, rfl⟩
abbrev main_call8_v0 : Ref sig .tc := ⟨.hbm, 240, rfl⟩
abbrev main_call8_v1 : Ref sig .tc := ⟨.hbm, 241, rfl⟩
abbrev main_call8_cst_0 : Ref sig .tc := ⟨.hbm, 242, rfl⟩
abbrev main_call8_v2 : Ref sig .tc := ⟨.hbm, 243, rfl⟩
abbrev main_call8_v3 : Ref sig .tc := ⟨.hbm, 244, rfl⟩
abbrev main_call8_v4 : Ref sig .tc := ⟨.hbm, 245, rfl⟩
abbrev main_call8_v5 : Ref sig .tc := ⟨.hbm, 246, rfl⟩
abbrev main_call8_v6 : Ref sig .tc := ⟨.hbm, 247, rfl⟩
abbrev main_call8_v7 : Ref sig .tc := ⟨.hbm, 248, rfl⟩
abbrev main_call8_cst_1 : Ref sig .tc := ⟨.hbm, 249, rfl⟩
abbrev main_call8_v8 : Ref sig .tc := ⟨.hbm, 250, rfl⟩
abbrev main_call8_cst_2 : Ref sig .tc := ⟨.hbm, 251, rfl⟩
abbrev main_call8_v9 : Ref sig .tc := ⟨.hbm, 252, rfl⟩
abbrev main_call8_v10 : Ref sig .tc := ⟨.hbm, 253, rfl⟩
abbrev main_call8_v11 : Ref sig .tc := ⟨.hbm, 254, rfl⟩
abbrev main_call8_cst_3 : Ref sig .tc := ⟨.hbm, 255, rfl⟩
abbrev main_call8_v12 : Ref sig .tc := ⟨.hbm, 256, rfl⟩
abbrev main_call8_cst_4 : Ref sig .tc := ⟨.hbm, 257, rfl⟩
abbrev main_call8_call0_v0 : Ref sig .tc := ⟨.hbm, 258, rfl⟩
abbrev main_call8_call0_v1 : Ref sig .tc := ⟨.hbm, 259, rfl⟩
abbrev main_v139 : Ref sig .tc := ⟨.hbm, 260, rfl⟩
abbrev main_v140 : Ref sig .tc := ⟨.hbm, 261, rfl⟩
abbrev main_v141 : Ref sig .tc := ⟨.hbm, 262, rfl⟩
abbrev main_v142 : Ref sig .tc := ⟨.hbm, 263, rfl⟩
abbrev main_v143 : Ref sig .tc := ⟨.hbm, 264, rfl⟩
abbrev main_v144 : Ref sig .tc := ⟨.hbm, 265, rfl⟩
abbrev main_v145 : Ref sig .tc := ⟨.hbm, 266, rfl⟩
abbrev main_cst_20 : Ref sig .tc := ⟨.hbm, 267, rfl⟩
abbrev main_v146 : Ref sig .tc := ⟨.hbm, 268, rfl⟩
abbrev main_v147 : Ref sig .tc := ⟨.hbm, 269, rfl⟩
abbrev main_v148 : Ref sig .tc := ⟨.hbm, 270, rfl⟩
abbrev main_v149 : Ref sig .tc := ⟨.hbm, 271, rfl⟩
abbrev main_v150 : Ref sig .tc := ⟨.hbm, 272, rfl⟩
abbrev main_v151 : Ref sig .tc := ⟨.hbm, 273, rfl⟩
abbrev main_v152 : Ref sig .tc := ⟨.hbm, 274, rfl⟩
abbrev main_v153 : Ref sig .tc := ⟨.hbm, 275, rfl⟩
abbrev main_v154 : Ref sig .tc := ⟨.hbm, 276, rfl⟩
abbrev main_c_21 : Ref sig .tc := ⟨.hbm, 277, rfl⟩
abbrev main_v155 : Ref sig .tc := ⟨.hbm, 278, rfl⟩
abbrev main_v156 : Ref sig .tc := ⟨.hbm, 279, rfl⟩
abbrev main_c_22 : Ref sig .tc := ⟨.hbm, 280, rfl⟩
abbrev main_v157 : Ref sig .tc := ⟨.hbm, 281, rfl⟩
abbrev main_v158 : Ref sig .tc := ⟨.hbm, 282, rfl⟩
abbrev main_v159 : Ref sig .tc := ⟨.hbm, 283, rfl⟩
abbrev main_v160 : Ref sig .tc := ⟨.hbm, 284, rfl⟩
abbrev main_v161 : Ref sig .tc := ⟨.hbm, 285, rfl⟩
abbrev main_cst_23 : Ref sig .tc := ⟨.hbm, 286, rfl⟩
abbrev main_v162 : Ref sig .tc := ⟨.hbm, 287, rfl⟩
abbrev main_v163 : Ref sig .tc := ⟨.hbm, 288, rfl⟩
abbrev main_v164 : Ref sig .tc := ⟨.hbm, 289, rfl⟩
abbrev main_v165 : Ref sig .tc := ⟨.hbm, 290, rfl⟩
abbrev main_v166 : Ref sig .tc := ⟨.hbm, 291, rfl⟩
abbrev main_v167 : Ref sig .tc := ⟨.hbm, 292, rfl⟩
abbrev main_v168 : Ref sig .tc := ⟨.hbm, 293, rfl⟩
abbrev main_v169 : Ref sig .tc := ⟨.hbm, 294, rfl⟩
abbrev main_call9_cst : Ref sig .tc := ⟨.hbm, 295, rfl⟩
abbrev main_call9_v0 : Ref sig .tc := ⟨.hbm, 296, rfl⟩
abbrev main_v170 : Ref sig .tc := ⟨.hbm, 297, rfl⟩
abbrev main_v171 : Ref sig .tc := ⟨.hbm, 298, rfl⟩
abbrev main_v172 : Ref sig .tc := ⟨.hbm, 299, rfl⟩
abbrev main_v173 : Ref sig .tc := ⟨.hbm, 300, rfl⟩
abbrev main_v174 : Ref sig .tc := ⟨.hbm, 301, rfl⟩
abbrev main_call10_cst : Ref sig .tc := ⟨.hbm, 302, rfl⟩
abbrev main_call10_v0 : Ref sig .tc := ⟨.hbm, 303, rfl⟩
abbrev main_v175 : Ref sig .tc := ⟨.hbm, 304, rfl⟩
abbrev main_cst_24 : Ref sig .tc := ⟨.hbm, 305, rfl⟩
abbrev main_v176 : Ref sig .tc := ⟨.hbm, 306, rfl⟩
abbrev main_v177 : Ref sig .tc := ⟨.hbm, 307, rfl⟩
abbrev main_v178 : Ref sig .tc := ⟨.hbm, 308, rfl⟩
abbrev main_v179 : Ref sig .tc := ⟨.hbm, 309, rfl⟩
abbrev main_v180 : Ref sig .tc := ⟨.hbm, 310, rfl⟩
abbrev main_v181 : Ref sig .tc := ⟨.hbm, 311, rfl⟩
abbrev main_v182 : Ref sig .tc := ⟨.hbm, 312, rfl⟩
abbrev main_call11_cst : Ref sig .tc := ⟨.hbm, 313, rfl⟩
abbrev main_call11_v0 : Ref sig .tc := ⟨.hbm, 314, rfl⟩
abbrev main_v183 : Ref sig .tc := ⟨.hbm, 315, rfl⟩
abbrev main_v184 : Ref sig .tc := ⟨.hbm, 316, rfl⟩
abbrev main_v185 : Ref sig .tc := ⟨.hbm, 317, rfl⟩
abbrev main_v186 : Ref sig .tc := ⟨.hbm, 318, rfl⟩
abbrev main_v187 : Ref sig .tc := ⟨.hbm, 319, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S40000 : S_.BroadcastsInDim S40000 (![] : Fin 0 → Fin S40000.rank)
  bcast_S40000_S40000x1_0 : S40000.BroadcastsInDim S40000x1 (![0] : Fin 1 → Fin S40000x1.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  reducesTo_S40000x128_S128_d0 : S40000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S_S256x128 : S_.BroadcastsInDim S256x128 (![] : Fin 0 → Fin S256x128.rank)
  bcast_S1x128_S256x128_0_1 : S1x128.BroadcastsInDim S256x128 (![0, 1] : Fin 2 → Fin S256x128.rank)
  bcast_S41_S1x41_1 : S41.BroadcastsInDim S1x41 (![1] : Fin 1 → Fin S1x41.rank)
  bcast_S1x41_S256x41_0_1 : S1x41.BroadcastsInDim S256x41 (![0, 1] : Fin 2 → Fin S256x41.rank)
  gather_S1340x128_S40000x1_S40000x128_1_0_n_n_0_1_1128_wf : GatherDims.WF S1340x128 S40000x1 S40000x128 [1] [0] [] [0] [] 1 ![1, 128]
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []
  scatter_S256x128_S40000x1_S40000x128_1_0_0_1_wf : ScatterDims.WF S256x128 S40000x1 S40000x128 [1] [0] [0] 1
  dot_S256x128_S128x128_S256x128_1_0_0_1_n_n_wf : DotDims.WF S256x128 S128x128 S256x128 [1] [0] [0] [1] [] []
  dot_S256x128_S128x41_S256x41_1_0_0_1_n_n_wf : DotDims.WF S256x128 S128x41 S256x41 [1] [0] [0] [1] [] []

variable [Facts₀]

def gather_S1340x128_S40000x1_S40000x128_1_0_n_n_0_1_1128 : GatherDims S1340x128 S40000x1 S40000x128 where
  offsetDims := [1]
  collapsedSliceDims := [0]
  operandBatchingDims := []
  startIndicesBatchingDims := []
  startIndexMap := [0]
  indexVectorDim := 1
  sliceSizes := ![1, 128]
  wf := gather_S1340x128_S40000x1_S40000x128_1_0_n_n_0_1_1128_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S256x128_S40000x1_S40000x128_1_0_0_1 : ScatterDims S256x128 S40000x1 S40000x128 where
  updateWindowDims := [1]
  insertedWindowDims := [0]
  scatterDimsToOperandDims := [0]
  indexVectorDim := 1
  wf := scatter_S256x128_S40000x1_S40000x128_1_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x41_S256x41_1_0_0_1_n_n : DotDims S256x128 S128x41 S256x41 where
  lhsContracting := [1]
  rhsContracting := [0]
  lhsNonContracting := [0]
  rhsNonContracting := [1]
  lhsBatch := []
  rhsBatch := []
  wf := dot_S256x128_S128x41_S256x41_1_0_0_1_n_n_wf

class Facts : Prop extends Facts₀ where

variable [Facts]
-- ==== Proof.Net.lean ====
/-
  The network both programs compute, stage by stage, over the extended reals.

  A graph-isomorphism convolution stack on 40000 nodes with 128 features: an embedding lookup; three layers
  "sum the neighbours' rows into each node, add the node's own row, two dense layers with ReLU, batch normalisation";
  a fourth layer without normalisation; a sum of node rows per graph (256 graphs); a two-layer classifier.
  Every stage is written once, as the host operations both printed programs use, so that a stage one program computes
  inside a kernel and the other on the host can be compared against the same term.

  Batch normalisation is the one place where the two programs differ in arrangement:
  one forms  y * s + t  with  s = gamma * r,  t = beta - mean * s,  the other  gamma * (y - mean) * r + beta,
  where  r = (var + eps)^(-1/2).  They agree wherever every quantity involved is a real number (`bnFold_eq_bn`).
-/
import proofs.«160553_j66949950210692_1_alg».proof.ReferenceIdeal
import proofs.«160553_j66949950210692_1_alg».proof.Proof.Gen.ReferenceIdeal
import Idealize.ShloMosaic.PureOps.Ideal
import Idealize.ShloMosaic.PureOps.Ideal.Laws
import Idealize.ShloMosaic.Lib.ValueIdx
import Idealize.ShloMosaic.Lib.Pipeline.Value

noncomputable section

namespace Cert.Net

open Idealize.ShloMosaic Cert.ReferenceIdeal Cert.ReferenceIdeal.Facts₀

/-- A float array of shape `s` at the ideal instance: a function from indices to extended reals. -/
abbrev Arr (s : Shape) := FVec Ideal s .f32
/-- A 32-bit integer array of shape `s`. -/
abbrev IArr (s : Shape) := IVec s 32

/-! ## Dense layers -/

/-- A one-row matrix laid along each of the 40000 rows. -/
def rows (b : Arr S1x128) : Arr S40000x128 := broadcastInDim S40000x128 ![0, 1] bcast_S1x128_S40000x128_0_1 b
/-- A vector as a one-row matrix. -/
def row (v : Arr S128) : Arr S1x128 := broadcastInDim S1x128 ![1] bcast_S128_S1x128_1 v
/-- A vector laid along each of the 40000 rows. -/
def up (v : Arr S128) : Arr S40000x128 := rows (row v)
/-- The zero scalar. -/
def zero : Arr S_ := constant S_ .f32 0x00000000#32
/-- max(x, 0), entry by entry. -/
def relu (x : Arr S40000x128) : Arr S40000x128 := maximumf x (broadcastInDim S40000x128 ![] bcast_S_S40000x128 zero)
/-- Node features times a 128 x 128 weight matrix. -/
def mm (h : Arr S40000x128) (W : Arr S128x128) : Arr S40000x128 :=
  Host.dotGeneral dot_S40000x128_S128x128_S40000x128_1_0_0_1_n_n none h W
/-- relu(relu(h W1 + b1) W2 + b2), the biases given as one-row matrices. -/
def mlp (h : Arr S40000x128) (W1 : Arr S128x128) (b1 : Arr S1x128) (W2 : Arr S128x128) (b2 : Arr S1x128) : Arr S40000x128 :=
  relu (addf (mm (relu (addf (mm h W1) (rows b1))) W2) (rows b2))

/-! ## Neighbour aggregation -/

/-- Row 0 of the edge list: the source node of each edge. -/
def srcOf (e : IArr S2x640000) : IArr S640000 :=
  shapeCast S640000 (extractStridedSlice S1x640000 ![0, 0] e slices_S2x640000_S1x640000_0_0) shapeCasts_S1x640000_S640000
/-- Row 1 of the edge list: the destination node of each edge. -/
def dstOf (e : IArr S2x640000) : IArr S640000 :=
  shapeCast S640000 (extractStridedSlice S1x640000 ![1, 0] e slices_S2x640000_S1x640000_1_0) shapeCasts_S1x640000_S640000
/-- A negative node number counted from the end, as an index column. -/
def wrapNode (v : IArr S640000) : IArr S640000x1 :=
  broadcastInDim S640000x1 ![0] bcast_S640000_S640000x1_0
    (select (cmpi .slt v (broadcastInDim S640000 ![] bcast_S_S640000 (constantI S_ 32 0#32)))
      (addi v (broadcastInDim S640000 ![] bcast_S_S640000 (constantI S_ 32 40000#32))) v)
/-- For each node, the sum of the rows of `x` at the sources `src` of the edges whose destination `dst` is that node. -/
def aggregateSD (src dst : IArr S640000) (x : Arr S40000x128) : Arr S40000x128 :=
  Host.scatterAdd scatter_S40000x128_S640000x1_S640000x128_1_0_0_1
    (broadcastInDim S40000x128 ![] bcast_S_S40000x128 zero)
    (broadcastInDim S640000x1 ![0] bcast_S640000_S640000x1_0 dst)
    (Host.gather gather_S40000x128_S640000x1_S640000x128_1_0_n_n_0_1_1128 x (wrapNode src))
/-- The same from the edge list: sources in its row 0, destinations in its row 1. -/
def aggregate (e : IArr S2x640000) (x : Arr S40000x128) : Arr S40000x128 := aggregateSD (srcOf e) (dstOf e) x
/-- One convolution: the dense layers applied to each node's own row plus its neighbours' sum. -/
def gin (e : IArr S2x640000) (x : Arr S40000x128) (W1 : Arr S128x128) (b1 : Arr S1x128) (W2 : Arr S128x128) (b2 : Arr S1x128) :
    Arr S40000x128 :=
  mlp (addf x (aggregate e x)) W1 b1 W2 b2

/-! ## Batch statistics -/

/-- The column sums. -/
def sum0 (y : Arr S40000x128) : Arr S128 := Host.reduceAdd y zero reducesTo_S40000x128_S128_d0 h_S_
/-- The number of rows, 40000, as a float scalar. -/
def cN : Arr S_ := constant S_ .f32 0x471C4000#32
/-- The column means. -/
def mean (y : Arr S40000x128) : Arr S128 := Host.divf (sum0 y) (broadcastInDim S128 ![] bcast_S_S128 cN)
/-- Each entry minus its column's mean (the mean formed on a one-row matrix, as the variance's text has it). -/
def centred (y : Arr S40000x128) : Arr S40000x128 :=
  subf y (rows (Host.divf (row (sum0 y)) (broadcastInDim S1x128 ![] bcast_S_S1x128 cN)))
/-- The divisor of the variance: 40000 minus zero degrees of freedom. -/
def dof : Arr S_ := subf cN (sitofp .f32 (constantI S_ 32 0#32))
/-- The column variances (mean of squared deviations; the guard "divisor > 0" is part of the text). -/
def var (y : Arr S40000x128) : Arr S128 :=
  select (broadcastInDim S128 ![] bcast_S_S128 (cmpf .ogt dof zero))
    (Host.divf (sum0 (mulf (centred y) (centred y))) (broadcastInDim S128 ![] bcast_S_S128 dof))
    (broadcastInDim S128 ![] bcast_S_S128 (id (constant S_ .f32 0x7FC00000#32)))
/-- The stabiliser 1e-5 (its float value) along a vector. -/
def eps : Arr S128 := broadcastInDim S128 ![] bcast_S_S128 (constant S_ .f32 0x3727C5AC#32)
/-- (var + eps)^(-1/2), per column. -/
def rstd (y : Arr S40000x128) : Arr S128 := Host.rsqrt (addf (var y) eps)

/-! ## Batch normalisation, two arrangements -/

/-- gamma * (y - mean) * rstd + beta. -/
def bn (y : Arr S40000x128) (g b : Arr S128) : Arr S40000x128 :=
  addf (mulf (mulf (up g) (subf y (up (mean y)))) (up (rstd y))) (up b)
/-- The folded scale gamma * rstd. -/
def scale (y : Arr S40000x128) (g : Arr S128) : Arr S128 := mulf g (rstd y)
/-- The folded shift beta - mean * scale. -/
def shift (y : Arr S40000x128) (g b : Arr S128) : Arr S128 := subf b (mulf (mean y) (scale y g))
/-- y * s + t for one-row matrices s and t. -/
def affine (y : Arr S40000x128) (s t : Arr S1x128) : Arr S40000x128 := addf (mulf y (rows s)) (rows t)
/-- y * scale + shift. -/
def bnFold (y : Arr S40000x128) (g b : Arr S128) : Arr S40000x128 := affine y (row (scale y g)) (row (shift y g b))

/-! ## Embedding, pooling, classifier -/

/-- The embedding rows of the node tokens (a negative token counted from the end of the table). -/
def embed (tok : IArr S40000) (emb : Arr S1340x128) : Arr S40000x128 :=
  Host.gather gather_S1340x128_S40000x1_S40000x128_1_0_n_n_0_1_1128 emb
    (broadcastInDim S40000x1 ![0] bcast_S40000_S40000x1_0
      (select (cmpi .slt tok (broadcastInDim S40000 ![] bcast_S_S40000 (constantI S_ 32 0#32)))
        (addi tok (broadcastInDim S40000 ![] bcast_S_S40000 (constantI S_ 32 1340#32))) tok))
/-- For each graph, the sum of the rows of the nodes that belong to it. -/
def pool (batch : IArr S40000) (y : Arr S40000x128) : Arr S256x128 :=
  Host.scatterAdd scatter_S256x128_S40000x1_S40000x128_1_0_0_1
    (broadcastInDim S256x128 ![] bcast_S_S256x128 zero)
    (broadcastInDim S40000x1 ![0] bcast_S40000_S40000x1_0 batch) y
/-- relu(p W1 + b1) W2 + b2 on the 256 pooled rows, the biases given as one-row matrices. -/
def classify (p : Arr S256x128) (W1 : Arr S128x128) (b1 : Arr S1x128) (W2 : Arr S128x41) (b2 : Arr S1x41) : Arr S256x41 :=
  addf (Host.dotGeneral dot_S256x128_S128x41_S256x41_1_0_0_1_n_n none
      (maximumf (addf (Host.dotGeneral dot_S256x128_S128x128_S256x128_1_0_0_1_n_n none p W1)
          (broadcastInDim S256x128 ![0, 1] bcast_S1x128_S256x128_0_1 b1))
        (broadcastInDim S256x128 ![] bcast_S_S256x128 zero)) W2)
    (broadcastInDim S256x41 ![0, 1] bcast_S1x41_S256x41_0_1 b2)

/-- A 41-vector as a one-row matrix. -/
def row41 (v : Arr S41) : Arr S1x41 := broadcastInDim S1x41 ![1] bcast_S41_S1x41_1 v

/-! ## Slices of the stacked hidden-layer parameters -/

/-- Matrix `k` (0 or 1) of a stack of two 128 x 128 matrices. -/
def mat0 (W : Arr S2x128x128) : Arr S128x128 :=
  shapeCast S128x128 (extractStridedSlice S1x128x128 ![0, 0, 0] W slices_S2x128x128_S1x128x128_0_0_0) shapeCasts_S1x128x128_S128x128
def mat1 (W : Arr S2x128x128) : Arr S128x128 :=
  shapeCast S128x128 (extractStridedSlice S1x128x128 ![1, 0, 0] W slices_S2x128x128_S1x128x128_1_0_0) shapeCasts_S1x128x128_S128x128
/-- Row `k` (0 or 1) of a 2 x 128 matrix, as a vector. -/
def vec0 (b : Arr S2x128) : Arr S128 :=
  shapeCast S128 (extractStridedSlice S1x128 ![0, 0] b slices_S2x128_S1x128_0_0) shapeCasts_S1x128_S128
def vec1 (b : Arr S2x128) : Arr S128 :=
  shapeCast S128 (extractStridedSlice S1x128 ![1, 0] b slices_S2x128_S1x128_1_0) shapeCasts_S1x128_S128

end Cert.Net

end
-- ==== Proof.NetReal.lean ====
/-
  Which stages of the network keep every entry a real number.

  On the extended reals the two arrangements of batch normalisation agree only where nothing is infinite, so
  finiteness has to be carried from the inputs through every stage: lookups and re-layouts move entries; sums,
  products, differences and maxima of reals are real; a quotient by the real 40000 is real; the variance is a
  non-negative real, so the reciprocal square root of "variance plus a positive constant" is real.
-/
import proofs.«160553_j66949950210692_1_alg».proof.Proof.Net
import Idealize.ShloMosaic.Lib.IdealHost

noncomputable section

namespace Cert.Net

open Idealize.ShloMosaic Idealize.ShloMosaic.ValueIdx Cert.ReferenceIdeal Cert.ReferenceIdeal.Facts₀
open scoped BigOperators

/-! ## Single values -/

/-- The extended real `a` is a real number. -/
def Fin1 (a : EReal) : Prop := ∃ r : ℝ, a = (r : EReal)

theorem Fin1.add {a b : EReal} (ha : Fin1 a) (hb : Fin1 b) : Fin1 (a + b) := by
  obtain ⟨x, rfl⟩ := ha; obtain ⟨y, rfl⟩ := hb; exact ⟨x + y, (EReal.coe_add x y).symm⟩
theorem Fin1.sub {a b : EReal} (ha : Fin1 a) (hb : Fin1 b) : Fin1 (a - b) := by
  obtain ⟨x, rfl⟩ := ha; obtain ⟨y, rfl⟩ := hb; exact ⟨x - y, (EReal.coe_sub x y).symm⟩
theorem Fin1.mul {a b : EReal} (ha : Fin1 a) (hb : Fin1 b) : Fin1 (a * b) := by
  obtain ⟨x, rfl⟩ := ha; obtain ⟨y, rfl⟩ := hb; exact ⟨x * y, (EReal.coe_mul x y).symm⟩
theorem Fin1.max {a b : EReal} (ha : Fin1 a) (hb : Fin1 b) : Fin1 (max a b) := by
  obtain ⟨x, rfl⟩ := ha; obtain ⟨y, rfl⟩ := hb
  exact ⟨Max.max x y, (EReal.coe_strictMono.monotone.map_max (a := x) (b := y)).symm⟩
theorem Fin1.zero : Fin1 (0 : EReal) := ⟨0, rfl⟩

/-- A finite sum of reals is real. -/
theorem Fin1.sum {ι : Type} [DecidableEq ι] (s : Finset ι) (f : ι → EReal) (hf : ∀ i ∈ s, Fin1 (f i)) : Fin1 (∑ i ∈ s, f i) := by
  revert hf
  refine Finset.induction_on s ?_ ?_
  · intro _; rw [Finset.sum_empty]; exact Fin1.zero
  · intro a s ha ih hf
    rw [Finset.sum_insert ha]
    exact (hf a (Finset.mem_insert_self a s)).add (ih fun i hi => hf i (Finset.mem_insert_of_mem hi))

/-- A finite sum of squares of reals is a non-negative real. -/
theorem sum_sq_nonneg {ι : Type} [DecidableEq ι] (s : Finset ι) (f : ι → EReal) (hf : ∀ i ∈ s, Fin1 (f i)) :
    ∃ r : ℝ, 0 ≤ r ∧ ∑ i ∈ s, f i * f i = (r : EReal) := by
  revert hf
  refine Finset.induction_on s ?_ ?_
  · intro _; exact ⟨0, le_refl _, by rw [Finset.sum_empty]; rfl⟩
  · intro a s ha ih hf
    obtain ⟨r, hr, e⟩ := ih fun i hi => hf i (Finset.mem_insert_of_mem hi)
    obtain ⟨x, hx⟩ := hf a (Finset.mem_insert_self a s)
    refine ⟨x * x + r, add_nonneg (mul_self_nonneg x) hr, ?_⟩
    rw [Finset.sum_insert ha, e, hx, ← EReal.coe_mul, ← EReal.coe_add]

/-! ## Arrays -/

/-- Every entry of the array is a real number. -/
def IsReal {s : Shape} (v : Arr s) : Prop := ∀ i, Fin1 (v i)

theorem IsReal.bcast {s t : Shape} {dims : Fin s.rank → Fin t.rank} (h : s.BroadcastsInDim t dims) {x : Arr s} (hx : IsReal x) :
    IsReal (broadcastInDim t dims h x : Arr t) := fun _ => hx _
theorem IsReal.cast {s t : Shape} (h : s.ShapeCasts t) {x : Arr s} (hx : IsReal x) : IsReal (shapeCast t x h : Arr t) := fun _ => hx _
theorem IsReal.slice {s t : Shape} {off : Fin s.rank → Nat} (h : s.Slices off t) {x : Arr s} (hx : IsReal x) :
    IsReal (extractStridedSlice t off x h : Arr t) := fun _ => hx _
theorem IsReal.addf {s : Shape} {x y : Arr s} (hx : IsReal x) (hy : IsReal y) : IsReal (addf x y) := fun i => (hx i).add (hy i)
theorem IsReal.subf {s : Shape} {x y : Arr s} (hx : IsReal x) (hy : IsReal y) : IsReal (subf x y) := fun i => (hx i).sub (hy i)
theorem IsReal.mulf {s : Shape} {x y : Arr s} (hx : IsReal x) (hy : IsReal y) : IsReal (mulf x y) := fun i => (hx i).mul (hy i)
theorem IsReal.maximumf {s : Shape} {x y : Arr s} (hx : IsReal x) (hy : IsReal y) : IsReal (maximumf x y) := fun i => (hx i).max (hy i)

/-- The zero scalar is the real zero. -/
theorem zero_apply (i : S_.Idx) : zero i = 0 := Ideal.ofBits_zero_f32
theorem isReal_zero : IsReal zero := fun i => ⟨0, zero_apply i⟩

theorem IsReal.rows {b : Arr S1x128} (hb : IsReal b) : IsReal (rows b) := hb.bcast _
theorem IsReal.row {v : Arr S128} (hv : IsReal v) : IsReal (row v) := hv.bcast _
theorem IsReal.up {v : Arr S128} (hv : IsReal v) : IsReal (up v) := hv.row.rows
theorem IsReal.relu {x : Arr S40000x128} (hx : IsReal x) : IsReal (relu x) := hx.maximumf (isReal_zero.bcast _)

/-- A host matrix product of real matrices is real: each entry is a finite sum of products. -/
theorem IsReal.dot {sl sr so : Shape} (d : DotDims sl sr so) {l : Arr sl} {r : Arr sr} (hl : IsReal l) (hr : IsReal r) :
    IsReal (Host.dotGeneral d none l r : Arr so) := fun j => by
  simp only [Host.dotGeneral]
  rw [Ideal.dotGeneral_apply]
  classical
  exact Fin1.sum _ _ fun k _ => (hl _).mul (hr _)

theorem IsReal.mm {h : Arr S40000x128} {W : Arr S128x128} (hh : IsReal h) (hW : IsReal W) : IsReal (mm h W) := hh.dot _ hW
theorem IsReal.mlp {h : Arr S40000x128} {W1 W2 : Arr S128x128} {b1 b2 : Arr S1x128} (hh : IsReal h) (hW1 : IsReal W1) (hb1 : IsReal b1)
    (hW2 : IsReal W2) (hb2 : IsReal b2) : IsReal (mlp h W1 b1 W2 b2) :=
  (((((hh.mm hW1).addf hb1.rows).relu).mm hW2).addf hb2.rows).relu

/-- A lookup of rows of a real table is real: every entry of the result is an entry of the table. -/
theorem IsReal.gather {s si t : Shape} {w : Nat} (d : GatherDims s si t) {x : Arr s} (hx : IsReal x) (idx : IVec si w) :
    IsReal (Host.gather d x idx : Arr t) := fun _ => hx _

/-- An accumulating scatter of real rows into a real array is real: an entry plus a finite sum of update entries. -/
theorem IsReal.scatterAdd {s si u : Shape} {w : Nat} (d : ScatterDims s si u) {x : Arr s} (hx : IsReal x) (idx : IVec si w) {upd : Arr u}
    (hu : IsReal upd) : IsReal (Host.scatterAdd d x idx upd : Arr s) := fun i => by
  show Fin1 (Ideal.hostScatterAdd d x idx upd i)
  unfold Ideal.hostScatterAdd
  classical
  exact (hx i).add (Fin1.sum _ _ fun j _ => hu j)

theorem IsReal.aggregate (e : IArr S2x640000) {x : Arr S40000x128} (hx : IsReal x) : IsReal (aggregate e x) :=
  IsReal.scatterAdd _ (isReal_zero.bcast _) _ (hx.gather _ _)
theorem IsReal.gin (e : IArr S2x640000) {x : Arr S40000x128} {W1 W2 : Arr S128x128} {b1 b2 : Arr S1x128} (hx : IsReal x) (hW1 : IsReal W1)
    (hb1 : IsReal b1) (hW2 : IsReal W2) (hb2 : IsReal b2) : IsReal (gin e x W1 b1 W2 b2) :=
  (hx.addf (hx.aggregate e)).mlp hW1 hb1 hW2 hb2
theorem IsReal.embed (tok : IArr S40000) {emb : Arr S1340x128} (h : IsReal emb) : IsReal (embed tok emb) := h.gather _ _
theorem IsReal.pool (batch : IArr S40000) {y : Arr S40000x128} (h : IsReal y) : IsReal (pool batch y) :=
  IsReal.scatterAdd _ (isReal_zero.bcast _) _ h

end Cert.Net

end
-- ==== Proof.NetNorm.lean ====
/-
  Batch normalisation: its statistics are real on real data, and its two arrangements agree there.

  For a real matrix y with column means m, column variances v >= 0 and r = (v + eps)^(-1/2), eps > 0, and real
  vectors gamma, beta:   y * (gamma * r) + (beta - m * (gamma * r))  =  gamma * (y - m) * r + beta,
  entry by entry, because both sides are polynomials in real numbers and agree by distributivity.
-/
import proofs.«160553_j66949950210692_1_alg».proof.Proof.NetReal

noncomputable section

namespace Cert.Net

open Idealize.ShloMosaic Idealize.ShloMosaic.ValueIdx Cert.ReferenceIdeal Cert.ReferenceIdeal.Facts₀
open scoped BigOperators

/-! ## The literals -/

/-- The row count is the real 40000. -/
theorem cN_apply (i : S_.Idx) : cN i = ((40000 : ℝ) : EReal) := by
  show Ideal.ofBits .f32 0x471C4000#32 = _
  simp [Ideal.ofBits, Ideal.ieee, -EReal.coe_mul] <;> norm_num

/-- The stabiliser is the positive real 10995116 / 2^40 (the float nearest 1e-5). -/
theorem eps_apply (i : S128.Idx) : eps i = (((10995116 : ℝ) * (2 : ℝ) ^ (-40 : ℤ) : ℝ) : EReal) := by
  show Ideal.ofBits .f32 0x3727C5AC#32 = _
  simp [Ideal.ofBits, Ideal.ieee, -EReal.coe_mul] <;> norm_num

/-- The variance's divisor is 40000 - 0. -/
theorem dof_apply (i : S_.Idx) : dof i = ((40000 : ℝ) : EReal) := by
  show cN i - ((((0#32 : BitVec 32).toInt : ℤ) : ℝ) : EReal) = _
  rw [cN_apply]; simp

/-- The guard "divisor > 0" of the variance holds. -/
theorem guard_apply (i : S128.Idx) : (broadcastInDim S128 ![] bcast_S_S128 (cmpf .ogt dof zero) : IVec S128 1) i = 1#1 := by
  show Ideal.cmp .ogt (dof _) (zero _) = 1#1
  rw [dof_apply, zero_apply]
  simp [Ideal.cmp]

/-! ## The statistics -/

theorem Fin1.div_real {a : EReal} (ha : Fin1 a) {c : ℝ} (hc : c ≠ 0) : Fin1 (Ideal.div a (c : EReal)) := by
  rw [Ideal.div_coe hc]; exact ha.mul ⟨_, rfl⟩

theorem IsReal.sum0 {y : Arr S40000x128} (hy : IsReal y) : IsReal (sum0 y) := fun j => by
  show Fin1 (Ideal.hostReduceAdd _ y (zero _) j)
  unfold Ideal.hostReduceAdd
  classical
  exact (isReal_zero _).add (Fin1.sum _ _ fun i _ => hy i)

/-- A column sum of squares of reals is a non-negative real. -/
theorem sum0_sq_nonneg {c : Arr S40000x128} (hc : IsReal c) (j : S128.Idx) : ∃ r : ℝ, 0 ≤ r ∧ sum0 (mulf c c) j = (r : EReal) := by
  show ∃ r : ℝ, 0 ≤ r ∧ Ideal.hostReduceAdd _ (mulf c c) (zero _) j = (r : EReal)
  unfold Ideal.hostReduceAdd
  rw [zero_apply, zero_add]
  classical
  exact sum_sq_nonneg _ c fun i _ => hc i

theorem IsReal.mean {y : Arr S40000x128} (hy : IsReal y) : IsReal (mean y) := fun j => by
  show Fin1 (Ideal.div (Cert.Net.sum0 y j) (cN _))
  rw [cN_apply]; exact (hy.sum0 j).div_real (by norm_num)

theorem IsReal.centred {y : Arr S40000x128} (hy : IsReal y) : IsReal (centred y) :=
  hy.subf (IsReal.rows fun j => by
    show Fin1 (Ideal.div (Cert.Net.row (Cert.Net.sum0 y) j) (cN _))
    rw [cN_apply]; exact (hy.sum0.row j).div_real (by norm_num))

/-- The variance of a real column is a non-negative real: a sum of squares over 40000. -/
theorem var_nonneg {y : Arr S40000x128} (hy : IsReal y) (j : S128.Idx) : ∃ v : ℝ, 0 ≤ v ∧ var y j = (v : EReal) := by
  obtain ⟨r, hr, e⟩ := sum0_sq_nonneg hy.centred j
  refine ⟨r * (1 / 40000), by positivity, ?_⟩
  show Scalar.select ((broadcastInDim S128 ![] bcast_S_S128 (cmpf .ogt dof zero) : IVec S128 1) j)
      (Ideal.div (sum0 (mulf (centred y) (centred y)) j) (dof _)) _ = _
  rw [guard_apply, dof_apply, e, Ideal.div_coe (by norm_num), ← EReal.coe_mul]
  exact if_pos rfl

/-- So the reciprocal square root of "variance plus the stabiliser" is real: its argument is a positive real. -/
theorem IsReal.rstd {y : Arr S40000x128} (hy : IsReal y) : IsReal (rstd y) := fun j => by
  obtain ⟨v, hv, e⟩ := var_nonneg hy j
  show Fin1 (Ideal.rsqrt (var y j + eps j))
  have hpos : 0 < v + (10995116 : ℝ) * (2 : ℝ) ^ (-40 : ℤ) := by positivity
  rw [e, eps_apply, ← EReal.coe_add, Ideal.rsqrt_coe, if_neg (not_lt.mpr hpos.le), if_neg hpos.ne']
  exact ⟨_, rfl⟩

theorem IsReal.scale {y : Arr S40000x128} {g : Arr S128} (hy : IsReal y) (hg : IsReal g) : IsReal (scale y g) := hg.mulf hy.rstd
theorem IsReal.shift {y : Arr S40000x128} {g b : Arr S128} (hy : IsReal y) (hg : IsReal g) (hb : IsReal b) : IsReal (shift y g b) :=
  hb.subf (hy.mean.mulf (hy.scale hg))
theorem IsReal.bn {y : Arr S40000x128} {g b : Arr S128} (hy : IsReal y) (hg : IsReal g) (hb : IsReal b) : IsReal (bn y g b) :=
  ((hg.up.mulf (hy.subf hy.mean.up)).mulf hy.rstd.up).addf hb.up

/-! ## The two arrangements -/

/-- A vector laid along the rows reads, at a matrix index, the vector at that index's column. -/
theorem up_apply (i : S40000x128.Idx) : ∃ k : S128.Idx, ∀ v : Arr S128, up v i = v k := ⟨_, fun _ => rfl⟩

/-- On real data the folded form y * scale + shift is gamma * (y - mean) * rstd + beta. -/
theorem bnFold_eq_bn {y : Arr S40000x128} {g b : Arr S128} (hy : IsReal y) (hg : IsReal g) (hb : IsReal b) : bnFold y g b = bn y g b := by
  funext i
  obtain ⟨k, hk⟩ := up_apply i
  show y i * up (scale y g) i + up (shift y g b) i = up g i * (y i - up (mean y) i) * up (rstd y) i + up b i
  simp only [hk]
  show y i * (g k * rstd y k) + (b k - mean y k * (g k * rstd y k)) = g k * (y i - mean y k) * rstd y k + b k
  obtain ⟨a, ha⟩ := hy i
  obtain ⟨γ, hγ⟩ := hg k
  obtain ⟨β, hβ⟩ := hb k
  obtain ⟨μ, hμ⟩ := hy.mean k
  obtain ⟨ρ, hρ⟩ := hy.rstd k
  rw [ha, hγ, hβ, hμ, hρ]
  norm_cast
  ring

end Cert.Net

end
-- ==== Proof.NetWhole.lean ====
/-
  The whole network, in the two arrangements of its three normalised layers, and their agreement on real inputs.

  A normalised layer is "convolution, then batch normalisation". Real inputs give a real convolution output (sums
  and products of reals), on which the folded normalisation equals the plain one and is real again; so the
  agreement passes from layer to layer. The fourth convolution, the pooling and the classifier are the same text
  in both arrangements.
-/
import proofs.«160553_j66949950210692_1_alg».proof.Proof.NetNorm

noncomputable section

namespace Cert.Net

open Idealize.ShloMosaic Cert.ReferenceIdeal Cert.ReferenceIdeal.Facts₀

/-- Convolution then batch normalisation, the normalisation written gamma * (y - mean) * rstd + beta. -/
def layer (e : IArr S2x640000) (x : Arr S40000x128) (W1 : Arr S128x128) (b1 : Arr S128) (W2 : Arr S128x128) (b2 g b : Arr S128) :
    Arr S40000x128 :=
  bn (gin e x W1 (row b1) W2 (row b2)) g b
/-- The same with the normalisation folded to y * scale + shift. -/
def layerFold (e : IArr S2x640000) (x : Arr S40000x128) (W1 : Arr S128x128) (b1 : Arr S128) (W2 : Arr S128x128) (b2 g b : Arr S128) :
    Arr S40000x128 :=
  bnFold (gin e x W1 (row b1) W2 (row b2)) g b

theorem IsReal.layer (e : IArr S2x640000) {x : Arr S40000x128} {W1 W2 : Arr S128x128} {b1 b2 g b : Arr S128} (hx : IsReal x)
    (hW1 : IsReal W1) (hb1 : IsReal b1) (hW2 : IsReal W2) (hb2 : IsReal b2) (hg : IsReal g) (hb : IsReal b) :
    IsReal (Cert.Net.layer e x W1 b1 W2 b2 g b) :=
  (hx.gin e hW1 hb1.row hW2 hb2.row).bn hg hb

theorem layerFold_eq (e : IArr S2x640000) {x : Arr S40000x128} {W1 W2 : Arr S128x128} {b1 b2 g b : Arr S128} (hx : IsReal x)
    (hW1 : IsReal W1) (hb1 : IsReal b1) (hW2 : IsReal W2) (hb2 : IsReal b2) (hg : IsReal g) (hb : IsReal b) :
    layerFold e x W1 b1 W2 b2 g b = layer e x W1 b1 W2 b2 g b :=
  bnFold_eq_bn (hx.gin e hW1 hb1.row hW2 hb2.row) hg hb

theorem IsReal.mat0 {W : Arr S2x128x128} (h : IsReal W) : IsReal (mat0 W) := (h.slice _).cast _
theorem IsReal.mat1 {W : Arr S2x128x128} (h : IsReal W) : IsReal (mat1 W) := (h.slice _).cast _
theorem IsReal.vec0 {b : Arr S2x128} (h : IsReal b) : IsReal (vec0 b) := (h.slice _).cast _
theorem IsReal.vec1 {b : Arr S2x128} (h : IsReal b) : IsReal (vec1 b) := (h.slice _).cast _

/-- The last convolution, the per-graph sums and the classifier, from the third normalised layer's output. -/
def tail (e : IArr S2x640000) (batch : IArr S40000) (x3 : Arr S40000x128) (Wout1 : Arr S128x128) (bout1 : Arr S128) (Wout2 : Arr S128x128)
    (bout2 : Arr S128) (Wfc1 : Arr S128x128) (bfc1 : Arr S128) (Wfc2 : Arr S128x41) (bfc2 : Arr S41) : Arr S256x41 :=
  classify (pool batch (gin e x3 Wout1 (row bout1) Wout2 (row bout2))) Wfc1 (row bfc1) Wfc2 (row41 bfc2)

/-- The network with plain normalisations. -/
def net (tok : IArr S40000) (e : IArr S2x640000) (batch : IArr S40000) (emb : Arr S1340x128) (Win1 : Arr S128x128) (bin1 : Arr S128)
    (Win2 : Arr S128x128) (bin2 g_in b_in : Arr S128) (Wh1 : Arr S2x128x128) (bh1 : Arr S2x128) (Wh2 : Arr S2x128x128) (bh2 g_h b_h : Arr S2x128)
    (Wout1 : Arr S128x128) (bout1 : Arr S128) (Wout2 : Arr S128x128) (bout2 : Arr S128) (Wfc1 : Arr S128x128) (bfc1 : Arr S128)
    (Wfc2 : Arr S128x41) (bfc2 : Arr S41) : Arr S256x41 :=
  tail e batch
    (layer e
      (layer e (layer e (embed tok emb) Win1 bin1 Win2 bin2 g_in b_in) (mat0 Wh1) (vec0 bh1) (mat0 Wh2) (vec0 bh2) (vec0 g_h) (vec0 b_h))
      (mat1 Wh1) (vec1 bh1) (mat1 Wh2) (vec1 bh2) (vec1 g_h) (vec1 b_h))
    Wout1 bout1 Wout2 bout2 Wfc1 bfc1 Wfc2 bfc2

/-- The network with folded normalisations. -/
def netFold (tok : IArr S40000) (e : IArr S2x640000) (batch : IArr S40000) (emb : Arr S1340x128) (Win1 : Arr S128x128) (bin1 : Arr S128)
    (Win2 : Arr S128x128) (bin2 g_in b_in : Arr S128) (Wh1 : Arr S2x128x128) (bh1 : Arr S2x128) (Wh2 : Arr S2x128x128) (bh2 g_h b_h : Arr S2x128)
    (Wout1 : Arr S128x128) (bout1 : Arr S128) (Wout2 : Arr S128x128) (bout2 : Arr S128) (Wfc1 : Arr S128x128) (bfc1 : Arr S128)
    (Wfc2 : Arr S128x41) (bfc2 : Arr S41) : Arr S256x41 :=
  tail e batch
    (layerFold e
      (layerFold e (layerFold e (embed tok emb) Win1 bin1 Win2 bin2 g_in b_in) (mat0 Wh1) (vec0 bh1) (mat0 Wh2) (vec0 bh2) (vec0 g_h) (vec0 b_h))
      (mat1 Wh1) (vec1 bh1) (mat1 Wh2) (vec1 bh2) (vec1 g_h) (vec1 b_h))
    Wout1 bout1 Wout2 bout2 Wfc1 bfc1 Wfc2 bfc2

/-- On real parameters the two arrangements of the network are one function (the integer inputs are arbitrary). -/
theorem netFold_eq_net (tok : IArr S40000) (e : IArr S2x640000) (batch : IArr S40000) {emb : Arr S1340x128} {Win1 : Arr S128x128} {bin1 : Arr S128}
    {Win2 : Arr S128x128} {bin2 g_in b_in : Arr S128} {Wh1 : Arr S2x128x128} {bh1 : Arr S2x128} {Wh2 : Arr S2x128x128} {bh2 g_h b_h : Arr S2x128}
    (Wout1 : Arr S128x128) (bout1 : Arr S128) (Wout2 : Arr S128x128) (bout2 : Arr S128) (Wfc1 : Arr S128x128) (bfc1 : Arr S128)
    (Wfc2 : Arr S128x41) (bfc2 : Arr S41)
    (hemb : IsReal emb) (hWin1 : IsReal Win1) (hbin1 : IsReal bin1) (hWin2 : IsReal Win2) (hbin2 : IsReal bin2) (hg_in : IsReal g_in)
    (hb_in : IsReal b_in) (hWh1 : IsReal Wh1) (hbh1 : IsReal bh1) (hWh2 : IsReal Wh2) (hbh2 : IsReal bh2) (hg_h : IsReal g_h) (hb_h : IsReal b_h) :
    netFold tok e batch emb Win1 bin1 Win2 bin2 g_in b_in Wh1 bh1 Wh2 bh2 g_h b_h Wout1 bout1 Wout2 bout2 Wfc1 bfc1 Wfc2 bfc2
      = net tok e batch emb Win1 bin1 Win2 bin2 g_in b_in Wh1 bh1 Wh2 bh2 g_h b_h Wout1 bout1 Wout2 bout2 Wfc1 bfc1 Wfc2 bfc2 := by
  unfold netFold net
  have h0 : IsReal (embed tok emb) := hemb.embed tok
  rw [layerFold_eq e h0 hWin1 hbin1 hWin2 hbin2 hg_in hb_in]
  have h1 := h0.layer e hWin1 hbin1 hWin2 hbin2 hg_in hb_in
  rw [layerFold_eq e h1 hWh1.mat0 hbh1.vec0 hWh2.mat0 hbh2.vec0 hg_h.vec0 hb_h.vec0]
  have h2 := h1.layer e hWh1.mat0 hbh1.vec0 hWh2.mat0 hbh2.vec0 hg_h.vec0 hb_h.vec0
  rw [layerFold_eq e h2 hWh1.mat1 hbh1.vec1 hWh2.mat1 hbh2.vec1 hg_h.vec1 hb_h.vec1]

end Cert.Net

end
-- ==== Proof.PreReal.lean ====
/-
  From the precondition "every floating-point input is finite" to "every entry of every floating-point input is a
  real number".

  The precondition is printed as a function of the 24 argument arrays: for each of the 21 floating-point arrays `x` it
  forms the conjunction over all entries of `|x| < +∞`, and it is the conjunction of these 21 bits. On the extended reals
  `|x|` is `max x (-x)`, the pattern `0x7F800000` denotes `⊤`, and an extended real whose absolute value is strictly below
  `⊤` is neither `⊤` nor `⊥`, hence a real number.
-/
import proofs.«160553_j66949950210692_1_alg».proof.Pre_finite_inputs
import proofs.«160553_j66949950210692_1_alg».proof.Proof.Gen.Pre_finite_inputs
import proofs.«160553_j66949950210692_1_alg».proof.Proof.NetReal
import Idealize.ShloMosaic.Lib.ReduceAll

noncomputable section

namespace Cert.PreReal

open Idealize.ShloMosaic Idealize.ShloMosaic.ValueIdx Cert.Pre_finite_inputs Cert.Pre_finite_inputs.Facts

/-- The shape of a scalar has exactly one index. -/
instance : Subsingleton S_.Idx := ⟨fun a b => funext fun d => d.elim0⟩

/-- The pattern `0x7F800000` denotes `+∞`. -/
theorem ofBits_inf : Ideal.ofBits .f32 0x7F800000#32 = (⊤ : EReal) := by simp [Ideal.ofBits, Ideal.ieee]

/-- An extended real whose absolute value `max x (-x)` is strictly below `+∞` is a real number. -/
theorem fin1_of_abs_lt_inf (x : EReal)
    (h : Ideal.cmp .olt (max x (-x)) (Ideal.ofBits .f32 0x7F800000#32) = 1#1) : Cert.Net.Fin1 x := by
  rw [ofBits_inf] at h
  induction x using EReal.rec with
  | bot => simp [Ideal.cmp] at h
  | coe r => exact ⟨r, rfl⟩
  | top => simp [Ideal.cmp] at h

/-- If the conjunction over all entries of `|x| < +∞` is 1, every entry of `x` is a real number. -/
theorem isReal_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32)))
        (constantI S_ 1 1#1) hr hu ix0 = 1#1) : Cert.Net.IsReal x := by
  intro i
  exact fin1_of_abs_lt_inf (x i) (Host.reduce_andi_all _ _ hr hu ix0 h i)

/-- The conjunction of two arrays of bits is 1 at an index exactly when both are. -/
theorem andi_apply_eq_one {s : Shape} (x y : IVec s 1) (i : s.Idx) :
    andi x y i = 1#1 ↔ x i = 1#1 ∧ y i = 1#1 := IntOp.andi_eq_one

/-- The precondition holds only if every entry of each of the 21 floating-point inputs is a real number. -/
theorem real_of_pre (a0 : IVec S40000 32) (a1 : IVec S2x640000 32) (a2 : IVec S40000 32) (a3 : FVec Ideal S1340x128 .f32) (a4 : FVec Ideal S128x128 .f32) (a5 : FVec Ideal S128 .f32) (a6 : FVec Ideal S128x128 .f32) (a7 : FVec Ideal S128 .f32) (a8 : FVec Ideal S128 .f32) (a9 : FVec Ideal S128 .f32) (a10 : FVec Ideal S2x128x128 .f32) (a11 : FVec Ideal S2x128 .f32) (a12 : FVec Ideal S2x128x128 .f32) (a13 : FVec Ideal S2x128 .f32) (a14 : FVec Ideal S2x128 .f32) (a15 : FVec Ideal S2x128 .f32) (a16 : FVec Ideal S128x128 .f32) (a17 : FVec Ideal S128 .f32) (a18 : FVec Ideal S128x128 .f32) (a19 : FVec Ideal S128 .f32) (a20 : FVec Ideal S128x128 .f32) (a21 : FVec Ideal S128 .f32) (a22 : FVec Ideal S128x41 .f32) (a23 : FVec Ideal S41 .f32)
    (h : Cert.Pre_finite_inputs.fn (F := Ideal) a0 a1 a2 a3 a4 a5 a6 a7 a8 a9 a10 a11 a12 a13 a14 a15 a16 a17 a18 a19 a20 a21 a22 a23 = fun _ => 1#1) :
    Cert.Net.IsReal a3 ∧ Cert.Net.IsReal a4 ∧ Cert.Net.IsReal a5 ∧ Cert.Net.IsReal a6 ∧ Cert.Net.IsReal a7 ∧ Cert.Net.IsReal a8 ∧ Cert.Net.IsReal a9 ∧ Cert.Net.IsReal a10 ∧ Cert.Net.IsReal a11 ∧ Cert.Net.IsReal a12 ∧ Cert.Net.IsReal a13 ∧ Cert.Net.IsReal a14 ∧ Cert.Net.IsReal a15 ∧ Cert.Net.IsReal a16 ∧ Cert.Net.IsReal a17 ∧ Cert.Net.IsReal a18 ∧ Cert.Net.IsReal a19 ∧ Cert.Net.IsReal a20 ∧ Cert.Net.IsReal a21 ∧ Cert.Net.IsReal a22 ∧ Cert.Net.IsReal a23 := by
  have h0 := congrFun h ix0
  dsimp only [fn, fn_part1, fn_part2, fn_part3, fn_part4, fn_part5, fn_part6] at h0
  simp only [andi_apply_eq_one] at h0
  obtain ⟨⟨⟨⟨⟨⟨⟨⟨⟨⟨⟨⟨⟨⟨⟨⟨⟨⟨⟨⟨h3, h4⟩, h5⟩, h6⟩, h7⟩, h8⟩, h9⟩, h10⟩, h11⟩, h12⟩, h13⟩, h14⟩, h15⟩, h16⟩, h17⟩, h18⟩, h19⟩, h20⟩, h21⟩, h22⟩, h23⟩ := h0
  exact ⟨isReal_of_all a3 _ _ _ h3,
    isReal_of_all a4 _ _ _ h4,
    isReal_of_all a5 _ _ _ h5,
    isReal_of_all a6 _ _ _ h6,
    isReal_of_all a7 _ _ _ h7,
    isReal_of_all a8 _ _ _ h8,
    isReal_of_all a9 _ _ _ h9,
    isReal_of_all a10 _ _ _ h10,
    isReal_of_all a11 _ _ _ h11,
    isReal_of_all a12 _ _ _ h12,
    isReal_of_all a13 _ _ _ h13,
    isReal_of_all a14 _ _ _ h14,
    isReal_of_all a15 _ _ _ h15,
    isReal_of_all a16 _ _ _ h16,
    isReal_of_all a17 _ _ _ h17,
    isReal_of_all a18 _ _ _ h18,
    isReal_of_all a19 _ _ _ h19,
    isReal_of_all a20 _ _ _ h20,
    isReal_of_all a21 _ _ _ h21,
    isReal_of_all a22 _ _ _ h22,
    isReal_of_all a23 _ _ _ h23⟩

end Cert.PreReal

end
-- ==== Proof.NamedRun.lean ====
/-
  The kernel program's run with its result named: the generated frame's statement with one more conjunct, that the
  result array ends at the last boundary's contents, which is what the last region's write-backs leave there.
-/
import proofs.«160553_j66949950210692_1_alg».proof.Proof.Gen.KernelIdeal.Frame
import Idealize.ShloMosaic.PureOps.Ideal

set_option maxRecDepth 16384

noncomputable section

namespace Cert.KernelIdeal.HostRead

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- Every weakly fair execution of @main on the TensorCores terminates, nothing faulting; in every final state the
    result array holds the last boundary's contents and the argument arrays are as launched. -/
theorem run_named : θ_run defs (onTc (τ := τ) (main (F := Ideal))) ⟨m, fun _ => 0, ρ⟩ (fun r => ∀ c : Dev nD,
      r.2.mem ((c.tc : Thread nD τ).loc main_v131) = Gen.W22 m ρ c (Proc.devRef .tc main_v131)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v131 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c),
       (h c _ (mem_uc main_arg14 (by decide))).trans (W22_main_arg14 m ρ c),
       (h c _ (mem_uc main_arg15 (by decide))).trans (W22_main_arg15 m ρ c),
       (h c _ (mem_uc main_arg16 (by decide))).trans (W22_main_arg16 m ρ c),
       (h c _ (mem_uc main_arg17 (by decide))).trans (W22_main_arg17 m ρ c),
       (h c _ (mem_uc main_arg18 (by decide))).trans (W22_main_arg18 m ρ c),
       (h c _ (mem_uc main_arg19 (by decide))).trans (W22_main_arg19 m ρ c),
       (h c _ (mem_uc main_arg20 (by decide))).trans (W22_main_arg20 m ρ c),
       (h c _ (mem_uc main_arg21 (by decide))).trans (W22_main_arg21 m ρ c),
       (h c _ (mem_uc main_arg22 (by decide))).trans (W22_main_arg22 m ρ c),
       (h c _ (mem_uc main_arg23 (by decide))).trans (W22_main_arg23 m ρ c)⟩)

/-- The result array at the last boundary: what the last region's write-backs leave in its output window's array. -/
theorem result_eq (c : Dev nD) :
    Gen.W22 m ρ c (Proc.devRef .tc main_v131) = (Gen.dat7 (Gen.V21 m ρ) c).arrAt 5 cfg7.N :=
  Gen.W22_arr m ρ c 5

end Cert.KernelIdeal.HostRead

end
-- ==== Proof.HostReadBase.lean ====
/-
  What survives the run untouched, read at the region exits where a later host stretch uses it: an argument array
  holds its launch contents, and the two rows of the edge list sliced before the first region hold those slices,
  at every later boundary (no host operation and no region writes them).
-/
import proofs.«160553_j66949950210692_1_alg».proof.Proof.Gen.KernelIdeal.Frame
import proofs.«160553_j66949950210692_1_alg».proof.Proof.Net

set_option maxRecDepth 16384

noncomputable section

namespace Cert.KernelIdeal.HostRead

open Idealize.ShloMosaic Idealize.ShloMosaic.TcCoe
open Cert.KernelIdeal Cert.KernelIdeal.Gen

variable (m : (ℓ : Loc nD τ sig) → Buf (Elt Ideal) ℓ) (ρ : Dev nD → PrngReg)

/-- A vector as a one-row matrix (a reshape). -/
abbrev rc (v : Net.Arr S128) : Net.Arr S1x128 := shapeCast S1x128 v shapeCasts_S128_S1x128
/-- A 41-vector as a one-row matrix (a reshape). -/
abbrev rc41 (v : Net.Arr S41) : Net.Arr S1x41 := shapeCast S1x41 v shapeCasts_S41_S1x41

/-- Unfolds the boundary contents after host stretches down to the last region exit and drops every operation that
    does not write the reference read. -/
macro "carry_host" : tactic =>
  `(tactic| (dsimp only [W1, W3, W4, W5, W7, W9, W10, W11, W13, W15, W16, W17, W19, W21]
             after_results_simp))

/-! ## The two rows of the edge list, sliced before the first region -/

theorem W1_v1 (c : Dev nD) : W1 m ρ c (Proc.devRef .tc main_v1) = Net.srcOf (m ((c.tc : Thread nD τ).loc main_arg1)) := by
  dsimp only [W1]; after_results_simp; rfl
theorem W1_v3 (c : Dev nD) : W1 m ρ c (Proc.devRef .tc main_v3) = Net.dstOf (m ((c.tc : Thread nD τ).loc main_arg1)) := by
  dsimp only [W1]; after_results_simp; rfl

/-! ## What each later boundary still holds of them and of the arguments -/
theorem W2_arg8 (c : Dev nD) : W2 m ρ c (Proc.devRef .tc main_arg8) = m ((c.tc : Thread nD τ).loc main_arg8) := by
  rw [W2_of_ne m ρ c main_arg8 (by decide)]
  carry_host
theorem W2_arg9 (c : Dev nD) : W2 m ρ c (Proc.devRef .tc main_arg9) = m ((c.tc : Thread nD τ).loc main_arg9) := by
  rw [W2_of_ne m ρ c main_arg9 (by decide)]
  carry_host
theorem W6_arg10 (c : Dev nD) : W6 m ρ c (Proc.devRef .tc main_arg10) = m ((c.tc : Thread nD τ).loc main_arg10) := by
  rw [W6_of_ne m ρ c main_arg10 (by decide)]
  carry_host
  rw [W2_of_ne m ρ c main_arg10 (by decide)]
  carry_host
theorem W12_arg10 (c : Dev nD) : W12 m ρ c (Proc.devRef .tc main_arg10) = m ((c.tc : Thread nD τ).loc main_arg10) := by
  rw [W12_of_ne m ρ c main_arg10 (by decide)]
  carry_host
  rw [W8_of_ne m ρ c main_arg10 (by decide)]
  carry_host
  exact W6_arg10 m ρ c
theorem W6_arg11 (c : Dev nD) : W6 m ρ c (Proc.devRef .tc main_arg11) = m ((c.tc : Thread nD τ).loc main_arg11) := by
  rw [W6_of_ne m ρ c main_arg11 (by decide)]
  carry_host
  rw [W2_of_ne m ρ c main_arg11 (by decide)]
  carry_host
theorem W12_arg11 (c : Dev nD) : W12 m ρ c (Proc.devRef .tc main_arg11) = m ((c.tc : Thread nD τ).loc main_arg11) := by
  rw [W12_of_ne m ρ c main_arg11 (by decide)]
  carry_host
  rw [W8_of_ne m ρ c main_arg11 (by decide)]
  carry_host
  exact W6_arg11 m ρ c
theorem W6_arg12 (c : Dev nD) : W6 m ρ c (Proc.devRef .tc main_arg12) = m ((c.tc : Thread nD τ).loc main_arg12) := by
  rw [W6_of_ne m ρ c main_arg12 (by decide)]
  carry_host
  rw [W2_of_ne m ρ c main_arg12 (by decide)]
  carry_host
theorem W12_arg12 (c : Dev nD) : W12 m ρ c (Proc.devRef .tc main_arg12) = m ((c.tc : Thread nD τ).loc main_arg12) := by
  rw [W12_of_ne m ρ c main_arg12 (by decide)]
  carry_host
  rw [W8_of_ne m ρ c main_arg12 (by decide)]
  carry_host
  exact W6_arg12 m ρ c
theorem W6_arg13 (c : Dev nD) : W6 m ρ c (Proc.devRef .tc main_arg13) = m ((c.tc : Thread nD τ).loc main_arg13) := by
  rw [W6_of_ne m ρ c main_arg13 (by decide)]
  carry_host
  rw [W2_of_ne m ρ c main_arg13 (by decide)]
  carry_host
theorem W12_arg13 (c : Dev nD) : W12 m ρ c (Proc.devRef .tc main_arg13) = m ((c.tc : Thread nD τ).loc main_arg13) := by
  rw [W12_of_ne m ρ c main_arg13 (by decide)]
  carry_host
  rw [W8_of_ne m ρ c main_arg13 (by decide)]
  carry_host
  exact W6_arg13 m ρ c
theorem W8_arg14 (c : Dev nD) : W8 m ρ c (Proc.devRef .tc main_arg14) = m ((c.tc : Thread nD τ).loc main_arg14) := by
  rw [W8_of_ne m ρ c main_arg14 (by decide)]
  carry_host
  rw [W6_of_ne m ρ c main_arg14 (by decide)]
  carry_host
  rw [W2_of_ne m ρ c main_arg14 (by decide)]
  carry_host
theorem W14_arg14 (c : Dev nD) : W14 m ρ c (Proc.devRef .tc main_arg14) = m ((c.tc : Thread nD τ).loc main_arg14) := by
  rw [W14_of_ne m ρ c main_arg14 (by decide)]
  carry_host
  rw [W12_of_ne m ρ c main_arg14 (by decide)]
  carry_host
  exact W8_arg14 m ρ c
theorem W8_arg15 (c : Dev nD) : W8 m ρ c (Proc.devRef .tc main_arg15) = m ((c.tc : Thread nD τ).loc main_arg15) := by
  rw [W8_of_ne m ρ c main_arg15 (by decide)]
  carry_host
  rw [W6_of_ne m ρ c main_arg15 (by decide)]
  carry_host
  rw [W2_of_ne m ρ c main_arg15 (by decide)]
  carry_host
theorem W14_arg15 (c : Dev nD) : W14 m ρ c (Proc.devRef .tc main_arg15) = m ((c.tc : Thread nD τ).loc main_arg15) := by
  rw [W14_of_ne m ρ c main_arg15 (by decide)]
  carry_host
  rw [W12_of_ne m ρ c main_arg15 (by decide)]
  carry_host
  exact W8_arg15 m ρ c
theorem W18_arg16 (c : Dev nD) : W18 m ρ c (Proc.devRef .tc main_arg16) = m ((c.tc : Thread nD τ).loc main_arg16) := by
  rw [W18_of_ne m ρ c main_arg16 (by decide)]
  carry_host
  rw [W14_of_ne m ρ c main_arg16 (by decide)]
  carry_host
  rw [W12_of_ne m ρ c main_arg16 (by decide)]
  carry_host
  rw [W8_of_ne m ρ c main_arg16 (by decide)]
  carry_host
  rw [W6_of_ne m ρ c main_arg16 (by decide)]
  carry_host
  rw [W2_of_ne m ρ c main_arg16 (by decide)]
  carry_host
theorem W18_arg17 (c : Dev nD) : W18 m ρ c (Proc.devRef .tc main_arg17) = m ((c.tc : Thread nD τ).loc main_arg17) := by
  rw [W18_of_ne m ρ c main_arg17 (by decide)]
  carry_host
  rw [W14_of_ne m ρ c main_arg17 (by decide)]
  carry_host
  rw [W12_of_ne m ρ c main_arg17 (by decide)]
  carry_host
  rw [W8_of_ne m ρ c main_arg17 (by decide)]
  carry_host
  rw [W6_of_ne m ρ c main_arg17 (by decide)]
  carry_host
  rw [W2_of_ne m ρ c main_arg17 (by decide)]
  carry_host
theorem W18_arg18 (c : Dev nD) : W18 m ρ c (Proc.devRef .tc main_arg18) = m ((c.tc : Thread nD τ).loc main_arg18) := by
  rw [W18_of_ne m ρ c main_arg18 (by decide)]
  carry_host
  rw [W14_of_ne m ρ c main_arg18 (by decide)]
  carry_host
  rw [W12_of_ne m ρ c main_arg18 (by decide)]
  carry_host
  rw [W8_of_ne m ρ c main_arg18 (by decide)]
  carry_host
  rw [W6_of_ne m ρ c main_arg18 (by decide)]
  carry_host
  rw [W2_of_ne m ρ c main_arg18 (by decide)]
  carry_host
theorem W18_arg19 (c : Dev nD) : W18 m ρ c (Proc.devRef .tc main_arg19) = m ((c.tc : Thread nD τ).loc main_arg19) := by
  rw [W18_of_ne m ρ c main_arg19 (by decide)]
  carry_host
  rw [W14_of_ne m ρ c main_arg19 (by decide)]
  carry_host
  rw [W12_of_ne m ρ c main_arg19 (by decide)]
  carry_host
  rw [W8_of_ne m ρ c main_arg19 (by decide)]
  carry_host
  rw [W6_of_ne m ρ c main_arg19 (by decide)]
  carry_host
  rw [W2_of_ne m ρ c main_arg19 (by decide)]
  carry_host
theorem W20_arg2 (c : Dev nD) : W20 m ρ c (Proc.devRef .tc main_arg2) = m ((c.tc : Thread nD τ).loc main_arg2) := by
  rw [W20_of_ne m ρ c main_arg2 (by decide)]
  carry_host
  rw [W18_of_ne m ρ c main_arg2 (by decide)]
  carry_host
  rw [W14_of_ne m ρ c main_arg2 (by decide)]
  carry_host
  rw [W12_of_ne m ρ c main_arg2 (by decide)]
  carry_host
  rw [W8_of_ne m ρ c main_arg2 (by decide)]
  carry_host
  rw [W6_of_ne m ρ c main_arg2 (by decide)]
  carry_host
  rw [W2_of_ne m ρ c main_arg2 (by decide)]
  carry_host
theorem W20_arg20 (c : Dev nD) : W20 m ρ c (Proc.devRef .tc main_arg20) = m ((c.tc : Thread nD τ).loc main_arg20) := by
  rw [W20_of_ne m ρ c main_arg20 (by decide)]
  carry_host
  rw [W18_of_ne m ρ c main_arg20 (by decide)]
  carry_host
  rw [W14_of_ne m ρ c main_arg20 (by decide)]
  carry_host
  rw [W12_of_ne m ρ c main_arg20 (by decide)]
  carry_host
  rw [W8_of_ne m ρ c main_arg20 (by decide)]
  carry_host
  rw [W6_of_ne m ρ c main_arg20 (by decide)]
  carry_host
  rw [W2_of_ne m ρ c main_arg20 (by decide)]
  carry_host
theorem W20_arg21 (c : Dev nD) : W20 m ρ c (Proc.devRef .tc main_arg21) = m ((c.tc : Thread nD τ).loc main_arg21) := by
  rw [W20_of_ne m ρ c main_arg21 (by decide)]
  carry_host
  rw [W18_of_ne m ρ c main_arg21 (by decide)]
  carry_host
  rw [W14_of_ne m ρ c main_arg21 (by decide)]
  carry_host
  rw [W12_of_ne m ρ c main_arg21 (by decide)]
  carry_host
  rw [W8_of_ne m ρ c main_arg21 (by decide)]
  carry_host
  rw [W6_of_ne m ρ c main_arg21 (by decide)]
  carry_host
  rw [W2_of_ne m ρ c main_arg21 (by decide)]
  carry_host
theorem W20_arg22 (c : Dev nD) : W20 m ρ c (Proc.devRef .tc main_arg22) = m ((c.tc : Thread nD τ).loc main_arg22) := by
  rw [W20_of_ne m ρ c main_arg22 (by decide)]
  carry_host
  rw [W18_of_ne m ρ c main_arg22 (by decide)]
  carry_host
  rw [W14_of_ne m ρ c main_arg22 (by decide)]
  carry_host
  rw [W12_of_ne m ρ c main_arg22 (by decide)]
  carry_host
  rw [W8_of_ne m ρ c main_arg22 (by decide)]
  carry_host
  rw [W6_of_ne m ρ c main_arg22 (by decide)]
  carry_host
  rw [W2_of_ne m ρ c main_arg22 (by decide)]
  carry_host
theorem W20_arg23 (c : Dev nD) : W20 m ρ c (Proc.devRef .tc main_arg23) = m ((c.tc : Thread nD τ).loc main_arg23) := by
  rw [W20_of_ne m ρ c main_arg23 (by decide)]
  carry_host
  rw [W18_of_ne m ρ c main_arg23 (by decide)]
  carry_host
  rw [W14_of_ne m ρ c main_arg23 (by decide)]
  carry_host
  rw [W12_of_ne m ρ c main_arg23 (by decide)]
  carry_host
  rw [W8_of_ne m ρ c main_arg23 (by decide)]
  carry_host
  rw [W6_of_ne m ρ c main_arg23 (by decide)]
  carry_host
  rw [W2_of_ne m ρ c main_arg23 (by decide)]
  carry_host
theorem W6_v1 (c : Dev nD) : W6 m ρ c (Proc.devRef .tc main_v1) = Net.srcOf (m ((c.tc : Thread nD τ).loc main_arg1)) := by
  rw [W6_of_ne m ρ c main_v1 (by decide)]
  carry_host
  rw [W2_of_ne m ρ c main_v1 (by decide)]
  exact W1_v1 m ρ c
theorem W12_v1 (c : Dev nD) : W12 m ρ c (Proc.devRef .tc main_v1) = Net.srcOf (m ((c.tc : Thread nD τ).loc main_arg1)) := by
  rw [W12_of_ne m ρ c main_v1 (by decide)]
  carry_host
  rw [W8_of_ne m ρ c main_v1 (by decide)]
  carry_host
  exact W6_v1 m ρ c
theorem W18_v1 (c : Dev nD) : W18 m ρ c (Proc.devRef .tc main_v1) = Net.srcOf (m ((c.tc : Thread nD τ).loc main_arg1)) := by
  rw [W18_of_ne m ρ c main_v1 (by decide)]
  carry_host
  rw [W14_of_ne m ρ c main_v1 (by decide)]
  carry_host
  exact W12_v1 m ρ c
theorem W6_v3 (c : Dev nD) : W6 m ρ c (Proc.devRef .tc main_v3) = Net.dstOf (m ((c.tc : Thread nD τ).loc main_arg1)) := by
  rw [W6_of_ne m ρ c main_v3 (by decide)]
  carry_host
  rw [W2_of_ne m ρ c main_v3 (by decide)]
  exact W1_v3 m ρ c
theorem W12_v3 (c : Dev nD) : W12 m ρ c (Proc.devRef .tc main_v3) = Net.dstOf (m ((c.tc : Thread nD τ).loc main_arg1)) := by
  rw [W12_of_ne m ρ c main_v3 (by decide)]
  carry_host
  rw [W8_of_ne m ρ c main_v3 (by decide)]
  carry_host
  exact W6_v3 m ρ c
theorem W18_v3 (c : Dev nD) : W18 m ρ c (Proc.devRef .tc main_v3) = Net.dstOf (m ((c.tc : Thread nD τ).loc main_arg1)) := by
  rw [W18_of_ne m ρ c main_v3 (by decide)]
  carry_host
  rw [W14_of_ne m ρ c main_v3 (by decide)]
  carry_host
  exact W12_v3 m ρ c

/-! ## Each region's output at its own exit: what its write-backs leave -/
theorem W2_v23 (c : Dev nD) : W2 m ρ c (Proc.devRef .tc main_v23) = (dat0 (V1 m ρ) c).arrAt 6 cfg0.N := W2_arr m ρ c 6
theorem W6_v36 (c : Dev nD) : W6 m ρ c (Proc.devRef .tc main_v36) = (dat1 (V5 m ρ) c).arrAt 3 cfg1.N := W6_arr m ρ c 3
theorem W8_v57 (c : Dev nD) : W8 m ρ c (Proc.devRef .tc main_v57) = (dat2 (V7 m ρ) c).arrAt 6 cfg2.N := W8_arr m ρ c 6
theorem W12_v74 (c : Dev nD) : W12 m ρ c (Proc.devRef .tc main_v74) = (dat3 (V11 m ρ) c).arrAt 3 cfg3.N := W12_arr m ρ c 3
theorem W14_v95 (c : Dev nD) : W14 m ρ c (Proc.devRef .tc main_v95) = (dat4 (V13 m ρ) c).arrAt 6 cfg4.N := W14_arr m ρ c 6
theorem W18_v112 (c : Dev nD) : W18 m ρ c (Proc.devRef .tc main_v112) = (dat5 (V17 m ρ) c).arrAt 3 cfg5.N := W18_arr m ρ c 3
theorem W20_v125 (c : Dev nD) : W20 m ρ c (Proc.devRef .tc main_v125) = (dat6 (V19 m ρ) c).arrAt 6 cfg6.N := W20_arr m ρ c 6

end Cert.KernelIdeal.HostRead

end
-- ==== Proof.HostReadStats.lean ====
/-
  What the three normalising regions are entered with: the previous region's output, and the folded scale and shift
  of its batch statistics (column sums, mean, the variance with its guard, the reciprocal root), each reshaped to one
  row. The host text between the regions is read once over arbitrary buffer contents, where it is the statistics'
  definition word for word; the contents at the previous region's exit are then put in.
-/
import proofs.«160553_j66949950210692_1_alg».proof.Proof.HostReadBase

set_option maxRecDepth 16384

noncomputable section

namespace Cert.KernelIdeal.HostRead

open Idealize.ShloMosaic Idealize.ShloMosaic.TcCoe
open Cert.KernelIdeal Cert.KernelIdeal.Gen

variable (m : (ℓ : Loc nD τ sig) → Buf (Elt Ideal) ℓ) (ρ : Dev nD → PrngReg)

/-! ## Region 1 -/

/-- The statistics stretch before region 1, over any contents: it leaves the array it reads as it was, -/
theorem stats1_keep (V : Valuation τ sig (Elt Ideal)) :
    StableHlo.after hostOps1_2 (StableHlo.after hostOps1_1 (StableHlo.after hostOps1 V)) (Proc.devRef .tc main_v23) = V (Proc.devRef .tc main_v23) := by
  after_results_simp
/-- writes the folded scale as one row, -/
theorem stats1_scale (V : Valuation τ sig (Elt Ideal)) :
    StableHlo.after hostOps1_2 (StableHlo.after hostOps1_1 (StableHlo.after hostOps1 V)) (Proc.devRef .tc main_v34)
      = rc (Net.scale (V (Proc.devRef .tc main_v23)) (V (Proc.devRef .tc main_arg8))) := by
  after_results_simp; rfl
/-- and the folded shift as one row. -/
theorem stats1_shift (V : Valuation τ sig (Elt Ideal)) :
    StableHlo.after hostOps1_2 (StableHlo.after hostOps1_1 (StableHlo.after hostOps1 V)) (Proc.devRef .tc main_v35)
      = rc (Net.shift (V (Proc.devRef .tc main_v23)) (V (Proc.devRef .tc main_arg8)) (V (Proc.devRef .tc main_arg9))) := by
  after_results_simp; rfl

/-- Region 1 is entered with region 0's output in window 0, -/
theorem entry1_0 (c : Dev nD) :
    V5 m ρ c (Pipeline.arrRef spec1 0) = (dat0 (V1 m ρ) c).arrAt 6 cfg0.N := by
  show StableHlo.after hostOps1_2 (StableHlo.after hostOps1_1 (StableHlo.after hostOps1 (W2 m ρ c))) (Proc.devRef .tc main_v23) = _
  rw [stats1_keep, W2_v23 m ρ c]
/-- its folded scale in window 1, -/
theorem entry1_1 (c : Dev nD) :
    V5 m ρ c (Pipeline.arrRef spec1 1)
      = rc (Net.scale ((dat0 (V1 m ρ) c).arrAt 6 cfg0.N) (m ((c.tc : Thread nD τ).loc main_arg8))) := by
  show StableHlo.after hostOps1_2 (StableHlo.after hostOps1_1 (StableHlo.after hostOps1 (W2 m ρ c))) (Proc.devRef .tc main_v34) = _
  rw [stats1_scale, W2_v23 m ρ c, W2_arg8 m ρ c]
/-- and its folded shift in window 2. -/
theorem entry1_2 (c : Dev nD) :
    V5 m ρ c (Pipeline.arrRef spec1 2)
      = rc (Net.shift ((dat0 (V1 m ρ) c).arrAt 6 cfg0.N) (m ((c.tc : Thread nD τ).loc main_arg8)) (m ((c.tc : Thread nD τ).loc main_arg9))) := by
  show StableHlo.after hostOps1_2 (StableHlo.after hostOps1_1 (StableHlo.after hostOps1 (W2 m ρ c))) (Proc.devRef .tc main_v35) = _
  rw [stats1_shift, W2_v23 m ρ c, W2_arg8 m ρ c, W2_arg9 m ρ c]

/-! ## Region 3 -/

/-- The statistics stretch before region 3, over any contents: it leaves the array it reads as it was, -/
theorem stats3_keep (V : Valuation τ sig (Elt Ideal)) :
    StableHlo.after hostOps3_2 (StableHlo.after hostOps3_1 (StableHlo.after hostOps3 V)) (Proc.devRef .tc main_v57) = V (Proc.devRef .tc main_v57) := by
  after_results_simp
/-- writes the folded scale as one row, -/
theorem stats3_scale (V : Valuation τ sig (Elt Ideal)) :
    StableHlo.after hostOps3_2 (StableHlo.after hostOps3_1 (StableHlo.after hostOps3 V)) (Proc.devRef .tc main_v72)
      = rc (Net.scale (V (Proc.devRef .tc main_v57)) (Net.vec0 (V (Proc.devRef .tc main_arg14)))) := by
  after_results_simp; rfl
/-- and the folded shift as one row. -/
theorem stats3_shift (V : Valuation τ sig (Elt Ideal)) :
    StableHlo.after hostOps3_2 (StableHlo.after hostOps3_1 (StableHlo.after hostOps3 V)) (Proc.devRef .tc main_v73)
      = rc (Net.shift (V (Proc.devRef .tc main_v57)) (Net.vec0 (V (Proc.devRef .tc main_arg14))) (Net.vec0 (V (Proc.devRef .tc main_arg15)))) := by
  after_results_simp; rfl

/-- Region 3 is entered with region 2's output in window 0, -/
theorem entry3_0 (c : Dev nD) :
    V11 m ρ c (Pipeline.arrRef spec3 0) = (dat2 (V7 m ρ) c).arrAt 6 cfg2.N := by
  show StableHlo.after hostOps3_2 (StableHlo.after hostOps3_1 (StableHlo.after hostOps3 (W8 m ρ c))) (Proc.devRef .tc main_v57) = _
  rw [stats3_keep, W8_v57 m ρ c]
/-- its folded scale in window 1, -/
theorem entry3_1 (c : Dev nD) :
    V11 m ρ c (Pipeline.arrRef spec3 1)
      = rc (Net.scale ((dat2 (V7 m ρ) c).arrAt 6 cfg2.N) (Net.vec0 (m ((c.tc : Thread nD τ).loc main_arg14)))) := by
  show StableHlo.after hostOps3_2 (StableHlo.after hostOps3_1 (StableHlo.after hostOps3 (W8 m ρ c))) (Proc.devRef .tc main_v72) = _
  rw [stats3_scale, W8_v57 m ρ c, W8_arg14 m ρ c]
/-- and its folded shift in window 2. -/
theorem entry3_2 (c : Dev nD) :
    V11 m ρ c (Pipeline.arrRef spec3 2)
      = rc (Net.shift ((dat2 (V7 m ρ) c).arrAt 6 cfg2.N) (Net.vec0 (m ((c.tc : Thread nD τ).loc main_arg14))) (Net.vec0 (m ((c.tc : Thread nD τ).loc main_arg15)))) := by
  show StableHlo.after hostOps3_2 (StableHlo.after hostOps3_1 (StableHlo.after hostOps3 (W8 m ρ c))) (Proc.devRef .tc main_v73) = _
  rw [stats3_shift, W8_v57 m ρ c, W8_arg14 m ρ c, W8_arg15 m ρ c]

/-! ## Region 5 -/

/-- The statistics stretch before region 5, over any contents: it leaves the array it reads as it was, -/
theorem stats5_keep (V : Valuation τ sig (Elt Ideal)) :
    StableHlo.after hostOps5_2 (StableHlo.after hostOps5_1 (StableHlo.after hostOps5 V)) (Proc.devRef .tc main_v95) = V (Proc.devRef .tc main_v95) := by
  after_results_simp
/-- writes the folded scale as one row, -/
theorem stats5_scale (V : Valuation τ sig (Elt Ideal)) :
    StableHlo.after hostOps5_2 (StableHlo.after hostOps5_1 (StableHlo.after hostOps5 V)) (Proc.devRef .tc main_v110)
      = rc (Net.scale (V (Proc.devRef .tc main_v95)) (Net.vec1 (V (Proc.devRef .tc main_arg14)))) := by
  after_results_simp; rfl
/-- and the folded shift as one row. -/
theorem stats5_shift (V : Valuation τ sig (Elt Ideal)) :
    StableHlo.after hostOps5_2 (StableHlo.after hostOps5_1 (StableHlo.after hostOps5 V)) (Proc.devRef .tc main_v111)
      = rc (Net.shift (V (Proc.devRef .tc main_v95)) (Net.vec1 (V (Proc.devRef .tc main_arg14))) (Net.vec1 (V (Proc.devRef .tc main_arg15)))) := by
  after_results_simp; rfl

/-- Region 5 is entered with region 4's output in window 0, -/
theorem entry5_0 (c : Dev nD) :
    V17 m ρ c (Pipeline.arrRef spec5 0) = (dat4 (V13 m ρ) c).arrAt 6 cfg4.N := by
  show StableHlo.after hostOps5_2 (StableHlo.after hostOps5_1 (StableHlo.after hostOps5 (W14 m ρ c))) (Proc.devRef .tc main_v95) = _
  rw [stats5_keep, W14_v95 m ρ c]
/-- its folded scale in window 1, -/
theorem entry5_1 (c : Dev nD) :
    V17 m ρ c (Pipeline.arrRef spec5 1)
      = rc (Net.scale ((dat4 (V13 m ρ) c).arrAt 6 cfg4.N) (Net.vec1 (m ((c.tc : Thread nD τ).loc main_arg14)))) := by
  show StableHlo.after hostOps5_2 (StableHlo.after hostOps5_1 (StableHlo.after hostOps5 (W14 m ρ c))) (Proc.devRef .tc main_v110) = _
  rw [stats5_scale, W14_v95 m ρ c, W14_arg14 m ρ c]
/-- and its folded shift in window 2. -/
theorem entry5_2 (c : Dev nD) :
    V17 m ρ c (Pipeline.arrRef spec5 2)
      = rc (Net.shift ((dat4 (V13 m ρ) c).arrAt 6 cfg4.N) (Net.vec1 (m ((c.tc : Thread nD τ).loc main_arg14))) (Net.vec1 (m ((c.tc : Thread nD τ).loc main_arg15)))) := by
  show StableHlo.after hostOps5_2 (StableHlo.after hostOps5_1 (StableHlo.after hostOps5 (W14 m ρ c))) (Proc.devRef .tc main_v111) = _
  rw [stats5_shift, W14_v95 m ρ c, W14_arg14 m ρ c, W14_arg15 m ρ c]

end Cert.KernelIdeal.HostRead

end
-- ==== Proof.HostReadAgg.lean ====
/-
  What the five remaining regions are entered with. Regions 0, 2, 4 and 6 (a convolution's dense layers) take the node
  features, their neighbour sums, two weight matrices and two bias rows; region 7 (the classifier) takes the pooled
  graph rows, two weight matrices and two bias rows. Each host stretch is read once over arbitrary buffer contents,
  where it is the network's stage word for word; the contents at the previous region's exit are then put in.
-/
import proofs.«160553_j66949950210692_1_alg».proof.Proof.HostReadBase

set_option maxRecDepth 16384

noncomputable section

namespace Cert.KernelIdeal.HostRead

open Idealize.ShloMosaic Idealize.ShloMosaic.TcCoe
open Cert.KernelIdeal Cert.KernelIdeal.Gen

variable (m : (ℓ : Loc nD τ sig) → Buf (Elt Ideal) ℓ) (ρ : Dev nD → PrngReg)

/-! ## Region 0 -/

/-- `hostOps0` over any contents, at window 0's array. -/
theorem host0_0 (V : Valuation τ sig (Elt Ideal)) :
    StableHlo.after hostOps0 V (Proc.devRef .tc main_v10) = Net.embed (V (Proc.devRef .tc main_arg0)) (V (Proc.devRef .tc main_arg3)) := by
  after_results_simp; rfl

/-- `hostOps0` over any contents, at window 1's array. -/
theorem host0_1 (V : Valuation τ sig (Elt Ideal)) :
    StableHlo.after hostOps0 V (Proc.devRef .tc main_v20) = Net.aggregate (V (Proc.devRef .tc main_arg1)) (Net.embed (V (Proc.devRef .tc main_arg0)) (V (Proc.devRef .tc main_arg3))) := by
  after_results_simp; rfl

/-- `hostOps0` over any contents, at window 2's array. -/
theorem host0_2 (V : Valuation τ sig (Elt Ideal)) :
    StableHlo.after hostOps0 V (Proc.devRef .tc main_arg4) = V (Proc.devRef .tc main_arg4) := by
  after_results_simp

/-- `hostOps0` over any contents, at window 3's array. -/
theorem host0_3 (V : Valuation τ sig (Elt Ideal)) :
    StableHlo.after hostOps0 V (Proc.devRef .tc main_v21) = rc (V (Proc.devRef .tc main_arg5)) := by
  after_results_simp; rfl

/-- `hostOps0` over any contents, at window 4's array. -/
theorem host0_4 (V : Valuation τ sig (Elt Ideal)) :
    StableHlo.after hostOps0 V (Proc.devRef .tc main_arg6) = V (Proc.devRef .tc main_arg6) := by
  after_results_simp

/-- `hostOps0` over any contents, at window 5's array. -/
theorem host0_5 (V : Valuation τ sig (Elt Ideal)) :
    StableHlo.after hostOps0 V (Proc.devRef .tc main_v22) = rc (V (Proc.devRef .tc main_arg7)) := by
  after_results_simp; rfl

/-- Region 0, window 0: the embedded node tokens. -/
theorem entry0_0 (c : Dev nD) :
    V1 m ρ c (Pipeline.arrRef spec0 0) = Net.embed (m ((c.tc : Thread nD τ).loc main_arg0)) (m ((c.tc : Thread nD τ).loc main_arg3)) := by
  show StableHlo.after hostOps0 (W0 m ρ c) (Proc.devRef .tc main_v10) = _
  exact host0_0 (W0 m ρ c)

/-- Region 0, window 1: their neighbour sums. -/
theorem entry0_1 (c : Dev nD) :
    V1 m ρ c (Pipeline.arrRef spec0 1) = Net.aggregate (m ((c.tc : Thread nD τ).loc main_arg1)) (Net.embed (m ((c.tc : Thread nD τ).loc main_arg0)) (m ((c.tc : Thread nD τ).loc main_arg3))) := by
  show StableHlo.after hostOps0 (W0 m ρ c) (Proc.devRef .tc main_v20) = _
  exact host0_1 (W0 m ρ c)

/-- Region 0, window 2: the first weight matrix. -/
theorem entry0_2 (c : Dev nD) :
    V1 m ρ c (Pipeline.arrRef spec0 2) = m ((c.tc : Thread nD τ).loc main_arg4) := by
  show StableHlo.after hostOps0 (W0 m ρ c) (Proc.devRef .tc main_arg4) = _
  exact host0_2 (W0 m ρ c)

/-- Region 0, window 3: the first bias as one row. -/
theorem entry0_3 (c : Dev nD) :
    V1 m ρ c (Pipeline.arrRef spec0 3) = rc (m ((c.tc : Thread nD τ).loc main_arg5)) := by
  show StableHlo.after hostOps0 (W0 m ρ c) (Proc.devRef .tc main_v21) = _
  exact host0_3 (W0 m ρ c)

/-- Region 0, window 4: the second weight matrix. -/
theorem entry0_4 (c : Dev nD) :
    V1 m ρ c (Pipeline.arrRef spec0 4) = m ((c.tc : Thread nD τ).loc main_arg6) := by
  show StableHlo.after hostOps0 (W0 m ρ c) (Proc.devRef .tc main_arg6) = _
  exact host0_4 (W0 m ρ c)

/-- Region 0, window 5: the second bias as one row. -/
theorem entry0_5 (c : Dev nD) :
    V1 m ρ c (Pipeline.arrRef spec0 5) = rc (m ((c.tc : Thread nD τ).loc main_arg7)) := by
  show StableHlo.after hostOps0 (W0 m ρ c) (Proc.devRef .tc main_v22) = _
  exact host0_5 (W0 m ρ c)

/-! ## Region 2 -/

/-- `hostOps2` over any contents, at window 0's array. -/
theorem host2_0 (V : Valuation τ sig (Elt Ideal)) :
    StableHlo.after hostOps2 V (Proc.devRef .tc main_v36) = V (Proc.devRef .tc main_v36) := by
  after_results_simp

/-- `hostOps2` over any contents, at window 1's array. -/
theorem host2_1 (V : Valuation τ sig (Elt Ideal)) :
    StableHlo.after hostOps2 V (Proc.devRef .tc main_v46) = Net.aggregateSD (V (Proc.devRef .tc main_v1)) (V (Proc.devRef .tc main_v3)) (V (Proc.devRef .tc main_v36)) := by
  after_results_simp; rfl

/-- `hostOps2` over any contents, at window 2's array. -/
theorem host2_2 (V : Valuation τ sig (Elt Ideal)) :
    StableHlo.after hostOps2 V (Proc.devRef .tc main_v48) = Net.mat0 (V (Proc.devRef .tc main_arg10)) := by
  after_results_simp; rfl

/-- `hostOps2` over any contents, at window 3's array. -/
theorem host2_3 (V : Valuation τ sig (Elt Ideal)) :
    StableHlo.after hostOps2 V (Proc.devRef .tc main_v55) = rc (Net.vec0 (V (Proc.devRef .tc main_arg11))) := by
  after_results_simp; rfl

/-- `hostOps2` over any contents, at window 4's array. -/
theorem host2_4 (V : Valuation τ sig (Elt Ideal)) :
    StableHlo.after hostOps2 V (Proc.devRef .tc main_v52) = Net.mat0 (V (Proc.devRef .tc main_arg12)) := by
  after_results_simp; rfl

/-- `hostOps2` over any contents, at window 5's array. -/
theorem host2_5 (V : Valuation τ sig (Elt Ideal)) :
    StableHlo.after hostOps2 V (Proc.devRef .tc main_v56) = rc (Net.vec0 (V (Proc.devRef .tc main_arg13))) := by
  after_results_simp; rfl

/-- Region 2, window 0: region 1's output. -/
theorem entry2_0 (c : Dev nD) :
    V7 m ρ c (Pipeline.arrRef spec2 0) = (dat1 (V5 m ρ) c).arrAt 3 cfg1.N := by
  show StableHlo.after hostOps2 (W6 m ρ c) (Proc.devRef .tc main_v36) = _
  rw [host2_0, W6_v36 m ρ c]

/-- Region 2, window 1: its neighbour sums. -/
theorem entry2_1 (c : Dev nD) :
    V7 m ρ c (Pipeline.arrRef spec2 1) = Net.aggregate (m ((c.tc : Thread nD τ).loc main_arg1)) ((dat1 (V5 m ρ) c).arrAt 3 cfg1.N) := by
  show StableHlo.after hostOps2 (W6 m ρ c) (Proc.devRef .tc main_v46) = _
  rw [host2_1, W6_v1 m ρ c, W6_v3 m ρ c, W6_v36 m ρ c]; rfl

/-- Region 2, window 2: the first weight matrix of its layer. -/
theorem entry2_2 (c : Dev nD) :
    V7 m ρ c (Pipeline.arrRef spec2 2) = Net.mat0 (m ((c.tc : Thread nD τ).loc main_arg10)) := by
  show StableHlo.after hostOps2 (W6 m ρ c) (Proc.devRef .tc main_v48) = _
  rw [host2_2, W6_arg10 m ρ c]

/-- Region 2, window 3: the first bias as one row. -/
theorem entry2_3 (c : Dev nD) :
    V7 m ρ c (Pipeline.arrRef spec2 3) = rc (Net.vec0 (m ((c.tc : Thread nD τ).loc main_arg11))) := by
  show StableHlo.after hostOps2 (W6 m ρ c) (Proc.devRef .tc main_v55) = _
  rw [host2_3, W6_arg11 m ρ c]

/-- Region 2, window 4: the second weight matrix. -/
theorem entry2_4 (c : Dev nD) :
    V7 m ρ c (Pipeline.arrRef spec2 4) = Net.mat0 (m ((c.tc : Thread nD τ).loc main_arg12)) := by
  show StableHlo.after hostOps2 (W6 m ρ c) (Proc.devRef .tc main_v52) = _
  rw [host2_4, W6_arg12 m ρ c]

/-- Region 2, window 5: the second bias as one row. -/
theorem entry2_5 (c : Dev nD) :
    V7 m ρ c (Pipeline.arrRef spec2 5) = rc (Net.vec0 (m ((c.tc : Thread nD τ).loc main_arg13))) := by
  show StableHlo.after hostOps2 (W6 m ρ c) (Proc.devRef .tc main_v56) = _
  rw [host2_5, W6_arg13 m ρ c]

/-! ## Region 4 -/

/-- `hostOps4` over any contents, at window 0's array. -/
theorem host4_0 (V : Valuation τ sig (Elt Ideal)) :
    StableHlo.after hostOps4 V (Proc.devRef .tc main_v74) = V (Proc.devRef .tc main_v74) := by
  after_results_simp

/-- `hostOps4` over any contents, at window 1's array. -/
theorem host4_1 (V : Valuation τ sig (Elt Ideal)) :
    StableHlo.after hostOps4 V (Proc.devRef .tc main_v84) = Net.aggregateSD (V (Proc.devRef .tc main_v1)) (V (Proc.devRef .tc main_v3)) (V (Proc.devRef .tc main_v74)) := by
  after_results_simp; rfl

/-- `hostOps4` over any contents, at window 2's array. -/
theorem host4_2 (V : Valuation τ sig (Elt Ideal)) :
    StableHlo.after hostOps4 V (Proc.devRef .tc main_v86) = Net.mat1 (V (Proc.devRef .tc main_arg10)) := by
  after_results_simp; rfl

/-- `hostOps4` over any contents, at window 3's array. -/
theorem host4_3 (V : Valuation τ sig (Elt Ideal)) :
    StableHlo.after hostOps4 V (Proc.devRef .tc main_v93) = rc (Net.vec1 (V (Proc.devRef .tc main_arg11))) := by
  after_results_simp; rfl

/-- `hostOps4` over any contents, at window 4's array. -/
theorem host4_4 (V : Valuation τ sig (Elt Ideal)) :
    StableHlo.after hostOps4 V (Proc.devRef .tc main_v90) = Net.mat1 (V (Proc.devRef .tc main_arg12)) := by
  after_results_simp; rfl

/-- `hostOps4` over any contents, at window 5's array. -/
theorem host4_5 (V : Valuation τ sig (Elt Ideal)) :
    StableHlo.after hostOps4 V (Proc.devRef .tc main_v94) = rc (Net.vec1 (V (Proc.devRef .tc main_arg13))) := by
  after_results_simp; rfl

/-- Region 4, window 0: region 3's output. -/
theorem entry4_0 (c : Dev nD) :
    V13 m ρ c (Pipeline.arrRef spec4 0) = (dat3 (V11 m ρ) c).arrAt 3 cfg3.N := by
  show StableHlo.after hostOps4 (W12 m ρ c) (Proc.devRef .tc main_v74) = _
  rw [host4_0, W12_v74 m ρ c]

/-- Region 4, window 1: its neighbour sums. -/
theorem entry4_1 (c : Dev nD) :
    V13 m ρ c (Pipeline.arrRef spec4 1) = Net.aggregate (m ((c.tc : Thread nD τ).loc main_arg1)) ((dat3 (V11 m ρ) c).arrAt 3 cfg3.N) := by
  show StableHlo.after hostOps4 (W12 m ρ c) (Proc.devRef .tc main_v84) = _
  rw [host4_1, W12_v1 m ρ c, W12_v3 m ρ c, W12_v74 m ρ c]; rfl

/-- Region 4, window 2: the first weight matrix of its layer. -/
theorem entry4_2 (c : Dev nD) :
    V13 m ρ c (Pipeline.arrRef spec4 2) = Net.mat1 (m ((c.tc : Thread nD τ).loc main_arg10)) := by
  show StableHlo.after hostOps4 (W12 m ρ c) (Proc.devRef .tc main_v86) = _
  rw [host4_2, W12_arg10 m ρ c]

/-- Region 4, window 3: the first bias as one row. -/
theorem entry4_3 (c : Dev nD) :
    V13 m ρ c (Pipeline.arrRef spec4 3) = rc (Net.vec1 (m ((c.tc : Thread nD τ).loc main_arg11))) := by
  show StableHlo.after hostOps4 (W12 m ρ c) (Proc.devRef .tc main_v93) = _
  rw [host4_3, W12_arg11 m ρ c]

/-- Region 4, window 4: the second weight matrix. -/
theorem entry4_4 (c : Dev nD) :
    V13 m ρ c (Pipeline.arrRef spec4 4) = Net.mat1 (m ((c.tc : Thread nD τ).loc main_arg12)) := by
  show StableHlo.after hostOps4 (W12 m ρ c) (Proc.devRef .tc main_v90) = _
  rw [host4_4, W12_arg12 m ρ c]

/-- Region 4, window 5: the second bias as one row. -/
theorem entry4_5 (c : Dev nD) :
    V13 m ρ c (Pipeline.arrRef spec4 5) = rc (Net.vec1 (m ((c.tc : Thread nD τ).loc main_arg13))) := by
  show StableHlo.after hostOps4 (W12 m ρ c) (Proc.devRef .tc main_v94) = _
  rw [host4_5, W12_arg13 m ρ c]

/-! ## Region 6 -/

/-- `hostOps6` over any contents, at window 0's array. -/
theorem host6_0 (V : Valuation τ sig (Elt Ideal)) :
    StableHlo.after hostOps6 V (Proc.devRef .tc main_v112) = V (Proc.devRef .tc main_v112) := by
  after_results_simp

/-- `hostOps6` over any contents, at window 1's array. -/
theorem host6_1 (V : Valuation τ sig (Elt Ideal)) :
    StableHlo.after hostOps6 V (Proc.devRef .tc main_v122) = Net.aggregateSD (V (Proc.devRef .tc main_v1)) (V (Proc.devRef .tc main_v3)) (V (Proc.devRef .tc main_v112)) := by
  after_results_simp; rfl

/-- `hostOps6` over any contents, at window 2's array. -/
theorem host6_2 (V : Valuation τ sig (Elt Ideal)) :
    StableHlo.after hostOps6 V (Proc.devRef .tc main_arg16) = V (Proc.devRef .tc main_arg16) := by
  after_results_simp

/-- `hostOps6` over any contents, at window 3's array. -/
theorem host6_3 (V : Valuation τ sig (Elt Ideal)) :
    StableHlo.after hostOps6 V (Proc.devRef .tc main_v123) = rc (V (Proc.devRef .tc main_arg17)) := by
  after_results_simp; rfl

/-- `hostOps6` over any contents, at window 4's array. -/
theorem host6_4 (V : Valuation τ sig (Elt Ideal)) :
    StableHlo.after hostOps6 V (Proc.devRef .tc main_arg18) = V (Proc.devRef .tc main_arg18) := by
  after_results_simp

/-- `hostOps6` over any contents, at window 5's array. -/
theorem host6_5 (V : Valuation τ sig (Elt Ideal)) :
    StableHlo.after hostOps6 V (Proc.devRef .tc main_v124) = rc (V (Proc.devRef .tc main_arg19)) := by
  after_results_simp; rfl

/-- Region 6, window 0: region 5's output. -/
theorem entry6_0 (c : Dev nD) :
    V19 m ρ c (Pipeline.arrRef spec6 0) = (dat5 (V17 m ρ) c).arrAt 3 cfg5.N := by
  show StableHlo.after hostOps6 (W18 m ρ c) (Proc.devRef .tc main_v112) = _
  rw [host6_0, W18_v112 m ρ c]

/-- Region 6, window 1: its neighbour sums. -/
theorem entry6_1 (c : Dev nD) :
    V19 m ρ c (Pipeline.arrRef spec6 1) = Net.aggregate (m ((c.tc : Thread nD τ).loc main_arg1)) ((dat5 (V17 m ρ) c).arrAt 3 cfg5.N) := by
  show StableHlo.after hostOps6 (W18 m ρ c) (Proc.devRef .tc main_v122) = _
  rw [host6_1, W18_v1 m ρ c, W18_v3 m ρ c, W18_v112 m ρ c]; rfl

/-- Region 6, window 2: the first weight matrix. -/
theorem entry6_2 (c : Dev nD) :
    V19 m ρ c (Pipeline.arrRef spec6 2) = m ((c.tc : Thread nD τ).loc main_arg16) := by
  show StableHlo.after hostOps6 (W18 m ρ c) (Proc.devRef .tc main_arg16) = _
  rw [host6_2, W18_arg16 m ρ c]

/-- Region 6, window 3: the first bias as one row. -/
theorem entry6_3 (c : Dev nD) :
    V19 m ρ c (Pipeline.arrRef spec6 3) = rc (m ((c.tc : Thread nD τ).loc main_arg17)) := by
  show StableHlo.after hostOps6 (W18 m ρ c) (Proc.devRef .tc main_v123) = _
  rw [host6_3, W18_arg17 m ρ c]

/-- Region 6, window 4: the second weight matrix. -/
theorem entry6_4 (c : Dev nD) :
    V19 m ρ c (Pipeline.arrRef spec6 4) = m ((c.tc : Thread nD τ).loc main_arg18) := by
  show StableHlo.after hostOps6 (W18 m ρ c) (Proc.devRef .tc main_arg18) = _
  rw [host6_4, W18_arg18 m ρ c]

/-- Region 6, window 5: the second bias as one row. -/
theorem entry6_5 (c : Dev nD) :
    V19 m ρ c (Pipeline.arrRef spec6 5) = rc (m ((c.tc : Thread nD τ).loc main_arg19)) := by
  show StableHlo.after hostOps6 (W18 m ρ c) (Proc.devRef .tc main_v124) = _
  rw [host6_5, W18_arg19 m ρ c]

/-! ## Region 7 -/

/-- `hostOps7` over any contents, at window 0's array. -/
theorem host7_0 (V : Valuation τ sig (Elt Ideal)) :
    StableHlo.after hostOps7 V (Proc.devRef .tc main_v128) = Net.pool (V (Proc.devRef .tc main_arg2)) (V (Proc.devRef .tc main_v125)) := by
  after_results_simp; rfl

/-- `hostOps7` over any contents, at window 1's array. -/
theorem host7_1 (V : Valuation τ sig (Elt Ideal)) :
    StableHlo.after hostOps7 V (Proc.devRef .tc main_arg20) = V (Proc.devRef .tc main_arg20) := by
  after_results_simp

/-- `hostOps7` over any contents, at window 2's array. -/
theorem host7_2 (V : Valuation τ sig (Elt Ideal)) :
    StableHlo.after hostOps7 V (Proc.devRef .tc main_v129) = rc (V (Proc.devRef .tc main_arg21)) := by
  after_results_simp; rfl

/-- `hostOps7` over any contents, at window 3's array. -/
theorem host7_3 (V : Valuation τ sig (Elt Ideal)) :
    StableHlo.after hostOps7 V (Proc.devRef .tc main_arg22) = V (Proc.devRef .tc main_arg22) := by
  after_results_simp

/-- `hostOps7` over any contents, at window 4's array. -/
theorem host7_4 (V : Valuation τ sig (Elt Ideal)) :
    StableHlo.after hostOps7 V (Proc.devRef .tc main_v130) = rc41 (V (Proc.devRef .tc main_arg23)) := by
  after_results_simp; rfl

/-- Region 7, window 0: region 6's output summed per graph. -/
theorem entry7_0 (c : Dev nD) :
    V21 m ρ c (Pipeline.arrRef spec7 0) = Net.pool (m ((c.tc : Thread nD τ).loc main_arg2)) ((dat6 (V19 m ρ) c).arrAt 6 cfg6.N) := by
  show StableHlo.after hostOps7 (W20 m ρ c) (Proc.devRef .tc main_v128) = _
  rw [host7_0, W20_arg2 m ρ c, W20_v125 m ρ c]

/-- Region 7, window 1: the first weight matrix. -/
theorem entry7_1 (c : Dev nD) :
    V21 m ρ c (Pipeline.arrRef spec7 1) = m ((c.tc : Thread nD τ).loc main_arg20) := by
  show StableHlo.after hostOps7 (W20 m ρ c) (Proc.devRef .tc main_arg20) = _
  rw [host7_1, W20_arg20 m ρ c]

/-- Region 7, window 2: the first bias as one row. -/
theorem entry7_2 (c : Dev nD) :
    V21 m ρ c (Pipeline.arrRef spec7 2) = rc (m ((c.tc : Thread nD τ).loc main_arg21)) := by
  show StableHlo.after hostOps7 (W20 m ρ c) (Proc.devRef .tc main_v129) = _
  rw [host7_2, W20_arg21 m ρ c]

/-- Region 7, window 3: the second weight matrix. -/
theorem entry7_3 (c : Dev nD) :
    V21 m ρ c (Pipeline.arrRef spec7 3) = m ((c.tc : Thread nD τ).loc main_arg22) := by
  show StableHlo.after hostOps7 (W20 m ρ c) (Proc.devRef .tc main_arg22) = _
  rw [host7_3, W20_arg22 m ρ c]

/-- Region 7, window 4: the second bias as one row. -/
theorem entry7_4 (c : Dev nD) :
    V21 m ρ c (Pipeline.arrRef spec7 4) = rc41 (m ((c.tc : Thread nD τ).loc main_arg23)) := by
  show StableHlo.after hostOps7 (W20 m ρ c) (Proc.devRef .tc main_v130) = _
  rw [host7_4, W20_arg23 m ρ c]

end Cert.KernelIdeal.HostRead

end
-- ==== Proof.RegionBn.lean ====
/-
  The three normalisation regions (1, 3 and 5), each as one function of its input arrays.

  A region walks the 40000 x 128 array y in twenty blocks of 2000 rows. At each block it forms, entry by entry,
  y * s + t, where s and t are one-row matrices laid along every row of the block. Row r of the array lies in
  block r / 2000 and nowhere else, the one-row operands are the same at every block, and every block is written
  back; so the output array ends holding  y * s + t  with s and t laid along all 40000 rows, which is `Net.affine`.
  Nothing here depends on what the arrays hold: the statements are over arbitrary contents at the region's entry.
-/
import proofs.«160553_j66949950210692_1_alg».proof.Proof.Gen.KernelIdeal.Frame
import proofs.«160553_j66949950210692_1_alg».proof.Proof.Net
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

/-- The normalisation body at row p, column q of a block: the block's entry times the scale row's entry plus the
    shift row's entry. -/
theorem bnPay_apply (x0 : Vec Ideal S2000x128 .f32) (x1 x2 : Vec Ideal S1x128 .f32) (p : Fin 2000) (q : Fin 128) :
    k1_pay1 x0 x1 x2 (ix2 p q) = x0 (ix2 p q) * x1 (ix2 (0 : Fin 1) q) + x2 (ix2 (0 : Fin 1) q) := by
  unfold k1_pay1
  simp only [shapeCast_self]
  rw [addf_apply, mulf_apply, broadcastTo_1b_ab_apply, broadcastTo_1b_ab_apply]

/-- `Net.affine` at row r, column q: the entry times the scale row's entry plus the shift row's entry. -/
theorem affine_apply (Y : Cert.Net.Arr S40000x128) (S T : Cert.Net.Arr S1x128) (r : Fin 40000) (q : Fin 128) :
    Cert.Net.affine Y S T (ix2 r q) = Y (ix2 r q) * S (ix2 (0 : Fin 1) q) + T (ix2 (0 : Fin 1) q) := by
  unfold Cert.Net.affine Cert.Net.rows
  rw [addf_apply, mulf_apply, broadcastInDim_oneRow_apply, broadcastInDim_oneRow_apply]

theorem hz : (![0, 0] : Fin 2 → Nat) = fun _ => 0 := funext fun a => by fin_cases a <;> rfl

/-- One entry of a block's result against one entry of the whole-array function: the block's entry is the array's,
    the two one-row operands are the arrays' rows, and the column is the same. -/
theorem bn_at (x0 : Vec Ideal S2000x128 .f32) (x1 x2 : Vec Ideal S1x128 .f32)
    (Y : Cert.Net.Arr S40000x128) (S T : Cert.Net.Arr S1x128) (j : S2000x128.Idx) (i : S40000x128.Idx)
    (h0 : x0 j = Y i) (h1 : ∀ q : Fin 128, x1 (ix2 (0 : Fin 1) q) = S (ix2 (0 : Fin 1) q))
    (h2 : ∀ q : Fin 128, x2 (ix2 (0 : Fin 1) q) = T (ix2 (0 : Fin 1) q)) (hi : (i 1).val = (j 1).val) :
    k1_pay1 x0 x1 x2 j = Cert.Net.affine Y S T i := by
  obtain ⟨p, q, rfl⟩ : ∃ (p : Fin 2000) (q : Fin 128), j = ix2 p q := ⟨j 0, j 1, eq_ix2 j⟩
  obtain ⟨r, q', rfl⟩ : ∃ (r : Fin 40000) (q' : Fin 128), i = ix2 r q' := ⟨i 0, i 1, eq_ix2 i⟩
  obtain rfl : q' = q := Fin.ext hi
  rw [bnPay_apply, affine_apply, h0, h1, h2]

variable (V : (c : Dev nD) → (b : Ref sig .tc) → Buf (Elt Ideal) ((c : Thread nD τ).loc b))

/-- Where each window's block sits at point t of region 1, for each of the twenty points: the two row windows at
    block (t, 0), the two one-row windows at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t of region 1 writes back is block t of y * s + t of the arrays as the region finds them. -/
theorem bn1_flushed (c : Dev nD) (t : Fin cfg1.N) :
    (dat1 V c).flushed 3 t = ((cfg1.win 3).blk t).view.read (Elt Ideal)
      (Cert.Net.affine (V c (Pipeline.arrRef spec1 0) : Cert.Net.Arr S40000x128) (V c (Pipeline.arrRef spec1 1) : Cert.Net.Arr S1x128)
        (V c (Pipeline.arrRef spec1 2) : Cert.Net.Arr S1x128)) := by
  show (cfg1.win 3).cut (grid1.coords t) ((dat1 V c).after 3 t) = _
  rw [after1_3]
  unfold out1_3
  rw [View.canon_unit_zero hz]
  simp only [View.ld_unit_zero (S := S2000x128) hz, View.ld_unit_zero (S := S1x128) hz]
  obtain ⟨e00, e01, e10, e11, e20, e21, e30, e31⟩ := idx1 t
  funext j
  refine bn_at _ _ _ _ _ _ j (((cfg1.win 3).blk t).view.emb j) ?_ ?_ ?_ ?_
  · show V c (Pipeline.arrRef spec1 0) (((cfg1.win 0).blk t).view.emb j) = V c (Pipeline.arrRef spec1 0) (((cfg1.win 3).blk t).view.emb j)
    refine congrArg _ (funext fun a => Fin.ext ?_)
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * (j 1).val = win1_3.index t (1 : Fin 2) * 128 + 1 * (j 1).val; omega
  · intro q
    show V c (Pipeline.arrRef spec1 1) (((cfg1.win 1).blk t).view.emb (ix2 (0 : Fin 1) q)) = V c (Pipeline.arrRef spec1 1) (ix2 (0 : Fin 1) q)
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · intro q
    show V c (Pipeline.arrRef spec1 2) (((cfg1.win 2).blk t).view.emb (ix2 (0 : Fin 1) q)) = V c (Pipeline.arrRef spec1 2) (ix2 (0 : Fin 1) q)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · show win1_3.index t (1 : Fin 2) * 128 + 1 * (j 1).val = (j 1).val; omega

/-- An index of the output array lies in point t's block iff each coordinate lies in the block's range on its axis. -/
theorem bn1_mem (t : Fin cfg1.N) (i : S40000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v36).slice (win1_3.rect t)).set ↔ _
  rw [View.set_slice_whole, Rect.mem_set_unit]
  exact Iff.rfl

/-- Region 1 leaves y * s + t in its output array: row r lies in the block of point r / 2000, and every point
    writes its block back. -/
theorem bn1_value (c : Dev nD) :
    (dat1 V c).arrAt 3 cfg1.N
      = Cert.Net.affine (V c (Pipeline.arrRef spec1 0) : Cert.Net.Arr S40000x128) (V c (Pipeline.arrRef spec1 1) : Cert.Net.Arr S1x128)
          (V c (Pipeline.arrRef spec1 2) : Cert.Net.Arr S1x128) :=
  (dat1 V c).arrAt_eq_of_cover 3 _ (fun t _ => bn1_flushed V c t) fun i => by
    have hi0 : (i 0).val < 40000 := (i 0).isLt
    have hi1 : (i 1).val < 128 := (i 1).isLt
    have hN : cfg1.N = 20 := N_1
    have ht : (i 0).val / 2000 < cfg1.N := by rw [hN]; omega
    refine ⟨⟨(i 0).val / 2000, ht⟩, flush1_3 _, ?_⟩
    rw [bn1_mem]
    obtain ⟨-, -, -, -, -, -, e30, e31⟩ := idx1 ⟨(i 0).val / 2000, ht⟩
    intro a
    match a with
    | ⟨0, _⟩ =>
      show win1_3.index ⟨(i 0).val / 2000, ht⟩ (0 : Fin 2) * 2000 ≤ (i 0).val
        ∧ (i 0).val < win1_3.index ⟨(i 0).val / 2000, ht⟩ (0 : Fin 2) * 2000 + 2000
      rw [e30]; show (i 0).val / 2000 * 2000 ≤ (i 0).val ∧ (i 0).val < (i 0).val / 2000 * 2000 + 2000; omega
    | ⟨1, _⟩ =>
      show win1_3.index ⟨(i 0).val / 2000, ht⟩ (1 : Fin 2) * 128 ≤ (i 1).val
        ∧ (i 1).val < win1_3.index ⟨(i 0).val / 2000, ht⟩ (1 : Fin 2) * 128 + 128
      rw [e31]; omega

/-- Where each window's block sits at point t of region 3, for each of the twenty points: the two row windows at
    block (t, 0), the two one-row windows at block (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t of region 3 writes back is block t of y * s + t of the arrays as the region finds them. -/
theorem bn3_flushed (c : Dev nD) (t : Fin cfg3.N) :
    (dat3 V c).flushed 3 t = ((cfg3.win 3).blk t).view.read (Elt Ideal)
      (Cert.Net.affine (V c (Pipeline.arrRef spec3 0) : Cert.Net.Arr S40000x128) (V c (Pipeline.arrRef spec3 1) : Cert.Net.Arr S1x128)
        (V c (Pipeline.arrRef spec3 2) : Cert.Net.Arr S1x128)) := by
  show (cfg3.win 3).cut (grid3.coords t) ((dat3 V c).after 3 t) = _
  rw [after3_3]
  unfold out3_3
  rw [View.canon_unit_zero hz]
  simp only [View.ld_unit_zero (S := S2000x128) hz, View.ld_unit_zero (S := S1x128) hz]
  obtain ⟨e00, e01, e10, e11, e20, e21, e30, e31⟩ := idx3 t
  funext j
  refine bn_at _ _ _ _ _ _ j (((cfg3.win 3).blk t).view.emb j) ?_ ?_ ?_ ?_
  · show V c (Pipeline.arrRef spec3 0) (((cfg3.win 0).blk t).view.emb j) = V c (Pipeline.arrRef spec3 0) (((cfg3.win 3).blk t).view.emb j)
    refine congrArg _ (funext fun a => Fin.ext ?_)
    match a with
    | ⟨0, _⟩ => show win3_0.index t (0 : Fin 2) * 2000 + 1 * (j 0).val = win3_3.index t (0 : Fin 2) * 2000 + 1 * (j 0).val; omega
    | ⟨1, _⟩ => show win3_0.index t (1 : Fin 2) * 128 + 1 * (j 1).val = win3_3.index t (1 : Fin 2) * 128 + 1 * (j 1).val; omega
  · intro q
    show V c (Pipeline.arrRef spec3 1) (((cfg3.win 1).blk t).view.emb (ix2 (0 : Fin 1) q)) = V c (Pipeline.arrRef spec3 1) (ix2 (0 : Fin 1) q)
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  · intro q
    show V c (Pipeline.arrRef spec3 2) (((cfg3.win 2).blk t).view.emb (ix2 (0 : Fin 1) q)) = V c (Pipeline.arrRef spec3 2) (ix2 (0 : Fin 1) q)
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  · show win3_3.index t (1 : Fin 2) * 128 + 1 * (j 1).val = (j 1).val; omega

/-- An index of the output array lies in point t's block iff each coordinate lies in the block's range on its axis. -/
theorem bn3_mem (t : Fin cfg3.N) (i : S40000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v74).slice (win3_3.rect t)).set ↔ _
  rw [View.set_slice_whole, Rect.mem_set_unit]
  exact Iff.rfl

/-- Region 3 leaves y * s + t in its output array: row r lies in the block of point r / 2000, and every point
    writes its block back. -/
theorem bn3_value (c : Dev nD) :
    (dat3 V c).arrAt 3 cfg3.N
      = Cert.Net.affine (V c (Pipeline.arrRef spec3 0) : Cert.Net.Arr S40000x128) (V c (Pipeline.arrRef spec3 1) : Cert.Net.Arr S1x128)
          (V c (Pipeline.arrRef spec3 2) : Cert.Net.Arr S1x128) :=
  (dat3 V c).arrAt_eq_of_cover 3 _ (fun t _ => bn3_flushed V c t) fun i => by
    have hi0 : (i 0).val < 40000 := (i 0).isLt
    have hi1 : (i 1).val < 128 := (i 1).isLt
    have hN : cfg3.N = 20 := N_3
    have ht : (i 0).val / 2000 < cfg3.N := by rw [hN]; omega
    refine ⟨⟨(i 0).val / 2000, ht⟩, flush3_3 _, ?_⟩
    rw [bn3_mem]
    obtain ⟨-, -, -, -, -, -, e30, e31⟩ := idx3 ⟨(i 0).val / 2000, ht⟩
    intro a
    match a with
    | ⟨0, _⟩ =>
      show win3_3.index ⟨(i 0).val / 2000, ht⟩ (0 : Fin 2) * 2000 ≤ (i 0).val
        ∧ (i 0).val < win3_3.index ⟨(i 0).val / 2000, ht⟩ (0 : Fin 2) * 2000 + 2000
      rw [e30]; show (i 0).val / 2000 * 2000 ≤ (i 0).val ∧ (i 0).val < (i 0).val / 2000 * 2000 + 2000; omega
    | ⟨1, _⟩ =>
      show win3_3.index ⟨(i 0).val / 2000, ht⟩ (1 : Fin 2) * 128 ≤ (i 1).val
        ∧ (i 1).val < win3_3.index ⟨(i 0).val / 2000, ht⟩ (1 : Fin 2) * 128 + 128
      rw [e31]; omega

/-- Where each window's block sits at point t of region 5, for each of the twenty points: the two row windows at
    block (t, 0), the two one-row windows at block (0, 0). -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point t of region 5 writes back is block t of y * s + t of the arrays as the region finds them. -/
theorem bn5_flushed (c : Dev nD) (t : Fin cfg5.N) :
    (dat5 V c).flushed 3 t = ((cfg5.win 3).blk t).view.read (Elt Ideal)
      (Cert.Net.affine (V c (Pipeline.arrRef spec5 0) : Cert.Net.Arr S40000x128) (V c (Pipeline.arrRef spec5 1) : Cert.Net.Arr S1x128)
        (V c (Pipeline.arrRef spec5 2) : Cert.Net.Arr S1x128)) := by
  show (cfg5.win 3).cut (grid5.coords t) ((dat5 V c).after 3 t) = _
  rw [after5_3]
  unfold out5_3
  rw [View.canon_unit_zero hz]
  simp only [View.ld_unit_zero (S := S2000x128) hz, View.ld_unit_zero (S := S1x128) hz]
  obtain ⟨e00, e01, e10, e11, e20, e21, e30, e31⟩ := idx5 t
  funext j
  refine bn_at _ _ _ _ _ _ j (((cfg5.win 3).blk t).view.emb j) ?_ ?_ ?_ ?_
  · show V c (Pipeline.arrRef spec5 0) (((cfg5.win 0).blk t).view.emb j) = V c (Pipeline.arrRef spec5 0) (((cfg5.win 3).blk t).view.emb j)
    refine congrArg _ (funext fun a => Fin.ext ?_)
    match a with
    | ⟨0, _⟩ => show win5_0.index t (0 : Fin 2) * 2000 + 1 * (j 0).val = win5_3.index t (0 : Fin 2) * 2000 + 1 * (j 0).val; omega
    | ⟨1, _⟩ => show win5_0.index t (1 : Fin 2) * 128 + 1 * (j 1).val = win5_3.index t (1 : Fin 2) * 128 + 1 * (j 1).val; omega
  · intro q
    show V c (Pipeline.arrRef spec5 1) (((cfg5.win 1).blk t).view.emb (ix2 (0 : Fin 1) q)) = V c (Pipeline.arrRef spec5 1) (ix2 (0 : Fin 1) q)
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega
  · intro q
    show V c (Pipeline.arrRef spec5 2) (((cfg5.win 2).blk t).view.emb (ix2 (0 : Fin 1) q)) = V c (Pipeline.arrRef spec5 2) (ix2 (0 : Fin 1) q)
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * q.val = q.val; omega
  · show win5_3.index t (1 : Fin 2) * 128 + 1 * (j 1).val = (j 1).val; omega

/-- An index of the output array lies in point t's block iff each coordinate lies in the block's range on its axis. -/
theorem bn5_mem (t : Fin cfg5.N) (i : S40000x128.Idx) :
    i ∈ ((cfg5.win 3).blk t).view.set ↔ ∀ a : Fin 2, win5_3.index t a * S2000x128.size a ≤ (i a).val
      ∧ (i a).val < win5_3.index t a * S2000x128.size a + S2000x128.size a := by
  show i ∈ ((View.whole main_v112).slice (win5_3.rect t)).set ↔ _
  rw [View.set_slice_whole, Rect.mem_set_unit]
  exact Iff.rfl

/-- Region 5 leaves y * s + t in its output array: row r lies in the block of point r / 2000, and every point
    writes its block back. -/
theorem bn5_value (c : Dev nD) :
    (dat5 V c).arrAt 3 cfg5.N
      = Cert.Net.affine (V c (Pipeline.arrRef spec5 0) : Cert.Net.Arr S40000x128) (V c (Pipeline.arrRef spec5 1) : Cert.Net.Arr S1x128)
          (V c (Pipeline.arrRef spec5 2) : Cert.Net.Arr S1x128) :=
  (dat5 V c).arrAt_eq_of_cover 3 _ (fun t _ => bn5_flushed V c t) fun i => by
    have hi0 : (i 0).val < 40000 := (i 0).isLt
    have hi1 : (i 1).val < 128 := (i 1).isLt
    have hN : cfg5.N = 20 := N_5
    have ht : (i 0).val / 2000 < cfg5.N := by rw [hN]; omega
    refine ⟨⟨(i 0).val / 2000, ht⟩, flush5_3 _, ?_⟩
    rw [bn5_mem]
    obtain ⟨-, -, -, -, -, -, e30, e31⟩ := idx5 ⟨(i 0).val / 2000, ht⟩
    intro a
    match a with
    | ⟨0, _⟩ =>
      show win5_3.index ⟨(i 0).val / 2000, ht⟩ (0 : Fin 2) * 2000 ≤ (i 0).val
        ∧ (i 0).val < win5_3.index ⟨(i 0).val / 2000, ht⟩ (0 : Fin 2) * 2000 + 2000
      rw [e30]; show (i 0).val / 2000 * 2000 ≤ (i 0).val ∧ (i 0).val < (i 0).val / 2000 * 2000 + 2000; omega
    | ⟨1, _⟩ =>
      show win5_3.index ⟨(i 0).val / 2000, ht⟩ (1 : Fin 2) * 128 ≤ (i 1).val
        ∧ (i 1).val < win5_3.index ⟨(i 0).val / 2000, ht⟩ (1 : Fin 2) * 128 + 128
      rw [e31]; omega

end Cert.KernelIdeal.RegionValue

end
-- ==== Proof.PlainProduct.lean ====
/-
  A matrix product read at an entry.

  For the plain arrangement — an m x k matrix times a k x n matrix, contracting the first's columns against the second's
  rows — the entry at row a, column b of the product is the sum over c of A(a, c) * B(c, b). This holds of the host's
  product, and of a product accumulated into a zero matrix, at the extended reals. Stated for any dimension record equal
  to the plain one, so that it applies to a record named by its literal sizes.
-/
import Idealize.ShloMosaic.PureOps.Ideal
import Idealize.ShloMosaic.PureOps.Ideal.Laws
import Idealize.ShloMosaic.Lib.ValueIdx
import Idealize.ShloMosaic.Lib.KernelVsHost
import Idealize.ShloMosaic.Lib.StackMember

noncomputable section

namespace Cert.KernelIdeal.RegionValue

open Idealize.ShloMosaic Idealize.ShloMosaic.ValueIdx

/-- A matrix product accumulated into zero, read at row a, column b: the sum over the contracted coordinate of the
    products of the entries — for any dimension record that is the plain one (rows x contraction by contraction x
    columns). -/
theorem matmul_plain_apply {m k n : Nat} {φ₁ φ₂ : FTy} (d : DotDims ⟨2, ![m, k]⟩ ⟨2, ![k, n]⟩ ⟨2, ![m, n]⟩)
    (hd : d = DotDims.plain m k n) (A : FVec Ideal ⟨2, ![m, k]⟩ φ₁) (B : FVec Ideal ⟨2, ![k, n]⟩ φ₂) (a : Fin m) (b : Fin n) :
    matmul d none A B (constant ⟨2, ![m, n]⟩ .f32 0x00000000#32) (ix2 a b) = ∑ c : Fin k, A (ix2 a c) * B (ix2 c b) := by
  subst hd
  rw [matmul_zero_eq_dotGeneral]
  exact StackMember.dotGeneral_plain_apply none A B a b

/-- The same of the host's product, which has no accumulator. -/
theorem dot_plain_apply {m k n : Nat} {φ₁ φ₂ : FTy} (d : DotDims ⟨2, ![m, k]⟩ ⟨2, ![k, n]⟩ ⟨2, ![m, n]⟩)
    (hd : d = DotDims.plain m k n) (A : FVec Ideal ⟨2, ![m, k]⟩ φ₁) (B : FVec Ideal ⟨2, ![k, n]⟩ φ₂) (a : Fin m) (b : Fin n) :
    Host.dotGeneral d none A B (ix2 a b) = ∑ c : Fin k, A (ix2 a c) * B (ix2 c b) := by
  subst hd
  exact StackMember.dotGeneral_plain_apply none A B a b

end Cert.KernelIdeal.RegionValue

end
-- ==== Proof.RegionMlpLayer.lean ====
/-
  One dense layer with ReLU, on a block of rows against the whole array.

  The four dense regions walk a 40000 x 128 array in blocks of 2000 rows and apply, to each block, two layers
  h ↦ max(h W + b, 0): a 128 x 128 weight matrix, a bias row laid along the rows, ReLU. The network applies the same
  two layers to the whole array. An entry of a layer's result depends on one row of h only:
      max(∑_c h(row, c) W(c, q) + b(0, q), 0).
  So if a row of the block is a row of the array, the layer's results agree on that row (`layer_at`); this is used
  twice, once per layer. The products are read as sums by `matmul_plain_apply` and `dot_plain_apply`.
-/
import proofs.«160553_j66949950210692_1_alg».proof.Proof.Gen.KernelIdeal
import proofs.«160553_j66949950210692_1_alg».proof.Proof.Net
import proofs.«160553_j66949950210692_1_alg».proof.Proof.PlainProduct
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.RegionValue

open Idealize.ShloMosaic Idealize.ShloMosaic.ValueIdx
open Cert.KernelIdeal Cert.KernelIdeal.Gen

/-- The zero offsets of a load or store of a whole staging buffer. -/
theorem mlp_hz : (![0, 0] : Fin 2 → Nat) = fun _ => 0 := funext fun a => by fin_cases a <;> rfl

/-- ONE DENSE LAYER AT AN ENTRY. On a block of 2000 rows the body forms max(h W + b, 0) with the bias row laid along
    the block's rows; on the whole array the network forms the same with the bias row laid along all 40000 rows.
    If row p of the block is row r of the array, and the weights and the bias row are the same, the two agree at
    (p, q) and (r, q): each is max(∑_c h(·, c) W(c, q) + b(0, q), 0). The change of float format before the
    product is the identity here. -/
theorem layer_at (h : FVec Ideal S2000x128 .f32) (W : FVec Ideal S128x128 .f32) (b : FVec Ideal S1x128 .f32)
    (H : Cert.Net.Arr S40000x128) (W' : Cert.Net.Arr S128x128) (b' : Cert.Net.Arr S1x128) (p : Fin 2000) (r : Fin 40000)
    (hrow : ∀ c : Fin 128, h (ix2 p c) = H (ix2 r c))
    (hW : ∀ (a : Fin 128) (c : Fin 128), W (ix2 a c) = W' (ix2 a c))
    (hb : ∀ q : Fin 128, b (ix2 (0 : Fin 1) q) = b' (ix2 (0 : Fin 1) q)) (q : Fin 128) :
    maximumf (addf (matmul dot_S2000x128_S128x128_S2000x128_1_0_0_1_n_n none (truncf .bf16 h bitsLt_bf16_f32)
          (truncf .bf16 W bitsLt_bf16_f32) (constant S2000x128 .f32 0x00000000#32))
        (broadcastTo S2000x128 b broadcasts_S1x128_S2000x128))
      (broadcast S2000x128 (Scalar.ofBits (F := Ideal) .f32 0x00000000#32)) (ix2 p q)
    = Cert.Net.relu (addf (Cert.Net.mm H W') (Cert.Net.rows b')) (ix2 r q) := by
  unfold Cert.Net.relu Cert.Net.mm Cert.Net.rows Cert.Net.zero
  rw [maximumf_apply, addf_apply, matmul_plain_apply dot_S2000x128_S128x128_S2000x128_1_0_0_1_n_n rfl, broadcastTo_1b_ab_apply, broadcast_apply,
    maximumf_apply, addf_apply, dot_plain_apply Cert.ReferenceIdeal.dot_S40000x128_S128x128_S40000x128_1_0_0_1_n_n rfl, broadcastInDim_oneRow_apply, broadcastInDim_constant, broadcast_apply]
  simp only [truncf_apply, hrow, hW, hb]

end Cert.KernelIdeal.RegionValue

end
-- ==== Proof.RegionMlp0.lean ====
/-
  Dense region 0 as one function of its input arrays.

  The region walks the 40000 x 128 arrays x and aggr in twenty blocks of 2000 rows; the two weight matrices and the two
  bias rows are whole at every block. At each block it forms relu(relu((x + aggr) W1 + b1) W2 + b2). Each entry of that
  depends on one row of x + aggr only, row p of block t is row 2000 t + p of the arrays, and every block is written back
  to the same rows of the output; so the output array ends holding the two layers applied to the whole of x + aggr,
  which is `Net.mlp (x + aggr) W1 b1 W2 b2`. The statements are over arbitrary contents at the region's entry.
-/
import proofs.«160553_j66949950210692_1_alg».proof.Proof.Gen.KernelIdeal.Frame
import proofs.«160553_j66949950210692_1_alg».proof.Proof.RegionMlpLayer

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

/-- The body of region 0 at row p, column q of a block against the two dense layers of the network at row r, column q
    of the whole array: they agree when row p of the block's two row operands is row r of the arrays and the weights
    and bias rows are the same. The first layer's rows agree by `layer_at`, so the second layer's entries do. -/
theorem dense0_at (x0 x1 : Vec Ideal S2000x128 .f32) (w1 : Vec Ideal S128x128 .f32) (b1 : Vec Ideal S1x128 .f32)
    (w2 : Vec Ideal S128x128 .f32) (b2 : Vec Ideal S1x128 .f32)
    (X A : Cert.Net.Arr S40000x128) (W1 : Cert.Net.Arr S128x128) (B1 : Cert.Net.Arr S1x128)
    (W2 : Cert.Net.Arr S128x128) (B2 : Cert.Net.Arr S1x128) (p : Fin 2000) (r : Fin 40000)
    (h0 : ∀ c : Fin 128, x0 (ix2 p c) = X (ix2 r c)) (h1 : ∀ c : Fin 128, x1 (ix2 p c) = A (ix2 r c))
    (hW1 : ∀ (a : Fin 128) (c : Fin 128), w1 (ix2 a c) = W1 (ix2 a c))
    (hB1 : ∀ q : Fin 128, b1 (ix2 (0 : Fin 1) q) = B1 (ix2 (0 : Fin 1) q))
    (hW2 : ∀ (a : Fin 128) (c : Fin 128), w2 (ix2 a c) = W2 (ix2 a c))
    (hB2 : ∀ q : Fin 128, b2 (ix2 (0 : Fin 1) q) = B2 (ix2 (0 : Fin 1) q)) (q : Fin 128) :
    k0_pay1 x0 x1 w1 b1 w2 b2 (ix2 p q) = Cert.Net.mlp (addf X A) W1 B1 W2 B2 (ix2 r q) := by
  unfold k0_pay1 Cert.Net.mlp
  simp only [shapeCast_self]
  exact layer_at _ w2 b2 _ W2 B2 p r
    (fun c => layer_at (addf x0 x1) w1 b1 (addf X A) W1 B1 p r
      (fun c' => by rw [addf_apply, addf_apply, h0, h1]) hW1 hB1 c) hW2 hB2 q

variable (V : (c : Dev nD) → (b : Ref sig .tc) → Buf (Elt Ideal) ((c : Thread nD τ).loc b))

/-- Where each window's block sits at point t of region 0, for each of the twenty points: the three row windows at
    block (t, 0), the weight and bias windows at block (0, 0). -/
theorem didx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of window 0's block at point t of region 0 is row 2000 t + p of its array. -/
theorem mlp0_blk0 (c : Dev nD) (t : Fin cfg0.N) (p : Fin 2000) (hr : t.val * 2000 + p.val < 40000) (c' : Fin 128) :
    (iblk0 V c 0 t : Vec Ideal S2000x128 .f32) (ix2 p c')
      = (V c (Pipeline.arrRef spec0 0) : Cert.Net.Arr S40000x128) (ix2 (⟨t.val * 2000 + p.val, hr⟩ : Fin 40000) c') := by
  have e0 : win0_0.index t (0 : Fin 2) = t.val := (didx0 t).1
  have e1 : win0_0.index t (1 : Fin 2) = 0 := (didx0 t).2.1
  show V c (Pipeline.arrRef spec0 0) (((cfg0.win 0).blk t).view.emb (ix2 p c')) = V c (Pipeline.arrRef spec0 0) (ix2 (⟨t.val * 2000 + p.val, hr⟩ : Fin 40000) c')
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * c'.val = c'.val; omega

/-- Row p of window 1's block at point t of region 0 is row 2000 t + p of its array. -/
theorem mlp0_blk1 (c : Dev nD) (t : Fin cfg0.N) (p : Fin 2000) (hr : t.val * 2000 + p.val < 40000) (c' : Fin 128) :
    (iblk0 V c 1 t : Vec Ideal S2000x128 .f32) (ix2 p c')
      = (V c (Pipeline.arrRef spec0 1) : Cert.Net.Arr S40000x128) (ix2 (⟨t.val * 2000 + p.val, hr⟩ : Fin 40000) c') := by
  have e0 : win0_1.index t (0 : Fin 2) = t.val := (didx0 t).2.2.1
  have e1 : win0_1.index t (1 : Fin 2) = 0 := (didx0 t).2.2.2.1
  show V c (Pipeline.arrRef spec0 1) (((cfg0.win 1).blk t).view.emb (ix2 p c')) = V c (Pipeline.arrRef spec0 1) (ix2 (⟨t.val * 2000 + p.val, hr⟩ : Fin 40000) c')
  refine congrArg _ (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * c'.val = c'.val; omega

/-- Window 2's block at every point of region 0 is its whole 128 x 128 array. -/
theorem mlp0_blk2 (c : Dev nD) (t : Fin cfg0.N) (a' : Fin 128) (c' : Fin 128) :
    (iblk0 V c 2 t : Vec Ideal S128x128 .f32) (ix2 a' c') = (V c (Pipeline.arrRef spec0 2) : Cert.Net.Arr S128x128) (ix2 a' c') := by
  have e0 : win0_2.index t (0 : Fin 2) = 0 := (didx0 t).2.2.2.2.1
  have e1 : win0_2.index t (1 : Fin 2) = 0 := (didx0 t).2.2.2.2.2.1
  show V c (Pipeline.arrRef spec0 2) (((cfg0.win 2).blk t).view.emb (ix2 a' c')) = V c (Pipeline.arrRef spec0 2) (ix2 a' c')
  refine congrArg _ (funext fun a => Fin.ext ?_)
  match a with
  | ⟨0, _⟩ => show win0_2.index t (0 : Fin 2) * 128 + 1 * a'.val = a'.val; omega
  | ⟨1, _⟩ => show win0_2.index t (1 : Fin 2) * 128 + 1 * c'.val = c'.val; omega

/-- Window 3's block at every point of region 0 is its whole one-row array. -/
theorem mlp0_blk3 (c : Dev nD) (t : Fin cfg0.N) (c' : Fin 128) :
    (iblk0 V c 3 t : Vec Ideal S1x128 .f32) (ix2 (0 : Fin 1) c') = (V c (Pipeline.arrRef spec0 3) : Cert.Net.Arr S1x128) (ix2 (0 : Fin 1) c') := by
  have e0 : win0_3.index t (0 : Fin 2) = 0 := (didx0 t).2.2.2.2.2.2.1
  have e1 : win0_3.index t (1 : Fin 2) = 0 := (didx0 t).2.2.2.2.2.2.2.1
  show V c (Pipeline.arrRef spec0 3) (((cfg0.win 3).blk t).view.emb (ix2 (0 : Fin 1) c')) = V c (Pipeline.arrRef spec0 3) (ix2 (0 : Fin 1) c')
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * c'.val = c'.val; omega

/-- Window 4's block at every point of region 0 is its whole 128 x 128 array. -/
theorem mlp0_blk4 (c : Dev nD) (t : Fin cfg0.N) (a' : Fin 128) (c' : Fin 128) :
    (iblk0 V c 4 t : Vec Ideal S128x128 .f32) (ix2 a' c') = (V c (Pipeline.arrRef spec0 4) : Cert.Net.Arr S128x128) (ix2 a' c') := by
  have e0 : win0_4.index t (0 : Fin 2) = 0 := (didx0 t).2.2.2.2.2.2.2.2.1
  have e1 : win0_4.index t (1 : Fin 2) = 0 := (didx0 t).2.2.2.2.2.2.2.2.2.1
  show V c (Pipeline.arrRef spec0 4) (((cfg0.win 4).blk t).view.emb (ix2 a' c')) = V c (Pipeline.arrRef spec0 4) (ix2 a' c')
  refine congrArg _ (funext fun a => Fin.ext ?_)
  match a with
  | ⟨0, _⟩ => show win0_4.index t (0 : Fin 2) * 128 + 1 * a'.val = a'.val; omega
  | ⟨1, _⟩ => show win0_4.index t (1 : Fin 2) * 128 + 1 * c'.val = c'.val; omega

/-- Window 5's block at every point of region 0 is its whole one-row array. -/
theorem mlp0_blk5 (c : Dev nD) (t : Fin cfg0.N) (c' : Fin 128) :
    (iblk0 V c 5 t : Vec Ideal S1x128 .f32) (ix2 (0 : Fin 1) c') = (V c (Pipeline.arrRef spec0 5) : Cert.Net.Arr S1x128) (ix2 (0 : Fin 1) c') := by
  have e0 : win0_5.index t (0 : Fin 2) = 0 := (didx0 t).2.2.2.2.2.2.2.2.2.2.1
  have e1 : win0_5.index t (1 : Fin 2) = 0 := (didx0 t).2.2.2.2.2.2.2.2.2.2.2.1
  show V c (Pipeline.arrRef spec0 5) (((cfg0.win 5).blk t).view.emb (ix2 (0 : Fin 1) c')) = V c (Pipeline.arrRef spec0 5) (ix2 (0 : Fin 1) c')
  refine congrArg _ (funext fun a => Fin.ext ?_)
  match a with
  | ⟨0, _⟩ => show win0_5.index t (0 : Fin 2) * 1 + 1 * 0 = 0; omega
  | ⟨1, _⟩ => show win0_5.index t (1 : Fin 2) * 128 + 1 * c'.val = c'.val; omega

/-- Entry (p, q) of the output window's block at point t of region 0 sits at (2000 t + p, q) of the output array. -/
theorem mlp0_emb (t : Fin cfg0.N) (p : Fin 2000) (hr : t.val * 2000 + p.val < 40000) (q : Fin 128) :
    ((cfg0.win 6).blk t).view.emb (ix2 p q) = ix2 (⟨t.val * 2000 + p.val, hr⟩ : Fin 40000) q := by
  have e0 : win0_6.index t (0 : Fin 2) = t.val := (didx0 t).2.2.2.2.2.2.2.2.2.2.2.2.1
  have e1 : win0_6.index t (1 : Fin 2) = 0 := (didx0 t).2.2.2.2.2.2.2.2.2.2.2.2.2
  funext a; apply Fin.ext
  match a with
  | ⟨0, _⟩ => show win0_6.index t (0 : Fin 2) * 2000 + 1 * p.val = t.val * 2000 + p.val; omega
  | ⟨1, _⟩ => show win0_6.index t (1 : Fin 2) * 128 + 1 * q.val = q.val; omega

/-- Entry (p, q) of what the body leaves at point t of region 0 is entry (2000 t + p, q) of the two dense layers applied to
    x + aggr of the arrays as the region finds them. -/
theorem mlp0_point (c : Dev nD) (t : Fin cfg0.N) (p : Fin 2000) (hr : t.val * 2000 + p.val < 40000) (q : Fin 128) :
    k0_pay1 (iblk0 V c 0 t) (iblk0 V c 1 t) (iblk0 V c 2 t) (iblk0 V c 3 t) (iblk0 V c 4 t) (iblk0 V c 5 t) (ix2 p q)
      = (Cert.Net.mlp (addf (V c (Pipeline.arrRef spec0 0) : Cert.Net.Arr S40000x128) (V c (Pipeline.arrRef spec0 1) : Cert.Net.Arr S40000x128))
        (V c (Pipeline.arrRef spec0 2) : Cert.Net.Arr S128x128) (V c (Pipeline.arrRef spec0 3) : Cert.Net.Arr S1x128)
        (V c (Pipeline.arrRef spec0 4) : Cert.Net.Arr S128x128) (V c (Pipeline.arrRef spec0 5) : Cert.Net.Arr S1x128)) (ix2 (⟨t.val * 2000 + p.val, hr⟩ : Fin 40000) q) :=
  dense0_at (iblk0 V c 0 t) (iblk0 V c 1 t) (iblk0 V c 2 t) (iblk0 V c 3 t) (iblk0 V c 4 t) (iblk0 V c 5 t)
    (V c (Pipeline.arrRef spec0 0)) (V c (Pipeline.arrRef spec0 1)) (V c (Pipeline.arrRef spec0 2)) (V c (Pipeline.arrRef spec0 3))
    (V c (Pipeline.arrRef spec0 4)) (V c (Pipeline.arrRef spec0 5)) p ⟨t.val * 2000 + p.val, hr⟩
    (mlp0_blk0 V c t p hr) (mlp0_blk1 V c t p hr) (mlp0_blk2 V c t) (mlp0_blk3 V c t) (mlp0_blk4 V c t) (mlp0_blk5 V c t) q

set_option maxHeartbeats 1000000 in
/-- What point t of region 0 writes back is block t of the two dense layers applied to x + aggr, of the arrays as the
    region finds them: row p of block t is row 2000 t + p of the arrays. -/
theorem mlp0_flushed (c : Dev nD) (t : Fin cfg0.N) :
    (dat0 V c).flushed 6 t = ((cfg0.win 6).blk t).view.read (Elt Ideal)
      (Cert.Net.mlp (addf (V c (Pipeline.arrRef spec0 0) : Cert.Net.Arr S40000x128) (V c (Pipeline.arrRef spec0 1) : Cert.Net.Arr S40000x128))
        (V c (Pipeline.arrRef spec0 2) : Cert.Net.Arr S128x128) (V c (Pipeline.arrRef spec0 3) : Cert.Net.Arr S1x128)
        (V c (Pipeline.arrRef spec0 4) : Cert.Net.Arr S128x128) (V c (Pipeline.arrRef spec0 5) : Cert.Net.Arr S1x128)) := by
  show (cfg0.win 6).cut (grid0.coords t) ((dat0 V c).after 6 t) = _
  rw [after0_6]
  unfold out0_6
  rw [View.canon_unit_zero mlp_hz]
  simp only [View.ld_unit_zero (S := S2000x128) mlp_hz, View.ld_unit_zero (S := S128x128) mlp_hz, View.ld_unit_zero (S := S1x128) mlp_hz]
  have hN : cfg0.N = 20 := N_0
  have ht : t.val < 20 := hN ▸ t.isLt
  funext j
  obtain ⟨p, q, rfl⟩ : ∃ (p : Fin 2000) (q : Fin 128), j = ix2 p q := ⟨j 0, j 1, eq_ix2 j⟩
  have hp : p.val < 2000 := p.isLt
  have hr : t.val * 2000 + p.val < 40000 := by omega
  exact (mlp0_point V c t p hr q).trans (congrArg _ (mlp0_emb t p hr q).symm)

/-- An index of the output array lies in point t's block iff each coordinate lies in the block's range on its axis. -/
theorem mlp0_mem (t : Fin cfg0.N) (i : S40000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v23).slice (win0_6.rect t)).set ↔ _
  rw [View.set_slice_whole, Rect.mem_set_unit]
  exact Iff.rfl

/-- Region 0 leaves relu(relu((x + aggr) W1 + b1) W2 + b2) in its output array: row r lies in the block of point
    r / 2000, and every point writes its block back. -/
theorem mlp0_value (c : Dev nD) :
    (dat0 V c).arrAt 6 cfg0.N
      = Cert.Net.mlp (addf (V c (Pipeline.arrRef spec0 0) : Cert.Net.Arr S40000x128) (V c (Pipeline.arrRef spec0 1) : Cert.Net.Arr S40000x128))
        (V c (Pipeline.arrRef spec0 2) : Cert.Net.Arr S128x128) (V c (Pipeline.arrRef spec0 3) : Cert.Net.Arr S1x128)
        (V c (Pipeline.arrRef spec0 4) : Cert.Net.Arr S128x128) (V c (Pipeline.arrRef spec0 5) : Cert.Net.Arr S1x128) :=
  (dat0 V c).arrAt_eq_of_cover 6 _ (fun t _ => mlp0_flushed V c t) fun i => by
    have hi0 : (i 0).val < 40000 := (i 0).isLt
    have hi1 : (i 1).val < 128 := (i 1).isLt
    have hN : cfg0.N = 20 := N_0
    have ht : (i 0).val / 2000 < cfg0.N := by rw [hN]; omega
    refine ⟨⟨(i 0).val / 2000, ht⟩, flush0_6 _, ?_⟩
    rw [mlp0_mem]
    have e60 : win0_6.index ⟨(i 0).val / 2000, ht⟩ (0 : Fin 2) = (i 0).val / 2000 := (didx0 ⟨(i 0).val / 2000, ht⟩).2.2.2.2.2.2.2.2.2.2.2.2.1
    have e61 : win0_6.index ⟨(i 0).val / 2000, ht⟩ (1 : Fin 2) = 0 := (didx0 ⟨(i 0).val / 2000, ht⟩).2.2.2.2.2.2.2.2.2.2.2.2.2
    intro a
    match a with
    | ⟨0, _⟩ =>
      show win0_6.index ⟨(i 0).val / 2000, ht⟩ (0 : Fin 2) * 2000 ≤ (i 0).val
        ∧ (i 0).val < win0_6.index ⟨(i 0).val / 2000, ht⟩ (0 : Fin 2) * 2000 + 2000
      rw [e60]; omega
    | ⟨1, _⟩ =>
      show win0_6.index ⟨(i 0).val / 2000, ht⟩ (1 : Fin 2) * 128 ≤ (i 1).val
        ∧ (i 1).val < win0_6.index ⟨(i 0).val / 2000, ht⟩ (1 : Fin 2) * 128 + 128
      rw [e61]; omega

end Cert.KernelIdeal.RegionValue

end
-- ==== Proof.RegionMlp2.lean ====
/-
  Dense region 2 as one function of its input arrays.

  The region walks the 40000 x 128 arrays x and aggr in twenty blocks of 2000 rows; the two weight matrices and the two
  bias rows are whole at every block. At each block it forms relu(relu((x + aggr) W1 + b1) W2 + b2). Each entry of that
  depends on one row of x + aggr only, row p of block t is row 2000 t + p of the arrays, and every block is written back
  to the same rows of the output; so the output array ends holding the two layers applied to the whole of x + aggr,
  which is `Net.mlp (x + aggr) W1 b1 W2 b2`. The statements are over arbitrary contents at the region's entry.
-/
import proofs.«160553_j66949950210692_1_alg».proof.Proof.Gen.KernelIdeal.Frame
import proofs.«160553_j66949950210692_1_alg».proof.Proof.RegionMlpLayer

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

/-- The body of region 2 at row p, column q of a block against the two dense layers of the network at row r, column q
    of the whole array: they agree when row p of the block's two row operands is row r of the arrays and the weights
    and bias rows are the same. The first layer's rows agree by `layer_at`, so the second layer's entries do. -/
theorem dense2_at (x0 x1 : Vec Ideal S2000x128 .f32) (w1 : Vec Ideal S128x128 .f32) (b1 : Vec Ideal S1x128 .f32)
    (w2 : Vec Ideal S128x128 .f32) (b2 : Vec Ideal S1x128 .f32)
    (X A : Cert.Net.Arr S40000x128) (W1 : Cert.Net.Arr S128x128) (B1 : Cert.Net.Arr S1x128)
    (W2 : Cert.Net.Arr S128x128) (B2 : Cert.Net.Arr S1x128) (p : Fin 2000) (r : Fin 40000)
    (h0 : ∀ c : Fin 128, x0 (ix2 p c) = X (ix2 r c)) (h1 : ∀ c : Fin 128, x1 (ix2 p c) = A (ix2 r c))
    (hW1 : ∀ (a : Fin 128) (c : Fin 128), w1 (ix2 a c) = W1 (ix2 a c))
    (hB1 : ∀ q : Fin 128, b1 (ix2 (0 : Fin 1) q) = B1 (ix2 (0 : Fin 1) q))
    (hW2 : ∀ (a : Fin 128) (c : Fin 128), w2 (ix2 a c) = W2 (ix2 a c))
    (hB2 : ∀ q : Fin 128, b2 (ix2 (0 : Fin 1) q) = B2 (ix2 (0 : Fin 1) q)) (q : Fin 128) :
    k2_pay1 x0 x1 w1 b1 w2 b2 (ix2 p q) = Cert.Net.mlp (addf X A) W1 B1 W2 B2 (ix2 r q) := by
  unfold k2_pay1 Cert.Net.mlp
  simp only [shapeCast_self]
  exact layer_at _ w2 b2 _ W2 B2 p r
    (fun c => layer_at (addf x0 x1) w1 b1 (addf X A) W1 B1 p r
      (fun c' => by rw [addf_apply, addf_apply, h0, h1]) hW1 hB1 c) hW2 hB2 q

variable (V : (c : Dev nD) → (b : Ref sig .tc) → Buf (Elt Ideal) ((c : Thread nD τ).loc b))

/-- Where each window's block sits at point t of region 2, for each of the twenty points: the three row windows at
    block (t, 0), the weight and bias windows at block (0, 0). -/
theorem didx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of window 0's block at point t of region 2 is row 2000 t + p of its array. -/
theorem mlp2_blk0 (c : Dev nD) (t : Fin cfg2.N) (p : Fin 2000) (hr : t.val * 2000 + p.val < 40000) (c' : Fin 128) :
    (iblk2 V c 0 t : Vec Ideal S2000x128 .f32) (ix2 p c')
      = (V c (Pipeline.arrRef spec2 0) : Cert.Net.Arr S40000x128) (ix2 (⟨t.val * 2000 + p.val, hr⟩ : Fin 40000) c') := by
  have e0 : win2_0.index t (0 : Fin 2) = t.val := (didx2 t).1
  have e1 : win2_0.index t (1 : Fin 2) = 0 := (didx2 t).2.1
  show V c (Pipeline.arrRef spec2 0) (((cfg2.win 0).blk t).view.emb (ix2 p c')) = V c (Pipeline.arrRef spec2 0) (ix2 (⟨t.val * 2000 + p.val, hr⟩ : Fin 40000) c')
  refine congrArg _ (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * c'.val = c'.val; omega

/-- Row p of window 1's block at point t of region 2 is row 2000 t + p of its array. -/
theorem mlp2_blk1 (c : Dev nD) (t : Fin cfg2.N) (p : Fin 2000) (hr : t.val * 2000 + p.val < 40000) (c' : Fin 128) :
    (iblk2 V c 1 t : Vec Ideal S2000x128 .f32) (ix2 p c')
      = (V c (Pipeline.arrRef spec2 1) : Cert.Net.Arr S40000x128) (ix2 (⟨t.val * 2000 + p.val, hr⟩ : Fin 40000) c') := by
  have e0 : win2_1.index t (0 : Fin 2) = t.val := (didx2 t).2.2.1
  have e1 : win2_1.index t (1 : Fin 2) = 0 := (didx2 t).2.2.2.1
  show V c (Pipeline.arrRef spec2 1) (((cfg2.win 1).blk t).view.emb (ix2 p c')) = V c (Pipeline.arrRef spec2 1) (ix2 (⟨t.val * 2000 + p.val, hr⟩ : Fin 40000) c')
  refine congrArg _ (funext fun a => Fin.ext ?_)
  match a with
  | ⟨0, _⟩ => show win2_1.index t (0 : Fin 2) * 2000 + 1 * p.val = t.val * 2000 + p.val; omega
  | ⟨1, _⟩ => show win2_1.index t (1 : Fin 2) * 128 + 1 * c'.val = c'.val; omega

/-- Window 2's block at every point of region 2 is its whole 128 x 128 array. -/
theorem mlp2_blk2 (c : Dev nD) (t : Fin cfg2.N) (a' : Fin 128) (c' : Fin 128) :
    (iblk2 V c 2 t : Vec Ideal S128x128 .f32) (ix2 a' c') = (V c (Pipeline.arrRef spec2 2) : Cert.Net.Arr S128x128) (ix2 a' c') := by
  have e0 : win2_2.index t (0 : Fin 2) = 0 := (didx2 t).2.2.2.2.1
  have e1 : win2_2.index t (1 : Fin 2) = 0 := (didx2 t).2.2.2.2.2.1
  show V c (Pipeline.arrRef spec2 2) (((cfg2.win 2).blk t).view.emb (ix2 a' c')) = V c (Pipeline.arrRef spec2 2) (ix2 a' c')
  refine congrArg _ (funext fun a => Fin.ext ?_)
  match a with
  | ⟨0, _⟩ => show win2_2.index t (0 : Fin 2) * 128 + 1 * a'.val = a'.val; omega
  | ⟨1, _⟩ => show win2_2.index t (1 : Fin 2) * 128 + 1 * c'.val = c'.val; omega

/-- Window 3's block at every point of region 2 is its whole one-row array. -/
theorem mlp2_blk3 (c : Dev nD) (t : Fin cfg2.N) (c' : Fin 128) :
    (iblk2 V c 3 t : Vec Ideal S1x128 .f32) (ix2 (0 : Fin 1) c') = (V c (Pipeline.arrRef spec2 3) : Cert.Net.Arr S1x128) (ix2 (0 : Fin 1) c') := by
  have e0 : win2_3.index t (0 : Fin 2) = 0 := (didx2 t).2.2.2.2.2.2.1
  have e1 : win2_3.index t (1 : Fin 2) = 0 := (didx2 t).2.2.2.2.2.2.2.1
  show V c (Pipeline.arrRef spec2 3) (((cfg2.win 3).blk t).view.emb (ix2 (0 : Fin 1) c')) = V c (Pipeline.arrRef spec2 3) (ix2 (0 : Fin 1) c')
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * c'.val = c'.val; omega

/-- Window 4's block at every point of region 2 is its whole 128 x 128 array. -/
theorem mlp2_blk4 (c : Dev nD) (t : Fin cfg2.N) (a' : Fin 128) (c' : Fin 128) :
    (iblk2 V c 4 t : Vec Ideal S128x128 .f32) (ix2 a' c') = (V c (Pipeline.arrRef spec2 4) : Cert.Net.Arr S128x128) (ix2 a' c') := by
  have e0 : win2_4.index t (0 : Fin 2) = 0 := (didx2 t).2.2.2.2.2.2.2.2.1
  have e1 : win2_4.index t (1 : Fin 2) = 0 := (didx2 t).2.2.2.2.2.2.2.2.2.1
  show V c (Pipeline.arrRef spec2 4) (((cfg2.win 4).blk t).view.emb (ix2 a' c')) = V c (Pipeline.arrRef spec2 4) (ix2 a' c')
  refine congrArg _ (funext fun a => Fin.ext ?_)
  match a with
  | ⟨0, _⟩ => show win2_4.index t (0 : Fin 2) * 128 + 1 * a'.val = a'.val; omega
  | ⟨1, _⟩ => show win2_4.index t (1 : Fin 2) * 128 + 1 * c'.val = c'.val; omega

/-- Window 5's block at every point of region 2 is its whole one-row array. -/
theorem mlp2_blk5 (c : Dev nD) (t : Fin cfg2.N) (c' : Fin 128) :
    (iblk2 V c 5 t : Vec Ideal S1x128 .f32) (ix2 (0 : Fin 1) c') = (V c (Pipeline.arrRef spec2 5) : Cert.Net.Arr S1x128) (ix2 (0 : Fin 1) c') := by
  have e0 : win2_5.index t (0 : Fin 2) = 0 := (didx2 t).2.2.2.2.2.2.2.2.2.2.1
  have e1 : win2_5.index t (1 : Fin 2) = 0 := (didx2 t).2.2.2.2.2.2.2.2.2.2.2.1
  show V c (Pipeline.arrRef spec2 5) (((cfg2.win 5).blk t).view.emb (ix2 (0 : Fin 1) c')) = V c (Pipeline.arrRef spec2 5) (ix2 (0 : Fin 1) c')
  refine congrArg _ (funext fun a => Fin.ext ?_)
  match a with
  | ⟨0, _⟩ => show win2_5.index t (0 : Fin 2) * 1 + 1 * 0 = 0; omega
  | ⟨1, _⟩ => show win2_5.index t (1 : Fin 2) * 128 + 1 * c'.val = c'.val; omega

/-- Entry (p, q) of the output window's block at point t of region 2 sits at (2000 t + p, q) of the output array. -/
theorem mlp2_emb (t : Fin cfg2.N) (p : Fin 2000) (hr : t.val * 2000 + p.val < 40000) (q : Fin 128) :
    ((cfg2.win 6).blk t).view.emb (ix2 p q) = ix2 (⟨t.val * 2000 + p.val, hr⟩ : Fin 40000) q := by
  have e0 : win2_6.index t (0 : Fin 2) = t.val := (didx2 t).2.2.2.2.2.2.2.2.2.2.2.2.1
  have e1 : win2_6.index t (1 : Fin 2) = 0 := (didx2 t).2.2.2.2.2.2.2.2.2.2.2.2.2
  funext a; apply Fin.ext
  match a with
  | ⟨0, _⟩ => show win2_6.index t (0 : Fin 2) * 2000 + 1 * p.val = t.val * 2000 + p.val; omega
  | ⟨1, _⟩ => show win2_6.index t (1 : Fin 2) * 128 + 1 * q.val = q.val; omega

/-- Entry (p, q) of what the body leaves at point t of region 2 is entry (2000 t + p, q) of the two dense layers applied to
    x + aggr of the arrays as the region finds them. -/
theorem mlp2_point (c : Dev nD) (t : Fin cfg2.N) (p : Fin 2000) (hr : t.val * 2000 + p.val < 40000) (q : Fin 128) :
    k2_pay1 (iblk2 V c 0 t) (iblk2 V c 1 t) (iblk2 V c 2 t) (iblk2 V c 3 t) (iblk2 V c 4 t) (iblk2 V c 5 t) (ix2 p q)
      = (Cert.Net.mlp (addf (V c (Pipeline.arrRef spec2 0) : Cert.Net.Arr S40000x128) (V c (Pipeline.arrRef spec2 1) : Cert.Net.Arr S40000x128))
        (V c (Pipeline.arrRef spec2 2) : Cert.Net.Arr S128x128) (V c (Pipeline.arrRef spec2 3) : Cert.Net.Arr S1x128)
        (V c (Pipeline.arrRef spec2 4) : Cert.Net.Arr S128x128) (V c (Pipeline.arrRef spec2 5) : Cert.Net.Arr S1x128)) (ix2 (⟨t.val * 2000 + p.val, hr⟩ : Fin 40000) q) :=
  dense2_at (iblk2 V c 0 t) (iblk2 V c 1 t) (iblk2 V c 2 t) (iblk2 V c 3 t) (iblk2 V c 4 t) (iblk2 V c 5 t)
    (V c (Pipeline.arrRef spec2 0)) (V c (Pipeline.arrRef spec2 1)) (V c (Pipeline.arrRef spec2 2)) (V c (Pipeline.arrRef spec2 3))
    (V c (Pipeline.arrRef spec2 4)) (V c (Pipeline.arrRef spec2 5)) p ⟨t.val * 2000 + p.val, hr⟩
    (mlp2_blk0 V c t p hr) (mlp2_blk1 V c t p hr) (mlp2_blk2 V c t) (mlp2_blk3 V c t) (mlp2_blk4 V c t) (mlp2_blk5 V c t) q

set_option maxHeartbeats 1000000 in
/-- What point t of region 2 writes back is block t of the two dense layers applied to x + aggr, of the arrays as the
    region finds them: row p of block t is row 2000 t + p of the arrays. -/
theorem mlp2_flushed (c : Dev nD) (t : Fin cfg2.N) :
    (dat2 V c).flushed 6 t = ((cfg2.win 6).blk t).view.read (Elt Ideal)
      (Cert.Net.mlp (addf (V c (Pipeline.arrRef spec2 0) : Cert.Net.Arr S40000x128) (V c (Pipeline.arrRef spec2 1) : Cert.Net.Arr S40000x128))
        (V c (Pipeline.arrRef spec2 2) : Cert.Net.Arr S128x128) (V c (Pipeline.arrRef spec2 3) : Cert.Net.Arr S1x128)
        (V c (Pipeline.arrRef spec2 4) : Cert.Net.Arr S128x128) (V c (Pipeline.arrRef spec2 5) : Cert.Net.Arr S1x128)) := by
  show (cfg2.win 6).cut (grid2.coords t) ((dat2 V c).after 6 t) = _
  rw [after2_6]
  unfold out2_6
  rw [View.canon_unit_zero mlp_hz]
  simp only [View.ld_unit_zero (S := S2000x128) mlp_hz, View.ld_unit_zero (S := S128x128) mlp_hz, View.ld_unit_zero (S := S1x128) mlp_hz]
  have hN : cfg2.N = 20 := N_2
  have ht : t.val < 20 := hN ▸ t.isLt
  funext j
  obtain ⟨p, q, rfl⟩ : ∃ (p : Fin 2000) (q : Fin 128), j = ix2 p q := ⟨j 0, j 1, eq_ix2 j⟩
  have hp : p.val < 2000 := p.isLt
  have hr : t.val * 2000 + p.val < 40000 := by omega
  exact (mlp2_point V c t p hr q).trans (congrArg _ (mlp2_emb t p hr q).symm)

/-- An index of the output array lies in point t's block iff each coordinate lies in the block's range on its axis. -/
theorem mlp2_mem (t : Fin cfg2.N) (i : S40000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v57).slice (win2_6.rect t)).set ↔ _
  rw [View.set_slice_whole, Rect.mem_set_unit]
  exact Iff.rfl

/-- Region 2 leaves relu(relu((x + aggr) W1 + b1) W2 + b2) in its output array: row r lies in the block of point
    r / 2000, and every point writes its block back. -/
theorem mlp2_value (c : Dev nD) :
    (dat2 V c).arrAt 6 cfg2.N
      = Cert.Net.mlp (addf (V c (Pipeline.arrRef spec2 0) : Cert.Net.Arr S40000x128) (V c (Pipeline.arrRef spec2 1) : Cert.Net.Arr S40000x128))
        (V c (Pipeline.arrRef spec2 2) : Cert.Net.Arr S128x128) (V c (Pipeline.arrRef spec2 3) : Cert.Net.Arr S1x128)
        (V c (Pipeline.arrRef spec2 4) : Cert.Net.Arr S128x128) (V c (Pipeline.arrRef spec2 5) : Cert.Net.Arr S1x128) :=
  (dat2 V c).arrAt_eq_of_cover 6 _ (fun t _ => mlp2_flushed V c t) fun i => by
    have hi0 : (i 0).val < 40000 := (i 0).isLt
    have hi1 : (i 1).val < 128 := (i 1).isLt
    have hN : cfg2.N = 20 := N_2
    have ht : (i 0).val / 2000 < cfg2.N := by rw [hN]; omega
    refine ⟨⟨(i 0).val / 2000, ht⟩, flush2_6 _, ?_⟩
    rw [mlp2_mem]
    have e60 : win2_6.index ⟨(i 0).val / 2000, ht⟩ (0 : Fin 2) = (i 0).val / 2000 := (didx2 ⟨(i 0).val / 2000, ht⟩).2.2.2.2.2.2.2.2.2.2.2.2.1
    have e61 : win2_6.index ⟨(i 0).val / 2000, ht⟩ (1 : Fin 2) = 0 := (didx2 ⟨(i 0).val / 2000, ht⟩).2.2.2.2.2.2.2.2.2.2.2.2.2
    intro a
    match a with
    | ⟨0, _⟩ =>
      show win2_6.index ⟨(i 0).val / 2000, ht⟩ (0 : Fin 2) * 2000 ≤ (i 0).val
        ∧ (i 0).val < win2_6.index ⟨(i 0).val / 2000, ht⟩ (0 : Fin 2) * 2000 + 2000
      rw [e60]; omega
    | ⟨1, _⟩ =>
      show win2_6.index ⟨(i 0).val / 2000, ht⟩ (1 : Fin 2) * 128 ≤ (i 1).val
        ∧ (i 1).val < win2_6.index ⟨(i 0).val / 2000, ht⟩ (1 : Fin 2) * 128 + 128
      rw [e61]; omega

end Cert.KernelIdeal.RegionValue

end
-- ==== Proof.RegionMlp4.lean ====
/-
  Dense region 4 as one function of its input arrays.

  The region walks the 40000 x 128 arrays x and aggr in twenty blocks of 2000 rows; the two weight matrices and the two
  bias rows are whole at every block. At each block it forms relu(relu((x + aggr) W1 + b1) W2 + b2). Each entry of that
  depends on one row of x + aggr only, row p of block t is row 2000 t + p of the arrays, and every block is written back
  to the same rows of the output; so the output array ends holding the two layers applied to the whole of x + aggr,
  which is `Net.mlp (x + aggr) W1 b1 W2 b2`. The statements are over arbitrary contents at the region's entry.
-/
import proofs.«160553_j66949950210692_1_alg».proof.Proof.Gen.KernelIdeal.Frame
import proofs.«160553_j66949950210692_1_alg».proof.Proof.RegionMlpLayer

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

/-- The body of region 4 at row p, column q of a block against the two dense layers of the network at row r, column q
    of the whole array: they agree when row p of the block's two row operands is row r of the arrays and the weights
    and bias rows are the same. The first layer's rows agree by `layer_at`, so the second layer's entries do. -/
theorem dense4_at (x0 x1 : Vec Ideal S2000x128 .f32) (w1 : Vec Ideal S128x128 .f32) (b1 : Vec Ideal S1x128 .f32)
    (w2 : Vec Ideal S128x128 .f32) (b2 : Vec Ideal S1x128 .f32)
    (X A : Cert.Net.Arr S40000x128) (W1 : Cert.Net.Arr S128x128) (B1 : Cert.Net.Arr S1x128)
    (W2 : Cert.Net.Arr S128x128) (B2 : Cert.Net.Arr S1x128) (p : Fin 2000) (r : Fin 40000)
    (h0 : ∀ c : Fin 128, x0 (ix2 p c) = X (ix2 r c)) (h1 : ∀ c : Fin 128, x1 (ix2 p c) = A (ix2 r c))
    (hW1 : ∀ (a : Fin 128) (c : Fin 128), w1 (ix2 a c) = W1 (ix2 a c))
    (hB1 : ∀ q : Fin 128, b1 (ix2 (0 : Fin 1) q) = B1 (ix2 (0 : Fin 1) q))
    (hW2 : ∀ (a : Fin 128) (c : Fin 128), w2 (ix2 a c) = W2 (ix2 a c))
    (hB2 : ∀ q : Fin 128, b2 (ix2 (0 : Fin 1) q) = B2 (ix2 (0 : Fin 1) q)) (q : Fin 128) :
    k4_pay1 x0 x1 w1 b1 w2 b2 (ix2 p q) = Cert.Net.mlp (addf X A) W1 B1 W2 B2 (ix2 r q) := by
  unfold k4_pay1 Cert.Net.mlp
  simp only [shapeCast_self]
  exact layer_at _ w2 b2 _ W2 B2 p r
    (fun c => layer_at (addf x0 x1) w1 b1 (addf X A) W1 B1 p r
      (fun c' => by rw [addf_apply, addf_apply, h0, h1]) hW1 hB1 c) hW2 hB2 q

variable (V : (c : Dev nD) → (b : Ref sig .tc) → Buf (Elt Ideal) ((c : Thread nD τ).loc b))

/-- Where each window's block sits at point t of region 4, for each of the twenty points: the three row windows at
    block (t, 0), the weight and bias windows at block (0, 0). -/
theorem didx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Row p of window 0's block at point t of region 4 is row 2000 t + p of its array. -/
theorem mlp4_blk0 (c : Dev nD) (t : Fin cfg4.N) (p : Fin 2000) (hr : t.val * 2000 + p.val < 40000) (c' : Fin 128) :
    (iblk4 V c 0 t : Vec Ideal S2000x128 .f32) (ix2 p c')
      = (V c (Pipeline.arrRef spec4 0) : Cert.Net.Arr S40000x128) (ix2 (⟨t.val * 2000 + p.val, hr⟩ : Fin 40000) c') := by
  have e0 : win4_0.index t (0 : Fin 2) = t.val := (didx4 t).1
  have e1 : win4_0.index t (1 : Fin 2) = 0 := (didx4 t).2.1
  show V c (Pipeline.arrRef spec4 0) (((cfg4.win 0).blk t).view.emb (ix2 p c')) = V c (Pipeline.arrRef spec4 0) (ix2 (⟨t.val * 2000 + p.val, hr⟩ : Fin 40000) c')
  refine congrArg _ (funext fun a => Fin.ext ?_)
  match a with
  | ⟨0, _⟩ => show win4_0.index t (0 : Fin 2) * 2000 + 1 * p.val = t.val * 2000 + p.val; omega
  | ⟨1, _⟩ => show win4_0.index t (1 : Fin 2) * 128 + 1 * c'.val = c'.val; omega

/-- Row p of window 1's block at point t of region 4 is row 2000 t + p of its array. -/
theorem mlp4_blk1 (c : Dev nD) (t : Fin cfg4.N) (p : Fin 2000) (hr : t.val * 2000 + p.val < 40000) (c' : Fin 128) :
    (iblk4 V c 1 t : Vec Ideal S2000x128 .f32) (ix2 p c')
      = (V c (Pipeline.arrRef spec4 1) : Cert.Net.Arr S40000x128) (ix2 (⟨t.val * 2000 + p.val, hr⟩ : Fin 40000) c') := by
  have e0 : win4_1.index t (0 : Fin 2) = t.val := (didx4 t).2.2.1
  have e1 : win4_1.index t (1 : Fin 2) = 0 := (didx4 t).2.2.2.1
  show V c (Pipeline.arrRef spec4 1) (((cfg4.win 1).blk t).view.emb (ix2 p c')) = V c (Pipeline.arrRef spec4 1) (ix2 (⟨t.val * 2000 + p.val, hr⟩ : Fin 40000) c')
  refine congrArg _ (funext fun a => Fin.ext ?_)
  match a with
  | ⟨0, _⟩ => show win4_1.index t (0 : Fin 2) * 2000 + 1 * p.val = t.val * 2000 + p.val; omega
  | ⟨1, _⟩ => show win4_1.index t (1 : Fin 2) * 128 + 1 * c'.val = c'.val; omega

/-- Window 2's block at every point of region 4 is its whole 128 x 128 array. -/
theorem mlp4_blk2 (c : Dev nD) (t : Fin cfg4.N) (a' : Fin 128) (c' : Fin 128) :
    (iblk4 V c 2 t : Vec Ideal S128x128 .f32) (ix2 a' c') = (V c (Pipeline.arrRef spec4 2) : Cert.Net.Arr S128x128) (ix2 a' c') := by
  have e0 : win4_2.index t (0 : Fin 2) = 0 := (didx4 t).2.2.2.2.1
  have e1 : win4_2.index t (1 : Fin 2) = 0 := (didx4 t).2.2.2.2.2.1
  show V c (Pipeline.arrRef spec4 2) (((cfg4.win 2).blk t).view.emb (ix2 a' c')) = V c (Pipeline.arrRef spec4 2) (ix2 a' c')
  refine congrArg _ (funext fun a => Fin.ext ?_)
  match a with
  | ⟨0, _⟩ => show win4_2.index t (0 : Fin 2) * 128 + 1 * a'.val = a'.val; omega
  | ⟨1, _⟩ => show win4_2.index t (1 : Fin 2) * 128 + 1 * c'.val = c'.val; omega

/-- Window 3's block at every point of region 4 is its whole one-row array. -/
theorem mlp4_blk3 (c : Dev nD) (t : Fin cfg4.N) (c' : Fin 128) :
    (iblk4 V c 3 t : Vec Ideal S1x128 .f32) (ix2 (0 : Fin 1) c') = (V c (Pipeline.arrRef spec4 3) : Cert.Net.Arr S1x128) (ix2 (0 : Fin 1) c') := by
  have e0 : win4_3.index t (0 : Fin 2) = 0 := (didx4 t).2.2.2.2.2.2.1
  have e1 : win4_3.index t (1 : Fin 2) = 0 := (didx4 t).2.2.2.2.2.2.2.1
  show V c (Pipeline.arrRef spec4 3) (((cfg4.win 3).blk t).view.emb (ix2 (0 : Fin 1) c')) = V c (Pipeline.arrRef spec4 3) (ix2 (0 : Fin 1) c')
  refine congrArg _ (funext fun a => Fin.ext ?_)
  match a with
  | ⟨0, _⟩ => show win4_3.index t (0 : Fin 2) * 1 + 1 * 0 = 0; omega
  | ⟨1, _⟩ => show win4_3.index t (1 : Fin 2) * 128 + 1 * c'.val = c'.val; omega

/-- Window 4's block at every point of region 4 is its whole 128 x 128 array. -/
theorem mlp4_blk4 (c : Dev nD) (t : Fin cfg4.N) (a' : Fin 128) (c' : Fin 128) :
    (iblk4 V c 4 t : Vec Ideal S128x128 .f32) (ix2 a' c') = (V c (Pipeline.arrRef spec4 4) : Cert.Net.Arr S128x128) (ix2 a' c') := by
  have e0 : win4_4.index t (0 : Fin 2) = 0 := (didx4 t).2.2.2.2.2.2.2.2.1
  have e1 : win4_4.index t (1 : Fin 2) = 0 := (didx4 t).2.2.2.2.2.2.2.2.2.1
  show V c (Pipeline.arrRef spec4 4) (((cfg4.win 4).blk t).view.emb (ix2 a' c')) = V c (Pipeline.arrRef spec4 4) (ix2 a' c')
  refine congrArg _ (funext fun a => Fin.ext ?_)
  match a with
  | ⟨0, _⟩ => show win4_4.index t (0 : Fin 2) * 128 + 1 * a'.val = a'.val; omega
  | ⟨1, _⟩ => show win4_4.index t (1 : Fin 2) * 128 + 1 * c'.val = c'.val; omega

/-- Window 5's block at every point of region 4 is its whole one-row array. -/
theorem mlp4_blk5 (c : Dev nD) (t : Fin cfg4.N) (c' : Fin 128) :
    (iblk4 V c 5 t : Vec Ideal S1x128 .f32) (ix2 (0 : Fin 1) c') = (V c (Pipeline.arrRef spec4 5) : Cert.Net.Arr S1x128) (ix2 (0 : Fin 1) c') := by
  have e0 : win4_5.index t (0 : Fin 2) = 0 := (didx4 t).2.2.2.2.2.2.2.2.2.2.1
  have e1 : win4_5.index t (1 : Fin 2) = 0 := (didx4 t).2.2.2.2.2.2.2.2.2.2.2.1
  show V c (Pipeline.arrRef spec4 5) (((cfg4.win 5).blk t).view.emb (ix2 (0 : Fin 1) c')) = V c (Pipeline.arrRef spec4 5) (ix2 (0 : Fin 1) c')
  refine congrArg _ (funext fun a => Fin.ext ?_)
  match a with
  | ⟨0, _⟩ => show win4_5.index t (0 : Fin 2) * 1 + 1 * 0 = 0; omega
  | ⟨1, _⟩ => show win4_5.index t (1 : Fin 2) * 128 + 1 * c'.val = c'.val; omega

/-- Entry (p, q) of the output window's block at point t of region 4 sits at (2000 t + p, q) of the output array. -/
theorem mlp4_emb (t : Fin cfg4.N) (p : Fin 2000) (hr : t.val * 2000 + p.val < 40000) (q : Fin 128) :
    ((cfg4.win 6).blk t).view.emb (ix2 p q) = ix2 (⟨t.val * 2000 + p.val, hr⟩ : Fin 40000) q := by
  have e0 : win4_6.index t (0 : Fin 2) = t.val := (didx4 t).2.2.2.2.2.2.2.2.2.2.2.2.1
  have e1 : win4_6.index t (1 : Fin 2) = 0 := (didx4 t).2.2.2.2.2.2.2.2.2.2.2.2.2
  funext a; apply Fin.ext
  match a with
  | ⟨0, _⟩ => show win4_6.index t (0 : Fin 2) * 2000 + 1 * p.val = t.val * 2000 + p.val; omega
  | ⟨1, _⟩ => show win4_6.index t (1 : Fin 2) * 128 + 1 * q.val = q.val; omega

/-- Entry (p, q) of what the body leaves at point t of region 4 is entry (2000 t + p, q) of the two dense layers applied to
    x + aggr of the arrays as the region finds them. -/
theorem mlp4_point (c : Dev nD) (t : Fin cfg4.N) (p : Fin 2000) (hr : t.val * 2000 + p.val < 40000) (q : Fin 128) :
    k4_pay1 (iblk4 V c 0 t) (iblk4 V c 1 t) (iblk4 V c 2 t) (iblk4 V c 3 t) (iblk4 V c 4 t) (iblk4 V c 5 t) (ix2 p q)
      = (Cert.Net.mlp (addf (V c (Pipeline.arrRef spec4 0) : Cert.Net.Arr S40000x128) (V c (Pipeline.arrRef spec4 1) : Cert.Net.Arr S40000x128))
        (V c (Pipeline.arrRef spec4 2) : Cert.Net.Arr S128x128) (V c (Pipeline.arrRef spec4 3) : Cert.Net.Arr S1x128)
        (V c (Pipeline.arrRef spec4 4) : Cert.Net.Arr S128x128) (V c (Pipeline.arrRef spec4 5) : Cert.Net.Arr S1x128)) (ix2 (⟨t.val * 2000 + p.val, hr⟩ : Fin 40000) q) :=
  dense4_at (iblk4 V c 0 t) (iblk4 V c 1 t) (iblk4 V c 2 t) (iblk4 V c 3 t) (iblk4 V c 4 t) (iblk4 V c 5 t)
    (V c (Pipeline.arrRef spec4 0)) (V c (Pipeline.arrRef spec4 1)) (V c (Pipeline.arrRef spec4 2)) (V c (Pipeline.arrRef spec4 3))
    (V c (Pipeline.arrRef spec4 4)) (V c (Pipeline.arrRef spec4 5)) p ⟨t.val * 2000 + p.val, hr⟩
    (mlp4_blk0 V c t p hr) (mlp4_blk1 V c t p hr) (mlp4_blk2 V c t) (mlp4_blk3 V c t) (mlp4_blk4 V c t) (mlp4_blk5 V c t) q

set_option maxHeartbeats 1000000 in
/-- What point t of region 4 writes back is block t of the two dense layers applied to x + aggr, of the arrays as the
    region finds them: row p of block t is row 2000 t + p of the arrays. -/
theorem mlp4_flushed (c : Dev nD) (t : Fin cfg4.N) :
    (dat4 V c).flushed 6 t = ((cfg4.win 6).blk t).view.read (Elt Ideal)
      (Cert.Net.mlp (addf (V c (Pipeline.arrRef spec4 0) : Cert.Net.Arr S40000x128) (V c (Pipeline.arrRef spec4 1) : Cert.Net.Arr S40000x128))
        (V c (Pipeline.arrRef spec4 2) : Cert.Net.Arr S128x128) (V c (Pipeline.arrRef spec4 3) : Cert.Net.Arr S1x128)
        (V c (Pipeline.arrRef spec4 4) : Cert.Net.Arr S128x128) (V c (Pipeline.arrRef spec4 5) : Cert.Net.Arr S1x128)) := by
  show (cfg4.win 6).cut (grid4.coords t) ((dat4 V c).after 6 t) = _
  rw [after4_6]
  unfold out4_6
  rw [View.canon_unit_zero mlp_hz]
  simp only [View.ld_unit_zero (S := S2000x128) mlp_hz, View.ld_unit_zero (S := S128x128) mlp_hz, View.ld_unit_zero (S := S1x128) mlp_hz]
  have hN : cfg4.N = 20 := N_4
  have ht : t.val < 20 := hN ▸ t.isLt
  funext j
  obtain ⟨p, q, rfl⟩ : ∃ (p : Fin 2000) (q : Fin 128), j = ix2 p q := ⟨j 0, j 1, eq_ix2 j⟩
  have hp : p.val < 2000 := p.isLt
  have hr : t.val * 2000 + p.val < 40000 := by omega
  exact (mlp4_point V c t p hr q).trans (congrArg _ (mlp4_emb t p hr q).symm)

/-- An index of the output array lies in point t's block iff each coordinate lies in the block's range on its axis. -/
theorem mlp4_mem (t : Fin cfg4.N) (i : S40000x128.Idx) :
    i ∈ ((cfg4.win 6).blk t).view.set ↔ ∀ a : Fin 2, win4_6.index t a * S2000x128.size a ≤ (i a).val
      ∧ (i a).val < win4_6.index t a * S2000x128.size a + S2000x128.size a := by
  show i ∈ ((View.whole main_v95).slice (win4_6.rect t)).set ↔ _
  rw [View.set_slice_whole, Rect.mem_set_unit]
  exact Iff.rfl

/-- Region 4 leaves relu(relu((x + aggr) W1 + b1) W2 + b2) in its output array: row r lies in the block of point
    r / 2000, and every point writes its block back. -/
theorem mlp4_value (c : Dev nD) :
    (dat4 V c).arrAt 6 cfg4.N
      = Cert.Net.mlp (addf (V c (Pipeline.arrRef spec4 0) : Cert.Net.Arr S40000x128) (V c (Pipeline.arrRef spec4 1) : Cert.Net.Arr S40000x128))
        (V c (Pipeline.arrRef spec4 2) : Cert.Net.Arr S128x128) (V c (Pipeline.arrRef spec4 3) : Cert.Net.Arr S1x128)
        (V c (Pipeline.arrRef spec4 4) : Cert.Net.Arr S128x128) (V c (Pipeline.arrRef spec4 5) : Cert.Net.Arr S1x128) :=
  (dat4 V c).arrAt_eq_of_cover 6 _ (fun t _ => mlp4_flushed V c t) fun i => by
    have hi0 : (i 0).val < 40000 := (i 0).isLt
    have hi1 : (i 1).val < 128 := (i 1).isLt
    have hN : cfg4.N = 20 := N_4
    have ht : (i 0).val / 2000 < cfg4.N := by rw [hN]; omega
    refine ⟨⟨(i 0).val / 2000, ht⟩, flush4_6 _, ?_⟩
    rw [mlp4_mem]
    have e60 : win4_6.index ⟨(i 0).val / 2000, ht⟩ (0 : Fin 2) = (i 0).val / 2000 := (didx4 ⟨(i 0).val / 2000, ht⟩).2.2.2.2.2.2.2.2.2.2.2.2.1
    have e61 : win4_6.index ⟨(i 0).val / 2000, ht⟩ (1 : Fin 2) = 0 := (didx4 ⟨(i 0).val / 2000, ht⟩).2.2.2.2.2.2.2.2.2.2.2.2.2
    intro a
    match a with
    | ⟨0, _⟩ =>
      show win4_6.index ⟨(i 0).val / 2000, ht⟩ (0 : Fin 2) * 2000 ≤ (i 0).val
        ∧ (i 0).val < win4_6.index ⟨(i 0).val / 2000, ht⟩ (0 : Fin 2) * 2000 + 2000
      rw [e60]; omega
    | ⟨1, _⟩ =>
      show win4_6.index ⟨(i 0).val / 2000, ht⟩ (1 : Fin 2) * 128 ≤ (i 1).val
        ∧ (i 1).val < win4_6.index ⟨(i 0).val / 2000, ht⟩ (1 : Fin 2) * 128 + 128
      rw [e61]; omega

end Cert.KernelIdeal.RegionValue

end
-- ==== Proof.RegionMlp6.lean ====
/-
  Dense region 6 as one function of its input arrays.

  The region walks the 40000 x 128 arrays x and aggr in twenty blocks of 2000 rows; the two weight matrices and the two
  bias rows are whole at every block. At each block it forms relu(relu((x + aggr) W1 + b1) W2 + b2). Each entry of that
  depends on one row of x + aggr only, row p of block t is row 2000 t + p of the arrays, and every block is written back
  to the same rows of the output; so the output array ends holding the two layers applied to the whole of x + aggr,
  which is `Net.mlp (x + aggr) W1 b1 W2 b2`. The statements are over arbitrary contents at the region's entry.
-/
import proofs.«160553_j66949950210692_1_alg».proof.Proof.Gen.KernelIdeal.Frame
import proofs.«160553_j66949950210692_1_alg».proof.Proof.RegionMlpLayer

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

/-- The body of region 6 at row p, column q of a block against the two dense layers of the network at row r, column q
    of the whole array: they agree when row p of the block's two row operands is row r of the arrays and the weights
    and bias rows are the same. The first layer's rows agree by `layer_at`, so the second layer's entries do. -/
theorem dense6_at (x0 x1 : Vec Ideal S2000x128 .f32) (w1 : Vec Ideal S128x128 .f32) (b1 : Vec Ideal S1x128 .f32)
    (w2 : Vec Ideal S128x128 .f32) (b2 : Vec Ideal S1x128 .f32)
    (X A : Cert.Net.Arr S40000x128) (W1 : Cert.Net.Arr S128x128) (B1 : Cert.Net.Arr S1x128)
    (W2 : Cert.Net.Arr S128x128) (B2 : Cert.Net.Arr S1x128) (p : Fin 2000) (r : Fin 40000)
    (h0 : ∀ c : Fin 128, x0 (ix2 p c) = X (ix2 r c)) (h1 : ∀ c : Fin 128, x1 (ix2 p c) = A (ix2 r c))
    (hW1 : ∀ (a : Fin 128) (c : Fin 128), w1 (ix2 a c) = W1 (ix2 a c))
    (hB1 : ∀ q : Fin 128, b1 (ix2 (0 : Fin 1) q) = B1 (ix2 (0 : Fin 1) q))
    (hW2 : ∀ (a : Fin 128) (c : Fin 128), w2 (ix2 a c) = W2 (ix2 a c))
    (hB2 : ∀ q : Fin 128, b2 (ix2 (0 : Fin 1) q) = B2 (ix2 (0 : Fin 1) q)) (q : Fin 128) :
    k6_pay1 x0 x1 w1 b1 w2 b2 (ix2 p q) = Cert.Net.mlp (addf X A) W1 B1 W2 B2 (ix2 r q) := by
  unfold k6_pay1 Cert.Net.mlp
  simp only [shapeCast_self]
  exact layer_at _ w2 b2 _ W2 B2 p r
    (fun c => layer_at (addf x0 x1) w1 b1 (addf X A) W1 B1 p r
      (fun c' => by rw [addf_apply, addf_apply, h0, h1]) hW1 hB1 c) hW2 hB2 q

variable (V : (c : Dev nD) → (b : Ref sig .tc) → Buf (Elt Ideal) ((c : Thread nD τ).loc b))

/-- Where each window's block sits at point t of region 6, for each of the twenty points: the three row windows at
    block (t, 0), the weight and bias windows at block (0, 0). -/
theorem didx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- Row p of window 0's block at point t of region 6 is row 2000 t + p of its array. -/
theorem mlp6_blk0 (c : Dev nD) (t : Fin cfg6.N) (p : Fin 2000) (hr : t.val * 2000 + p.val < 40000) (c' : Fin 128) :
    (iblk6 V c 0 t : Vec Ideal S2000x128 .f32) (ix2 p c')
      = (V c (Pipeline.arrRef spec6 0) : Cert.Net.Arr S40000x128) (ix2 (⟨t.val * 2000 + p.val, hr⟩ : Fin 40000) c') := by
  have e0 : win6_0.index t (0 : Fin 2) = t.val := (didx6 t).1
  have e1 : win6_0.index t (1 : Fin 2) = 0 := (didx6 t).2.1
  show V c (Pipeline.arrRef spec6 0) (((cfg6.win 0).blk t).view.emb (ix2 p c')) = V c (Pipeline.arrRef spec6 0) (ix2 (⟨t.val * 2000 + p.val, hr⟩ : Fin 40000) c')
  refine congrArg _ (funext fun a => Fin.ext ?_)
  match a with
  | ⟨0, _⟩ => show win6_0.index t (0 : Fin 2) * 2000 + 1 * p.val = t.val * 2000 + p.val; omega
  | ⟨1, _⟩ => show win6_0.index t (1 : Fin 2) * 128 + 1 * c'.val = c'.val; omega

/-- Row p of window 1's block at point t of region 6 is row 2000 t + p of its array. -/
theorem mlp6_blk1 (c : Dev nD) (t : Fin cfg6.N) (p : Fin 2000) (hr : t.val * 2000 + p.val < 40000) (c' : Fin 128) :
    (iblk6 V c 1 t : Vec Ideal S2000x128 .f32) (ix2 p c')
      = (V c (Pipeline.arrRef spec6 1) : Cert.Net.Arr S40000x128) (ix2 (⟨t.val * 2000 + p.val, hr⟩ : Fin 40000) c') := by
  have e0 : win6_1.index t (0 : Fin 2) = t.val := (didx6 t).2.2.1
  have e1 : win6_1.index t (1 : Fin 2) = 0 := (didx6 t).2.2.2.1
  show V c (Pipeline.arrRef spec6 1) (((cfg6.win 1).blk t).view.emb (ix2 p c')) = V c (Pipeline.arrRef spec6 1) (ix2 (⟨t.val * 2000 + p.val, hr⟩ : Fin 40000) c')
  refine congrArg _ (funext fun a => Fin.ext ?_)
  match a with
  | ⟨0, _⟩ => show win6_1.index t (0 : Fin 2) * 2000 + 1 * p.val = t.val * 2000 + p.val; omega
  | ⟨1, _⟩ => show win6_1.index t (1 : Fin 2) * 128 + 1 * c'.val = c'.val; omega

/-- Window 2's block at every point of region 6 is its whole 128 x 128 array. -/
theorem mlp6_blk2 (c : Dev nD) (t : Fin cfg6.N) (a' : Fin 128) (c' : Fin 128) :
    (iblk6 V c 2 t : Vec Ideal S128x128 .f32) (ix2 a' c') = (V c (Pipeline.arrRef spec6 2) : Cert.Net.Arr S128x128) (ix2 a' c') := by
  have e0 : win6_2.index t (0 : Fin 2) = 0 := (didx6 t).2.2.2.2.1
  have e1 : win6_2.index t (1 : Fin 2) = 0 := (didx6 t).2.2.2.2.2.1
  show V c (Pipeline.arrRef spec6 2) (((cfg6.win 2).blk t).view.emb (ix2 a' c')) = V c (Pipeline.arrRef spec6 2) (ix2 a' c')
  refine congrArg _ (funext fun a => Fin.ext ?_)
  match a with
  | ⟨0, _⟩ => show win6_2.index t (0 : Fin 2) * 128 + 1 * a'.val = a'.val; omega
  | ⟨1, _⟩ => show win6_2.index t (1 : Fin 2) * 128 + 1 * c'.val = c'.val; omega

/-- Window 3's block at every point of region 6 is its whole one-row array. -/
theorem mlp6_blk3 (c : Dev nD) (t : Fin cfg6.N) (c' : Fin 128) :
    (iblk6 V c 3 t : Vec Ideal S1x128 .f32) (ix2 (0 : Fin 1) c') = (V c (Pipeline.arrRef spec6 3) : Cert.Net.Arr S1x128) (ix2 (0 : Fin 1) c') := by
  have e0 : win6_3.index t (0 : Fin 2) = 0 := (didx6 t).2.2.2.2.2.2.1
  have e1 : win6_3.index t (1 : Fin 2) = 0 := (didx6 t).2.2.2.2.2.2.2.1
  show V c (Pipeline.arrRef spec6 3) (((cfg6.win 3).blk t).view.emb (ix2 (0 : Fin 1) c')) = V c (Pipeline.arrRef spec6 3) (ix2 (0 : Fin 1) c')
  refine congrArg _ (funext fun a => Fin.ext ?_)
  match a with
  | ⟨0, _⟩ => show win6_3.index t (0 : Fin 2) * 1 + 1 * 0 = 0; omega
  | ⟨1, _⟩ => show win6_3.index t (1 : Fin 2) * 128 + 1 * c'.val = c'.val; omega

/-- Window 4's block at every point of region 6 is its whole 128 x 128 array. -/
theorem mlp6_blk4 (c : Dev nD) (t : Fin cfg6.N) (a' : Fin 128) (c' : Fin 128) :
    (iblk6 V c 4 t : Vec Ideal S128x128 .f32) (ix2 a' c') = (V c (Pipeline.arrRef spec6 4) : Cert.Net.Arr S128x128) (ix2 a' c') := by
  have e0 : win6_4.index t (0 : Fin 2) = 0 := (didx6 t).2.2.2.2.2.2.2.2.1
  have e1 : win6_4.index t (1 : Fin 2) = 0 := (didx6 t).2.2.2.2.2.2.2.2.2.1
  show V c (Pipeline.arrRef spec6 4) (((cfg6.win 4).blk t).view.emb (ix2 a' c')) = V c (Pipeline.arrRef spec6 4) (ix2 a' c')
  refine congrArg _ (funext fun a => Fin.ext ?_)
  match a with
  | ⟨0, _⟩ => show win6_4.index t (0 : Fin 2) * 128 + 1 * a'.val = a'.val; omega
  | ⟨1, _⟩ => show win6_4.index t (1 : Fin 2) * 128 + 1 * c'.val = c'.val; omega

/-- Window 5's block at every point of region 6 is its whole one-row array. -/
theorem mlp6_blk5 (c : Dev nD) (t : Fin cfg6.N) (c' : Fin 128) :
    (iblk6 V c 5 t : Vec Ideal S1x128 .f32) (ix2 (0 : Fin 1) c') = (V c (Pipeline.arrRef spec6 5) : Cert.Net.Arr S1x128) (ix2 (0 : Fin 1) c') := by
  have e0 : win6_5.index t (0 : Fin 2) = 0 := (didx6 t).2.2.2.2.2.2.2.2.2.2.1
  have e1 : win6_5.index t (1 : Fin 2) = 0 := (didx6 t).2.2.2.2.2.2.2.2.2.2.2.1
  show V c (Pipeline.arrRef spec6 5) (((cfg6.win 5).blk t).view.emb (ix2 (0 : Fin 1) c')) = V c (Pipeline.arrRef spec6 5) (ix2 (0 : Fin 1) c')
  refine congrArg _ (funext fun a => Fin.ext ?_)
  match a with
  | ⟨0, _⟩ => show win6_5.index t (0 : Fin 2) * 1 + 1 * 0 = 0; omega
  | ⟨1, _⟩ => show win6_5.index t (1 : Fin 2) * 128 + 1 * c'.val = c'.val; omega

/-- Entry (p, q) of the output window's block at point t of region 6 sits at (2000 t + p, q) of the output array. -/
theorem mlp6_emb (t : Fin cfg6.N) (p : Fin 2000) (hr : t.val * 2000 + p.val < 40000) (q : Fin 128) :
    ((cfg6.win 6).blk t).view.emb (ix2 p q) = ix2 (⟨t.val * 2000 + p.val, hr⟩ : Fin 40000) q := by
  have e0 : win6_6.index t (0 : Fin 2) = t.val := (didx6 t).2.2.2.2.2.2.2.2.2.2.2.2.1
  have e1 : win6_6.index t (1 : Fin 2) = 0 := (didx6 t).2.2.2.2.2.2.2.2.2.2.2.2.2
  funext a; apply Fin.ext
  match a with
  | ⟨0, _⟩ => show win6_6.index t (0 : Fin 2) * 2000 + 1 * p.val = t.val * 2000 + p.val; omega
  | ⟨1, _⟩ => show win6_6.index t (1 : Fin 2) * 128 + 1 * q.val = q.val; omega

/-- Entry (p, q) of what the body leaves at point t of region 6 is entry (2000 t + p, q) of the two dense layers applied to
    x + aggr of the arrays as the region finds them. -/
theorem mlp6_point (c : Dev nD) (t : Fin cfg6.N) (p : Fin 2000) (hr : t.val * 2000 + p.val < 40000) (q : Fin 128) :
    k6_pay1 (iblk6 V c 0 t) (iblk6 V c 1 t) (iblk6 V c 2 t) (iblk6 V c 3 t) (iblk6 V c 4 t) (iblk6 V c 5 t) (ix2 p q)
      = (Cert.Net.mlp (addf (V c (Pipeline.arrRef spec6 0) : Cert.Net.Arr S40000x128) (V c (Pipeline.arrRef spec6 1) : Cert.Net.Arr S40000x128))
        (V c (Pipeline.arrRef spec6 2) : Cert.Net.Arr S128x128) (V c (Pipeline.arrRef spec6 3) : Cert.Net.Arr S1x128)
        (V c (Pipeline.arrRef spec6 4) : Cert.Net.Arr S128x128) (V c (Pipeline.arrRef spec6 5) : Cert.Net.Arr S1x128)) (ix2 (⟨t.val * 2000 + p.val, hr⟩ : Fin 40000) q) :=
  dense6_at (iblk6 V c 0 t) (iblk6 V c 1 t) (iblk6 V c 2 t) (iblk6 V c 3 t) (iblk6 V c 4 t) (iblk6 V c 5 t)
    (V c (Pipeline.arrRef spec6 0)) (V c (Pipeline.arrRef spec6 1)) (V c (Pipeline.arrRef spec6 2)) (V c (Pipeline.arrRef spec6 3))
    (V c (Pipeline.arrRef spec6 4)) (V c (Pipeline.arrRef spec6 5)) p ⟨t.val * 2000 + p.val, hr⟩
    (mlp6_blk0 V c t p hr) (mlp6_blk1 V c t p hr) (mlp6_blk2 V c t) (mlp6_blk3 V c t) (mlp6_blk4 V c t) (mlp6_blk5 V c t) q

set_option maxHeartbeats 1000000 in
/-- What point t of region 6 writes back is block t of the two dense layers applied to x + aggr, of the arrays as the
    region finds them: row p of block t is row 2000 t + p of the arrays. -/
theorem mlp6_flushed (c : Dev nD) (t : Fin cfg6.N) :
    (dat6 V c).flushed 6 t = ((cfg6.win 6).blk t).view.read (Elt Ideal)
      (Cert.Net.mlp (addf (V c (Pipeline.arrRef spec6 0) : Cert.Net.Arr S40000x128) (V c (Pipeline.arrRef spec6 1) : Cert.Net.Arr S40000x128))
        (V c (Pipeline.arrRef spec6 2) : Cert.Net.Arr S128x128) (V c (Pipeline.arrRef spec6 3) : Cert.Net.Arr S1x128)
        (V c (Pipeline.arrRef spec6 4) : Cert.Net.Arr S128x128) (V c (Pipeline.arrRef spec6 5) : Cert.Net.Arr S1x128)) := by
  show (cfg6.win 6).cut (grid6.coords t) ((dat6 V c).after 6 t) = _
  rw [after6_6]
  unfold out6_6
  rw [View.canon_unit_zero mlp_hz]
  simp only [View.ld_unit_zero (S := S2000x128) mlp_hz, View.ld_unit_zero (S := S128x128) mlp_hz, View.ld_unit_zero (S := S1x128) mlp_hz]
  have hN : cfg6.N = 20 := N_6
  have ht : t.val < 20 := hN ▸ t.isLt
  funext j
  obtain ⟨p, q, rfl⟩ : ∃ (p : Fin 2000) (q : Fin 128), j = ix2 p q := ⟨j 0, j 1, eq_ix2 j⟩
  have hp : p.val < 2000 := p.isLt
  have hr : t.val * 2000 + p.val < 40000 := by omega
  exact (mlp6_point V c t p hr q).trans (congrArg _ (mlp6_emb t p hr q).symm)

/-- An index of the output array lies in point t's block iff each coordinate lies in the block's range on its axis. -/
theorem mlp6_mem (t : Fin cfg6.N) (i : S40000x128.Idx) :
    i ∈ ((cfg6.win 6).blk t).view.set ↔ ∀ a : Fin 2, win6_6.index t a * S2000x128.size a ≤ (i a).val
      ∧ (i a).val < win6_6.index t a * S2000x128.size a + S2000x128.size a := by
  show i ∈ ((View.whole main_v125).slice (win6_6.rect t)).set ↔ _
  rw [View.set_slice_whole, Rect.mem_set_unit]
  exact Iff.rfl

/-- Region 6 leaves relu(relu((x + aggr) W1 + b1) W2 + b2) in its output array: row r lies in the block of point
    r / 2000, and every point writes its block back. -/
theorem mlp6_value (c : Dev nD) :
    (dat6 V c).arrAt 6 cfg6.N
      = Cert.Net.mlp (addf (V c (Pipeline.arrRef spec6 0) : Cert.Net.Arr S40000x128) (V c (Pipeline.arrRef spec6 1) : Cert.Net.Arr S40000x128))
        (V c (Pipeline.arrRef spec6 2) : Cert.Net.Arr S128x128) (V c (Pipeline.arrRef spec6 3) : Cert.Net.Arr S1x128)
        (V c (Pipeline.arrRef spec6 4) : Cert.Net.Arr S128x128) (V c (Pipeline.arrRef spec6 5) : Cert.Net.Arr S1x128) :=
  (dat6 V c).arrAt_eq_of_cover 6 _ (fun t _ => mlp6_flushed V c t) fun i => by
    have hi0 : (i 0).val < 40000 := (i 0).isLt
    have hi1 : (i 1).val < 128 := (i 1).isLt
    have hN : cfg6.N = 20 := N_6
    have ht : (i 0).val / 2000 < cfg6.N := by rw [hN]; omega
    refine ⟨⟨(i 0).val / 2000, ht⟩, flush6_6 _, ?_⟩
    rw [mlp6_mem]
    have e60 : win6_6.index ⟨(i 0).val / 2000, ht⟩ (0 : Fin 2) = (i 0).val / 2000 := (didx6 ⟨(i 0).val / 2000, ht⟩).2.2.2.2.2.2.2.2.2.2.2.2.1
    have e61 : win6_6.index ⟨(i 0).val / 2000, ht⟩ (1 : Fin 2) = 0 := (didx6 ⟨(i 0).val / 2000, ht⟩).2.2.2.2.2.2.2.2.2.2.2.2.2
    intro a
    match a with
    | ⟨0, _⟩ =>
      show win6_6.index ⟨(i 0).val / 2000, ht⟩ (0 : Fin 2) * 2000 ≤ (i 0).val
        ∧ (i 0).val < win6_6.index ⟨(i 0).val / 2000, ht⟩ (0 : Fin 2) * 2000 + 2000
      rw [e60]; omega
    | ⟨1, _⟩ =>
      show win6_6.index ⟨(i 0).val / 2000, ht⟩ (1 : Fin 2) * 128 ≤ (i 1).val
        ∧ (i 1).val < win6_6.index ⟨(i 0).val / 2000, ht⟩ (1 : Fin 2) * 128 + 128
      rw [e61]; omega

end Cert.KernelIdeal.RegionValue

end
-- ==== Proof.RowCast.lean ====
/-
  A vector reshaped to a one-row matrix is the vector laid along axis 1 of a one-row matrix.

  Both read the vector at the column index: a reshape keeps the row-major position, and in a 1 x n array the position of
  (0, c) is c; a broadcast along axis 1 reads the operand at the second coordinate.
-/
import proofs.«160553_j66949950210692_1_alg».proof.Proof.Net
import Idealize.ShloMosaic.Lib.Pipeline.Value

noncomputable section

namespace Cert.Net

open Idealize.ShloMosaic Cert.ReferenceIdeal

/-- The 128-vector reshaped to 1 x 128 is the vector as a one-row matrix. -/
theorem shapeCast_eq_row (v : Arr S128) (h : S128.ShapeCasts S1x128) : shapeCast S1x128 v h = row v := by
  funext j
  have hj0 : (j 0).val = 0 := Nat.lt_one_iff.mp (j 0).isLt
  have key : ∀ k : S128.Idx, (k 0).val = (j 1).val → shapeCast S1x128 v h j = v k ∧ row v j = v k := by
    intro k hk
    constructor
    · refine shapeCast_apply v h j k ?_
      rw [Shape.rowMajor_val_one, Shape.rowMajor_val_two, hk, hj0, Nat.zero_mul, Nat.zero_add]
    · unfold row
      refine broadcastInDim_apply _ _ v j k ?_
      intro a
      have ha : a = 0 := Subsingleton.elim _ _
      rw [ha, if_neg (by decide)]
      exact hk
  obtain ⟨h1, h2⟩ := key (fun a => match a with | ⟨0, _⟩ => ⟨(j 1).val, (j 1).isLt⟩) rfl
  rw [h1, h2]

/-- The 41-vector reshaped to 1 x 41 is the vector as a one-row matrix. -/
theorem shapeCast_eq_row41 (v : Arr S41) (h : S41.ShapeCasts S1x41) : shapeCast S1x41 v h = row41 v := by
  funext j
  have hj0 : (j 0).val = 0 := Nat.lt_one_iff.mp (j 0).isLt
  have key : ∀ k : S41.Idx, (k 0).val = (j 1).val → shapeCast S1x41 v h j = v k ∧ row41 v j = v k := by
    intro k hk
    constructor
    · refine shapeCast_apply v h j k ?_
      rw [Shape.rowMajor_val_one, Shape.rowMajor_val_two, hk, hj0, Nat.zero_mul, Nat.zero_add]
    · unfold row41
      refine broadcastInDim_apply _ _ v j k ?_
      intro a
      have ha : a = 0 := Subsingleton.elim _ _
      rw [ha, if_neg (by decide)]
      exact hk
  obtain ⟨h1, h2⟩ := key (fun a => match a with | ⟨0, _⟩ => ⟨(j 1).val, (j 1).isLt⟩) rfl
  rw [h1, h2]

end Cert.Net

end
-- ==== Proof.KernelLayers.lean ====
/-
  The output of each of the first seven regions as the network's value at that depth, over the launch arrays.

  Region by region, innermost first: a region's output array is its stage function of what it is entered with;
  what it is entered with is, by the host text before it, a stage function of the launch arrays and of the
  previous region's output; so each region's output is the network's value at that depth. Every earlier output
  stays one opaque term while the next is put in.
-/
import proofs.«160553_j66949950210692_1_alg».proof.Proof.HostReadStats
import proofs.«160553_j66949950210692_1_alg».proof.Proof.HostReadAgg
import proofs.«160553_j66949950210692_1_alg».proof.Proof.RegionBn
import proofs.«160553_j66949950210692_1_alg».proof.Proof.RegionMlp0
import proofs.«160553_j66949950210692_1_alg».proof.Proof.RegionMlp2
import proofs.«160553_j66949950210692_1_alg».proof.Proof.RegionMlp4
import proofs.«160553_j66949950210692_1_alg».proof.Proof.RegionMlp6
import proofs.«160553_j66949950210692_1_alg».proof.Proof.RowCast
import proofs.«160553_j66949950210692_1_alg».proof.Proof.NetWhole

set_option maxRecDepth 16384

noncomputable section

namespace Cert.KernelIdeal.HostRead

open Idealize.ShloMosaic Idealize.ShloMosaic.TcCoe
open Cert.KernelIdeal Cert.KernelIdeal.Gen

variable (m : (ℓ : Loc nD τ sig) → Buf (Elt Ideal) ℓ) (ρ : Dev nD → PrngReg)

/-- A vector reshaped to one row is the vector laid along axis 1 of a one-row matrix. -/
theorem rc_eq_row (v : Net.Arr S128) : rc v = Net.row v := Net.shapeCast_eq_row v _
theorem rc41_eq_row41 (v : Net.Arr S41) : rc41 v = Net.row41 v := Net.shapeCast_eq_row41 v _

/-! ## The two kinds of region over named operands

A dense region computes `Net.mlp (x + a) W1 B1 W2 B2`; entered with the node features, their neighbour sums and the
biases reshaped to rows, that is one convolution. A normalising region computes `Net.affine Y S T`; entered with the
folded scale and shift reshaped to rows, that is the folded batch normalisation. -/

theorem gin_of_mlp (e : Net.IArr S2x640000) {X A : Net.Arr S40000x128} {W1 W2 : Net.Arr S128x128} {B1 B2 : Net.Arr S1x128}
    (x : Net.Arr S40000x128) (w1 : Net.Arr S128x128) (b1 : Net.Arr S128) (w2 : Net.Arr S128x128) (b2 : Net.Arr S128)
    (hX : X = x) (hA : A = Net.aggregate e x) (hW1 : W1 = w1) (hB1 : B1 = rc b1) (hW2 : W2 = w2) (hB2 : B2 = rc b2) :
    Net.mlp (addf X A) W1 B1 W2 B2 = Net.gin e x w1 (Net.row b1) w2 (Net.row b2) := by
  subst hX hA hW1 hB1 hW2 hB2
  rw [rc_eq_row, rc_eq_row]
  rfl

theorem bnFold_of_affine {Y : Net.Arr S40000x128} {S T : Net.Arr S1x128} (y : Net.Arr S40000x128) (g b : Net.Arr S128)
    (hY : Y = y) (hS : S = rc (Net.scale y g)) (hT : T = rc (Net.shift y g b)) :
    Net.affine Y S T = Net.bnFold y g b := by
  subst hY hS hT
  rw [rc_eq_row, rc_eq_row]
  rfl

/-! ## The node features after each normalised layer, as the network writes them -/

/-- The embedded node tokens. -/
def feat0 (c : Dev nD) : Net.Arr S40000x128 := Net.embed (m ((c.tc : Thread nD τ).loc main_arg0)) (m ((c.tc : Thread nD τ).loc main_arg3))
/-- After the first normalised layer. -/
def feat1 (c : Dev nD) : Net.Arr S40000x128 :=
  Net.layerFold (m ((c.tc : Thread nD τ).loc main_arg1)) (feat0 m c) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
/-- After the second. -/
def feat2 (c : Dev nD) : Net.Arr S40000x128 :=
  Net.layerFold (m ((c.tc : Thread nD τ).loc main_arg1)) (feat1 m c) (Net.mat0 (m ((c.tc : Thread nD τ).loc main_arg10))) (Net.vec0 (m ((c.tc : Thread nD τ).loc main_arg11))) (Net.mat0 (m ((c.tc : Thread nD τ).loc main_arg12))) (Net.vec0 (m ((c.tc : Thread nD τ).loc main_arg13)))
    (Net.vec0 (m ((c.tc : Thread nD τ).loc main_arg14))) (Net.vec0 (m ((c.tc : Thread nD τ).loc main_arg15)))
/-- After the third. -/
def feat3 (c : Dev nD) : Net.Arr S40000x128 :=
  Net.layerFold (m ((c.tc : Thread nD τ).loc main_arg1)) (feat2 m c) (Net.mat1 (m ((c.tc : Thread nD τ).loc main_arg10))) (Net.vec1 (m ((c.tc : Thread nD τ).loc main_arg11))) (Net.mat1 (m ((c.tc : Thread nD τ).loc main_arg12))) (Net.vec1 (m ((c.tc : Thread nD τ).loc main_arg13)))
    (Net.vec1 (m ((c.tc : Thread nD τ).loc main_arg14))) (Net.vec1 (m ((c.tc : Thread nD τ).loc main_arg15)))

/-! ## Each region's output -/
/-- Region 0: the first convolution, of the embedded tokens. -/
theorem out0 (c : Dev nD) :
    (dat0 (V1 m ρ) c).arrAt 6 cfg0.N
      = Net.gin (m ((c.tc : Thread nD τ).loc main_arg1)) (feat0 m c) (m ((c.tc : Thread nD τ).loc main_arg4)) (Net.row (m ((c.tc : Thread nD τ).loc main_arg5))) (m ((c.tc : Thread nD τ).loc main_arg6)) (Net.row (m ((c.tc : Thread nD τ).loc main_arg7))) :=
  (RegionValue.mlp0_value (V1 m ρ) c).trans
    (gin_of_mlp (m ((c.tc : Thread nD τ).loc main_arg1)) (feat0 m c) (m ((c.tc : Thread nD τ).loc main_arg4)) (m ((c.tc : Thread nD τ).loc main_arg5)) (m ((c.tc : Thread nD τ).loc main_arg6)) (m ((c.tc : Thread nD τ).loc main_arg7))
      (entry0_0 m ρ c) (entry0_1 m ρ c) (entry0_2 m ρ c) (entry0_3 m ρ c) (entry0_4 m ρ c) (entry0_5 m ρ c))
/-- Region 1: its normalisation, which ends the first layer. -/
theorem out1 (c : Dev nD) : (dat1 (V5 m ρ) c).arrAt 3 cfg1.N = feat1 m c :=
  ((RegionValue.bn1_value (V5 m ρ) c).trans
    (bnFold_of_affine ((dat0 (V1 m ρ) c).arrAt 6 cfg0.N) (m ((c.tc : Thread nD τ).loc main_arg8)) (m ((c.tc : Thread nD τ).loc main_arg9)) (entry1_0 m ρ c) (entry1_1 m ρ c) (entry1_2 m ρ c))).trans
    (congrArg (fun y => Net.bnFold y (m ((c.tc : Thread nD τ).loc main_arg8)) (m ((c.tc : Thread nD τ).loc main_arg9))) (out0 m ρ c))
/-- Region 2: the second convolution. -/
theorem out2 (c : Dev nD) :
    (dat2 (V7 m ρ) c).arrAt 6 cfg2.N
      = Net.gin (m ((c.tc : Thread nD τ).loc main_arg1)) (feat1 m c) (Net.mat0 (m ((c.tc : Thread nD τ).loc main_arg10))) (Net.row (Net.vec0 (m ((c.tc : Thread nD τ).loc main_arg11)))) (Net.mat0 (m ((c.tc : Thread nD τ).loc main_arg12))) (Net.row (Net.vec0 (m ((c.tc : Thread nD τ).loc main_arg13)))) :=
  ((RegionValue.mlp2_value (V7 m ρ) c).trans
    (gin_of_mlp (m ((c.tc : Thread nD τ).loc main_arg1)) ((dat1 (V5 m ρ) c).arrAt 3 cfg1.N) (Net.mat0 (m ((c.tc : Thread nD τ).loc main_arg10))) (Net.vec0 (m ((c.tc : Thread nD τ).loc main_arg11))) (Net.mat0 (m ((c.tc : Thread nD τ).loc main_arg12))) (Net.vec0 (m ((c.tc : Thread nD τ).loc main_arg13)))
      (entry2_0 m ρ c) (entry2_1 m ρ c) (entry2_2 m ρ c) (entry2_3 m ρ c) (entry2_4 m ρ c) (entry2_5 m ρ c))).trans
    (congrArg (fun x => Net.gin (m ((c.tc : Thread nD τ).loc main_arg1)) x (Net.mat0 (m ((c.tc : Thread nD τ).loc main_arg10))) (Net.row (Net.vec0 (m ((c.tc : Thread nD τ).loc main_arg11)))) (Net.mat0 (m ((c.tc : Thread nD τ).loc main_arg12))) (Net.row (Net.vec0 (m ((c.tc : Thread nD τ).loc main_arg13))))) (out1 m ρ c))
/-- Region 3: its normalisation. -/
theorem out3 (c : Dev nD) : (dat3 (V11 m ρ) c).arrAt 3 cfg3.N = feat2 m c :=
  ((RegionValue.bn3_value (V11 m ρ) c).trans
    (bnFold_of_affine ((dat2 (V7 m ρ) c).arrAt 6 cfg2.N) (Net.vec0 (m ((c.tc : Thread nD τ).loc main_arg14))) (Net.vec0 (m ((c.tc : Thread nD τ).loc main_arg15))) (entry3_0 m ρ c) (entry3_1 m ρ c) (entry3_2 m ρ c))).trans
    (congrArg (fun y => Net.bnFold y (Net.vec0 (m ((c.tc : Thread nD τ).loc main_arg14))) (Net.vec0 (m ((c.tc : Thread nD τ).loc main_arg15)))) (out2 m ρ c))
/-- Region 4: the third convolution. -/
theorem out4 (c : Dev nD) :
    (dat4 (V13 m ρ) c).arrAt 6 cfg4.N
      = Net.gin (m ((c.tc : Thread nD τ).loc main_arg1)) (feat2 m c) (Net.mat1 (m ((c.tc : Thread nD τ).loc main_arg10))) (Net.row (Net.vec1 (m ((c.tc : Thread nD τ).loc main_arg11)))) (Net.mat1 (m ((c.tc : Thread nD τ).loc main_arg12))) (Net.row (Net.vec1 (m ((c.tc : Thread nD τ).loc main_arg13)))) :=
  ((RegionValue.mlp4_value (V13 m ρ) c).trans
    (gin_of_mlp (m ((c.tc : Thread nD τ).loc main_arg1)) ((dat3 (V11 m ρ) c).arrAt 3 cfg3.N) (Net.mat1 (m ((c.tc : Thread nD τ).loc main_arg10))) (Net.vec1 (m ((c.tc : Thread nD τ).loc main_arg11))) (Net.mat1 (m ((c.tc : Thread nD τ).loc main_arg12))) (Net.vec1 (m ((c.tc : Thread nD τ).loc main_arg13)))
      (entry4_0 m ρ c) (entry4_1 m ρ c) (entry4_2 m ρ c) (entry4_3 m ρ c) (entry4_4 m ρ c) (entry4_5 m ρ c))).trans
    (congrArg (fun x => Net.gin (m ((c.tc : Thread nD τ).loc main_arg1)) x (Net.mat1 (m ((c.tc : Thread nD τ).loc main_arg10))) (Net.row (Net.vec1 (m ((c.tc : Thread nD τ).loc main_arg11)))) (Net.mat1 (m ((c.tc : Thread nD τ).loc main_arg12))) (Net.row (Net.vec1 (m ((c.tc : Thread nD τ).loc main_arg13))))) (out3 m ρ c))
/-- Region 5: its normalisation. -/
theorem out5 (c : Dev nD) : (dat5 (V17 m ρ) c).arrAt 3 cfg5.N = feat3 m c :=
  ((RegionValue.bn5_value (V17 m ρ) c).trans
    (bnFold_of_affine ((dat4 (V13 m ρ) c).arrAt 6 cfg4.N) (Net.vec1 (m ((c.tc : Thread nD τ).loc main_arg14))) (Net.vec1 (m ((c.tc : Thread nD τ).loc main_arg15))) (entry5_0 m ρ c) (entry5_1 m ρ c) (entry5_2 m ρ c))).trans
    (congrArg (fun y => Net.bnFold y (Net.vec1 (m ((c.tc : Thread nD τ).loc main_arg14))) (Net.vec1 (m ((c.tc : Thread nD τ).loc main_arg15)))) (out4 m ρ c))
/-- Region 6: the last convolution, not normalised. -/
theorem out6 (c : Dev nD) :
    (dat6 (V19 m ρ) c).arrAt 6 cfg6.N
      = Net.gin (m ((c.tc : Thread nD τ).loc main_arg1)) (feat3 m c) (m ((c.tc : Thread nD τ).loc main_arg16)) (Net.row (m ((c.tc : Thread nD τ).loc main_arg17))) (m ((c.tc : Thread nD τ).loc main_arg18)) (Net.row (m ((c.tc : Thread nD τ).loc main_arg19))) :=
  ((RegionValue.mlp6_value (V19 m ρ) c).trans
    (gin_of_mlp (m ((c.tc : Thread nD τ).loc main_arg1)) ((dat5 (V17 m ρ) c).arrAt 3 cfg5.N) (m ((c.tc : Thread nD τ).loc main_arg16)) (m ((c.tc : Thread nD τ).loc main_arg17)) (m ((c.tc : Thread nD τ).loc main_arg18)) (m ((c.tc : Thread nD τ).loc main_arg19))
      (entry6_0 m ρ c) (entry6_1 m ρ c) (entry6_2 m ρ c) (entry6_3 m ρ c) (entry6_4 m ρ c) (entry6_5 m ρ c))).trans
    (congrArg (fun x => Net.gin (m ((c.tc : Thread nD τ).loc main_arg1)) x (m ((c.tc : Thread nD τ).loc main_arg16)) (Net.row (m ((c.tc : Thread nD τ).loc main_arg17))) (m ((c.tc : Thread nD τ).loc main_arg18)) (Net.row (m ((c.tc : Thread nD τ).loc main_arg19)))) (out5 m ρ c))

end Cert.KernelIdeal.HostRead

end
-- ==== Proof.RegionFc.lean ====
/-
  The classifier region (region 7), as one function of its input arrays.

  The region has a single grid point and every window's block is its whole array: the pooled rows p (256 x 128), the
  weights W1 (128 x 128) and W2 (128 x 41), and the bias rows b1 (1 x 128) and b2 (1 x 41). The body forms
  relu(p W1 + b1) W2 + b2: each matrix product is accumulated into a zero array, which is the plain product; the
  roundings to a narrower format on the way into each product are the identity on the extended reals; a bias row laid
  along every row is the broadcast of the one-row matrix; and the zero splat is the broadcast of the zero scalar. The
  one block is written back, so the output array ends holding `Net.classify` of the arrays as the region finds them.
  Nothing here depends on what the arrays hold.
-/
import proofs.«160553_j66949950210692_1_alg».proof.Proof.Gen.KernelIdeal.Frame
import proofs.«160553_j66949950210692_1_alg».proof.Proof.Net
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

/-- A one-row matrix laid along each of m rows: the kernel's broadcast of it is the host's broadcast along both axes. -/
theorem broadcastTo_oneRow_eq_broadcastInDim {α : Type} {m n : Nat} (y : (⟨2, ![1, n]⟩ : Shape).Idx → α)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ y hb = broadcastInDim ⟨2, ![m, n]⟩ ![0, 1] hd y := by
  funext i
  obtain ⟨r, t, rfl⟩ : ∃ (r : Fin m) (t : Fin n), i = ix2 r t := ⟨i 0, i 1, eq_ix2 i⟩
  rw [broadcastTo_1b_ab_apply, broadcastInDim_oneRow_apply]

/-- A product of two arrays rounded to a narrower format on the way in, accumulated into a zero array, is the plain
    product of the arrays: on the extended reals the rounding is the identity and the zero accumulator adds nothing. -/
theorem matmul_truncf_zero_eq_dotGeneral {sl sr so : Shape} (d : DotDims sl sr so) (x : FVec Ideal sl .f32) (w : FVec Ideal sr .f32)
    (hx hw : FTy.bits .bf16 < FTy.bits .f32) :
    matmul d none (truncf .bf16 x hx) (truncf .bf16 w hw) (constant so .f32 0x00000000#32)
      = (Host.dotGeneral d none x w : FVec Ideal so .f32) := by
  rw [matmul_zero_eq_dotGeneral]
  rfl

/-- The body's arithmetic is the classifier: relu(p W1 + b1) W2 + b2. -/
theorem fcPay_eq (x0 : Vec Ideal S256x128 .f32) (x1 : Vec Ideal S128x128 .f32) (x2 : Vec Ideal S1x128 .f32)
    (x3 : Vec Ideal S128x41 .f32) (x4 : Vec Ideal S1x41 .f32) :
    k7_pay1 x0 x1 x2 x3 x4 = Cert.Net.classify x0 x1 x2 x3 x4 := by
  unfold k7_pay1 Cert.Net.classify Cert.Net.zero
  simp only [shapeCast_self]
  rw [matmul_truncf_zero_eq_dotGeneral, matmul_truncf_zero_eq_dotGeneral,
    broadcastTo_oneRow_eq_broadcastInDim x2 _ Cert.ReferenceIdeal.Facts₀.bcast_S1x128_S256x128_0_1,
    broadcastTo_oneRow_eq_broadcastInDim x4 _ Cert.ReferenceIdeal.Facts₀.bcast_S1x41_S256x41_0_1]
  rfl

/-- The block's result against the whole-array function, once each block is known to be its array. -/
theorem fc_at (x0 : Vec Ideal S256x128 .f32) (x1 : Vec Ideal S128x128 .f32) (x2 : Vec Ideal S1x128 .f32)
    (x3 : Vec Ideal S128x41 .f32) (x4 : Vec Ideal S1x41 .f32)
    (P : Cert.Net.Arr S256x128) (W1 : Cert.Net.Arr S128x128) (B1 : Cert.Net.Arr S1x128) (W2 : Cert.Net.Arr S128x41)
    (B2 : Cert.Net.Arr S1x41)
    (h0 : x0 = P) (h1 : x1 = W1) (h2 : x2 = B1) (h3 : x3 = W2) (h4 : x4 = B2) :
    k7_pay1 x0 x1 x2 x3 x4 = Cert.Net.classify P W1 B1 W2 B2 := by
  subst h0 h1 h2 h3 h4
  rw [fcPay_eq]

variable (V : (c : Dev nD) → (b : Ref sig .tc) → Buf (Elt Ideal) ((c : Thread nD τ).loc b))

theorem fc_zero_offsets : (![0, 0] : Fin 2 → Nat) = fun _ => 0 := funext fun a => by fin_cases a <;> rfl

/-! Where each window's block sits at the one point of region 7: at block (0, 0). -/

theorem fc_idx7_0 : ∀ t : Fin cfg7.N, win7_0.index t (0 : Fin 2) = 0 ∧ win7_0.index t (1 : Fin 2) = 0 :=
  (by decide +kernel : ∀ t : Fin grid7.N, _)
theorem fc_idx7_1 : ∀ t : Fin cfg7.N, win7_1.index t (0 : Fin 2) = 0 ∧ win7_1.index t (1 : Fin 2) = 0 :=
  (by decide +kernel : ∀ t : Fin grid7.N, _)
theorem fc_idx7_2 : ∀ t : Fin cfg7.N, win7_2.index t (0 : Fin 2) = 0 ∧ win7_2.index t (1 : Fin 2) = 0 :=
  (by decide +kernel : ∀ t : Fin grid7.N, _)
theorem fc_idx7_3 : ∀ t : Fin cfg7.N, win7_3.index t (0 : Fin 2) = 0 ∧ win7_3.index t (1 : Fin 2) = 0 :=
  (by decide +kernel : ∀ t : Fin grid7.N, _)
theorem fc_idx7_4 : ∀ t : Fin cfg7.N, win7_4.index t (0 : Fin 2) = 0 ∧ win7_4.index t (1 : Fin 2) = 0 :=
  (by decide +kernel : ∀ t : Fin grid7.N, _)
theorem fc_idx7_5 : ∀ t : Fin cfg7.N, win7_5.index t (0 : Fin 2) = 0 ∧ win7_5.index t (1 : Fin 2) = 0 :=
  (by decide +kernel : ∀ t : Fin grid7.N, _)

/-- Window 0's block at the one point is its whole array. -/
theorem fc7_blk0 (c : Dev nD) (t : Fin cfg7.N) :
    (iblk7 V c 0 t : Vec Ideal S256x128 .f32) = (V c (Pipeline.arrRef spec7 0) : Cert.Net.Arr S256x128) := by
  obtain ⟨e0, e1⟩ := fc_idx7_0 t
  funext y
  obtain ⟨p, q, rfl⟩ : ∃ (p : Fin 256) (q : Fin 128), y = ix2 p q := ⟨y 0, y 1, eq_ix2 y⟩
  show V c (Pipeline.arrRef spec7 0) (((cfg7.win 0).blk t).view.emb (ix2 p q)) = V c (Pipeline.arrRef spec7 0) (ix2 p q)
  refine congrArg _ (funext fun a => Fin.ext ?_)
  match a with
  | ⟨0, _⟩ => show win7_0.index t (0 : Fin 2) * 256 + 1 * p.val = p.val; omega
  | ⟨1, _⟩ => show win7_0.index t (1 : Fin 2) * 128 + 1 * q.val = q.val; omega

/-- Window 1's block at the one point is its whole array. -/
theorem fc7_blk1 (c : Dev nD) (t : Fin cfg7.N) :
    (iblk7 V c 1 t : Vec Ideal S128x128 .f32) = (V c (Pipeline.arrRef spec7 1) : Cert.Net.Arr S128x128) := by
  obtain ⟨e0, e1⟩ := fc_idx7_1 t
  funext y
  obtain ⟨p, q, rfl⟩ : ∃ (p : Fin 128) (q : Fin 128), y = ix2 p q := ⟨y 0, y 1, eq_ix2 y⟩
  show V c (Pipeline.arrRef spec7 1) (((cfg7.win 1).blk t).view.emb (ix2 p q)) = V c (Pipeline.arrRef spec7 1) (ix2 p q)
  refine congrArg _ (funext fun a => Fin.ext ?_)
  match a with
  | ⟨0, _⟩ => show win7_1.index t (0 : Fin 2) * 128 + 1 * p.val = p.val; omega
  | ⟨1, _⟩ => show win7_1.index t (1 : Fin 2) * 128 + 1 * q.val = q.val; omega

/-- Window 2's block at the one point is its whole array. -/
theorem fc7_blk2 (c : Dev nD) (t : Fin cfg7.N) :
    (iblk7 V c 2 t : Vec Ideal S1x128 .f32) = (V c (Pipeline.arrRef spec7 2) : Cert.Net.Arr S1x128) := by
  obtain ⟨e0, e1⟩ := fc_idx7_2 t
  funext y
  obtain ⟨p, q, rfl⟩ : ∃ (p : Fin 1) (q : Fin 128), y = ix2 p q := ⟨y 0, y 1, eq_ix2 y⟩
  show V c (Pipeline.arrRef spec7 2) (((cfg7.win 2).blk t).view.emb (ix2 p q)) = V c (Pipeline.arrRef spec7 2) (ix2 p q)
  refine congrArg _ (funext fun a => Fin.ext ?_)
  match a with
  | ⟨0, _⟩ => show win7_2.index t (0 : Fin 2) * 1 + 1 * p.val = p.val; omega
  | ⟨1, _⟩ => show win7_2.index t (1 : Fin 2) * 128 + 1 * q.val = q.val; omega

/-- Window 3's block at the one point is its whole array. -/
theorem fc7_blk3 (c : Dev nD) (t : Fin cfg7.N) :
    (iblk7 V c 3 t : Vec Ideal S128x41 .f32) = (V c (Pipeline.arrRef spec7 3) : Cert.Net.Arr S128x41) := by
  obtain ⟨e0, e1⟩ := fc_idx7_3 t
  funext y
  obtain ⟨p, q, rfl⟩ : ∃ (p : Fin 128) (q : Fin 41), y = ix2 p q := ⟨y 0, y 1, eq_ix2 y⟩
  show V c (Pipeline.arrRef spec7 3) (((cfg7.win 3).blk t).view.emb (ix2 p q)) = V c (Pipeline.arrRef spec7 3) (ix2 p q)
  refine congrArg _ (funext fun a => Fin.ext ?_)
  match a with
  | ⟨0, _⟩ => show win7_3.index t (0 : Fin 2) * 128 + 1 * p.val = p.val; omega
  | ⟨1, _⟩ => show win7_3.index t (1 : Fin 2) * 41 + 1 * q.val = q.val; omega

/-- Window 4's block at the one point is its whole array. -/
theorem fc7_blk4 (c : Dev nD) (t : Fin cfg7.N) :
    (iblk7 V c 4 t : Vec Ideal S1x41 .f32) = (V c (Pipeline.arrRef spec7 4) : Cert.Net.Arr S1x41) := by
  obtain ⟨e0, e1⟩ := fc_idx7_4 t
  funext y
  obtain ⟨p, q, rfl⟩ : ∃ (p : Fin 1) (q : Fin 41), y = ix2 p q := ⟨y 0, y 1, eq_ix2 y⟩
  show V c (Pipeline.arrRef spec7 4) (((cfg7.win 4).blk t).view.emb (ix2 p q)) = V c (Pipeline.arrRef spec7 4) (ix2 p q)
  refine congrArg _ (funext fun a => Fin.ext ?_)
  match a with
  | ⟨0, _⟩ => show win7_4.index t (0 : Fin 2) * 1 + 1 * p.val = p.val; omega
  | ⟨1, _⟩ => show win7_4.index t (1 : Fin 2) * 41 + 1 * q.val = q.val; omega

/-- Entry (p, q) of the output window's block at the one point sits at (p, q) of the output array. -/
theorem fc7_emb (t : Fin cfg7.N) (p : Fin 256) (q : Fin 41) :
    ((cfg7.win 5).blk t).view.emb (ix2 p q) = ix2 p q := by
  obtain ⟨e0, e1⟩ := fc_idx7_5 t
  funext a; apply Fin.ext
  match a with
  | ⟨0, _⟩ => show win7_5.index t (0 : Fin 2) * 256 + 1 * p.val = p.val; omega
  | ⟨1, _⟩ => show win7_5.index t (1 : Fin 2) * 41 + 1 * q.val = q.val; omega

set_option maxHeartbeats 1000000 in
/-- What the one point of region 7 writes back is the (whole-array) block of the classifier of the arrays as the
    region finds them. -/
theorem fc7_flushed (c : Dev nD) (t : Fin cfg7.N) :
    (dat7 V c).flushed 5 t = ((cfg7.win 5).blk t).view.read (Elt Ideal)
      (Cert.Net.classify (V c (Pipeline.arrRef spec7 0) : Cert.Net.Arr S256x128)
        (V c (Pipeline.arrRef spec7 1) : Cert.Net.Arr S128x128)
        (V c (Pipeline.arrRef spec7 2) : Cert.Net.Arr S1x128)
        (V c (Pipeline.arrRef spec7 3) : Cert.Net.Arr S128x41)
        (V c (Pipeline.arrRef spec7 4) : Cert.Net.Arr S1x41)) := by
  show (cfg7.win 5).cut (grid7.coords t) ((dat7 V c).after 5 t) = _
  rw [after7_5]
  unfold out7_5
  rw [View.canon_unit_zero fc_zero_offsets]
  simp only [View.ld_unit_zero (S := S256x128) fc_zero_offsets, View.ld_unit_zero (S := S128x128) fc_zero_offsets,
    View.ld_unit_zero (S := S1x128) fc_zero_offsets, View.ld_unit_zero (S := S128x41) fc_zero_offsets,
    View.ld_unit_zero (S := S1x41) fc_zero_offsets]
  refine (fc_at (iblk7 V c 0 t) (iblk7 V c 1 t) (iblk7 V c 2 t) (iblk7 V c 3 t) (iblk7 V c 4 t)
    (V c (Pipeline.arrRef spec7 0)) (V c (Pipeline.arrRef spec7 1)) (V c (Pipeline.arrRef spec7 2))
    (V c (Pipeline.arrRef spec7 3)) (V c (Pipeline.arrRef spec7 4))
    (fc7_blk0 V c t) (fc7_blk1 V c t) (fc7_blk2 V c t) (fc7_blk3 V c t) (fc7_blk4 V c t)).trans ?_
  generalize Cert.Net.classify (V c (Pipeline.arrRef spec7 0)) (V c (Pipeline.arrRef spec7 1)) (V c (Pipeline.arrRef spec7 2))
    (V c (Pipeline.arrRef spec7 3)) (V c (Pipeline.arrRef spec7 4)) = G
  funext j
  obtain ⟨p, q, rfl⟩ : ∃ (p : Fin 256) (q : Fin 41), j = ix2 p q := ⟨j 0, j 1, eq_ix2 j⟩
  exact congrArg G (fc7_emb t p q).symm

/-- An index of the output array lies in the one point's block iff each coordinate lies in the block's range on its axis. -/
theorem fc7_mem (t : Fin cfg7.N) (i : S256x41.Idx) :
    i ∈ ((cfg7.win 5).blk t).view.set ↔ ∀ a : Fin 2, win7_5.index t a * S256x41.size a ≤ (i a).val
      ∧ (i a).val < win7_5.index t a * S256x41.size a + S256x41.size a := by
  show i ∈ ((View.whole main_v131).slice (win7_5.rect t)).set ↔ _
  rw [View.set_slice_whole, Rect.mem_set_unit]
  exact Iff.rfl

/-- Region 7 leaves relu(p W1 + b1) W2 + b2 in its output array: the one point's block is the whole array, and the
    point writes its block back. -/
theorem fc7_value (c : Dev nD) :
    (dat7 V c).arrAt 5 cfg7.N
      = Cert.Net.classify (V c (Pipeline.arrRef spec7 0) : Cert.Net.Arr S256x128)
          (V c (Pipeline.arrRef spec7 1) : Cert.Net.Arr S128x128)
          (V c (Pipeline.arrRef spec7 2) : Cert.Net.Arr S1x128)
          (V c (Pipeline.arrRef spec7 3) : Cert.Net.Arr S128x41)
          (V c (Pipeline.arrRef spec7 4) : Cert.Net.Arr S1x41) :=
  (dat7 V c).arrAt_eq_of_cover 5 _ (fun t _ => fc7_flushed V c t) fun i => by
    have hi0 : (i 0).val < 256 := (i 0).isLt
    have hi1 : (i 1).val < 41 := (i 1).isLt
    have hN : cfg7.N = 1 := N_7
    have ht : 0 < cfg7.N := by rw [hN]; omega
    refine ⟨⟨0, ht⟩, flush7_5 _, ?_⟩
    rw [fc7_mem]
    obtain ⟨e0, e1⟩ := fc_idx7_5 ⟨0, ht⟩
    intro a
    match a with
    | ⟨0, _⟩ =>
      show win7_5.index ⟨0, ht⟩ (0 : Fin 2) * 256 ≤ (i 0).val
        ∧ (i 0).val < win7_5.index ⟨0, ht⟩ (0 : Fin 2) * 256 + 256
      rw [e0]; omega
    | ⟨1, _⟩ =>
      show win7_5.index ⟨0, ht⟩ (1 : Fin 2) * 41 ≤ (i 1).val
        ∧ (i 1).val < win7_5.index ⟨0, ht⟩ (1 : Fin 2) * 41 + 41
      rw [e1]; omega

end Cert.KernelIdeal.RegionValue

end
-- ==== Proof.KernelValue.lean ====
/-
  The kernel program's result as the network with folded normalisations, applied to the launch arrays.

  The last region is the classifier on the per-graph sums of the last convolution's output; that output is the
  network's value after three normalised layers and one plain convolution; so the result array, which the run
  leaves at the last region's write-backs, is the whole network.
-/
import proofs.«160553_j66949950210692_1_alg».proof.Proof.NamedRun
import proofs.«160553_j66949950210692_1_alg».proof.Proof.KernelLayers
import proofs.«160553_j66949950210692_1_alg».proof.Proof.RegionFc

set_option maxRecDepth 16384

noncomputable section

namespace Cert.KernelIdeal.HostRead

open Idealize.ShloMosaic Idealize.ShloMosaic.TcCoe
open Cert.KernelIdeal Cert.KernelIdeal.Gen

variable (m : (ℓ : Loc nD τ sig) → Buf (Elt Ideal) ℓ) (ρ : Dev nD → PrngReg)

/-- The classifier region over named operands: entered with the pooled rows and the biases reshaped to rows. -/
theorem classify_of (batch : Net.IArr S40000) {P : Net.Arr S256x128} {W1 : Net.Arr S128x128} {B1 : Net.Arr S1x128}
    {W2 : Net.Arr S128x41} {B2 : Net.Arr S1x41}
    (y : Net.Arr S40000x128) (w1 : Net.Arr S128x128) (b1 : Net.Arr S128) (w2 : Net.Arr S128x41) (b2 : Net.Arr S41)
    (hP : P = Net.pool batch y) (hW1 : W1 = w1) (hB1 : B1 = rc b1) (hW2 : W2 = w2) (hB2 : B2 = rc41 b2) :
    Net.classify P W1 B1 W2 B2 = Net.classify (Net.pool batch y) w1 (Net.row b1) w2 (Net.row41 b2) := by
  subst hP hW1 hB1 hW2 hB2
  rw [rc_eq_row, rc41_eq_row41]

/-- The result array at the last boundary is the network with folded normalisations at the launch arrays. -/
theorem kernel_value (c : Dev nD) :
    Gen.W22 m ρ c (Proc.devRef .tc main_v131)
      = Net.netFold (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19))
          (m ((c.tc : Thread nD τ).loc main_arg20))
          (m ((c.tc : Thread nD τ).loc main_arg21))
          (m ((c.tc : Thread nD τ).loc main_arg22))
          (m ((c.tc : Thread nD τ).loc main_arg23)) :=
  ((result_eq m ρ c).trans ((RegionValue.fc7_value (V21 m ρ) c).trans
    (classify_of (m ((c.tc : Thread nD τ).loc main_arg2)) ((dat6 (V19 m ρ) c).arrAt 6 cfg6.N) (m ((c.tc : Thread nD τ).loc main_arg20)) (m ((c.tc : Thread nD τ).loc main_arg21)) (m ((c.tc : Thread nD τ).loc main_arg22)) (m ((c.tc : Thread nD τ).loc main_arg23))
      (entry7_0 m ρ c) (entry7_1 m ρ c) (entry7_2 m ρ c) (entry7_3 m ρ c) (entry7_4 m ρ c)))).trans
    (congrArg (fun y => Net.classify (Net.pool (m ((c.tc : Thread nD τ).loc main_arg2)) y) (m ((c.tc : Thread nD τ).loc main_arg20)) (Net.row (m ((c.tc : Thread nD τ).loc main_arg21))) (m ((c.tc : Thread nD τ).loc main_arg22)) (Net.row41 (m ((c.tc : Thread nD τ).loc main_arg23))))
      (out6 m ρ c))

end Cert.KernelIdeal.HostRead

end
-- ==== Proof.RefRun.lean ====
/-
  The reference program's run, as a straight line of host operations.

  The reference is a graph-isomorphism network on 40000 nodes with 128 features: an embedding lookup, three rounds of
  "sum the neighbours' rows into each node, add the node's own row, two dense layers with max(., 0), batch
  normalisation" (mean and variance over the 40000 rows), a fourth round without normalisation, a sum of node rows per
  graph (256 graphs), and a two-layer classifier into 41 classes. Its program is given as four consecutive pieces and
  calls four small functions (max(., 0) on 40000 x 128 and on 256 x 128 arrays; the variance of a 40000 x 128 array over
  its rows, which itself calls a three-operand select).

  Here each piece is restated as the LIST of its operations in order, with every call replaced by the called function's
  own operations over the buffers of that call (a call of the variance function contributes its nineteen operations and
  then the three of the select it calls). Running a list is the same as running the piece (`main_partK_eq`), and the
  four lists in order are the whole program (`main_eq`). Since every operation writes one buffer as a function of
  buffers written earlier, the buffers after the run are the fold of the operations' results over the launch contents
  (`after`): `run` states that every weakly fair execution terminates with the result buffer at that fold and the 24
  argument arrays unchanged, and `after_split` that the fold over the whole list is the four pieces' folds composed.
  A buffer that a piece does not write is unchanged by it (`keepK`).
-/
import proofs.«160553_j66949950210692_1_alg».proof.ReferenceIdeal
import proofs.«160553_j66949950210692_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A singleton of a listed reference's buffer lies in the listed buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The fold over two lists in a row is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The first piece: the two index rows of the edge list, the embedding lookup, the first round up to its normalised output `main_v50`. 85 operations (60 statements, the calls replaced by the called functions' operations). -/
abbrev ops0 : List (HloOp τ sig (Elt F)) :=
  [ StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.nullary main_c (constantI S_ 32 0#32),
    StableHlo.unary main_c main_v4 (broadcastInDim S40000 ![] bcast_S_S40000 : (⟨S_, .i32⟩ : BufTy).Contents (Elt F) → (⟨S40000, .i32⟩ : BufTy).Contents (Elt F)),
    StableHlo.binary main_arg0 main_v4 main_v5 (cmpi .slt : (⟨S40000, .i32⟩ : BufTy).Contents (Elt F) → (⟨S40000, .i32⟩ : BufTy).Contents (Elt F) → (⟨S40000, .i1⟩ : BufTy).Contents (Elt F)),
    StableHlo.nullary main_c_0 (constantI S_ 32 1340#32),
    StableHlo.unary main_c_0 main_v6 (broadcastInDim S40000 ![] bcast_S_S40000 : (⟨S_, .i32⟩ : BufTy).Contents (Elt F) → (⟨S40000, .i32⟩ : BufTy).Contents (Elt F)),
    StableHlo.binary main_arg0 main_v6 main_v7 (addi : (⟨S40000, .i32⟩ : BufTy).Contents (Elt F) → (⟨S40000, .i32⟩ : BufTy).Contents (Elt F) → (⟨S40000, .i32⟩ : BufTy).Contents (Elt F)),
    StableHlo.ternary main_v5 main_v7 main_arg0 main_v8 (select : (⟨S40000, .i1⟩ : BufTy).Contents (Elt F) → (⟨S40000, .i32⟩ : BufTy).Contents (Elt F) → (⟨S40000, .i32⟩ : BufTy).Contents (Elt F) → (⟨S40000, .i32⟩ : BufTy).Contents (Elt F)),
    StableHlo.unary main_v8 main_v9 (broadcastInDim S40000x1 ![0] bcast_S40000_S40000x1_0 : (⟨S40000, .i32⟩ : BufTy).Contents (Elt F) → (⟨S40000x1, .i32⟩ : BufTy).Contents (Elt F)),
    StableHlo.binary main_arg3 main_v9 main_v10 ((fun x i => Host.gather gather_S1340x128_S40000x1_S40000x128_1_0_n_n_0_1_1128 x i) : (⟨S1340x128, .f32⟩ : BufTy).Contents (Elt F) → (⟨S40000x1, .i32⟩ : BufTy).Contents (Elt F) → (⟨S40000x128, .f32⟩ : BufTy).Contents (Elt F)),
    StableHlo.nullary main_c_1 (constantI S_ 32 0#32),
    StableHlo.unary main_c_1 main_v11 (broadcastInDim S640000 ![] bcast_S_S640000 : (⟨S_, .i32⟩ : BufTy).Contents (Elt F) → (⟨S640000, .i32⟩ : BufTy).Contents (Elt F)),
    StableHlo.binary main_v1 main_v11 main_v12 (cmpi .slt : (⟨S640000, .i32⟩ : BufTy).Contents (Elt F) → (⟨S640000, .i32⟩ : BufTy).Contents (Elt F) → (⟨S640000, .i1⟩ : BufTy).Contents (Elt F)),
    StableHlo.nullary main_c_2 (constantI S_ 32 40000#32),
    StableHlo.unary main_c_2 main_v13 (broadcastInDim S640000 ![] bcast_S_S640000 : (⟨S_, .i32⟩ : BufTy).Contents (Elt F) → (⟨S640000, .i32⟩ : BufTy).Contents (Elt F)),
    StableHlo.binary main_v1 main_v13 main_v14 (addi : (⟨S640000, .i32⟩ : BufTy).Contents (Elt F) → (⟨S640000, .i32⟩ : BufTy).Contents (Elt F) → (⟨S640000, .i32⟩ : BufTy).Contents (Elt F)),
    StableHlo.ternary main_v12 main_v14 main_v1 main_v15 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v15 main_v16 (broadcastInDim S640000x1 ![0] bcast_S640000_S640000x1_0 : (⟨S640000, .i32⟩ : BufTy).Contents (Elt F) → (⟨S640000x1, .i32⟩ : BufTy).Contents (Elt F)),
    StableHlo.binary main_v10 main_v16 main_v17 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.nullary main_cst (constant S_ .f32 0x00000000#32),
    StableHlo.unary main_cst main_v18 (broadcastInDim S40000x128 ![] bcast_S_S40000x128 : (⟨S_, .f32⟩ : BufTy).Contents (Elt F) → (⟨S40000x128, .f32⟩ : BufTy).Contents (Elt F)),
    StableHlo.unary main_v3 main_v19 (broadcastInDim S640000x1 ![0] bcast_S640000_S640000x1_0 : (⟨S640000, .i32⟩ : BufTy).Contents (Elt F) → (⟨S640000x1, .i32⟩ : BufTy).Contents (Elt F)),
    StableHlo.ternary main_v18 main_v19 main_v17 main_v20 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.binary main_v10 main_v20 main_v21 (addf : (⟨S40000x128, .f32⟩ : BufTy).Contents (Elt F) → (⟨S40000x128, .f32⟩ : BufTy).Contents (Elt F) → (⟨S40000x128, .f32⟩ : BufTy).Contents (Elt F)),
    StableHlo.binary main_v21 main_arg4 main_v22 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg5 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S40000x128 ![0, 1] bcast_S1x128_S40000x128_0_1 : (⟨S1x128, .f32⟩ : BufTy).Contents (Elt F) → (⟨S40000x128, .f32⟩ : BufTy).Contents (Elt F)),
    StableHlo.binary main_v22 main_v24 main_v25 (addf : (⟨S40000x128, .f32⟩ : BufTy).Contents (Elt F) → (⟨S40000x128, .f32⟩ : BufTy).Contents (Elt F) → (⟨S40000x128, .f32⟩ : BufTy).Contents (Elt F)),
    StableHlo.TRef.nullary (StableHlo.TRef.of (T := ⟨S_, .f32⟩) main_call0_cst) (constant S_ .f32 0x00000000#32),
    StableHlo.TRef.unary (StableHlo.TRef.of (T := ⟨S_, .f32⟩) main_call0_cst) (StableHlo.TRef.of (T := ⟨S40000x128, .f32⟩) main_call0_v0) (broadcastInDim S40000x128 ![] bcast_S_S40000x128),
    StableHlo.TRef.binary (StableHlo.TRef.of (T := ⟨S40000x128, .f32⟩) main_v25) (StableHlo.TRef.of (T := ⟨S40000x128, .f32⟩) main_call0_v0) (StableHlo.TRef.of (T := ⟨S40000x128, .f32⟩) main_v26) maximumf,
    StableHlo.binary main_v26 main_arg6 main_v27 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg7 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S40000x128 ![0, 1] bcast_S1x128_S40000x128_0_1 : (⟨S1x128, .f32⟩ : BufTy).Contents (Elt F) → (⟨S40000x128, .f32⟩ : BufTy).Contents (Elt F)),
    StableHlo.binary main_v27 main_v29 main_v30 (addf : (⟨S40000x128, .f32⟩ : BufTy).Contents (Elt F) → (⟨S40000x128, .f32⟩ : BufTy).Contents (Elt F) → (⟨S40000x128, .f32⟩ : BufTy).Contents (Elt F)),
    StableHlo.TRef.nullary (StableHlo.TRef.of (T := ⟨S_, .f32⟩) main_call1_cst) (constant S_ .f32 0x00000000#32),
    StableHlo.TRef.unary (StableHlo.TRef.of (T := ⟨S_, .f32⟩) main_call1_cst) (StableHlo.TRef.of (T := ⟨S40000x128, .f32⟩) main_call1_v0) (broadcastInDim S40000x128 ![] bcast_S_S40000x128),
    StableHlo.TRef.binary (StableHlo.TRef.of (T := ⟨S40000x128, .f32⟩) main_v30) (StableHlo.TRef.of (T := ⟨S40000x128, .f32⟩) main_call1_v0) (StableHlo.TRef.of (T := ⟨S40000x128, .f32⟩) main_v31) maximumf,
    StableHlo.nullary main_cst_3 (constant S_ .f32 0x00000000#32),
    StableHlo.binary main_v31 main_cst_3 main_v32 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_4 (constant S_ .f32 0x471C4000#32),
    StableHlo.unary main_cst_4 main_v33 (broadcastInDim S128 ![] bcast_S_S128 : (⟨S_, .f32⟩ : BufTy).Contents (Elt F) → (⟨S128, .f32⟩ : BufTy).Contents (Elt F)),
    StableHlo.binary main_v32 main_v33 main_v34 (Host.divf : (⟨S128, .f32⟩ : BufTy).Contents (Elt F) → (⟨S128, .f32⟩ : BufTy).Contents (Elt F) → (⟨S128, .f32⟩ : BufTy).Contents (Elt F)),
    StableHlo.nullary main_c_5 (constantI S_ 32 0#32),
    StableHlo.TRef.nullary (StableHlo.TRef.of (T := ⟨S_, .f32⟩) main_call2_cst) (constant S_ .f32 0x00000000#32),
    StableHlo.TRef.binary (StableHlo.TRef.of (T := ⟨S40000x128, .f32⟩) main_v31) (StableHlo.TRef.of (T := ⟨S_, .f32⟩) main_call2_cst) (StableHlo.TRef.of (T := ⟨S128, .f32⟩) main_call2_v0) (fun x v => Host.reduceAdd x v reducesTo_S40000x128_S128_d0 h_S_),
    StableHlo.TRef.unary (StableHlo.TRef.of (T := ⟨S128, .f32⟩) main_call2_v0) (StableHlo.TRef.of (T := ⟨S1x128, .f32⟩) main_call2_v1) (broadcastInDim S1x128 ![1] bcast_S128_S1x128_1),
    StableHlo.TRef.nullary (StableHlo.TRef.of (T := ⟨S_, .f32⟩) main_call2_cst_0) (constant S_ .f32 0x471C4000#32),
    StableHlo.TRef.unary (StableHlo.TRef.of (T := ⟨S_, .f32⟩) main_call2_cst_0) (StableHlo.TRef.of (T := ⟨S1x128, .f32⟩) main_call2_v2) (broadcastInDim S1x128 ![] bcast_S_S1x128),
    StableHlo.TRef.binary (StableHlo.TRef.of (T := ⟨S1x128, .f32⟩) main_call2_v1) (StableHlo.TRef.of (T := ⟨S1x128, .f32⟩) main_call2_v2) (StableHlo.TRef.of (T := ⟨S1x128, .f32⟩) main_call2_v3) Host.divf,
    StableHlo.TRef.unary (StableHlo.TRef.of (T := ⟨S1x128, .f32⟩) main_call2_v3) (StableHlo.TRef.of (T := ⟨S40000x128, .f32⟩) main_call2_v4) (broadcastInDim S40000x128 ![0, 1] bcast_S1x128_S40000x128_0_1),
    StableHlo.TRef.binary (StableHlo.TRef.of (T := ⟨S40000x128, .f32⟩) main_v31) (StableHlo.TRef.of (T := ⟨S40000x128, .f32⟩) main_call2_v4) (StableHlo.TRef.of (T := ⟨S40000x128, .f32⟩) main_call2_v5) subf,
    StableHlo.TRef.binary (StableHlo.TRef.of (T := ⟨S40000x128, .f32⟩) main_call2_v5) (StableHlo.TRef.of (T := ⟨S40000x128, .f32⟩) main_call2_v5) (StableHlo.TRef.of (T := ⟨S40000x128, .f32⟩) main_call2_v6) mulf,
    StableHlo.TRef.unary (StableHlo.TRef.of (T := ⟨S_, .i32⟩) main_c_5) (StableHlo.TRef.of (T := ⟨S_, .f32⟩) main_call2_v7) (sitofp .f32),
    StableHlo.TRef.nullary (StableHlo.TRef.of (T := ⟨S_, .f32⟩) main_call2_cst_1) (constant S_ .f32 0x471C4000#32),
    StableHlo.TRef.binary (StableHlo.TRef.of (T := ⟨S_, .f32⟩) main_call2_cst_1) (StableHlo.TRef.of (T := ⟨S_, .f32⟩) main_call2_v7) (StableHlo.TRef.of (T := ⟨S_, .f32⟩) main_call2_v8) subf,
    StableHlo.TRef.nullary (StableHlo.TRef.of (T := ⟨S_, .f32⟩) main_call2_cst_2) (constant S_ .f32 0x00000000#32),
    StableHlo.TRef.binary (StableHlo.TRef.of (T := ⟨S40000x128, .f32⟩) main_call2_v6) (StableHlo.TRef.of (T := ⟨S_, .f32⟩) main_call2_cst_2) (StableHlo.TRef.of (T := ⟨S128, .f32⟩) main_call2_v9) (fun x v => Host.reduceAdd x v reducesTo_S40000x128_S128_d0 h_S_),
    StableHlo.TRef.unary (StableHlo.TRef.of (T := ⟨S_, .f32⟩) main_call2_v8) (StableHlo.TRef.of (T := ⟨S128, .f32⟩) main_call2_v10) (broadcastInDim S128 ![] bcast_S_S128),
    StableHlo.TRef.binary (StableHlo.TRef.of (T := ⟨S128, .f32⟩) main_call2_v9) (StableHlo.TRef.of (T := ⟨S128, .f32⟩) main_call2_v10) (StableHlo.TRef.of (T := ⟨S128, .f32⟩) main_call2_v11) Host.divf,
    StableHlo.TRef.nullary (StableHlo.TRef.of (T := ⟨S_, .f32⟩) main_call2_cst_3) (constant S_ .f32 0x00000000#32),
    StableHlo.TRef.binary (StableHlo.TRef.of (T := ⟨S_, .f32⟩) main_call2_v8) (StableHlo.TRef.of (T := ⟨S_, .f32⟩) main_call2_cst_3) (StableHlo.TRef.of (T := ⟨S_, .i1⟩) main_call2_v12) (cmpf .ogt),
    StableHlo.TRef.nullary (StableHlo.TRef.of (T := ⟨S_, .f32⟩) main_call2_cst_4) (constant S_ .f32 0x7FC00000#32),
    StableHlo.TRef.unary (StableHlo.TRef.of (T := ⟨S_, .f32⟩) main_call2_cst_4) (StableHlo.TRef.of (T := ⟨S_, .f32⟩) main_call2_call0_v0) id,
    StableHlo.TRef.unary (StableHlo.TRef.of (T := ⟨S_, .f32⟩) main_call2_call0_v0) (StableHlo.TRef.of (T := ⟨S128, .f32⟩) main_call2_call0_v1) (broadcastInDim S128 ![] bcast_S_S128),
    StableHlo.TRef.ternary (StableHlo.TRef.of (T := ⟨S_, .i1⟩) main_call2_v12) (StableHlo.TRef.of (T := ⟨S128, .f32⟩) main_call2_v11) (StableHlo.TRef.of (T := ⟨S128, .f32⟩) main_call2_call0_v1) (StableHlo.TRef.of (T := ⟨S128, .f32⟩) main_v35) (fun p a b => select (broadcastInDim S128 ![] bcast_S_S128 p) a b),
    StableHlo.unary main_v34 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S40000x128 ![0, 1] bcast_S1x128_S40000x128_0_1 : (⟨S1x128, .f32⟩ : BufTy).Contents (Elt F) → (⟨S40000x128, .f32⟩ : BufTy).Contents (Elt F)),
    StableHlo.binary main_v31 main_v37 main_v38 (subf : (⟨S40000x128, .f32⟩ : BufTy).Contents (Elt F) → (⟨S40000x128, .f32⟩ : BufTy).Contents (Elt F) → (⟨S40000x128, .f32⟩ : BufTy).Contents (Elt F)),
    StableHlo.unary main_arg8 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S40000x128 ![0, 1] bcast_S1x128_S40000x128_0_1 : (⟨S1x128, .f32⟩ : BufTy).Contents (Elt F) → (⟨S40000x128, .f32⟩ : BufTy).Contents (Elt F)),
    StableHlo.binary main_v40 main_v38 main_v41 (mulf : (⟨S40000x128, .f32⟩ : BufTy).Contents (Elt F) → (⟨S40000x128, .f32⟩ : BufTy).Contents (Elt F) → (⟨S40000x128, .f32⟩ : BufTy).Contents (Elt F)),
    StableHlo.nullary main_cst_6 (constant S_ .f32 0x3727C5AC#32),
    StableHlo.unary main_cst_6 main_v42 (broadcastInDim S128 ![] bcast_S_S128 : (⟨S_, .f32⟩ : BufTy).Contents (Elt F) → (⟨S128, .f32⟩ : BufTy).Contents (Elt F)),
    StableHlo.binary main_v35 main_v42 main_v43 (addf : (⟨S128, .f32⟩ : BufTy).Contents (Elt F) → (⟨S128, .f32⟩ : BufTy).Contents (Elt F) → (⟨S128, .f32⟩ : BufTy).Contents (Elt F)),
    StableHlo.unary main_v43 main_v44 (Host.rsqrt : (⟨S128, .f32⟩ : BufTy).Contents (Elt F) → (⟨S128, .f32⟩ : BufTy).Contents (Elt F)),
    StableHlo.unary main_v44 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S40000x128 ![0, 1] bcast_S1x128_S40000x128_0_1 : (⟨S1x128, .f32⟩ : BufTy).Contents (Elt F) → (⟨S40000x128, .f32⟩ : BufTy).Contents (Elt F)),
    StableHlo.binary main_v41 main_v46 main_v47 (mulf : (⟨S40000x128, .f32⟩ : BufTy).Contents (Elt F) → (⟨S40000x128, .f32⟩ : BufTy).Contents (Elt F) → (⟨S40000x128, .f32⟩ : BufTy).Contents (Elt F)),
    StableHlo.unary main_arg9 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S40000x128 ![0, 1] bcast_S1x128_S40000x128_0_1 : (⟨S1x128, .f32⟩ : BufTy).Contents (Elt F) → (⟨S40000x128, .f32⟩ : BufTy).Contents (Elt F)),
    StableHlo.binary main_v47 main_v49 main_v50 (addf : (⟨S40000x128, .f32⟩ : BufTy).Contents (Elt F) → (⟨S40000x128, .f32⟩ : BufTy).Contents (Elt F) → (⟨S40000x128, .f32⟩ : BufTy).Contents (Elt F)) ]

/-- The second piece: the first layer's weights of the stacked parameters, the second round up to its normalised output `main_v102`. 85 operations (60 statements, the calls replaced by the called functions' operations). -/
abbrev ops1 : List (HloOp τ sig (Elt F)) :=
  [ StableHlo.unary main_arg10 main_v51 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v51 main_v52 rfl shapeCasts_S1x128x128_S128x128,
    StableHlo.unary main_arg11 main_v53 ((extractStridedSlice S1x128 ![0, 0] · slices_S2x128_S1x128_0_0) : (⟨S2x128, .f32⟩ : BufTy).Contents (Elt F) → (⟨S1x128, .f32⟩ : BufTy).Contents (Elt F)),
    StableHlo.reshape main_v53 main_v54 rfl shapeCasts_S1x128_S128,
    StableHlo.unary main_arg12 main_v55 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v55 main_v56 rfl shapeCasts_S1x128x128_S128x128,
    StableHlo.unary main_arg13 main_v57 ((extractStridedSlice S1x128 ![0, 0] · slices_S2x128_S1x128_0_0) : (⟨S2x128, .f32⟩ : BufTy).Contents (Elt F) → (⟨S1x128, .f32⟩ : BufTy).Contents (Elt F)),
    StableHlo.reshape main_v57 main_v58 rfl shapeCasts_S1x128_S128,
    StableHlo.nullary main_c_7 (constantI S_ 32 0#32),
    StableHlo.unary main_c_7 main_v59 (broadcastInDim S640000 ![] bcast_S_S640000 : (⟨S_, .i32⟩ : BufTy).Contents (Elt F) → (⟨S640000, .i32⟩ : BufTy).Contents (Elt F)),
    StableHlo.binary main_v1 main_v59 main_v60 (cmpi .slt : (⟨S640000, .i32⟩ : BufTy).Contents (Elt F) → (⟨S640000, .i32⟩ : BufTy).Contents (Elt F) → (⟨S640000, .i1⟩ : BufTy).Contents (Elt F)),
    StableHlo.nullary main_c_8 (constantI S_ 32 40000#32),
    StableHlo.unary main_c_8 main_v61 (broadcastInDim S640000 ![] bcast_S_S640000 : (⟨S_, .i32⟩ : BufTy).Contents (Elt F) → (⟨S640000, .i32⟩ : BufTy).Contents (Elt F)),
    StableHlo.binary main_v1 main_v61 main_v62 (addi : (⟨S640000, .i32⟩ : BufTy).Contents (Elt F) → (⟨S640000, .i32⟩ : BufTy).Contents (Elt F) → (⟨S640000, .i32⟩ : BufTy).Contents (Elt F)),
    StableHlo.ternary main_v60 main_v62 main_v1 main_v63 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v63 main_v64 (broadcastInDim S640000x1 ![0] bcast_S640000_S640000x1_0 : (⟨S640000, .i32⟩ : BufTy).Contents (Elt F) → (⟨S640000x1, .i32⟩ : BufTy).Contents (Elt F)),
    StableHlo.binary main_v50 main_v64 main_v65 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.nullary main_cst_9 (constant S_ .f32 0x00000000#32),
    StableHlo.unary main_cst_9 main_v66 (broadcastInDim S40000x128 ![] bcast_S_S40000x128 : (⟨S_, .f32⟩ : BufTy).Contents (Elt F) → (⟨S40000x128, .f32⟩ : BufTy).Contents (Elt F)),
    StableHlo.unary main_v3 main_v67 (broadcastInDim S640000x1 ![0] bcast_S640000_S640000x1_0 : (⟨S640000, .i32⟩ : BufTy).Contents (Elt F) → (⟨S640000x1, .i32⟩ : BufTy).Contents (Elt F)),
    StableHlo.ternary main_v66 main_v67 main_v65 main_v68 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.binary main_v50 main_v68 main_v69 (addf : (⟨S40000x128, .f32⟩ : BufTy).Contents (Elt F) → (⟨S40000x128, .f32⟩ : BufTy).Contents (Elt F) → (⟨S40000x128, .f32⟩ : BufTy).Contents (Elt F)),
    StableHlo.binary main_v69 main_v52 main_v70 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_v54 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S40000x128 ![0, 1] bcast_S1x128_S40000x128_0_1 : (⟨S1x128, .f32⟩ : BufTy).Contents (Elt F) → (⟨S40000x128, .f32⟩ : BufTy).Contents (Elt F)),
    StableHlo.binary main_v70 main_v72 main_v73 (addf : (⟨S40000x128, .f32⟩ : BufTy).Contents (Elt F) → (⟨S40000x128, .f32⟩ : BufTy).Contents (Elt F) → (⟨S40000x128, .f32⟩ : BufTy).Contents (Elt F)),
    StableHlo.TRef.nullary (StableHlo.TRef.of (T := ⟨S_, .f32⟩) main_call3_cst) (constant S_ .f32 0x00000000#32),
    StableHlo.TRef.unary (StableHlo.TRef.of (T := ⟨S_, .f32⟩) main_call3_cst) (StableHlo.TRef.of (T := ⟨S40000x128, .f32⟩) main_call3_v0) (broadcastInDim S40000x128 ![] bcast_S_S40000x128),
    StableHlo.TRef.binary (StableHlo.TRef.of (T := ⟨S40000x128, .f32⟩) main_v73) (StableHlo.TRef.of (T := ⟨S40000x128, .f32⟩) main_call3_v0) (StableHlo.TRef.of (T := ⟨S40000x128, .f32⟩) main_v74) maximumf,
    StableHlo.binary main_v74 main_v56 main_v75 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_v58 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S40000x128 ![0, 1] bcast_S1x128_S40000x128_0_1 : (⟨S1x128, .f32⟩ : BufTy).Contents (Elt F) → (⟨S40000x128, .f32⟩ : BufTy).Contents (Elt F)),
    StableHlo.binary main_v75 main_v77 main_v78 (addf : (⟨S40000x128, .f32⟩ : BufTy).Contents (Elt F) → (⟨S40000x128, .f32⟩ : BufTy).Contents (Elt F) → (⟨S40000x128, .f32⟩ : BufTy).Contents (Elt F)),
    StableHlo.TRef.nullary (StableHlo.TRef.of (T := ⟨S_, .f32⟩) main_call4_cst) (constant S_ .f32 0x00000000#32),
    StableHlo.TRef.unary (StableHlo.TRef.of (T := ⟨S_, .f32⟩) main_call4_cst) (StableHlo.TRef.of (T := ⟨S40000x128, .f32⟩) main_call4_v0) (broadcastInDim S40000x128 ![] bcast_S_S40000x128),
    StableHlo.TRef.binary (StableHlo.TRef.of (T := ⟨S40000x128, .f32⟩) main_v78) (StableHlo.TRef.of (T := ⟨S40000x128, .f32⟩) main_call4_v0) (StableHlo.TRef.of (T := ⟨S40000x128, .f32⟩) main_v79) maximumf,
    StableHlo.unary main_arg14 main_v80 ((extractStridedSlice S1x128 ![0, 0] · slices_S2x128_S1x128_0_0) : (⟨S2x128, .f32⟩ : BufTy).Contents (Elt F) → (⟨S1x128, .f32⟩ : BufTy).Contents (Elt F)),
    StableHlo.reshape main_v80 main_v81 rfl shapeCasts_S1x128_S128,
    StableHlo.unary main_arg15 main_v82 ((extractStridedSlice S1x128 ![0, 0] · slices_S2x128_S1x128_0_0) : (⟨S2x128, .f32⟩ : BufTy).Contents (Elt F) → (⟨S1x128, .f32⟩ : BufTy).Contents (Elt F)),
    StableHlo.reshape main_v82 main_v83 rfl shapeCasts_S1x128_S128,
    StableHlo.nullary main_cst_10 (constant S_ .f32 0x00000000#32),
    StableHlo.binary main_v79 main_cst_10 main_v84 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_11 (constant S_ .f32 0x471C4000#32),
    StableHlo.unary main_cst_11 main_v85 (broadcastInDim S128 ![] bcast_S_S128 : (⟨S_, .f32⟩ : BufTy).Contents (Elt F) → (⟨S128, .f32⟩ : BufTy).Contents (Elt F)),
    StableHlo.binary main_v84 main_v85 main_v86 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary (StableHlo.TRef.of (T := ⟨S_, .f32⟩) main_call5_cst) (constant S_ .f32 0x00000000#32),
    StableHlo.TRef.binary (StableHlo.TRef.of (T := ⟨S40000x128, .f32⟩) main_v79) (StableHlo.TRef.of (T := ⟨S_, .f32⟩) main_call5_cst) (StableHlo.TRef.of (T := ⟨S128, .f32⟩) main_call5_v0) (fun x v => Host.reduceAdd x v reducesTo_S40000x128_S128_d0 h_S_),
    StableHlo.TRef.unary (StableHlo.TRef.of (T := ⟨S128, .f32⟩) main_call5_v0) (StableHlo.TRef.of (T := ⟨S1x128, .f32⟩) main_call5_v1) (broadcastInDim S1x128 ![1] bcast_S128_S1x128_1),
    StableHlo.TRef.nullary (StableHlo.TRef.of (T := ⟨S_, .f32⟩) main_call5_cst_0) (constant S_ .f32 0x471C4000#32),
    StableHlo.TRef.unary (StableHlo.TRef.of (T := ⟨S_, .f32⟩) main_call5_cst_0) (StableHlo.TRef.of (T := ⟨S1x128, .f32⟩) main_call5_v2) (broadcastInDim S1x128 ![] bcast_S_S1x128),
    StableHlo.TRef.binary (StableHlo.TRef.of (T := ⟨S1x128, .f32⟩) main_call5_v1) (StableHlo.TRef.of (T := ⟨S1x128, .f32⟩) main_call5_v2) (StableHlo.TRef.of (T := ⟨S1x128, .f32⟩) main_call5_v3) Host.divf,
    StableHlo.TRef.unary (StableHlo.TRef.of (T := ⟨S1x128, .f32⟩) main_call5_v3) (StableHlo.TRef.of (T := ⟨S40000x128, .f32⟩) main_call5_v4) (broadcastInDim S40000x128 ![0, 1] bcast_S1x128_S40000x128_0_1),
    StableHlo.TRef.binary (StableHlo.TRef.of (T := ⟨S40000x128, .f32⟩) main_v79) (StableHlo.TRef.of (T := ⟨S40000x128, .f32⟩) main_call5_v4) (StableHlo.TRef.of (T := ⟨S40000x128, .f32⟩) main_call5_v5) subf,
    StableHlo.TRef.binary (StableHlo.TRef.of (T := ⟨S40000x128, .f32⟩) main_call5_v5) (StableHlo.TRef.of (T := ⟨S40000x128, .f32⟩) main_call5_v5) (StableHlo.TRef.of (T := ⟨S40000x128, .f32⟩) main_call5_v6) mulf,
    StableHlo.TRef.unary (StableHlo.TRef.of (T := ⟨S_, .i32⟩) main_c_12) (StableHlo.TRef.of (T := ⟨S_, .f32⟩) main_call5_v7) (sitofp .f32),
    StableHlo.TRef.nullary (StableHlo.TRef.of (T := ⟨S_, .f32⟩) main_call5_cst_1) (constant S_ .f32 0x471C4000#32),
    StableHlo.TRef.binary (StableHlo.TRef.of (T := ⟨S_, .f32⟩) main_call5_cst_1) (StableHlo.TRef.of (T := ⟨S_, .f32⟩) main_call5_v7) (StableHlo.TRef.of (T := ⟨S_, .f32⟩) main_call5_v8) subf,
    StableHlo.TRef.nullary (StableHlo.TRef.of (T := ⟨S_, .f32⟩) main_call5_cst_2) (constant S_ .f32 0x00000000#32),
    StableHlo.TRef.binary (StableHlo.TRef.of (T := ⟨S40000x128, .f32⟩) main_call5_v6) (StableHlo.TRef.of (T := ⟨S_, .f32⟩) main_call5_cst_2) (StableHlo.TRef.of (T := ⟨S128, .f32⟩) main_call5_v9) (fun x v => Host.reduceAdd x v reducesTo_S40000x128_S128_d0 h_S_),
    StableHlo.TRef.unary (StableHlo.TRef.of (T := ⟨S_, .f32⟩) main_call5_v8) (StableHlo.TRef.of (T := ⟨S128, .f32⟩) main_call5_v10) (broadcastInDim S128 ![] bcast_S_S128),
    StableHlo.TRef.binary (StableHlo.TRef.of (T := ⟨S128, .f32⟩) main_call5_v9) (StableHlo.TRef.of (T := ⟨S128, .f32⟩) main_call5_v10) (StableHlo.TRef.of (T := ⟨S128, .f32⟩) main_call5_v11) Host.divf,
    StableHlo.TRef.nullary (StableHlo.TRef.of (T := ⟨S_, .f32⟩) main_call5_cst_3) (constant S_ .f32 0x00000000#32),
    StableHlo.TRef.binary (StableHlo.TRef.of (T := ⟨S_, .f32⟩) main_call5_v8) (StableHlo.TRef.of (T := ⟨S_, .f32⟩) main_call5_cst_3) (StableHlo.TRef.of (T := ⟨S_, .i1⟩) main_call5_v12) (cmpf .ogt),
    StableHlo.TRef.nullary (StableHlo.TRef.of (T := ⟨S_, .f32⟩) main_call5_cst_4) (constant S_ .f32 0x7FC00000#32),
    StableHlo.TRef.unary (StableHlo.TRef.of (T := ⟨S_, .f32⟩) main_call5_cst_4) (StableHlo.TRef.of (T := ⟨S_, .f32⟩) main_call5_call0_v0) id,
    StableHlo.TRef.unary (StableHlo.TRef.of (T := ⟨S_, .f32⟩) main_call5_call0_v0) (StableHlo.TRef.of (T := ⟨S128, .f32⟩) main_call5_call0_v1) (broadcastInDim S128 ![] bcast_S_S128),
    StableHlo.TRef.ternary (StableHlo.TRef.of (T := ⟨S_, .i1⟩) main_call5_v12) (StableHlo.TRef.of (T := ⟨S128, .f32⟩) main_call5_v11) (StableHlo.TRef.of (T := ⟨S128, .f32⟩) main_call5_call0_v1) (StableHlo.TRef.of (T := ⟨S128, .f32⟩) main_v87) (fun p a b => select (broadcastInDim S128 ![] bcast_S_S128 p) a b),
    StableHlo.unary main_v86 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S40000x128 ![0, 1] bcast_S1x128_S40000x128_0_1 : (⟨S1x128, .f32⟩ : BufTy).Contents (Elt F) → (⟨S40000x128, .f32⟩ : BufTy).Contents (Elt F)),
    StableHlo.binary main_v79 main_v89 main_v90 (subf : (⟨S40000x128, .f32⟩ : BufTy).Contents (Elt F) → (⟨S40000x128, .f32⟩ : BufTy).Contents (Elt F) → (⟨S40000x128, .f32⟩ : BufTy).Contents (Elt F)),
    StableHlo.unary main_v81 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S40000x128 ![0, 1] bcast_S1x128_S40000x128_0_1 : (⟨S1x128, .f32⟩ : BufTy).Contents (Elt F) → (⟨S40000x128, .f32⟩ : BufTy).Contents (Elt F)),
    StableHlo.binary main_v92 main_v90 main_v93 (mulf : (⟨S40000x128, .f32⟩ : BufTy).Contents (Elt F) → (⟨S40000x128, .f32⟩ : BufTy).Contents (Elt F) → (⟨S40000x128, .f32⟩ : BufTy).Contents (Elt F)),
    StableHlo.nullary main_cst_13 (constant S_ .f32 0x3727C5AC#32),
    StableHlo.unary main_cst_13 main_v94 (broadcastInDim S128 ![] bcast_S_S128 : (⟨S_, .f32⟩ : BufTy).Contents (Elt F) → (⟨S128, .f32⟩ : BufTy).Contents (Elt F)),
    StableHlo.binary main_v87 main_v94 main_v95 (addf : (⟨S128, .f32⟩ : BufTy).Contents (Elt F) → (⟨S128, .f32⟩ : BufTy).Contents (Elt F) → (⟨S128, .f32⟩ : BufTy).Contents (Elt F)),
    StableHlo.unary main_v95 main_v96 (Host.rsqrt : (⟨S128, .f32⟩ : BufTy).Contents (Elt F) → (⟨S128, .f32⟩ : BufTy).Contents (Elt F)),
    StableHlo.unary main_v96 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S40000x128 ![0, 1] bcast_S1x128_S40000x128_0_1 : (⟨S1x128, .f32⟩ : BufTy).Contents (Elt F) → (⟨S40000x128, .f32⟩ : BufTy).Contents (Elt F)),
    StableHlo.binary main_v93 main_v98 main_v99 (mulf : (⟨S40000x128, .f32⟩ : BufTy).Contents (Elt F) → (⟨S40000x128, .f32⟩ : BufTy).Contents (Elt F) → (⟨S40000x128, .f32⟩ : BufTy).Contents (Elt F)),
    StableHlo.unary main_v83 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S40000x128 ![0, 1] bcast_S1x128_S40000x128_0_1 : (⟨S1x128, .f32⟩ : BufTy).Contents (Elt F) → (⟨S40000x128, .f32⟩ : BufTy).Contents (Elt F)),
    StableHlo.binary main_v99 main_v101 main_v102 (addf : (⟨S40000x128, .f32⟩ : BufTy).Contents (Elt F) → (⟨S40000x128, .f32⟩ : BufTy).Contents (Elt F) → (⟨S40000x128, .f32⟩ : BufTy).Contents (Elt F)),
    StableHlo.unary main_arg10 main_v103 ((extractStridedSlice S1x128x128 ![1, 0, 0] · slices_S2x128x128_S1x128x128_1_0_0) : (⟨S2x128x128, .f32⟩ : BufTy).Contents (Elt F) → (⟨S1x128x128, .f32⟩ : BufTy).Contents (Elt F)) ]

/-- The third piece: the second layer's weights of the stacked parameters, the third round up to its normalised output `main_v154`. 85 operations (60 statements, the calls replaced by the called functions' operations). -/
abbrev ops2 : List (HloOp τ sig (Elt F)) :=
  [ StableHlo.reshape main_v103 main_v104 rfl shapeCasts_S1x128x128_S128x128,
    StableHlo.unary main_arg11 main_v105 ((extractStridedSlice S1x128 ![1, 0] · slices_S2x128_S1x128_1_0) : (⟨S2x128, .f32⟩ : BufTy).Contents (Elt F) → (⟨S1x128, .f32⟩ : BufTy).Contents (Elt F)),
    StableHlo.reshape main_v105 main_v106 rfl shapeCasts_S1x128_S128,
    StableHlo.unary main_arg12 main_v107 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v107 main_v108 rfl shapeCasts_S1x128x128_S128x128,
    StableHlo.unary main_arg13 main_v109 ((extractStridedSlice S1x128 ![1, 0] · slices_S2x128_S1x128_1_0) : (⟨S2x128, .f32⟩ : BufTy).Contents (Elt F) → (⟨S1x128, .f32⟩ : BufTy).Contents (Elt F)),
    StableHlo.reshape main_v109 main_v110 rfl shapeCasts_S1x128_S128,
    StableHlo.nullary main_c_14 (constantI S_ 32 0#32),
    StableHlo.unary main_c_14 main_v111 (broadcastInDim S640000 ![] bcast_S_S640000 : (⟨S_, .i32⟩ : BufTy).Contents (Elt F) → (⟨S640000, .i32⟩ : BufTy).Contents (Elt F)),
    StableHlo.binary main_v1 main_v111 main_v112 (cmpi .slt : (⟨S640000, .i32⟩ : BufTy).Contents (Elt F) → (⟨S640000, .i32⟩ : BufTy).Contents (Elt F) → (⟨S640000, .i1⟩ : BufTy).Contents (Elt F)),
    StableHlo.nullary main_c_15 (constantI S_ 32 40000#32),
    StableHlo.unary main_c_15 main_v113 (broadcastInDim S640000 ![] bcast_S_S640000 : (⟨S_, .i32⟩ : BufTy).Contents (Elt F) → (⟨S640000, .i32⟩ : BufTy).Contents (Elt F)),
    StableHlo.binary main_v1 main_v113 main_v114 (addi : (⟨S640000, .i32⟩ : BufTy).Contents (Elt F) → (⟨S640000, .i32⟩ : BufTy).Contents (Elt F) → (⟨S640000, .i32⟩ : BufTy).Contents (Elt F)),
    StableHlo.ternary main_v112 main_v114 main_v1 main_v115 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v115 main_v116 (broadcastInDim S640000x1 ![0] bcast_S640000_S640000x1_0 : (⟨S640000, .i32⟩ : BufTy).Contents (Elt F) → (⟨S640000x1, .i32⟩ : BufTy).Contents (Elt F)),
    StableHlo.binary main_v102 main_v116 main_v117 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.nullary main_cst_16 (constant S_ .f32 0x00000000#32),
    StableHlo.unary main_cst_16 main_v118 (broadcastInDim S40000x128 ![] bcast_S_S40000x128 : (⟨S_, .f32⟩ : BufTy).Contents (Elt F) → (⟨S40000x128, .f32⟩ : BufTy).Contents (Elt F)),
    StableHlo.unary main_v3 main_v119 (broadcastInDim S640000x1 ![0] bcast_S640000_S640000x1_0 : (⟨S640000, .i32⟩ : BufTy).Contents (Elt F) → (⟨S640000x1, .i32⟩ : BufTy).Contents (Elt F)),
    StableHlo.ternary main_v118 main_v119 main_v117 main_v120 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.binary main_v102 main_v120 main_v121 (addf : (⟨S40000x128, .f32⟩ : BufTy).Contents (Elt F) → (⟨S40000x128, .f32⟩ : BufTy).Contents (Elt F) → (⟨S40000x128, .f32⟩ : BufTy).Contents (Elt F)),
    StableHlo.binary main_v121 main_v104 main_v122 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_v106 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S40000x128 ![0, 1] bcast_S1x128_S40000x128_0_1 : (⟨S1x128, .f32⟩ : BufTy).Contents (Elt F) → (⟨S40000x128, .f32⟩ : BufTy).Contents (Elt F)),
    StableHlo.binary main_v122 main_v124 main_v125 (addf : (⟨S40000x128, .f32⟩ : BufTy).Contents (Elt F) → (⟨S40000x128, .f32⟩ : BufTy).Contents (Elt F) → (⟨S40000x128, .f32⟩ : BufTy).Contents (Elt F)),
    StableHlo.TRef.nullary (StableHlo.TRef.of (T := ⟨S_, .f32⟩) main_call6_cst) (constant S_ .f32 0x00000000#32),
    StableHlo.TRef.unary (StableHlo.TRef.of (T := ⟨S_, .f32⟩) main_call6_cst) (StableHlo.TRef.of (T := ⟨S40000x128, .f32⟩) main_call6_v0) (broadcastInDim S40000x128 ![] bcast_S_S40000x128),
    StableHlo.TRef.binary (StableHlo.TRef.of (T := ⟨S40000x128, .f32⟩) main_v125) (StableHlo.TRef.of (T := ⟨S40000x128, .f32⟩) main_call6_v0) (StableHlo.TRef.of (T := ⟨S40000x128, .f32⟩) main_v126) maximumf,
    StableHlo.binary main_v126 main_v108 main_v127 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_v110 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S40000x128 ![0, 1] bcast_S1x128_S40000x128_0_1 : (⟨S1x128, .f32⟩ : BufTy).Contents (Elt F) → (⟨S40000x128, .f32⟩ : BufTy).Contents (Elt F)),
    StableHlo.binary main_v127 main_v129 main_v130 (addf : (⟨S40000x128, .f32⟩ : BufTy).Contents (Elt F) → (⟨S40000x128, .f32⟩ : BufTy).Contents (Elt F) → (⟨S40000x128, .f32⟩ : BufTy).Contents (Elt F)),
    StableHlo.TRef.nullary (StableHlo.TRef.of (T := ⟨S_, .f32⟩) main_call7_cst) (constant S_ .f32 0x00000000#32),
    StableHlo.TRef.unary (StableHlo.TRef.of (T := ⟨S_, .f32⟩) main_call7_cst) (StableHlo.TRef.of (T := ⟨S40000x128, .f32⟩) main_call7_v0) (broadcastInDim S40000x128 ![] bcast_S_S40000x128),
    StableHlo.TRef.binary (StableHlo.TRef.of (T := ⟨S40000x128, .f32⟩) main_v130) (StableHlo.TRef.of (T := ⟨S40000x128, .f32⟩) main_call7_v0) (StableHlo.TRef.of (T := ⟨S40000x128, .f32⟩) main_v131) maximumf,
    StableHlo.unary main_arg14 main_v132 ((extractStridedSlice S1x128 ![1, 0] · slices_S2x128_S1x128_1_0) : (⟨S2x128, .f32⟩ : BufTy).Contents (Elt F) → (⟨S1x128, .f32⟩ : BufTy).Contents (Elt F)),
    StableHlo.reshape main_v132 main_v133 rfl shapeCasts_S1x128_S128,
    StableHlo.unary main_arg15 main_v134 ((extractStridedSlice S1x128 ![1, 0] · slices_S2x128_S1x128_1_0) : (⟨S2x128, .f32⟩ : BufTy).Contents (Elt F) → (⟨S1x128, .f32⟩ : BufTy).Contents (Elt F)),
    StableHlo.reshape main_v134 main_v135 rfl shapeCasts_S1x128_S128,
    StableHlo.nullary main_cst_17 (constant S_ .f32 0x00000000#32),
    StableHlo.binary main_v131 main_cst_17 main_v136 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_18 (constant S_ .f32 0x471C4000#32),
    StableHlo.unary main_cst_18 main_v137 (broadcastInDim S128 ![] bcast_S_S128 : (⟨S_, .f32⟩ : BufTy).Contents (Elt F) → (⟨S128, .f32⟩ : BufTy).Contents (Elt F)),
    StableHlo.binary main_v136 main_v137 main_v138 (Host.divf : (⟨S128, .f32⟩ : BufTy).Contents (Elt F) → (⟨S128, .f32⟩ : BufTy).Contents (Elt F) → (⟨S128, .f32⟩ : BufTy).Contents (Elt F)),
    StableHlo.nullary main_c_19 (constantI S_ 32 0#32),
    StableHlo.TRef.nullary (StableHlo.TRef.of (T := ⟨S_, .f32⟩) main_call8_cst) (constant S_ .f32 0x00000000#32),
    StableHlo.TRef.binary (StableHlo.TRef.of (T := ⟨S40000x128, .f32⟩) main_v131) (StableHlo.TRef.of (T := ⟨S_, .f32⟩) main_call8_cst) (StableHlo.TRef.of (T := ⟨S128, .f32⟩) main_call8_v0) (fun x v => Host.reduceAdd x v reducesTo_S40000x128_S128_d0 h_S_),
    StableHlo.TRef.unary (StableHlo.TRef.of (T := ⟨S128, .f32⟩) main_call8_v0) (StableHlo.TRef.of (T := ⟨S1x128, .f32⟩) main_call8_v1) (broadcastInDim S1x128 ![1] bcast_S128_S1x128_1),
    StableHlo.TRef.nullary (StableHlo.TRef.of (T := ⟨S_, .f32⟩) main_call8_cst_0) (constant S_ .f32 0x471C4000#32),
    StableHlo.TRef.unary (StableHlo.TRef.of (T := ⟨S_, .f32⟩) main_call8_cst_0) (StableHlo.TRef.of (T := ⟨S1x128, .f32⟩) main_call8_v2) (broadcastInDim S1x128 ![] bcast_S_S1x128),
    StableHlo.TRef.binary (StableHlo.TRef.of (T := ⟨S1x128, .f32⟩) main_call8_v1) (StableHlo.TRef.of (T := ⟨S1x128, .f32⟩) main_call8_v2) (StableHlo.TRef.of (T := ⟨S1x128, .f32⟩) main_call8_v3) Host.divf,
    StableHlo.TRef.unary (StableHlo.TRef.of (T := ⟨S1x128, .f32⟩) main_call8_v3) (StableHlo.TRef.of (T := ⟨S40000x128, .f32⟩) main_call8_v4) (broadcastInDim S40000x128 ![0, 1] bcast_S1x128_S40000x128_0_1),
    StableHlo.TRef.binary (StableHlo.TRef.of (T := ⟨S40000x128, .f32⟩) main_v131) (StableHlo.TRef.of (T := ⟨S40000x128, .f32⟩) main_call8_v4) (StableHlo.TRef.of (T := ⟨S40000x128, .f32⟩) main_call8_v5) subf,
    StableHlo.TRef.binary (StableHlo.TRef.of (T := ⟨S40000x128, .f32⟩) main_call8_v5) (StableHlo.TRef.of (T := ⟨S40000x128, .f32⟩) main_call8_v5) (StableHlo.TRef.of (T := ⟨S40000x128, .f32⟩) main_call8_v6) mulf,
    StableHlo.TRef.unary (StableHlo.TRef.of (T := ⟨S_, .i32⟩) main_c_19) (StableHlo.TRef.of (T := ⟨S_, .f32⟩) main_call8_v7) (sitofp .f32),
    StableHlo.TRef.nullary (StableHlo.TRef.of (T := ⟨S_, .f32⟩) main_call8_cst_1) (constant S_ .f32 0x471C4000#32),
    StableHlo.TRef.binary (StableHlo.TRef.of (T := ⟨S_, .f32⟩) main_call8_cst_1) (StableHlo.TRef.of (T := ⟨S_, .f32⟩) main_call8_v7) (StableHlo.TRef.of (T := ⟨S_, .f32⟩) main_call8_v8) subf,
    StableHlo.TRef.nullary (StableHlo.TRef.of (T := ⟨S_, .f32⟩) main_call8_cst_2) (constant S_ .f32 0x00000000#32),
    StableHlo.TRef.binary (StableHlo.TRef.of (T := ⟨S40000x128, .f32⟩) main_call8_v6) (StableHlo.TRef.of (T := ⟨S_, .f32⟩) main_call8_cst_2) (StableHlo.TRef.of (T := ⟨S128, .f32⟩) main_call8_v9) (fun x v => Host.reduceAdd x v reducesTo_S40000x128_S128_d0 h_S_),
    StableHlo.TRef.unary (StableHlo.TRef.of (T := ⟨S_, .f32⟩) main_call8_v8) (StableHlo.TRef.of (T := ⟨S128, .f32⟩) main_call8_v10) (broadcastInDim S128 ![] bcast_S_S128),
    StableHlo.TRef.binary (StableHlo.TRef.of (T := ⟨S128, .f32⟩) main_call8_v9) (StableHlo.TRef.of (T := ⟨S128, .f32⟩) main_call8_v10) (StableHlo.TRef.of (T := ⟨S128, .f32⟩) main_call8_v11) Host.divf,
    StableHlo.TRef.nullary (StableHlo.TRef.of (T := ⟨S_, .f32⟩) main_call8_cst_3) (constant S_ .f32 0x00000000#32),
    StableHlo.TRef.binary (StableHlo.TRef.of (T := ⟨S_, .f32⟩) main_call8_v8) (StableHlo.TRef.of (T := ⟨S_, .f32⟩) main_call8_cst_3) (StableHlo.TRef.of (T := ⟨S_, .i1⟩) main_call8_v12) (cmpf .ogt),
    StableHlo.TRef.nullary (StableHlo.TRef.of (T := ⟨S_, .f32⟩) main_call8_cst_4) (constant S_ .f32 0x7FC00000#32),
    StableHlo.TRef.unary (StableHlo.TRef.of (T := ⟨S_, .f32⟩) main_call8_cst_4) (StableHlo.TRef.of (T := ⟨S_, .f32⟩) main_call8_call0_v0) id,
    StableHlo.TRef.unary (StableHlo.TRef.of (T := ⟨S_, .f32⟩) main_call8_call0_v0) (StableHlo.TRef.of (T := ⟨S128, .f32⟩) main_call8_call0_v1) (broadcastInDim S128 ![] bcast_S_S128),
    StableHlo.TRef.ternary (StableHlo.TRef.of (T := ⟨S_, .i1⟩) main_call8_v12) (StableHlo.TRef.of (T := ⟨S128, .f32⟩) main_call8_v11) (StableHlo.TRef.of (T := ⟨S128, .f32⟩) main_call8_call0_v1) (StableHlo.TRef.of (T := ⟨S128, .f32⟩) main_v139) (fun p a b => select (broadcastInDim S128 ![] bcast_S_S128 p) a b),
    StableHlo.unary main_v138 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S40000x128 ![0, 1] bcast_S1x128_S40000x128_0_1 : (⟨S1x128, .f32⟩ : BufTy).Contents (Elt F) → (⟨S40000x128, .f32⟩ : BufTy).Contents (Elt F)),
    StableHlo.binary main_v131 main_v141 main_v142 (subf : (⟨S40000x128, .f32⟩ : BufTy).Contents (Elt F) → (⟨S40000x128, .f32⟩ : BufTy).Contents (Elt F) → (⟨S40000x128, .f32⟩ : BufTy).Contents (Elt F)),
    StableHlo.unary main_v133 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S40000x128 ![0, 1] bcast_S1x128_S40000x128_0_1 : (⟨S1x128, .f32⟩ : BufTy).Contents (Elt F) → (⟨S40000x128, .f32⟩ : BufTy).Contents (Elt F)),
    StableHlo.binary main_v144 main_v142 main_v145 (mulf : (⟨S40000x128, .f32⟩ : BufTy).Contents (Elt F) → (⟨S40000x128, .f32⟩ : BufTy).Contents (Elt F) → (⟨S40000x128, .f32⟩ : BufTy).Contents (Elt F)),
    StableHlo.nullary main_cst_20 (constant S_ .f32 0x3727C5AC#32),
    StableHlo.unary main_cst_20 main_v146 (broadcastInDim S128 ![] bcast_S_S128 : (⟨S_, .f32⟩ : BufTy).Contents (Elt F) → (⟨S128, .f32⟩ : BufTy).Contents (Elt F)),
    StableHlo.binary main_v139 main_v146 main_v147 (addf : (⟨S128, .f32⟩ : BufTy).Contents (Elt F) → (⟨S128, .f32⟩ : BufTy).Contents (Elt F) → (⟨S128, .f32⟩ : BufTy).Contents (Elt F)),
    StableHlo.unary main_v147 main_v148 (Host.rsqrt : (⟨S128, .f32⟩ : BufTy).Contents (Elt F) → (⟨S128, .f32⟩ : BufTy).Contents (Elt F)),
    StableHlo.unary main_v148 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S40000x128 ![0, 1] bcast_S1x128_S40000x128_0_1 : (⟨S1x128, .f32⟩ : BufTy).Contents (Elt F) → (⟨S40000x128, .f32⟩ : BufTy).Contents (Elt F)),
    StableHlo.binary main_v145 main_v150 main_v151 (mulf : (⟨S40000x128, .f32⟩ : BufTy).Contents (Elt F) → (⟨S40000x128, .f32⟩ : BufTy).Contents (Elt F) → (⟨S40000x128, .f32⟩ : BufTy).Contents (Elt F)),
    StableHlo.unary main_v135 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S40000x128 ![0, 1] bcast_S1x128_S40000x128_0_1 : (⟨S1x128, .f32⟩ : BufTy).Contents (Elt F) → (⟨S40000x128, .f32⟩ : BufTy).Contents (Elt F)),
    StableHlo.binary main_v151 main_v153 main_v154 (addf : (⟨S40000x128, .f32⟩ : BufTy).Contents (Elt F) → (⟨S40000x128, .f32⟩ : BufTy).Contents (Elt F) → (⟨S40000x128, .f32⟩ : BufTy).Contents (Elt F)),
    StableHlo.nullary main_c_21 (constantI S_ 32 0#32),
    StableHlo.unary main_c_21 main_v155 (broadcastInDim S640000 ![] bcast_S_S640000 : (⟨S_, .i32⟩ : BufTy).Contents (Elt F) → (⟨S640000, .i32⟩ : BufTy).Contents (Elt F)) ]

/-- The fourth piece: the fourth round (no normalisation), the per-graph sums, the classifier; its last operation writes the result `main_v187`. 41 operations (35 statements, the calls replaced by the called functions' operations). -/
abbrev ops3 : List (HloOp τ sig (Elt F)) :=
  [ StableHlo.binary main_v1 main_v155 main_v156 (cmpi .slt : (⟨S640000, .i32⟩ : BufTy).Contents (Elt F) → (⟨S640000, .i32⟩ : BufTy).Contents (Elt F) → (⟨S640000, .i1⟩ : BufTy).Contents (Elt F)),
    StableHlo.nullary main_c_22 (constantI S_ 32 40000#32),
    StableHlo.unary main_c_22 main_v157 (broadcastInDim S640000 ![] bcast_S_S640000 : (⟨S_, .i32⟩ : BufTy).Contents (Elt F) → (⟨S640000, .i32⟩ : BufTy).Contents (Elt F)),
    StableHlo.binary main_v1 main_v157 main_v158 (addi : (⟨S640000, .i32⟩ : BufTy).Contents (Elt F) → (⟨S640000, .i32⟩ : BufTy).Contents (Elt F) → (⟨S640000, .i32⟩ : BufTy).Contents (Elt F)),
    StableHlo.ternary main_v156 main_v158 main_v1 main_v159 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v159 main_v160 (broadcastInDim S640000x1 ![0] bcast_S640000_S640000x1_0 : (⟨S640000, .i32⟩ : BufTy).Contents (Elt F) → (⟨S640000x1, .i32⟩ : BufTy).Contents (Elt F)),
    StableHlo.binary main_v154 main_v160 main_v161 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.nullary main_cst_23 (constant S_ .f32 0x00000000#32),
    StableHlo.unary main_cst_23 main_v162 (broadcastInDim S40000x128 ![] bcast_S_S40000x128 : (⟨S_, .f32⟩ : BufTy).Contents (Elt F) → (⟨S40000x128, .f32⟩ : BufTy).Contents (Elt F)),
    StableHlo.unary main_v3 main_v163 (broadcastInDim S640000x1 ![0] bcast_S640000_S640000x1_0 : (⟨S640000, .i32⟩ : BufTy).Contents (Elt F) → (⟨S640000x1, .i32⟩ : BufTy).Contents (Elt F)),
    StableHlo.ternary main_v162 main_v163 main_v161 main_v164 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.binary main_v154 main_v164 main_v165 (addf : (⟨S40000x128, .f32⟩ : BufTy).Contents (Elt F) → (⟨S40000x128, .f32⟩ : BufTy).Contents (Elt F) → (⟨S40000x128, .f32⟩ : BufTy).Contents (Elt F)),
    StableHlo.binary main_v165 main_arg16 main_v166 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg17 main_v167 (broadcastInDim S1x128 ![1] bcast_S128_S1x128_1 : (⟨S128, .f32⟩ : BufTy).Contents (Elt F) → (⟨S1x128, .f32⟩ : BufTy).Contents (Elt F)),
    StableHlo.unary main_v167 main_v168 (broadcastInDim S40000x128 ![0, 1] bcast_S1x128_S40000x128_0_1 : (⟨S1x128, .f32⟩ : BufTy).Contents (Elt F) → (⟨S40000x128, .f32⟩ : BufTy).Contents (Elt F)),
    StableHlo.binary main_v166 main_v168 main_v169 (addf : (⟨S40000x128, .f32⟩ : BufTy).Contents (Elt F) → (⟨S40000x128, .f32⟩ : BufTy).Contents (Elt F) → (⟨S40000x128, .f32⟩ : BufTy).Contents (Elt F)),
    StableHlo.TRef.nullary (StableHlo.TRef.of (T := ⟨S_, .f32⟩) main_call9_cst) (constant S_ .f32 0x00000000#32),
    StableHlo.TRef.unary (StableHlo.TRef.of (T := ⟨S_, .f32⟩) main_call9_cst) (StableHlo.TRef.of (T := ⟨S40000x128, .f32⟩) main_call9_v0) (broadcastInDim S40000x128 ![] bcast_S_S40000x128),
    StableHlo.TRef.binary (StableHlo.TRef.of (T := ⟨S40000x128, .f32⟩) main_v169) (StableHlo.TRef.of (T := ⟨S40000x128, .f32⟩) main_call9_v0) (StableHlo.TRef.of (T := ⟨S40000x128, .f32⟩) main_v170) maximumf,
    StableHlo.binary main_v170 main_arg18 main_v171 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg19 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S40000x128 ![0, 1] bcast_S1x128_S40000x128_0_1 : (⟨S1x128, .f32⟩ : BufTy).Contents (Elt F) → (⟨S40000x128, .f32⟩ : BufTy).Contents (Elt F)),
    StableHlo.binary main_v171 main_v173 main_v174 (addf : (⟨S40000x128, .f32⟩ : BufTy).Contents (Elt F) → (⟨S40000x128, .f32⟩ : BufTy).Contents (Elt F) → (⟨S40000x128, .f32⟩ : BufTy).Contents (Elt F)),
    StableHlo.TRef.nullary (StableHlo.TRef.of (T := ⟨S_, .f32⟩) main_call10_cst) (constant S_ .f32 0x00000000#32),
    StableHlo.TRef.unary (StableHlo.TRef.of (T := ⟨S_, .f32⟩) main_call10_cst) (StableHlo.TRef.of (T := ⟨S40000x128, .f32⟩) main_call10_v0) (broadcastInDim S40000x128 ![] bcast_S_S40000x128),
    StableHlo.TRef.binary (StableHlo.TRef.of (T := ⟨S40000x128, .f32⟩) main_v174) (StableHlo.TRef.of (T := ⟨S40000x128, .f32⟩) main_call10_v0) (StableHlo.TRef.of (T := ⟨S40000x128, .f32⟩) main_v175) maximumf,
    StableHlo.nullary main_cst_24 (constant S_ .f32 0x00000000#32),
    StableHlo.unary main_cst_24 main_v176 (broadcastInDim S256x128 ![] bcast_S_S256x128 : (⟨S_, .f32⟩ : BufTy).Contents (Elt F) → (⟨S256x128, .f32⟩ : BufTy).Contents (Elt F)),
    StableHlo.unary main_arg2 main_v177 (broadcastInDim S40000x1 ![0] bcast_S40000_S40000x1_0 : (⟨S40000, .i32⟩ : BufTy).Contents (Elt F) → (⟨S40000x1, .i32⟩ : BufTy).Contents (Elt F)),
    StableHlo.ternary main_v176 main_v177 main_v175 main_v178 ((fun x i u => Host.scatterAdd scatter_S256x128_S40000x1_S40000x128_1_0_0_1 x i u) : (⟨S256x128, .f32⟩ : BufTy).Contents (Elt F) → (⟨S40000x1, .i32⟩ : BufTy).Contents (Elt F) → (⟨S40000x128, .f32⟩ : BufTy).Contents (Elt F) → (⟨S256x128, .f32⟩ : BufTy).Contents (Elt F)),
    StableHlo.binary main_v178 main_arg20 main_v179 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)),
    StableHlo.unary main_arg21 main_v180 (broadcastInDim S1x128 ![1] bcast_S128_S1x128_1 : (⟨S128, .f32⟩ : BufTy).Contents (Elt F) → (⟨S1x128, .f32⟩ : BufTy).Contents (Elt F)),
    StableHlo.unary main_v180 main_v181 (broadcastInDim S256x128 ![0, 1] bcast_S1x128_S256x128_0_1 : (⟨S1x128, .f32⟩ : BufTy).Contents (Elt F) → (⟨S256x128, .f32⟩ : BufTy).Contents (Elt F)),
    StableHlo.binary main_v179 main_v181 main_v182 (addf : (⟨S256x128, .f32⟩ : BufTy).Contents (Elt F) → (⟨S256x128, .f32⟩ : BufTy).Contents (Elt F) → (⟨S256x128, .f32⟩ : BufTy).Contents (Elt F)),
    StableHlo.TRef.nullary (StableHlo.TRef.of (T := ⟨S_, .f32⟩) main_call11_cst) (constant S_ .f32 0x00000000#32),
    StableHlo.TRef.unary (StableHlo.TRef.of (T := ⟨S_, .f32⟩) main_call11_cst) (StableHlo.TRef.of (T := ⟨S256x128, .f32⟩) main_call11_v0) (broadcastInDim S256x128 ![] bcast_S_S256x128),
    StableHlo.TRef.binary (StableHlo.TRef.of (T := ⟨S256x128, .f32⟩) main_v182) (StableHlo.TRef.of (T := ⟨S256x128, .f32⟩) main_call11_v0) (StableHlo.TRef.of (T := ⟨S256x128, .f32⟩) main_v183) maximumf,
    StableHlo.binary main_v183 main_arg22 main_v184 ((fun l r => Host.dotGeneral dot_S256x128_S128x41_S256x41_1_0_0_1_n_n none l r) : (⟨S256x128, .f32⟩ : BufTy).Contents (Elt F) → (⟨S128x41, .f32⟩ : BufTy).Contents (Elt F) → (⟨S256x41, .f32⟩ : BufTy).Contents (Elt F)),
    StableHlo.unary main_arg23 main_v185 (broadcastInDim S1x41 ![1] bcast_S41_S1x41_1 : (⟨S41, .f32⟩ : BufTy).Contents (Elt F) → (⟨S1x41, .f32⟩ : BufTy).Contents (Elt F)),
    StableHlo.unary main_v185 main_v186 (broadcastInDim S256x41 ![0, 1] bcast_S1x41_S256x41_0_1 : (⟨S1x41, .f32⟩ : BufTy).Contents (Elt F) → (⟨S256x41, .f32⟩ : BufTy).Contents (Elt F)),
    StableHlo.binary main_v184 main_v186 main_v187 (addf : (⟨S256x41, .f32⟩ : BufTy).Contents (Elt F) → (⟨S256x41, .f32⟩ : BufTy).Contents (Elt F) → (⟨S256x41, .f32⟩ : BufTy).Contents (Elt F)) ]

set_option maxRecDepth 8192 in
set_option maxHeartbeats 4000000 in
/-- Running the first piece is running its operations in order: the called functions unfold at their calls. -/
theorem main_part0_eq (c : Dev nD) : main_part0 (F := F) c = seq ops0 := rfl

set_option maxRecDepth 8192 in
set_option maxHeartbeats 4000000 in
/-- Running the second piece is running its operations in order: the called functions unfold at their calls. -/
theorem main_part1_eq (c : Dev nD) : main_part1 (F := F) c = seq ops1 := rfl

set_option maxRecDepth 8192 in
set_option maxHeartbeats 4000000 in
/-- Running the third piece is running its operations in order: the called functions unfold at their calls. -/
theorem main_part2_eq (c : Dev nD) : main_part2 (F := F) c = seq ops2 := rfl

set_option maxRecDepth 8192 in
set_option maxHeartbeats 4000000 in
/-- Running the fourth piece is running its operations in order: the called functions unfold at their calls. -/
theorem main_part3_eq (c : Dev nD) : main_part3 (F := F) c = seq ops3 := rfl

set_option maxRecDepth 8192 in
/-- Every operation of the piece touches TensorCore buffers only. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

set_option maxRecDepth 8192 in
/-- Every operation of the piece determines what it writes. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the first piece writes, one per operation, in order. -/
abbrev ops0_W : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_cst, main_v18, main_v19, main_v20, main_v21, main_v22, main_v23, main_v24, main_v25, main_call0_cst, main_call0_v0, main_v26, main_v27, main_v28, main_v29, main_v30, main_call1_cst, main_call1_v0, main_v31, main_cst_3, main_v32, main_cst_4, main_v33, main_v34, main_c_5, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v35, main_v36, main_v37, main_v38, main_v39, main_v40, main_v41, main_cst_6, main_v42, main_v43, main_v44, main_v45, main_v46, main_v47, main_v48, main_v49, main_v50]
set_option maxRecDepth 8192 in
/-- Each operation of the piece writes exactly its result buffer, which is in the list. -/
theorem ops0_writes : (ops0 : List (HloOp τ sig (Elt F))).Forall fun op => op.writes ⊆ (ops0_W.map (Proc.devRef (τ := τ) .tc)).toFinset :=
  ⟨single_sub_of_mem (y := main_v0) (by decide),
    single_sub_of_mem (y := main_v1) (by decide),
    single_sub_of_mem (y := main_v2) (by decide),
    single_sub_of_mem (y := main_v3) (by decide),
    single_sub_of_mem (y := main_c) (by decide),
    single_sub_of_mem (y := main_v4) (by decide),
    single_sub_of_mem (y := main_v5) (by decide),
    single_sub_of_mem (y := main_c_0) (by decide),
    single_sub_of_mem (y := main_v6) (by decide),
    single_sub_of_mem (y := main_v7) (by decide),
    single_sub_of_mem (y := main_v8) (by decide),
    single_sub_of_mem (y := main_v9) (by decide),
    single_sub_of_mem (y := main_v10) (by decide),
    single_sub_of_mem (y := main_c_1) (by decide),
    single_sub_of_mem (y := main_v11) (by decide),
    single_sub_of_mem (y := main_v12) (by decide),
    single_sub_of_mem (y := main_c_2) (by decide),
    single_sub_of_mem (y := main_v13) (by decide),
    single_sub_of_mem (y := main_v14) (by decide),
    single_sub_of_mem (y := main_v15) (by decide),
    single_sub_of_mem (y := main_v16) (by decide),
    single_sub_of_mem (y := main_v17) (by decide),
    single_sub_of_mem (y := main_cst) (by decide),
    single_sub_of_mem (y := main_v18) (by decide),
    single_sub_of_mem (y := main_v19) (by decide),
    single_sub_of_mem (y := main_v20) (by decide),
    single_sub_of_mem (y := main_v21) (by decide),
    single_sub_of_mem (y := main_v22) (by decide),
    single_sub_of_mem (y := main_v23) (by decide),
    single_sub_of_mem (y := main_v24) (by decide),
    single_sub_of_mem (y := main_v25) (by decide),
    single_sub_of_mem (y := main_call0_cst) (by decide),
    single_sub_of_mem (y := main_call0_v0) (by decide),
    single_sub_of_mem (y := main_v26) (by decide),
    single_sub_of_mem (y := main_v27) (by decide),
    single_sub_of_mem (y := main_v28) (by decide),
    single_sub_of_mem (y := main_v29) (by decide),
    single_sub_of_mem (y := main_v30) (by decide),
    single_sub_of_mem (y := main_call1_cst) (by decide),
    single_sub_of_mem (y := main_call1_v0) (by decide),
    single_sub_of_mem (y := main_v31) (by decide),
    single_sub_of_mem (y := main_cst_3) (by decide),
    single_sub_of_mem (y := main_v32) (by decide),
    single_sub_of_mem (y := main_cst_4) (by decide),
    single_sub_of_mem (y := main_v33) (by decide),
    single_sub_of_mem (y := main_v34) (by decide),
    single_sub_of_mem (y := main_c_5) (by decide),
    single_sub_of_mem (y := main_call2_cst) (by decide),
    single_sub_of_mem (y := main_call2_v0) (by decide),
    single_sub_of_mem (y := main_call2_v1) (by decide),
    single_sub_of_mem (y := main_call2_cst_0) (by decide),
    single_sub_of_mem (y := main_call2_v2) (by decide),
    single_sub_of_mem (y := main_call2_v3) (by decide),
    single_sub_of_mem (y := main_call2_v4) (by decide),
    single_sub_of_mem (y := main_call2_v5) (by decide),
    single_sub_of_mem (y := main_call2_v6) (by decide),
    single_sub_of_mem (y := main_call2_v7) (by decide),
    single_sub_of_mem (y := main_call2_cst_1) (by decide),
    single_sub_of_mem (y := main_call2_v8) (by decide),
    single_sub_of_mem (y := main_call2_cst_2) (by decide),
    single_sub_of_mem (y := main_call2_v9) (by decide),
    single_sub_of_mem (y := main_call2_v10) (by decide),
    single_sub_of_mem (y := main_call2_v11) (by decide),
    single_sub_of_mem (y := main_call2_cst_3) (by decide),
    single_sub_of_mem (y := main_call2_v12) (by decide),
    single_sub_of_mem (y := main_call2_cst_4) (by decide),
    single_sub_of_mem (y := main_call2_call0_v0) (by decide),
    single_sub_of_mem (y := main_call2_call0_v1) (by decide),
    single_sub_of_mem (y := main_v35) (by decide),
    single_sub_of_mem (y := main_v36) (by decide),
    single_sub_of_mem (y := main_v37) (by decide),
    single_sub_of_mem (y := main_v38) (by decide),
    single_sub_of_mem (y := main_v39) (by decide),
    single_sub_of_mem (y := main_v40) (by decide),
    single_sub_of_mem (y := main_v41) (by decide),
    single_sub_of_mem (y := main_cst_6) (by decide),
    single_sub_of_mem (y := main_v42) (by decide),
    single_sub_of_mem (y := main_v43) (by decide),
    single_sub_of_mem (y := main_v44) (by decide),
    single_sub_of_mem (y := main_v45) (by decide),
    single_sub_of_mem (y := main_v46) (by decide),
    single_sub_of_mem (y := main_v47) (by decide),
    single_sub_of_mem (y := main_v48) (by decide),
    single_sub_of_mem (y := main_v49) (by decide),
    single_sub_of_mem (y := main_v50) (by decide)⟩
/-- A buffer the piece does not write keeps its contents through it. -/
theorem keep0 (V : Valuation τ sig (Elt F)) (r : Ref sig .tc) (h : r ∉ ops0_W) :
    after (ops0 : List (HloOp τ sig (Elt F))) V (Proc.devRef .tc r) = V (Proc.devRef .tc r) :=
  after_of_writes_sub ops0 V ops0_writes h

set_option maxRecDepth 8192 in
/-- Every operation of the piece touches TensorCore buffers only. -/
theorem ops1_sub : (ops1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub ..⟩

set_option maxRecDepth 8192 in
/-- Every operation of the piece determines what it writes. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the second piece writes, one per operation, in order. -/
abbrev ops1_W : List (Ref sig .tc) := [main_v51, main_v52, main_v53, main_v54, main_v55, main_v56, main_v57, main_v58, main_c_7, main_v59, main_v60, main_c_8, main_v61, main_v62, main_v63, main_v64, main_v65, main_cst_9, main_v66, main_v67, main_v68, main_v69, main_v70, main_v71, main_v72, main_v73, main_call3_cst, main_call3_v0, main_v74, main_v75, main_v76, main_v77, main_v78, main_call4_cst, main_call4_v0, main_v79, main_v80, main_v81, main_v82, main_v83, main_cst_10, main_v84, main_cst_11, main_v85, main_v86, main_c_12, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v87, main_v88, main_v89, main_v90, main_v91, main_v92, main_v93, main_cst_13, main_v94, main_v95, main_v96, main_v97, main_v98, main_v99, main_v100, main_v101, main_v102, main_v103]
set_option maxRecDepth 8192 in
/-- Each operation of the piece writes exactly its result buffer, which is in the list. -/
theorem ops1_writes : (ops1 : List (HloOp τ sig (Elt F))).Forall fun op => op.writes ⊆ (ops1_W.map (Proc.devRef (τ := τ) .tc)).toFinset :=
  ⟨single_sub_of_mem (y := main_v51) (by decide),
    single_sub_of_mem (y := main_v52) (by decide),
    single_sub_of_mem (y := main_v53) (by decide),
    single_sub_of_mem (y := main_v54) (by decide),
    single_sub_of_mem (y := main_v55) (by decide),
    single_sub_of_mem (y := main_v56) (by decide),
    single_sub_of_mem (y := main_v57) (by decide),
    single_sub_of_mem (y := main_v58) (by decide),
    single_sub_of_mem (y := main_c_7) (by decide),
    single_sub_of_mem (y := main_v59) (by decide),
    single_sub_of_mem (y := main_v60) (by decide),
    single_sub_of_mem (y := main_c_8) (by decide),
    single_sub_of_mem (y := main_v61) (by decide),
    single_sub_of_mem (y := main_v62) (by decide),
    single_sub_of_mem (y := main_v63) (by decide),
    single_sub_of_mem (y := main_v64) (by decide),
    single_sub_of_mem (y := main_v65) (by decide),
    single_sub_of_mem (y := main_cst_9) (by decide),
    single_sub_of_mem (y := main_v66) (by decide),
    single_sub_of_mem (y := main_v67) (by decide),
    single_sub_of_mem (y := main_v68) (by decide),
    single_sub_of_mem (y := main_v69) (by decide),
    single_sub_of_mem (y := main_v70) (by decide),
    single_sub_of_mem (y := main_v71) (by decide),
    single_sub_of_mem (y := main_v72) (by decide),
    single_sub_of_mem (y := main_v73) (by decide),
    single_sub_of_mem (y := main_call3_cst) (by decide),
    single_sub_of_mem (y := main_call3_v0) (by decide),
    single_sub_of_mem (y := main_v74) (by decide),
    single_sub_of_mem (y := main_v75) (by decide),
    single_sub_of_mem (y := main_v76) (by decide),
    single_sub_of_mem (y := main_v77) (by decide),
    single_sub_of_mem (y := main_v78) (by decide),
    single_sub_of_mem (y := main_call4_cst) (by decide),
    single_sub_of_mem (y := main_call4_v0) (by decide),
    single_sub_of_mem (y := main_v79) (by decide),
    single_sub_of_mem (y := main_v80) (by decide),
    single_sub_of_mem (y := main_v81) (by decide),
    single_sub_of_mem (y := main_v82) (by decide),
    single_sub_of_mem (y := main_v83) (by decide),
    single_sub_of_mem (y := main_cst_10) (by decide),
    single_sub_of_mem (y := main_v84) (by decide),
    single_sub_of_mem (y := main_cst_11) (by decide),
    single_sub_of_mem (y := main_v85) (by decide),
    single_sub_of_mem (y := main_v86) (by decide),
    single_sub_of_mem (y := main_c_12) (by decide),
    single_sub_of_mem (y := main_call5_cst) (by decide),
    single_sub_of_mem (y := main_call5_v0) (by decide),
    single_sub_of_mem (y := main_call5_v1) (by decide),
    single_sub_of_mem (y := main_call5_cst_0) (by decide),
    single_sub_of_mem (y := main_call5_v2) (by decide),
    single_sub_of_mem (y := main_call5_v3) (by decide),
    single_sub_of_mem (y := main_call5_v4) (by decide),
    single_sub_of_mem (y := main_call5_v5) (by decide),
    single_sub_of_mem (y := main_call5_v6) (by decide),
    single_sub_of_mem (y := main_call5_v7) (by decide),
    single_sub_of_mem (y := main_call5_cst_1) (by decide),
    single_sub_of_mem (y := main_call5_v8) (by decide),
    single_sub_of_mem (y := main_call5_cst_2) (by decide),
    single_sub_of_mem (y := main_call5_v9) (by decide),
    single_sub_of_mem (y := main_call5_v10) (by decide),
    single_sub_of_mem (y := main_call5_v11) (by decide),
    single_sub_of_mem (y := main_call5_cst_3) (by decide),
    single_sub_of_mem (y := main_call5_v12) (by decide),
    single_sub_of_mem (y := main_call5_cst_4) (by decide),
    single_sub_of_mem (y := main_call5_call0_v0) (by decide),
    single_sub_of_mem (y := main_call5_call0_v1) (by decide),
    single_sub_of_mem (y := main_v87) (by decide),
    single_sub_of_mem (y := main_v88) (by decide),
    single_sub_of_mem (y := main_v89) (by decide),
    single_sub_of_mem (y := main_v90) (by decide),
    single_sub_of_mem (y := main_v91) (by decide),
    single_sub_of_mem (y := main_v92) (by decide),
    single_sub_of_mem (y := main_v93) (by decide),
    single_sub_of_mem (y := main_cst_13) (by decide),
    single_sub_of_mem (y := main_v94) (by decide),
    single_sub_of_mem (y := main_v95) (by decide),
    single_sub_of_mem (y := main_v96) (by decide),
    single_sub_of_mem (y := main_v97) (by decide),
    single_sub_of_mem (y := main_v98) (by decide),
    single_sub_of_mem (y := main_v99) (by decide),
    single_sub_of_mem (y := main_v100) (by decide),
    single_sub_of_mem (y := main_v101) (by decide),
    single_sub_of_mem (y := main_v102) (by decide),
    single_sub_of_mem (y := main_v103) (by decide)⟩
/-- A buffer the piece does not write keeps its contents through it. -/
theorem keep1 (V : Valuation τ sig (Elt F)) (r : Ref sig .tc) (h : r ∉ ops1_W) :
    after (ops1 : List (HloOp τ sig (Elt F))) V (Proc.devRef .tc r) = V (Proc.devRef .tc r) :=
  after_of_writes_sub ops1 V ops1_writes h

set_option maxRecDepth 8192 in
/-- Every operation of the piece touches TensorCore buffers only. -/
theorem ops2_sub : (ops2 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub ..⟩

set_option maxRecDepth 8192 in
/-- Every operation of the piece determines what it writes. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the third piece writes, one per operation, in order. -/
abbrev ops2_W : List (Ref sig .tc) := [main_v104, main_v105, main_v106, main_v107, main_v108, main_v109, main_v110, main_c_14, main_v111, main_v112, main_c_15, main_v113, main_v114, main_v115, main_v116, main_v117, main_cst_16, main_v118, main_v119, main_v120, main_v121, main_v122, main_v123, main_v124, main_v125, main_call6_cst, main_call6_v0, main_v126, main_v127, main_v128, main_v129, main_v130, main_call7_cst, main_call7_v0, main_v131, main_v132, main_v133, main_v134, main_v135, main_cst_17, main_v136, main_cst_18, main_v137, main_v138, main_c_19, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v139, main_v140, main_v141, main_v142, main_v143, main_v144, main_v145, main_cst_20, main_v146, main_v147, main_v148, main_v149, main_v150, main_v151, main_v152, main_v153, main_v154, main_c_21, main_v155]
set_option maxRecDepth 8192 in
/-- Each operation of the piece writes exactly its result buffer, which is in the list. -/
theorem ops2_writes : (ops2 : List (HloOp τ sig (Elt F))).Forall fun op => op.writes ⊆ (ops2_W.map (Proc.devRef (τ := τ) .tc)).toFinset :=
  ⟨single_sub_of_mem (y := main_v104) (by decide),
    single_sub_of_mem (y := main_v105) (by decide),
    single_sub_of_mem (y := main_v106) (by decide),
    single_sub_of_mem (y := main_v107) (by decide),
    single_sub_of_mem (y := main_v108) (by decide),
    single_sub_of_mem (y := main_v109) (by decide),
    single_sub_of_mem (y := main_v110) (by decide),
    single_sub_of_mem (y := main_c_14) (by decide),
    single_sub_of_mem (y := main_v111) (by decide),
    single_sub_of_mem (y := main_v112) (by decide),
    single_sub_of_mem (y := main_c_15) (by decide),
    single_sub_of_mem (y := main_v113) (by decide),
    single_sub_of_mem (y := main_v114) (by decide),
    single_sub_of_mem (y := main_v115) (by decide),
    single_sub_of_mem (y := main_v116) (by decide),
    single_sub_of_mem (y := main_v117) (by decide),
    single_sub_of_mem (y := main_cst_16) (by decide),
    single_sub_of_mem (y := main_v118) (by decide),
    single_sub_of_mem (y := main_v119) (by decide),
    single_sub_of_mem (y := main_v120) (by decide),
    single_sub_of_mem (y := main_v121) (by decide),
    single_sub_of_mem (y := main_v122) (by decide),
    single_sub_of_mem (y := main_v123) (by decide),
    single_sub_of_mem (y := main_v124) (by decide),
    single_sub_of_mem (y := main_v125) (by decide),
    single_sub_of_mem (y := main_call6_cst) (by decide),
    single_sub_of_mem (y := main_call6_v0) (by decide),
    single_sub_of_mem (y := main_v126) (by decide),
    single_sub_of_mem (y := main_v127) (by decide),
    single_sub_of_mem (y := main_v128) (by decide),
    single_sub_of_mem (y := main_v129) (by decide),
    single_sub_of_mem (y := main_v130) (by decide),
    single_sub_of_mem (y := main_call7_cst) (by decide),
    single_sub_of_mem (y := main_call7_v0) (by decide),
    single_sub_of_mem (y := main_v131) (by decide),
    single_sub_of_mem (y := main_v132) (by decide),
    single_sub_of_mem (y := main_v133) (by decide),
    single_sub_of_mem (y := main_v134) (by decide),
    single_sub_of_mem (y := main_v135) (by decide),
    single_sub_of_mem (y := main_cst_17) (by decide),
    single_sub_of_mem (y := main_v136) (by decide),
    single_sub_of_mem (y := main_cst_18) (by decide),
    single_sub_of_mem (y := main_v137) (by decide),
    single_sub_of_mem (y := main_v138) (by decide),
    single_sub_of_mem (y := main_c_19) (by decide),
    single_sub_of_mem (y := main_call8_cst) (by decide),
    single_sub_of_mem (y := main_call8_v0) (by decide),
    single_sub_of_mem (y := main_call8_v1) (by decide),
    single_sub_of_mem (y := main_call8_cst_0) (by decide),
    single_sub_of_mem (y := main_call8_v2) (by decide),
    single_sub_of_mem (y := main_call8_v3) (by decide),
    single_sub_of_mem (y := main_call8_v4) (by decide),
    single_sub_of_mem (y := main_call8_v5) (by decide),
    single_sub_of_mem (y := main_call8_v6) (by decide),
    single_sub_of_mem (y := main_call8_v7) (by decide),
    single_sub_of_mem (y := main_call8_cst_1) (by decide),
    single_sub_of_mem (y := main_call8_v8) (by decide),
    single_sub_of_mem (y := main_call8_cst_2) (by decide),
    single_sub_of_mem (y := main_call8_v9) (by decide),
    single_sub_of_mem (y := main_call8_v10) (by decide),
    single_sub_of_mem (y := main_call8_v11) (by decide),
    single_sub_of_mem (y := main_call8_cst_3) (by decide),
    single_sub_of_mem (y := main_call8_v12) (by decide),
    single_sub_of_mem (y := main_call8_cst_4) (by decide),
    single_sub_of_mem (y := main_call8_call0_v0) (by decide),
    single_sub_of_mem (y := main_call8_call0_v1) (by decide),
    single_sub_of_mem (y := main_v139) (by decide),
    single_sub_of_mem (y := main_v140) (by decide),
    single_sub_of_mem (y := main_v141) (by decide),
    single_sub_of_mem (y := main_v142) (by decide),
    single_sub_of_mem (y := main_v143) (by decide),
    single_sub_of_mem (y := main_v144) (by decide),
    single_sub_of_mem (y := main_v145) (by decide),
    single_sub_of_mem (y := main_cst_20) (by decide),
    single_sub_of_mem (y := main_v146) (by decide),
    single_sub_of_mem (y := main_v147) (by decide),
    single_sub_of_mem (y := main_v148) (by decide),
    single_sub_of_mem (y := main_v149) (by decide),
    single_sub_of_mem (y := main_v150) (by decide),
    single_sub_of_mem (y := main_v151) (by decide),
    single_sub_of_mem (y := main_v152) (by decide),
    single_sub_of_mem (y := main_v153) (by decide),
    single_sub_of_mem (y := main_v154) (by decide),
    single_sub_of_mem (y := main_c_21) (by decide),
    single_sub_of_mem (y := main_v155) (by decide)⟩
/-- A buffer the piece does not write keeps its contents through it. -/
theorem keep2 (V : Valuation τ sig (Elt F)) (r : Ref sig .tc) (h : r ∉ ops2_W) :
    after (ops2 : List (HloOp τ sig (Elt F))) V (Proc.devRef .tc r) = V (Proc.devRef .tc r) :=
  after_of_writes_sub ops2 V ops2_writes h

set_option maxRecDepth 8192 in
/-- Every operation of the piece touches TensorCore buffers only. -/
theorem ops3_sub : (ops3 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
/-- Every operation of the piece determines what it writes. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the fourth piece writes, one per operation, in order. -/
abbrev ops3_W : List (Ref sig .tc) := [main_v156, main_c_22, main_v157, main_v158, main_v159, main_v160, main_v161, main_cst_23, main_v162, main_v163, main_v164, main_v165, main_v166, main_v167, main_v168, main_v169, main_call9_cst, main_call9_v0, main_v170, main_v171, main_v172, main_v173, main_v174, main_call10_cst, main_call10_v0, main_v175, main_cst_24, main_v176, main_v177, main_v178, main_v179, main_v180, main_v181, main_v182, main_call11_cst, main_call11_v0, main_v183, main_v184, main_v185, main_v186, main_v187]
set_option maxRecDepth 8192 in
/-- Each operation of the piece writes exactly its result buffer, which is in the list. -/
theorem ops3_writes : (ops3 : List (HloOp τ sig (Elt F))).Forall fun op => op.writes ⊆ (ops3_W.map (Proc.devRef (τ := τ) .tc)).toFinset :=
  ⟨single_sub_of_mem (y := main_v156) (by decide),
    single_sub_of_mem (y := main_c_22) (by decide),
    single_sub_of_mem (y := main_v157) (by decide),
    single_sub_of_mem (y := main_v158) (by decide),
    single_sub_of_mem (y := main_v159) (by decide),
    single_sub_of_mem (y := main_v160) (by decide),
    single_sub_of_mem (y := main_v161) (by decide),
    single_sub_of_mem (y := main_cst_23) (by decide),
    single_sub_of_mem (y := main_v162) (by decide),
    single_sub_of_mem (y := main_v163) (by decide),
    single_sub_of_mem (y := main_v164) (by decide),
    single_sub_of_mem (y := main_v165) (by decide),
    single_sub_of_mem (y := main_v166) (by decide),
    single_sub_of_mem (y := main_v167) (by decide),
    single_sub_of_mem (y := main_v168) (by decide),
    single_sub_of_mem (y := main_v169) (by decide),
    single_sub_of_mem (y := main_call9_cst) (by decide),
    single_sub_of_mem (y := main_call9_v0) (by decide),
    single_sub_of_mem (y := main_v170) (by decide),
    single_sub_of_mem (y := main_v171) (by decide),
    single_sub_of_mem (y := main_v172) (by decide),
    single_sub_of_mem (y := main_v173) (by decide),
    single_sub_of_mem (y := main_v174) (by decide),
    single_sub_of_mem (y := main_call10_cst) (by decide),
    single_sub_of_mem (y := main_call10_v0) (by decide),
    single_sub_of_mem (y := main_v175) (by decide),
    single_sub_of_mem (y := main_cst_24) (by decide),
    single_sub_of_mem (y := main_v176) (by decide),
    single_sub_of_mem (y := main_v177) (by decide),
    single_sub_of_mem (y := main_v178) (by decide),
    single_sub_of_mem (y := main_v179) (by decide),
    single_sub_of_mem (y := main_v180) (by decide),
    single_sub_of_mem (y := main_v181) (by decide),
    single_sub_of_mem (y := main_v182) (by decide),
    single_sub_of_mem (y := main_call11_cst) (by decide),
    single_sub_of_mem (y := main_call11_v0) (by decide),
    single_sub_of_mem (y := main_v183) (by decide),
    single_sub_of_mem (y := main_v184) (by decide),
    single_sub_of_mem (y := main_v185) (by decide),
    single_sub_of_mem (y := main_v186) (by decide),
    single_sub_of_mem (y := main_v187) (by decide)⟩
/-- A buffer the piece does not write keeps its contents through it. -/
theorem keep3 (V : Valuation τ sig (Elt F)) (r : Ref sig .tc) (h : r ∉ ops3_W) :
    after (ops3 : List (HloOp τ sig (Elt F))) V (Proc.devRef .tc r) = V (Proc.devRef .tc r) :=
  after_of_writes_sub ops3 V ops3_writes h

/-- The whole program's operations: the four pieces in order. -/
abbrev ops : List (HloOp τ sig (Elt F)) := ops0 ++ ops1 ++ ops2 ++ ops3

/-- The program is its four pieces in order, each its operations in order. -/
theorem main_eq (c : Dev nD) : main (F := F) c = seq (ops0 ++ ops1 ++ ops2 ++ ops3) := by
  rw [seq_append, seq_append, seq_append, ← main_part0_eq c, ← main_part1_eq c, ← main_part2_eq c, ← main_part3_eq c,
    bind_assoc, bind_assoc]
  rfl

theorem scopedRefs_eq : (Finset.univ.filter fun b : Ref sig .tc => b.isScoped) = ∅ := by decide
theorem scopedSems_eq : (Finset.univ.filter fun sm : SemLoc sig => sm.isScoped .tc) = ∅ := by decide

/-- A property of every operation of each piece is one of every operation of the whole list. -/
theorem forall_ops {P : HloOp τ sig (Elt F) → Prop} (h0 : (ops0 : List (HloOp τ sig (Elt F))).Forall P) (h1 : (ops1 : List (HloOp τ sig (Elt F))).Forall P)
    (h2 : (ops2 : List (HloOp τ sig (Elt F))).Forall P) (h3 : (ops3 : List (HloOp τ sig (Elt F))).Forall P) : ∀ op ∈ (ops0 ++ ops1 ++ ops2 ++ ops3 : List (HloOp τ sig (Elt F))), P op :=
  fun op h =>
    (List.mem_append.mp h).elim
      (fun h => (List.mem_append.mp h).elim
        (fun h => (List.mem_append.mp h).elim (List.forall_iff_forall_mem.mp h0 op) (List.forall_iff_forall_mem.mp h1 op))
        (List.forall_iff_forall_mem.mp h2 op))
      (List.forall_iff_forall_mem.mp h3 op)

theorem ops_sub : (ops0 ++ ops1 ++ ops2 ++ ops3 : List (HloOp τ sig (Elt F))).Forall fun op => op.bufs ⊆ tcRefs τ sig :=
  List.forall_iff_forall_mem.mpr (forall_ops ops0_sub ops1_sub ops2_sub ops3_sub)

theorem ops_fresh : ∀ op ∈ (ops0 ++ ops1 ++ ops2 ++ ops3 : List (HloOp τ sig (Elt F))), op.fresh = ∅ :=
  forall_ops ops0_fresh ops1_fresh ops2_fresh ops3_fresh

/-- The fold over the whole list is the four pieces' folds, one over the other. -/
theorem after_split (W : Valuation τ sig (Elt F)) :
    after (ops0 ++ ops1 ++ ops2 ++ ops3 : List (HloOp τ sig (Elt F))) W = after ops3 (after ops2 (after ops1 (after ops0 W))) := by
  rw [after_app, after_app, after_app]

/-- A buffer that no piece writes keeps its contents through the whole list. -/
theorem keep (V : Valuation τ sig (Elt F)) (r : Ref sig .tc) (h0 : r ∉ ops0_W) (h1 : r ∉ ops1_W) (h2 : r ∉ ops2_W)
    (h3 : r ∉ ops3_W) : after (ops0 ++ ops1 ++ ops2 ++ ops3 : List (HloOp τ sig (Elt F))) V (Proc.devRef .tc r) = V (Proc.devRef .tc r) := by
  rw [after_split, keep3 _ r h3, keep2 _ r h2, keep1 _ r h1, keep0 _ r h0]

/-- On every device, for any float values, from any memory with zero counters: every weakly fair execution of the
    program terminates with the result buffer at the fold of the operations over the launch contents and the 24
    argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v187) = after (ops0 ++ ops1 ++ ops2 ++ ops3) (launchContents m c) (Proc.devRef .tc main_v187)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨h c main_v187,
      (h c main_arg0).trans (keep (launchContents m c) main_arg0 (by decide) (by decide) (by decide) (by decide)),
      (h c main_arg1).trans (keep (launchContents m c) main_arg1 (by decide) (by decide) (by decide) (by decide)),
      (h c main_arg2).trans (keep (launchContents m c) main_arg2 (by decide) (by decide) (by decide) (by decide)),
      (h c main_arg3).trans (keep (launchContents m c) main_arg3 (by decide) (by decide) (by decide) (by decide)),
      (h c main_arg4).trans (keep (launchContents m c) main_arg4 (by decide) (by decide) (by decide) (by decide)),
      (h c main_arg5).trans (keep (launchContents m c) main_arg5 (by decide) (by decide) (by decide) (by decide)),
      (h c main_arg6).trans (keep (launchContents m c) main_arg6 (by decide) (by decide) (by decide) (by decide)),
      (h c main_arg7).trans (keep (launchContents m c) main_arg7 (by decide) (by decide) (by decide) (by decide)),
      (h c main_arg8).trans (keep (launchContents m c) main_arg8 (by decide) (by decide) (by decide) (by decide)),
      (h c main_arg9).trans (keep (launchContents m c) main_arg9 (by decide) (by decide) (by decide) (by decide)),
      (h c main_arg10).trans (keep (launchContents m c) main_arg10 (by decide) (by decide) (by decide) (by decide)),
      (h c main_arg11).trans (keep (launchContents m c) main_arg11 (by decide) (by decide) (by decide) (by decide)),
      (h c main_arg12).trans (keep (launchContents m c) main_arg12 (by decide) (by decide) (by decide) (by decide)),
      (h c main_arg13).trans (keep (launchContents m c) main_arg13 (by decide) (by decide) (by decide) (by decide)),
      (h c main_arg14).trans (keep (launchContents m c) main_arg14 (by decide) (by decide) (by decide) (by decide)),
      (h c main_arg15).trans (keep (launchContents m c) main_arg15 (by decide) (by decide) (by decide) (by decide)),
      (h c main_arg16).trans (keep (launchContents m c) main_arg16 (by decide) (by decide) (by decide) (by decide)),
      (h c main_arg17).trans (keep (launchContents m c) main_arg17 (by decide) (by decide) (by decide) (by decide)),
      (h c main_arg18).trans (keep (launchContents m c) main_arg18 (by decide) (by decide) (by decide) (by decide)),
      (h c main_arg19).trans (keep (launchContents m c) main_arg19 (by decide) (by decide) (by decide) (by decide)),
      (h c main_arg20).trans (keep (launchContents m c) main_arg20 (by decide) (by decide) (by decide) (by decide)),
      (h c main_arg21).trans (keep (launchContents m c) main_arg21 (by decide) (by decide) (by decide) (by decide)),
      (h c main_arg22).trans (keep (launchContents m c) main_arg22 (by decide) (by decide) (by decide) (by decide)),
      (h c main_arg23).trans (keep (launchContents m c) main_arg23 (by decide) (by decide) (by decide) (by decide))⟩)
    (run_seq scopedRefs_eq scopedSems_eq defs main (fun _ => ops0 ++ ops1 ++ ops2 ++ ops3) main_eq (fun _ => ops_sub) m ρ (fun _ => ops_fresh))

end Cert.ReferenceIdeal.RefRun

end
-- ==== Proof.RefValue.lean ====
/-
  The value of the reference program's result: the network of its 24 argument arrays.

  The run leaves the result buffer at the fold of the program's operations over the launch contents, and that fold is
  the four pieces' folds one over the other. Each piece is read separately, from ARBITRARY contents `W` of the buffers:
  what it leaves in a buffer a later piece reads is a function of the buffers it reads itself —
    first piece:   the edges' source row and destination row; the first normalised round of the embedded tokens;
    second piece:  the second normalised round, from the first round's output, the two rows and the first entries of the
                   stacked parameters; the second matrix of the first stacked weight;
    third piece:   the third normalised round, from the second's output, the rows and the second entries; a zero vector;
    fourth piece:  the result, from the third round's output, the rows, the zero vector and the remaining parameters.
  In each reading the round's input is one variable, so the composed term stays as small as the network's own text:
  the pieces are then joined by rewriting, a buffer a piece does not write being carried through it unchanged.
-/
import proofs.«160553_j66949950210692_1_alg».proof.Proof.RefRun
import proofs.«160553_j66949950210692_1_alg».proof.Proof.NetWhole

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

/-- The buffers of one device, float values read as extended reals. -/
abbrev Val := Valuation τ sig (Elt Ideal)

open Cert.Net in
/-- One normalised round given the edges' source and destination rows: each node's row plus the sum of its in-neighbours'
    rows, two dense layers with max(., 0), then batch normalisation gamma * (y - mean) * (var + eps)^(-1/2) + beta. -/
def layerSD (s d : IArr S640000) (x : Arr S40000x128) (W1 : Arr S128x128) (b1 : Arr S128) (W2 : Arr S128x128) (b2 g b : Arr S128) :
    Arr S40000x128 :=
  bn (mlp (addf x (aggregateSD s d x)) W1 (row b1) W2 (row b2)) g b

/-- With the two rows taken from the edge list it is the network's normalised round. -/
theorem layerSD_eq (e : Cert.Net.IArr S2x640000) (x : Cert.Net.Arr S40000x128) (W1 : Cert.Net.Arr S128x128) (b1 : Cert.Net.Arr S128)
    (W2 : Cert.Net.Arr S128x128) (b2 g b : Cert.Net.Arr S128) :
    layerSD (Cert.Net.srcOf e) (Cert.Net.dstOf e) x W1 b1 W2 b2 g b = Cert.Net.layer e x W1 b1 W2 b2 g b := rfl

open Cert.Net in
/-- The neighbour sum with the zero vector `z` that the source indices are compared with given as an argument. -/
def aggregateZ (z src dst : IArr S640000) (x : Arr S40000x128) : Arr S40000x128 :=
  Host.scatterAdd scatter_S40000x128_S640000x1_S640000x128_1_0_0_1
    (broadcastInDim S40000x128 ![] bcast_S_S40000x128 zero)
    (broadcastInDim S640000x1 ![0] bcast_S640000_S640000x1_0 dst)
    (Host.gather gather_S40000x128_S640000x1_S640000x128_1_0_n_n_0_1_1128 x
      (broadcastInDim S640000x1 ![0] bcast_S640000_S640000x1_0
        (select (cmpi .slt src z) (addi src (broadcastInDim S640000 ![] bcast_S_S640000 (constantI S_ 32 40000#32))) src)))

open Cert.Net in
/-- The last round (no normalisation), the per-graph sums and the classifier, over the same rows and zero vector. -/
def tailZ (z s d : IArr S640000) (batch : IArr S40000) (x3 : Arr S40000x128) (Wout1 : Arr S128x128) (bout1 : Arr S128)
    (Wout2 : Arr S128x128) (bout2 : Arr S128) (Wfc1 : Arr S128x128) (bfc1 : Arr S128) (Wfc2 : Arr S128x41) (bfc2 : Arr S41) : Arr S256x41 :=
  classify (pool batch (mlp (addf x3 (aggregateZ z s d x3)) Wout1 (row bout1) Wout2 (row bout2))) Wfc1 (row bfc1) Wfc2 (row41 bfc2)

/-- With the rows taken from the edge list and the zero vector the literal one, it is the network's tail. -/
theorem tailZ_eq (e : Cert.Net.IArr S2x640000) (batch : Cert.Net.IArr S40000) (x3 : Cert.Net.Arr S40000x128) (Wout1 : Cert.Net.Arr S128x128)
    (bout1 : Cert.Net.Arr S128) (Wout2 : Cert.Net.Arr S128x128) (bout2 : Cert.Net.Arr S128) (Wfc1 : Cert.Net.Arr S128x128) (bfc1 : Cert.Net.Arr S128)
    (Wfc2 : Cert.Net.Arr S128x41) (bfc2 : Cert.Net.Arr S41) :
    tailZ (broadcastInDim S640000 ![] bcast_S_S640000 (constantI S_ 32 0#32)) (Cert.Net.srcOf e) (Cert.Net.dstOf e) batch x3 Wout1 bout1 Wout2 bout2
        Wfc1 bfc1 Wfc2 bfc2
      = Cert.Net.tail e batch x3 Wout1 bout1 Wout2 bout2 Wfc1 bfc1 Wfc2 bfc2 := rfl

set_option maxRecDepth 8192 in
set_option maxHeartbeats 2000000 in
/-- After the first piece: the edges' source row. -/
theorem w0_v1 (W : Val) : after (ops0 : List (HloOp τ sig (Elt Ideal))) W (Proc.devRef .tc main_v1) =
    Cert.Net.srcOf (W (Proc.devRef .tc main_arg1)) := by
  simp only [ops0]
  after_results_simp
  rfl

set_option maxRecDepth 8192 in
set_option maxHeartbeats 2000000 in
/-- After the first piece: the edges' destination row. -/
theorem w0_v3 (W : Val) : after (ops0 : List (HloOp τ sig (Elt Ideal))) W (Proc.devRef .tc main_v3) =
    Cert.Net.dstOf (W (Proc.devRef .tc main_arg1)) := by
  simp only [ops0]
  after_results_simp
  rfl

set_option maxRecDepth 8192 in
set_option maxHeartbeats 2000000 in
/-- After the first piece: the first normalised round of the embedded tokens. -/
theorem w0_v50 (W : Val) : after (ops0 : List (HloOp τ sig (Elt Ideal))) W (Proc.devRef .tc main_v50) =
    Cert.Net.layer (W (Proc.devRef .tc main_arg1)) (Cert.Net.embed (W (Proc.devRef .tc main_arg0)) (W (Proc.devRef .tc main_arg3))) (W (Proc.devRef .tc main_arg4)) (W (Proc.devRef .tc main_arg5))
      (W (Proc.devRef .tc main_arg6)) (W (Proc.devRef .tc main_arg7)) (W (Proc.devRef .tc main_arg8)) (W (Proc.devRef .tc main_arg9)) := by
  simp only [ops0]
  after_results_simp
  rfl

set_option maxRecDepth 8192 in
set_option maxHeartbeats 2000000 in
/-- After the second piece: the second normalised round, from the first's output and the stacked parameters' first entries. -/
theorem w1_v102 (W : Val) : after (ops1 : List (HloOp τ sig (Elt Ideal))) W (Proc.devRef .tc main_v102) =
    layerSD (W (Proc.devRef .tc main_v1)) (W (Proc.devRef .tc main_v3)) (W (Proc.devRef .tc main_v50)) (Cert.Net.mat0 (W (Proc.devRef .tc main_arg10))) (Cert.Net.vec0 (W (Proc.devRef .tc main_arg11)))
      (Cert.Net.mat0 (W (Proc.devRef .tc main_arg12))) (Cert.Net.vec0 (W (Proc.devRef .tc main_arg13))) (Cert.Net.vec0 (W (Proc.devRef .tc main_arg14))) (Cert.Net.vec0 (W (Proc.devRef .tc main_arg15))) := by
  simp only [ops1]
  after_results_simp
  rfl

set_option maxRecDepth 8192 in
set_option maxHeartbeats 2000000 in
/-- After the second piece: the second matrix of the first stacked weight, still with its leading axis of length one. -/
theorem w1_v103 (W : Val) : after (ops1 : List (HloOp τ sig (Elt Ideal))) W (Proc.devRef .tc main_v103) =
    extractStridedSlice S1x128x128 ![1, 0, 0] (W (Proc.devRef .tc main_arg10)) slices_S2x128x128_S1x128x128_1_0_0 := by
  simp only [ops1]
  after_results_simp
  all_goals rfl

set_option maxRecDepth 8192 in
set_option maxHeartbeats 2000000 in
/-- After the third piece: the third normalised round, from the second's output and the stacked parameters' second entries. -/
theorem w2_v154 (W : Val) : after (ops2 : List (HloOp τ sig (Elt Ideal))) W (Proc.devRef .tc main_v154) =
    layerSD (W (Proc.devRef .tc main_v1)) (W (Proc.devRef .tc main_v3)) (W (Proc.devRef .tc main_v102)) (shapeCast S128x128 (W (Proc.devRef .tc main_v103)) shapeCasts_S1x128x128_S128x128)
      (Cert.Net.vec1 (W (Proc.devRef .tc main_arg11))) (Cert.Net.mat1 (W (Proc.devRef .tc main_arg12))) (Cert.Net.vec1 (W (Proc.devRef .tc main_arg13))) (Cert.Net.vec1 (W (Proc.devRef .tc main_arg14))) (Cert.Net.vec1 (W (Proc.devRef .tc main_arg15))) := by
  simp only [ops2]
  after_results_simp
  rfl

set_option maxRecDepth 8192 in
set_option maxHeartbeats 2000000 in
/-- After the third piece: the zero vector the fourth piece compares the source indices with. -/
theorem w2_v155 (W : Val) : after (ops2 : List (HloOp τ sig (Elt Ideal))) W (Proc.devRef .tc main_v155) =
    broadcastInDim S640000 ![] bcast_S_S640000 (constantI S_ 32 0#32) := by
  simp only [ops2]
  after_results_simp
  all_goals rfl

set_option maxRecDepth 8192 in
set_option maxHeartbeats 2000000 in
/-- After the fourth piece: the result, from the third round's output. -/
theorem w3_v187 (W : Val) : after (ops3 : List (HloOp τ sig (Elt Ideal))) W (Proc.devRef .tc main_v187) =
    tailZ (W (Proc.devRef .tc main_v155)) (W (Proc.devRef .tc main_v1)) (W (Proc.devRef .tc main_v3)) (W (Proc.devRef .tc main_arg2)) (W (Proc.devRef .tc main_v154)) (W (Proc.devRef .tc main_arg16)) (W (Proc.devRef .tc main_arg17))
      (W (Proc.devRef .tc main_arg18)) (W (Proc.devRef .tc main_arg19)) (W (Proc.devRef .tc main_arg20)) (W (Proc.devRef .tc main_arg21)) (W (Proc.devRef .tc main_arg22)) (W (Proc.devRef .tc main_arg23)) := by
  simp only [ops3]
  after_results_simp
  rfl

/-- From any contents, the four pieces' folds one over the other leave the result buffer at the network of the 24
    argument arrays: each piece's output is read as a function of what the piece reads, buffers a piece does not write
    are carried through it, and the rows and the zero vector the later pieces reuse are the first piece's. -/
theorem value (V : Val) :
    after (ops3 : List (HloOp τ sig (Elt Ideal))) (after (ops2 : List (HloOp τ sig (Elt Ideal))) (after (ops1 : List (HloOp τ sig (Elt Ideal))) (after (ops0 : List (HloOp τ sig (Elt Ideal))) V))) (Proc.devRef .tc main_v187)
      = Cert.Net.net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) := by
  rw [w3_v187, w2_v155, w2_v154]
  rw [keep2 _ main_v1 (by decide), keep2 _ main_v3 (by decide), keep2 _ main_arg2 (by decide), keep2 _ main_arg16 (by decide), keep2 _ main_arg17 (by decide), keep2 _ main_arg18 (by decide), keep2 _ main_arg19 (by decide), keep2 _ main_arg20 (by decide), keep2 _ main_arg21 (by decide), keep2 _ main_arg22 (by decide), keep2 _ main_arg23 (by decide)]
  rw [w1_v102, w1_v103]
  rw [keep1 _ main_v1 (by decide), keep1 _ main_v3 (by decide), keep1 _ main_arg11 (by decide), keep1 _ main_arg12 (by decide), keep1 _ main_arg13 (by decide), keep1 _ main_arg14 (by decide), keep1 _ main_arg15 (by decide), keep1 _ main_arg2 (by decide), keep1 _ main_arg16 (by decide), keep1 _ main_arg17 (by decide), keep1 _ main_arg18 (by decide), keep1 _ main_arg19 (by decide), keep1 _ main_arg20 (by decide), keep1 _ main_arg21 (by decide), keep1 _ main_arg22 (by decide), keep1 _ main_arg23 (by decide)]
  rw [w0_v1, w0_v3, w0_v50]
  rw [keep0 _ main_arg10 (by decide), keep0 _ main_arg11 (by decide), keep0 _ main_arg12 (by decide), keep0 _ main_arg13 (by decide), keep0 _ main_arg14 (by decide), keep0 _ main_arg15 (by decide), keep0 _ main_arg2 (by decide), keep0 _ main_arg16 (by decide), keep0 _ main_arg17 (by decide), keep0 _ main_arg18 (by decide), keep0 _ main_arg19 (by decide), keep0 _ main_arg20 (by decide), keep0 _ main_arg21 (by decide), keep0 _ main_arg22 (by decide), keep0 _ main_arg23 (by decide)]
  rw [layerSD_eq, layerSD_eq, tailZ_eq]
  rfl

/-- The reference's result, on every device, is the network of the launch contents of its 24 argument arrays. -/
theorem ref_value (m : (ℓ : Loc nD τ sig) → Buf (Elt Ideal) ℓ) (c : Dev nD) :
    after (ops0 ++ ops1 ++ ops2 ++ ops3 : List (HloOp τ sig (Elt Ideal))) (launchContents m c) (Proc.devRef .tc main_v187)
      = Cert.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) :=
  (congrFun (after_split (launchContents m c)) _).trans (value (launchContents m c))

end Cert.ReferenceIdeal.RefValue

end
-- ==== Proof.lean ====
/-
  A graph-isomorphism network's forward pass: the kernel program equals its plain reference on the extended reals.

  Both programs compute, on 40000 nodes with 128 features: an embedding lookup; three layers "add each node's
  neighbour sum to its row, two dense layers with ReLU, batch normalisation"; a fourth such layer without
  normalisation; per-graph sums over 256 graphs; a two-layer classifier. One program runs the dense layers, the
  normalisation's affine step and the classifier as tiled kernels (blocks of 2000 rows; a block of the output is the
  same rows of the whole-array function) and folds the normalisation to  y * (gamma * r) + (beta - mean * gamma * r);
  the other applies  gamma * (y - mean) * r + beta  directly. A matrix product into a zero accumulator is the host's
  product, a change of float format is the identity, so every stage but the normalisation is the same function
  outright; the two normalisations agree because every float input is finite, hence every intermediate value is a
  real number (sums, products, maxima of reals; a variance is a non-negative real, so (var + eps)^(-1/2) is real),
  and on real numbers the two forms are equal by distributivity (Proof/NetNorm.lean, Proof/NetWhole.lean).
  The integer inputs (tokens, edges, graph numbers) are arbitrary: lookups clamp, scatters drop, in both programs alike.
-/
import proofs.«160553_j66949950210692_1_alg».proof.Defs
import proofs.«160553_j66949950210692_1_alg».proof.Proof.Gen.Kernel
import proofs.«160553_j66949950210692_1_alg».proof.Proof.Gen.Kernel.Frame
import proofs.«160553_j66949950210692_1_alg».proof.Proof.Gen.KernelIdeal
import proofs.«160553_j66949950210692_1_alg».proof.Proof.Gen.KernelIdeal.Frame
import proofs.«160553_j66949950210692_1_alg».proof.Proof.Gen.ReferenceIdeal
import proofs.«160553_j66949950210692_1_alg».proof.Proof.Gen.Pre_finite_inputs
import proofs.«160553_j66949950210692_1_alg».proof.Proof.NetWhole
import proofs.«160553_j66949950210692_1_alg».proof.Proof.PreReal
import proofs.«160553_j66949950210692_1_alg».proof.Proof.NamedRun
import proofs.«160553_j66949950210692_1_alg».proof.Proof.KernelValue
import proofs.«160553_j66949950210692_1_alg».proof.Proof.RefRun
import proofs.«160553_j66949950210692_1_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ
/-- So does the kernel program read over the extended reals. -/
theorem frame_ki : Cert.frame_KernelIdeal := fun m ρ _ => Cert.KernelIdeal.Gen.frame m ρ
/-- The reference runs and leaves its arguments unchanged: its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- From memories that agree on the arguments, the kernel program ends at the network with folded normalisations
    and the reference at the network with plain ones, of the same arguments; finite parameters make the two equal. -/
theorem algebraic : Cert.algebraic_KernelIdeal_ReferenceIdeal := by
  intro m ρ m' ρ' hpre hagree
  refine ⟨fun c => Cert.Net.netFold (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)), ?_, ?_⟩
  · exact (θ_run Cert.KernelIdeal.defs _ _).mono
      (fun r h c => ⟨(h c).1.trans (Cert.KernelIdeal.HostRead.kernel_value m ρ c), (h c).2⟩)
      (Cert.KernelIdeal.HostRead.run_named m ρ)
  · refine (θ_run Cert.ReferenceIdeal.defs _ _).mono (fun r h c => ⟨(h c).1.trans ?_, (h c).2⟩)
      (Cert.ReferenceIdeal.RefRun.run (F := Ideal) m' ρ')
    rw [Cert.ReferenceIdeal.RefValue.ref_value m' c]
    obtain ⟨e0, e1, e2, e3, e4, e5, e6, e7, e8, e9, e10, e11, e12, e13, e14, e15, e16, e17, e18, e19, e20, e21, e22, e23⟩ := hagree c
    rw [e0, e1, e2, e3, e4, e5, e6, e7, e8, e9, e10, e11, e12, e13, e14, e15, e16, e17, e18, e19, e20, e21, e22, e23]
    obtain ⟨r3, r4, r5, r6, r7, r8, r9, r10, r11, r12, r13, r14, r15, _, _, _, _, _, _, _, _⟩ :=
      Cert.PreReal.real_of_pre _ _ _ _ _ _ _ _ _ _ _ _ _ _ _ _ _ _ _ _ _ _ _ _ (hpre c)
    exact (Cert.Net.netFold_eq_net _ _ _ _ _ _ _ _ _ _ _ r3 r4 r5 r6 r7 r8 r9 r10 r11 r12 r13 r14 r15).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
